-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x112x112 : Shape := ⟨4, ![8, 64, 112, 112]⟩
abbrev S3x3x64x128 : Shape := ⟨4, ![3, 3, 64, 128]⟩
abbrev S128 : Shape := ⟨1, ![128]⟩
abbrev S3x3x128x128 : Shape := ⟨4, ![3, 3, 128, 128]⟩
abbrev S_ : Shape := ⟨0, ![]⟩

class Facts : Prop where
  bcast_S_S8x64x112x112 : S_.BroadcastsInDim S8x64x112x112 (![] : Fin 0 → Fin S8x64x112x112.rank)
  reducesTo_S8x64x112x112_S_d0_1_2_3 : S8x64x112x112.ReducesTo [0, 1, 2, 3] S_
  h_S_ : 0 < S_.numel
  bcast_S_S3x3x64x128 : S_.BroadcastsInDim S3x3x64x128 (![] : Fin 0 → Fin S3x3x64x128.rank)
  reducesTo_S3x3x64x128_S_d0_1_2_3 : S3x3x64x128.ReducesTo [0, 1, 2, 3] S_
  bcast_S_S128 : S_.BroadcastsInDim S128 (![] : Fin 0 → Fin S128.rank)
  reducesTo_S128_S_d0 : S128.ReducesTo [0] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_

variable [Facts]

def fn_part1 {F : FTy → Type} [FloatOps F] (main_arg4 : FVec F S128 .f32) (main_v13 : IVec S_ 1) (main_v16 : IVec S3x3x128x128 1) : IVec S_ 1 :=
  let main_c_5 : IVec S_ 1 := constantI S_ 1 1#1
  let main_v17 : IVec S_ 1 := (fun x v => Host.reduce IntOp.andi x v reducesTo_S3x3x128x128_S_d0_1_2_3 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8x64x112x112 .f32) (main_arg1 : FVec F S3x3x64x128 .f32) (main_arg2 : FVec F S128 .f32) (main_arg3 : FVec F S3x3x128x128 .f32) (main_arg4 : FVec F S128 .f32) : IVec S_ 1 :=
  let main_v0 : FVec F S8x64x112x112 .f32 := Host.absf main_arg0
  let main_cst : FVec F S_ .f32 := constant S_ .f32 0x7F800000#32
  let main_v1 : FVec F S8x64x112x112 .f32 := broadcastInDim S8x64x112x112 ![] bcast_S_S8x64x112x112 main_cst
  let main_v2 : IVec S8x64x112x112 1 := cmpf .olt main_v0 main_v1
  let main_c : IVec S_ 1 := constantI S_ 1 1#1
  let main_v3 : IVec S_ 1 := (fun x v => Host.reduce IntOp.andi x v reducesTo_S8x64x112x112_S_d0_1_2_3 h_S_) main_v2 main_c
  let main_v4 : FVec F S3x3x64x128 .f32 := Host.absf main_arg1
  let main_cst_0 : FVec F S_ .f32 := constant S_ .f32 0x7F800000#32
  let main_v5 : FVec F S3x3x64x128 .f32 := broadcastInDim S3x3x64x128 ![] bcast_S_S3x3x64x128 main_cst_0
  let main_v6 : IVec S3x3x64x128 1 := cmpf .olt main_v4 main_v5
  let main_c_1 : IVec S_ 1 := constantI S_ 1 1#1
  let main_v7 : IVec S_ 1 := (fun x v => Host.reduce IntOp.andi x v reducesTo_S3x3x64x128_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x3x128x128 .f32 := Host.absf main_arg3
  let main_cst_4 : FVec F S_ .f32 := constant S_ .f32 0x7F800000#32
  let main_v15 : FVec F S3x3x128x128 .f32 := broadcastInDim S3x3x128x128 ![] bcast_S_S3x3x128x128 main_cst_4
  let main_v16 : IVec S3x3x128x128 1 := cmpf .olt main_v14 main_v15
  fn_part1 (F := F) main_arg4 main_v13 main_v16
-- ==== Kernel.lean ====
abbrev S8x64x112x112 : Shape := ⟨4, ![8, 64, 112, 112]⟩
abbrev S3x3x64x128 : Shape := ⟨4, ![3, 3, 64, 128]⟩
abbrev S128 : Shape := ⟨1, ![128]⟩
abbrev S3x3x128x128 : Shape := ⟨4, ![3, 3, 128, 128]⟩
abbrev S3x192x128 : Shape := ⟨3, ![3, 192, 128]⟩
abbrev S1x192x128 : Shape := ⟨3, ![1, 192, 128]⟩
abbrev S192x128 : Shape := ⟨2, ![192, 128]⟩
abbrev S192x384 : Shape := ⟨2, ![192, 384]⟩
abbrev S_ : Shape := ⟨0, ![]⟩
abbrev S256x384 : Shape := ⟨2, ![256, 384]⟩
abbrev S3x2x128x128 : Shape := ⟨4, ![3, 2, 128, 128]⟩
abbrev S3x256x128 : Shape := ⟨3, ![3, 256, 128]⟩
abbrev S1x256x128 : Shape := ⟨3, ![1, 256, 128]⟩
abbrev S256x128 : Shape := ⟨2, ![256, 128]⟩
abbrev S3x1x128x128 : Shape := ⟨4, ![3, 1, 128, 128]⟩
abbrev S3x128x128 : Shape := ⟨3, ![3, 128, 128]⟩
abbrev S1x128x128 : Shape := ⟨3, ![1, 128, 128]⟩
abbrev S128x128 : Shape := ⟨2, ![128, 128]⟩
abbrev S128x384 : Shape := ⟨2, ![128, 384]⟩
abbrev S1x128 : Shape := ⟨2, ![1, 128]⟩
abbrev S8x56x56x128 : Shape := ⟨4, ![8, 56, 56, 128]⟩
abbrev S1x64x112x112 : Shape := ⟨4, ![1, 64, 112, 112]⟩
abbrev S1x56x56x128 : Shape := ⟨4, ![1, 56, 56, 128]⟩
abbrev S114x128x64 : Shape := ⟨3, ![114, 128, 64]⟩
abbrev S114x112x256 : Shape := ⟨3, ![114, 112, 256]⟩
abbrev S114x128x128 : Shape := ⟨3, ![114, 128, 128]⟩
abbrev S114x112x384 : Shape := ⟨3, ![114, 112, 384]⟩
abbrev S12544x128 : Shape := ⟨2, ![12544, 128]⟩
abbrev S1x114x64 : Shape := ⟨3, ![1, 114, 64]⟩
abbrev S1x116x64 : Shape := ⟨3, ![1, 116, 64]⟩
abbrev S114x1x64 : Shape := ⟨3, ![114, 1, 64]⟩
abbrev S114x2x64 : Shape := ⟨3, ![114, 2, 64]⟩
abbrev S64x112x112 : Shape := ⟨3, ![64, 112, 112]⟩
abbrev S112x64x112 : Shape := ⟨3, ![112, 64, 112]⟩
abbrev S112x112x64 : Shape := ⟨3, ![112, 112, 64]⟩
abbrev S114x112x64 : Shape := ⟨3, ![114, 112, 64]⟩
abbrev S114x112x192 : Shape := ⟨3, ![114, 112, 192]⟩
abbrev S12768x256 : Shape := ⟨2, ![12768, 256]⟩
abbrev S12768x384 : Shape := ⟨2, ![12768, 384]⟩
abbrev S112x112x128 : Shape := ⟨3, ![112, 112, 128]⟩
abbrev S1x114x128 : Shape := ⟨3, ![1, 114, 128]⟩
abbrev S1x116x128 : Shape := ⟨3, ![1, 116, 128]⟩
abbrev S114x1x128 : Shape := ⟨3, ![114, 1, 128]⟩
abbrev S114x2x128 : Shape := ⟨3, ![114, 2, 128]⟩
abbrev S114x112x128 : Shape := ⟨3, ![114, 112, 128]⟩
abbrev S12768x128 : Shape := ⟨2, ![12768, 128]⟩
abbrev S56x2x56x256 : Shape := ⟨4, ![56, 2, 56, 256]⟩
abbrev S56x1x56x256 : Shape := ⟨4, ![56, 1, 56, 256]⟩
abbrev S56x56x256 : Shape := ⟨3, ![56, 56, 256]⟩
abbrev S56x56x128 : Shape := ⟨3, ![56, 56, 128]⟩
abbrev S8x128x56x56 : Shape := ⟨4, ![8, 128, 56, 56]⟩

abbrev nBuf : Space → Nat
  | .hbm => 41
  | .vmem => 14
  | .smem => 0
  | _ => 0

abbrev bufTy : (tb : Table) → Fin (tcTables nBuf tb) → BufTy
  | .hbm, ⟨0, _⟩ => ⟨S8x64x112x112, .f32⟩
  | .hbm, ⟨1, _⟩ => ⟨S3x3x64x128, .f32⟩
  | .hbm, ⟨2, _⟩ => ⟨S128, .f32⟩
  | .hbm, ⟨3, _⟩ => ⟨S3x3x128x128, .f32⟩
  | .hbm, ⟨4, _⟩ => ⟨S128, .f32⟩
  | .hbm, ⟨5, _⟩ => ⟨S3x3x64x128, .bf16⟩
  | .hbm, ⟨6, _⟩ => ⟨S3x192x128, .bf16⟩
  | .hbm, ⟨7, _⟩ => ⟨S1x192x128, .bf16⟩
  | .hbm, ⟨8, _⟩ => ⟨S192x128, .bf16⟩
  | .hbm, ⟨9, _⟩ => ⟨S1x192x128, .bf16⟩
  | .hbm, ⟨10, _⟩ => ⟨S192x128, .bf16⟩
  | .hbm, ⟨11, _⟩ => ⟨S1x192x128, .bf16⟩
  | .hbm, ⟨12, _⟩ => ⟨S192x128, .bf16⟩
  | .hbm, ⟨13, _⟩ => ⟨S192x384, .bf16⟩
  | .hbm, ⟨14, _⟩ => ⟨S_, .i32⟩
  | .hbm, ⟨15, _⟩ => ⟨S_, .bf16⟩
  | .hbm, ⟨16, _⟩ => ⟨S256x384, .bf16⟩
  | .hbm, ⟨17, _⟩ => ⟨S3x2x128x128, .f32⟩
  | .hbm, ⟨18, _⟩ => ⟨S3x2x128x128, .bf16⟩
  | .hbm, ⟨19, _⟩ => ⟨S3x256x128, .bf16⟩
  | .hbm, ⟨20, _⟩ => ⟨S1x256x128, .bf16⟩
  | .hbm, ⟨21, _⟩ => ⟨S256x128, .bf16⟩
  | .hbm, ⟨22, _⟩ => ⟨S1x256x128, .bf16⟩
  | .hbm, ⟨23, _⟩ => ⟨S256x128, .bf16⟩
  | .hbm, ⟨24, _⟩ => ⟨S1x256x128, .bf16⟩
  | .hbm, ⟨25, _⟩ => ⟨S256x128, .bf16⟩
  | .hbm, ⟨26, _⟩ => ⟨S256x384, .bf16⟩
  | .hbm, ⟨27, _⟩ => ⟨S3x1x128x128, .f32⟩
  | .hbm, ⟨28, _⟩ => ⟨S3x128x128, .f32⟩
  | .hbm, ⟨29, _⟩ => ⟨S3x128x128, .bf16⟩
  | .hbm, ⟨30, _⟩ => ⟨S1x128x128, .bf16⟩
  | .hbm, ⟨31, _⟩ => ⟨S128x128, .bf16⟩
  | .hbm, ⟨32, _⟩ => ⟨S1x128x128, .bf16⟩
  | .hbm, ⟨33, _⟩ => ⟨S128x128, .bf16⟩
  | .hbm, ⟨34, _⟩ => ⟨S1x128x128, .bf16⟩
  | .hbm, ⟨35, _⟩ => ⟨S128x128, .bf16⟩
  | .hbm, ⟨36, _⟩ => ⟨S128x384, .bf16⟩
  | .hbm, ⟨37, _⟩ => ⟨S1x128, .f32⟩
  | .hbm, ⟨38, _⟩ => ⟨S1x128, .f32⟩
  | .hbm, ⟨39, _⟩ => ⟨S8x56x56x128, .bf16⟩
  | .hbm, ⟨40, _⟩ => ⟨S8x128x56x56, .bf16⟩
  | .local _ .vmem, ⟨0, _⟩ => ⟨S1x64x112x112, .f32⟩
  | .local _ .vmem, ⟨1, _⟩ => ⟨S1x64x112x112, .f32⟩
  | .local _ .vmem, ⟨2, _⟩ => ⟨S256x384, .bf16⟩
  | .local _ .vmem, ⟨3, _⟩ => ⟨S256x384, .bf16⟩
  | .local _ .vmem, ⟨4, _⟩ => ⟨S128x384, .bf16⟩
  | .local _ .vmem, ⟨5, _⟩ => ⟨S1x128, .f32⟩
  | .local _ .vmem, ⟨6, _⟩ => ⟨S1x128, .f32⟩
  | .local _ .vmem, ⟨7, _⟩ => ⟨S1x56x56x128, .bf16⟩
  | .local _ .vmem, ⟨8, _⟩ => ⟨S1x56x56x128, .bf16⟩
  | .local _ .vmem, ⟨9, _⟩ => ⟨S114x128x64, .bf16⟩
  | .local _ .vmem, ⟨10, _⟩ => ⟨S114x112x256, .bf16⟩
  | .local _ .vmem, ⟨11, _⟩ => ⟨S114x128x128, .bf16⟩
  | .local _ .vmem, ⟨12, _⟩ => ⟨S114x112x384, .f32⟩
  | .local _ .vmem, ⟨13, _⟩ => ⟨S12544x128, .f32⟩
  | _, _ => ⟨S8x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x112x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x56x56x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S3x3x64x128_S3x192x128 : S3x3x64x128.ShapeCasts S3x192x128
  slices_S3x192x128_S1x192x128_0_0_0 : S3x192x128.Slices ![0, 0, 0] S1x192x128
  shapeCasts_S1x192x128_S192x128 : S1x192x128.ShapeCasts S192x128
  slices_S3x192x128_S1x192x128_1_0_0 : S3x192x128.Slices ![1, 0, 0] S1x192x128
  slices_S3x192x128_S1x192x128_2_0_0 : S3x192x128.Slices ![2, 0, 0] S1x192x128
  concatenates_S192x128_S192x128_S192x128_S192x384_d1 : Shape.Concatenates [S192x128, S192x128, S192x128] S192x384 1
  pads_S192x384_S256x384_0640_000 : S192x384.Pads (![0, 0] : Fin 2 → Nat) ![64, 0] ![0, 0] S256x384
  h_S_ : 0 < S_.numel
  slices_S3x3x128x128_S3x2x128x128_0_0_0_0 : S3x3x128x128.Slices ![0, 0, 0, 0] S3x2x128x128
  shapeCasts_S3x2x128x128_S3x256x128 : S3x2x128x128.ShapeCasts S3x256x128
  slices_S3x256x128_S1x256x128_0_0_0 : S3x256x128.Slices ![0, 0, 0] S1x256x128
  shapeCasts_S1x256x128_S256x128 : S1x256x128.ShapeCasts S256x128
  slices_S3x256x128_S1x256x128_1_0_0 : S3x256x128.Slices ![1, 0, 0] S1x256x128
  slices_S3x256x128_S1x256x128_2_0_0 : S3x256x128.Slices ![2, 0, 0] S1x256x128
  concatenates_S256x128_S256x128_S256x128_S256x384_d1 : Shape.Concatenates [S256x128, S256x128, S256x128] S256x384 1
  slices_S3x3x128x128_S3x1x128x128_0_2_0_0 : S3x3x128x128.Slices ![0, 2, 0, 0] S3x1x128x128
  shapeCasts_S3x1x128x128_S3x128x128 : S3x1x128x128.ShapeCasts S3x128x128
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  concatenates_S128x128_S128x128_S128x128_S128x384_d1 : Shape.Concatenates [S128x128, S128x128, S128x128] S128x384 1
  shapeCasts_S128_S1x128 : S128.ShapeCasts S1x128
  inb_S114x128x64_S1x114x64_0_7_0 : ∀ a, (![0, 7, 0] : Fin 3 → Nat) a + S1x114x64.size a ≤ S114x128x64.size a
  h_S1x114x64 : 0 < S1x114x64.numel
  shapeCasts_S1x114x64_S1x114x64 : S1x114x64.ShapeCasts S1x114x64
  inb_S114x128x64_S1x116x64_0_6_0 : ∀ a, (![0, 6, 0] : Fin 3 → Nat) a + S1x116x64.size a ≤ S114x128x64.size a
  h_S1x116x64 : 0 < S1x116x64.numel
  slices_S1x116x64_S1x114x64_0_1_0 : S1x116x64.Slices ![0, 1, 0] S1x114x64
  packedbf16_S114x128x64_S1x116x64_0_6_0 : (Rect.unit (s := S114x128x64) ![0, 6, 0] S1x116x64.size inb_S114x128x64_S1x116x64_0_6_0).PackedRows (EltTy.packing .bf16)
  inb_S114x128x64_S1x114x64_113_7_0 : ∀ a, (![113, 7, 0] : Fin 3 → Nat) a + S1x114x64.size a ≤ S114x128x64.size a
  inb_S114x128x64_S1x116x64_113_6_0 : ∀ a, (![113, 6, 0] : Fin 3 → Nat) a + S1x116x64.size a ≤ S114x128x64.size a
  packedbf16_S114x128x64_S1x116x64_113_6_0 : (Rect.unit (s := S114x128x64) ![113, 6, 0] S1x116x64.size inb_S114x128x64_S1x116x64_113_6_0).PackedRows (EltTy.packing .bf16)
  inb_S114x128x64_S114x1x64_0_7_0 : ∀ a, (![0, 7, 0] : Fin 3 → Nat) a + S114x1x64.size a ≤ S114x128x64.size a
  h_S114x1x64 : 0 < S114x1x64.numel
  shapeCasts_S114x1x64_S114x1x64 : S114x1x64.ShapeCasts S114x1x64
  inb_S114x128x64_S114x2x64_0_6_0 : ∀ a, (![0, 6, 0] : Fin 3 → Nat) a + S114x2x64.size a ≤ S114x128x64.size a
  h_S114x2x64 : 0 < S114x2x64.numel
  slices_S114x2x64_S114x1x64_0_1_0 : S114x2x64.Slices ![0, 1, 0] S114x1x64
  packedbf16_S114x128x64_S114x2x64_0_6_0 : (Rect.unit (s := S114x128x64) ![0, 6, 0] S114x2x64.size inb_S114x128x64_S114x2x64_0_6_0).PackedRows (EltTy.packing .bf16)
  inb_S114x128x64_S114x1x64_0_120_0 : ∀ a, (![0, 120, 0] : Fin 3 → Nat) a + S114x1x64.size a ≤ S114x128x64.size a
  inb_S114x128x64_S114x2x64_0_120_0 : ∀ a, (![0, 120, 0] : Fin 3 → Nat) a + S114x2x64.size a ≤ S114x128x64.size a
  slices_S114x2x64_S114x1x64_0_0_0 : S114x2x64.Slices ![0, 0, 0] S114x1x64
  packedbf16_S114x128x64_S114x2x64_0_120_0 : (Rect.unit (s := S114x128x64) ![0, 120, 0] S114x2x64.size inb_S114x128x64_S114x2x64_0_120_0).PackedRows (EltTy.packing .bf16)
  inb_S1x64x112x112_S1x64x112x112_0_0_0_0 : ∀ a, (![0, 0, 0, 0] : Fin 4 → Nat) a + S1x64x112x112.size a ≤ S1x64x112x112.size a
  h_S1x64x112x112 : 0 < S1x64x112x112.numel
  shapeCasts_S1x64x112x112_S64x112x112 : S1x64x112x112.ShapeCasts S64x112x112
  transposes_S64x112x112_p1_0_2_S112x64x112 : S64x112x112.Transposes [1, 0, 2] S112x64x112
  transposes_S112x64x112_p0_2_1_S112x112x64 : S112x64x112.Transposes [0, 2, 1] S112x112x64
  inb_S114x128x64_S112x112x64_1_8_0 : ∀ a, (![1, 8, 0] : Fin 3 → Nat) a + S112x112x64.size a ≤ S114x128x64.size a
  h_S112x112x64 : 0 < S112x112x64.numel
  shapeCasts_S112x112x64_S112x112x64 : S112x112x64.ShapeCasts S112x112x64
  packedbf16_S114x128x64_S112x112x64_1_8_0 : (Rect.unit (s := S114x128x64) ![1, 8, 0] S112x112x64.size inb_S114x128x64_S112x112x64_1_8_0).PackedRows (EltTy.packing .bf16)
  inb_S114x128x64_S114x112x64_0_7_0 : ∀ a, (![0, 7, 0] : Fin 3 → Nat) a + S114x112x64.size a ≤ S114x128x64.size a
  h_S114x112x64 : 0 < S114x112x64.numel
  inb_S114x128x64_S114x112x64_0_8_0 : ∀ a, (![0, 8, 0] : Fin 3 → Nat) a + S114x112x64.size a ≤ S114x128x64.size a
  inb_S114x128x64_S114x112x64_0_9_0 : ∀ a, (![0, 9, 0] : Fin 3 → Nat) a + S114x112x64.size a ≤ S114x128x64.size a
  concatenates_S114x112x64_S114x112x64_S114x112x64_S114x112x192_d2 : Shape.Concatenates [S114x112x64, S114x112x64, S114x112x64] S114x112x192 2
  inb_S114x112x256_S114x112x192_0_0_0 : ∀ a, (![0, 0, 0] : Fin 3 → Nat) a + S114x112x192.size a ≤ S114x112x256.size a
  h_S114x112x192 : 0 < S114x112x192.numel
  shapeCasts_S114x112x192_S114x112x192 : S114x112x192.ShapeCasts S114x112x192
  packedbf16_S114x112x256_S114x112x192_0_0_0 : (Rect.unit (s := S114x112x256) ![0, 0, 0] S114x112x192.size inb_S114x112x256_S114x112x192_0_0_0).PackedRows (EltTy.packing .bf16)
  inb_S114x112x256_S114x112x64_0_0_192 : ∀ a, (![0, 0, 192] : Fin 3 → Nat) a + S114x112x64.size a ≤ S114x112x256.size a
  shapeCasts_S114x112x64_S114x112x64 : S114x112x64.ShapeCasts S114x112x64
  packedbf16_S114x112x256_S114x112x64_0_0_192 : (Rect.unit (s := S114x112x256) ![0, 0, 192] S114x112x64.size inb_S114x112x256_S114x112x64_0_0_192).PackedRows (EltTy.packing .bf16)
  inb_S114x112x256_S114x112x256_0_0_0 : ∀ a, (![0, 0, 0] : Fin 3 → Nat) a + S114x112x256.size a ≤ S114x112x256.size a
  h_S114x112x256 : 0 < S114x112x256.numel
  shapeCasts_S114x112x256_S12768x256 : S114x112x256.ShapeCasts S12768x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  shapeCasts_S12768x384_S114x112x384 : S12768x384.ShapeCasts S114x112x384
  inb_S114x112x384_S114x112x384_0_0_0 : ∀ a, (![0, 0, 0] : Fin 3 → Nat) a + S114x112x384.size a ≤ S114x112x384.size a
  h_S114x112x384 : 0 < S114x112x384.numel
  shapeCasts_S114x112x384_S114x112x384 : S114x112x384.ShapeCasts S114x112x384
  inb_S114x112x384_S112x112x128_0_0_0 : ∀ a, (![0, 0, 0] : Fin 3 → Nat) a + S112x112x128.size a ≤ S114x112x384.size a
  h_S112x112x128 : 0 < S112x112x128.numel
  inb_S114x112x384_S112x112x128_1_0_128 : ∀ a, (![1, 0, 128] : Fin 3 → Nat) a + S112x112x128.size a ≤ S114x112x384.size a
  inb_S114x112x384_S112x112x128_2_0_256 : ∀ a, (![2, 0, 256] : Fin 3 → Nat) a + S112x112x128.size a ≤ S114x112x384.size a
  shapeCasts_S112x112x128_S12544x128 : S112x112x128.ShapeCasts S12544x128
  inb_S12544x128_S12544x128_0_0 : ∀ a, (![0, 0] : Fin 2 → Nat) a + S12544x128.size a ≤ S12544x128.size a
  h_S12544x128 : 0 < S12544x128.numel
  shapeCasts_S12544x128_S12544x128 : S12544x128.ShapeCasts S12544x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12544x128 : S1x128.Broadcasts S12544x128
  inb_S114x128x128_S1x114x128_0_7_0 : ∀ a, (![0, 7, 0] : Fin 3 → Nat) a + S1x114x128.size a ≤ S114x128x128.size a
  h_S1x114x128 : 0 < S1x114x128.numel
  shapeCasts_S1x114x128_S1x114x128 : S1x114x128.ShapeCasts S1x114x128
  inb_S114x128x128_S1x116x128_0_6_0 : ∀ a, (![0, 6, 0] : Fin 3 → Nat) a + S1x116x128.size a ≤ S114x128x128.size a
  h_S1x116x128 : 0 < S1x116x128.numel
  slices_S1x116x128_S1x114x128_0_1_0 : S1x116x128.Slices ![0, 1, 0] S1x114x128
  packedbf16_S114x128x128_S1x116x128_0_6_0 : (Rect.unit (s := S114x128x128) ![0, 6, 0] S1x116x128.size inb_S114x128x128_S1x116x128_0_6_0).PackedRows (EltTy.packing .bf16)
  inb_S114x128x128_S1x114x128_113_7_0 : ∀ a, (![113, 7, 0] : Fin 3 → Nat) a + S1x114x128.size a ≤ S114x128x128.size a
  inb_S114x128x128_S1x116x128_113_6_0 : ∀ a, (![113, 6, 0] : Fin 3 → Nat) a + S1x116x128.size a ≤ S114x128x128.size a
  packedbf16_S114x128x128_S1x116x128_113_6_0 : (Rect.unit (s := S114x128x128) ![113, 6, 0] S1x116x128.size inb_S114x128x128_S1x116x128_113_6_0).PackedRows (EltTy.packing .bf16)
  inb_S114x128x128_S114x1x128_0_7_0 : ∀ a, (![0, 7, 0] : Fin 3 → Nat) a + S114x1x128.size a ≤ S114x128x128.size a
  h_S114x1x128 : 0 < S114x1x128.numel
  shapeCasts_S114x1x128_S114x1x128 : S114x1x128.ShapeCasts S114x1x128
  inb_S114x128x128_S114x2x128_0_6_0 : ∀ a, (![0, 6, 0] : Fin 3 → Nat) a + S114x2x128.size a ≤ S114x128x128.size a
  h_S114x2x128 : 0 < S114x2x128.numel
  slices_S114x2x128_S114x1x128_0_1_0 : S114x2x128.Slices ![0, 1, 0] S114x1x128
  packedbf16_S114x128x128_S114x2x128_0_6_0 : (Rect.unit (s := S114x128x128) ![0, 6, 0] S114x2x128.size inb_S114x128x128_S114x2x128_0_6_0).PackedRows (EltTy.packing .bf16)
  inb_S114x128x128_S114x1x128_0_120_0 : ∀ a, (![0, 120, 0] : Fin 3 → Nat) a + S114x1x128.size a ≤ S114x128x128.size a
  inb_S114x128x128_S114x2x128_0_120_0 : ∀ a, (![0, 120, 0] : Fin 3 → Nat) a + S114x2x128.size a ≤ S114x128x128.size a
  slices_S114x2x128_S114x1x128_0_0_0 : S114x2x128.Slices ![0, 0, 0] S114x1x128
  packedbf16_S114x128x128_S114x2x128_0_120_0 : (Rect.unit (s := S114x128x128) ![0, 120, 0] S114x2x128.size inb_S114x128x128_S114x2x128_0_120_0).PackedRows (EltTy.packing .bf16)
  shapeCasts_S12544x128_S112x112x128 : S12544x128.ShapeCasts S112x112x128
  inb_S114x128x128_S112x112x128_1_8_0 : ∀ a, (![1, 8, 0] : Fin 3 → Nat) a + S112x112x128.size a ≤ S114x128x128.size a
  shapeCasts_S112x112x128_S112x112x128 : S112x112x128.ShapeCasts S112x112x128
  packedbf16_S114x128x128_S112x112x128_1_8_0 : (Rect.unit (s := S114x128x128) ![1, 8, 0] S112x112x128.size inb_S114x128x128_S112x112x128_1_8_0).PackedRows (EltTy.packing .bf16)
  inb_S114x128x128_S114x112x128_0_7_0 : ∀ a, (![0, 7, 0] : Fin 3 → Nat) a + S114x112x128.size a ≤ S114x128x128.size a
  h_S114x112x128 : 0 < S114x112x128.numel
  inb_S114x128x128_S114x112x128_0_8_0 : ∀ a, (![0, 8, 0] : Fin 3 → Nat) a + S114x112x128.size a ≤ S114x128x128.size a
  concatenates_S114x112x128_S114x112x128_S114x112x256_d2 : Shape.Concatenates [S114x112x128, S114x112x128] S114x112x256 2
  shapeCasts_S114x112x256_S114x112x256 : S114x112x256.ShapeCasts S114x112x256
  packedbf16_S114x112x256_S114x112x256_0_0_0 : (Rect.unit (s := S114x112x256) ![0, 0, 0] S114x112x256.size inb_S114x112x256_S114x112x256_0_0_0).PackedRows (EltTy.packing .bf16)
  inb_S114x128x128_S114x112x128_0_9_0 : ∀ a, (![0, 9, 0] : Fin 3 → Nat) a + S114x112x128.size a ≤ S114x128x128.size a
  shapeCasts_S114x112x128_S12768x128 : S114x112x128.ShapeCasts S12768x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  shapeCasts_S12544x128_S56x2x56x256 : S12544x128.ShapeCasts S56x2x56x256
  slices_S56x2x56x256_o0_0_0_0_S56x1x56x256 : S56x2x56x256.Slices ![0, 0, 0, 0] S56x1x56x256
  shapeCasts_S56x1x56x256_S56x56x256 : S56x1x56x256.ShapeCasts S56x56x256
  slices_S56x2x56x256_o0_1_0_0_S56x1x56x256 : S56x2x56x256.Slices ![0, 1, 0, 0] S56x1x56x256
  slices_S56x56x256_o0_0_0_S56x56x128 : S56x56x256.Slices ![0, 0, 0] S56x56x128
  slices_S56x56x256_o0_0_128_S56x56x128 : S56x56x256.Slices ![0, 0, 128] S56x56x128
  inb_S1x56x56x128_S1x56x56x128_0_0_0_0 : ∀ a, (![0, 0, 0, 0] : Fin 4 → Nat) a + S1x56x56x128.size a ≤ S1x56x56x128.size a
  h_S1x56x56x128 : 0 < S1x56x56x128.numel
  shapeCasts_S1x56x56x128_S56x56x128 : S1x56x56x128.ShapeCasts S56x56x128
  shapeCasts_S56x56x128_S1x56x56x128 : S56x56x128.ShapeCasts S1x56x56x128
  packedbf16_S1x56x56x128_S1x56x56x128_0_0_0_0 : (Rect.unit (s := S1x56x56x128) ![0, 0, 0, 0] S1x56x56x128.size inb_S1x56x56x128_S1x56x56x128_0_0_0_0).PackedRows (EltTy.packing .bf16)
  transposes_S8x56x56x128_S8x128x56x56_0_3_1_2 : S8x56x56x128.Transposes [0, 3, 1, 2] S8x128x56x56
  dot_S12768x256_S256x384_S12768x384_1_0_0_1_n_n_wf : DotDims.WF S12768x256 S256x384 S12768x384 [1] [0] [0] [1] [] []
  dot_S12768x128_S128x384_S12768x384_1_0_0_1_n_n_wf : DotDims.WF S12768x128 S128x384 S12768x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x112x112.size a ≤ S8x64x112x112.size a
  hwx0_0 : ∀ i : grid0.Coords, EltTy.bits .f32 = 32 ∨ (Rect.block (s := S8x64x112x112) S1x64x112x112.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x384.size a ≤ S256x384.size a
  hwx0_1 : ∀ i : grid0.Coords, EltTy.bits .bf16 = 32 ∨ (Rect.block (s := S256x384) S256x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x384.size a ≤ S256x384.size a
  hwx0_2 : ∀ i : grid0.Coords, EltTy.bits .bf16 = 32 ∨ (Rect.block (s := S256x384) S256x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .bf16 = 32 ∨ (Rect.block (s := S128x384) S128x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x56x56x128.size a ≤ S8x56x56x128.size a
  hwx0_6 : ∀ i : grid0.Coords, EltTy.bits .bf16 = 32 ∨ (Rect.block (s := S8x56x56x128) S1x56x56x128.size (cc0_transform_6 i) (hinb0_6 i)).WholeWords (EltTy.packing .bf16)

variable [Facts₀]

def dot_S12768x256_S256x384_S12768x384_1_0_0_1_n_n : DotDims S12768x256 S256x384 S12768x384 where
  lhsContracting := [1]
  rhsContracting := [0]
  lhsNonContracting := [0]
  rhsNonContracting := [1]
  lhsBatch := []
  rhsBatch := []
  wf := dot_S12768x256_S256x384_S12768x384_1_0_0_1_n_n_wf
def dot_S12768x128_S128x384_S12768x384_1_0_0_1_n_n : DotDims S12768x128 S128x384 S12768x384 where
  lhsContracting := [1]
  rhsContracting := [0]
  lhsNonContracting := [0]
  rhsNonContracting := [1]
  lhsBatch := []
  rhsBatch := []
  wf := dot_S12768x128_S128x384_S12768x384_1_0_0_1_n_n_wf

abbrev win0_0 : Pipeline.Window sig grid0 :=
  Pipeline.Window.ofSpec (Memref.whole main_arg0) S1x64x112x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S256x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x56x56x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x64x112x112 : Shape := ⟨4, ![8, 64, 112, 112]⟩
abbrev S3x3x64x128 : Shape := ⟨4, ![3, 3, 64, 128]⟩
abbrev S128 : Shape := ⟨1, ![128]⟩
abbrev S3x3x128x128 : Shape := ⟨4, ![3, 3, 128, 128]⟩
abbrev S0 : Shape := ⟨1, ![0]⟩
abbrev S8x112x112x64 : Shape := ⟨4, ![8, 112, 112, 64]⟩
abbrev S_ : Shape := ⟨0, ![]⟩
abbrev S8x114x114x64 : Shape := ⟨4, ![8, 114, 114, 64]⟩
abbrev S1x128 : Shape := ⟨2, ![1, 128]⟩
abbrev S1 : Shape := ⟨1, ![1]⟩
abbrev S8x114x114x128 : Shape := ⟨4, ![8, 114, 114, 128]⟩
abbrev S1x114x114x64 : Shape := ⟨4, ![1, 114, 114, 64]⟩
abbrev S1x114x114x128 : Shape := ⟨4, ![1, 114, 114, 128]⟩
abbrev S12544x128 : Shape := ⟨2, ![12544, 128]⟩
abbrev S1x112x112x64 : Shape := ⟨4, ![1, 112, 112, 64]⟩
abbrev S112x112x64 : Shape := ⟨3, ![112, 112, 64]⟩
abbrev S12544x64 : Shape := ⟨2, ![12544, 64]⟩
abbrev S1x1x64x128 : Shape := ⟨4, ![1, 1, 64, 128]⟩
abbrev S64x128 : Shape := ⟨2, ![64, 128]⟩
abbrev S112x112x128 : Shape := ⟨3, ![112, 112, 128]⟩
abbrev S1x112x112x128 : Shape := ⟨4, ![1, 112, 112, 128]⟩
abbrev S1x112x114x128 : Shape := ⟨4, ![1, 112, 114, 128]⟩
abbrev S8x112x112x128 : Shape := ⟨4, ![8, 112, 112, 128]⟩
abbrev S1x1x128x128 : Shape := ⟨4, ![1, 1, 128, 128]⟩
abbrev S128x128 : Shape := ⟨2, ![128, 128]⟩
abbrev S8x56x2x56x256 : Shape := ⟨5, ![8, 56, 2, 56, 256]⟩
abbrev S8x56x56x128 : Shape := ⟨4, ![8, 56, 56, 128]⟩
abbrev S1x56x2x56x256 : Shape := ⟨5, ![1, 56, 2, 56, 256]⟩
abbrev S1x56x56x128 : Shape := ⟨4, ![1, 56, 56, 128]⟩
abbrev S1x56x1x56x256 : Shape := ⟨5, ![1, 56, 1, 56, 256]⟩
abbrev S56x56x256 : Shape := ⟨3, ![56, 56, 256]⟩
abbrev S56x56x128 : Shape := ⟨3, ![56, 56, 128]⟩
abbrev S8x128x56x56 : Shape := ⟨4, ![8, 128, 56, 56]⟩

abbrev nBuf : Space → Nat
  | .hbm => 35
  | .vmem => 18
  | .smem => 0
  | _ => 0

abbrev bufTy : (tb : Table) → Fin (tcTables nBuf tb) → BufTy
  | .hbm, ⟨0, _⟩ => ⟨S8x64x112x112, .f32⟩
  | .hbm, ⟨1, _⟩ => ⟨S3x3x64x128, .f32⟩
  | .hbm, ⟨2, _⟩ => ⟨S128, .f32⟩
  | .hbm, ⟨3, _⟩ => ⟨S3x3x128x128, .f32⟩
  | .hbm, ⟨4, _⟩ => ⟨S128, .f32⟩
  | .hbm, ⟨5, _⟩ => ⟨S0, .i32⟩
  | .hbm, ⟨6, _⟩ => ⟨S0, .i32⟩
  | .hbm, ⟨7, _⟩ => ⟨S8x112x112x64, .f32⟩
  | .hbm, ⟨8, _⟩ => ⟨S8x112x112x64, .bf16⟩
  | .hbm, ⟨9, _⟩ => ⟨S_, .i32⟩
  | .hbm, ⟨10, _⟩ => ⟨S_, .bf16⟩
  | .hbm, ⟨11, _⟩ => ⟨S8x114x114x64, .bf16⟩
  | .hbm, ⟨12, _⟩ => ⟨S_, .bf16⟩
  | .hbm, ⟨13, _⟩ => ⟨S3x3x64x128, .bf16⟩
  | .hbm, ⟨14, _⟩ => ⟨S3x3x64x128, .bf16⟩
  | .hbm, ⟨15, _⟩ => ⟨S3x3x64x128, .bf16⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S1, .i32⟩
  | .hbm, ⟨20, _⟩ => ⟨S1x128, .f32⟩
  | .hbm, ⟨21, _⟩ => ⟨S8x114x114x128, .bf16⟩
  | .hbm, ⟨22, _⟩ => ⟨S_, .bf16⟩
  | .hbm, ⟨23, _⟩ => ⟨S3x3x128x128, .bf16⟩
  | .hbm, ⟨24, _⟩ => ⟨S3x3x128x128, .bf16⟩
  | .hbm, ⟨25, _⟩ => ⟨S3x3x128x128, .bf16⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S1x128, .f32⟩
  | .hbm, ⟨31, _⟩ => ⟨S8x112x112x128, .bf16⟩
  | .hbm, ⟨32, _⟩ => ⟨S8x56x2x56x256, .bf16⟩
  | .hbm, ⟨33, _⟩ => ⟨S8x56x56x128, .bf16⟩
  | .hbm, ⟨34, _⟩ => ⟨S8x128x56x56, .bf16⟩
  | .local _ .vmem, ⟨0, _⟩ => ⟨S1x114x114x64, .bf16⟩
  | .local _ .vmem, ⟨1, _⟩ => ⟨S1x114x114x64, .bf16⟩
  | .local _ .vmem, ⟨2, _⟩ => ⟨S3x3x64x128, .bf16⟩
  | .local _ .vmem, ⟨3, _⟩ => ⟨S1x128, .f32⟩
  | .local _ .vmem, ⟨4, _⟩ => ⟨S1x114x114x128, .bf16⟩
  | .local _ .vmem, ⟨5, _⟩ => ⟨S1x114x114x128, .bf16⟩
  | .local _ .vmem, ⟨6, _⟩ => ⟨S12544x128, .f32⟩
  | .local _ .vmem, ⟨7, _⟩ => ⟨S1x114x114x128, .bf16⟩
  | .local _ .vmem, ⟨8, _⟩ => ⟨S1x114x114x128, .bf16⟩
  | .local _ .vmem, ⟨9, _⟩ => ⟨S3x3x128x128, .bf16⟩
  | .local _ .vmem, ⟨10, _⟩ => ⟨S1x128, .f32⟩
  | .local _ .vmem, ⟨11, _⟩ => ⟨S1x112x112x128, .bf16⟩
  | .local _ .vmem, ⟨12, _⟩ => ⟨S1x112x112x128, .bf16⟩
  | .local _ .vmem, ⟨13, _⟩ => ⟨S12544x128, .f32⟩
  | .local _ .vmem, ⟨14, _⟩ => ⟨S1x56x2x56x256, .bf16⟩
  | .local _ .vmem, ⟨15, _⟩ => ⟨S1x56x2x56x256, .bf16⟩
  | .local _ .vmem, ⟨16, _⟩ => ⟨S1x56x56x128, .bf16⟩
  | .local _ .vmem, ⟨17, _⟩ => ⟨S1x56x56x128, .bf16⟩
  | _, _ => ⟨S8x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_call0_v0 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_c_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x114x114x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x3x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x114x114x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage1_0 : Fin 2 → Memref sig .tc .vmem S1x114x114x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S3x3x128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 2 → Memref sig .tc .vmem S1x112x112x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x56x2x56x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x56x56x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  hz_S0 : S0.numel = 0
  transposes_S8x64x112x112_S8x112x112x64_0_2_3_1 : S8x64x112x112.Transposes [0, 2, 3, 1] S8x112x112x64
  bitsLt_bf16_f32 : FTy.bits .bf16 < FTy.bits .f32
  pads_S8x112x112x64_S8x114x114x64_000_110_110_000 : S8x112x112x64.Pads (![0, 1, 1, 0] : Fin 4 → Nat) ![0, 1, 1, 0] ![0, 0, 0, 0] S8x114x114x64
  h_S_ : 0 < S_.numel
  bcast_S_S3x3x64x128 : S_.BroadcastsInDim S3x3x64x128 (![] : Fin 0 → Fin S3x3x64x128.rank)
  bcast_S_S1x128 : S_.BroadcastsInDim S1x128 (![] : Fin 0 → Fin S1x128.rank)
  bcast_S_S1 : S_.BroadcastsInDim S1 (![] : Fin 0 → Fin S1.rank)
  inb_S12544x128_S12544x128_0_0 : ∀ a, (![0, 0] : Fin 2 → Nat) a + S12544x128.size a ≤ S12544x128.size a
  h_S12544x128 : 0 < S12544x128.numel
  shapeCasts_S12544x128_S12544x128 : S12544x128.ShapeCasts S12544x128
  inb_S1x114x114x64_S1x112x112x64_0_0_0_0 : ∀ a, (![0, 0, 0, 0] : Fin 4 → Nat) a + S1x112x112x64.size a ≤ S1x114x114x64.size a
  h_S1x112x112x64 : 0 < S1x112x112x64.numel
  shapeCasts_S1x112x112x64_S112x112x64 : S1x112x112x64.ShapeCasts S112x112x64
  shapeCasts_S112x112x64_S12544x64 : S112x112x64.ShapeCasts S12544x64
  inb_S3x3x64x128_S1x1x64x128_0_0_0_0 : ∀ a, (![0, 0, 0, 0] : Fin 4 → Nat) a + S1x1x64x128.size a ≤ S3x3x64x128.size a
  h_S1x1x64x128 : 0 < S1x1x64x128.numel
  shapeCasts_S1x1x64x128_S64x128 : S1x1x64x128.ShapeCasts S64x128
  inb_S1x114x114x64_S1x112x112x64_0_0_1_0 : ∀ a, (![0, 0, 1, 0] : Fin 4 → Nat) a + S1x112x112x64.size a ≤ S1x114x114x64.size a
  inb_S3x3x64x128_S1x1x64x128_0_1_0_0 : ∀ a, (![0, 1, 0, 0] : Fin 4 → Nat) a + S1x1x64x128.size a ≤ S3x3x64x128.size a
  inb_S1x114x114x64_S1x112x112x64_0_0_2_0 : ∀ a, (![0, 0, 2, 0] : Fin 4 → Nat) a + S1x112x112x64.size a ≤ S1x114x114x64.size a
  inb_S3x3x64x128_S1x1x64x128_0_2_0_0 : ∀ a, (![0, 2, 0, 0] : Fin 4 → Nat) a + S1x1x64x128.size a ≤ S3x3x64x128.size a
  inb_S1x114x114x64_S1x112x112x64_0_1_0_0 : ∀ a, (![0, 1, 0, 0] : Fin 4 → Nat) a + S1x112x112x64.size a ≤ S1x114x114x64.size a
  inb_S3x3x64x128_S1x1x64x128_1_0_0_0 : ∀ a, (![1, 0, 0, 0] : Fin 4 → Nat) a + S1x1x64x128.size a ≤ S3x3x64x128.size a
  inb_S1x114x114x64_S1x112x112x64_0_1_1_0 : ∀ a, (![0, 1, 1, 0] : Fin 4 → Nat) a + S1x112x112x64.size a ≤ S1x114x114x64.size a
  inb_S3x3x64x128_S1x1x64x128_1_1_0_0 : ∀ a, (![1, 1, 0, 0] : Fin 4 → Nat) a + S1x1x64x128.size a ≤ S3x3x64x128.size a
  inb_S1x114x114x64_S1x112x112x64_0_1_2_0 : ∀ a, (![0, 1, 2, 0] : Fin 4 → Nat) a + S1x112x112x64.size a ≤ S1x114x114x64.size a
  inb_S3x3x64x128_S1x1x64x128_1_2_0_0 : ∀ a, (![1, 2, 0, 0] : Fin 4 → Nat) a + S1x1x64x128.size a ≤ S3x3x64x128.size a
  inb_S1x114x114x64_S1x112x112x64_0_2_0_0 : ∀ a, (![0, 2, 0, 0] : Fin 4 → Nat) a + S1x112x112x64.size a ≤ S1x114x114x64.size a
  inb_S3x3x64x128_S1x1x64x128_2_0_0_0 : ∀ a, (![2, 0, 0, 0] : Fin 4 → Nat) a + S1x1x64x128.size a ≤ S3x3x64x128.size a
  inb_S1x114x114x64_S1x112x112x64_0_2_1_0 : ∀ a, (![0, 2, 1, 0] : Fin 4 → Nat) a + S1x112x112x64.size a ≤ S1x114x114x64.size a
  inb_S3x3x64x128_S1x1x64x128_2_1_0_0 : ∀ a, (![2, 1, 0, 0] : Fin 4 → Nat) a + S1x1x64x128.size a ≤ S3x3x64x128.size a
  inb_S1x114x114x64_S1x112x112x64_0_2_2_0 : ∀ a, (![0, 2, 2, 0] : Fin 4 → Nat) a + S1x112x112x64.size a ≤ S1x114x114x64.size a
  inb_S3x3x64x128_S1x1x64x128_2_2_0_0 : ∀ a, (![2, 2, 0, 0] : Fin 4 → Nat) a + S1x1x64x128.size a ≤ S3x3x64x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12544x128 : S1x128.Broadcasts S12544x128
  shapeCasts_S12544x128_S112x112x128 : S12544x128.ShapeCasts S112x112x128
  inb_S1x114x114x128_S1x114x114x128_0_0_0_0 : ∀ a, (![0, 0, 0, 0] : Fin 4 → Nat) a + S1x114x114x128.size a ≤ S1x114x114x128.size a
  h_S1x114x114x128 : 0 < S1x114x114x128.numel
  packedbf16_S1x114x114x128_S1x114x114x128_0_0_0_0 : (Rect.unit (s := S1x114x114x128) ![0, 0, 0, 0] S1x114x114x128.size inb_S1x114x114x128_S1x114x114x128_0_0_0_0).PackedRows (EltTy.packing .bf16)
  inb_S1x114x114x128_S1x112x112x128_0_1_1_0 : ∀ a, (![0, 1, 1, 0] : Fin 4 → Nat) a + S1x112x112x128.size a ≤ S1x114x114x128.size a
  h_S1x112x112x128 : 0 < S1x112x112x128.numel
  shapeCasts_S1x112x112x128_S112x112x128 : S1x112x112x128.ShapeCasts S112x112x128
  shapeCasts_S112x112x128_S1x112x112x128 : S112x112x128.ShapeCasts S1x112x112x128
  inb_S1x114x114x128_S1x112x114x128_0_1_0_0 : ∀ a, (![0, 1, 0, 0] : Fin 4 → Nat) a + S1x112x114x128.size a ≤ S1x114x114x128.size a
  h_S1x112x114x128 : 0 < S1x112x114x128.numel
  slices_S1x112x114x128_S1x112x112x128_0_0_1_0 : S1x112x114x128.Slices ![0, 0, 1, 0] S1x112x112x128
  packedbf16_S1x114x114x128_S1x112x114x128_0_1_0_0 : (Rect.unit (s := S1x114x114x128) ![0, 1, 0, 0] S1x112x114x128.size inb_S1x114x114x128_S1x112x114x128_0_1_0_0).PackedRows (EltTy.packing .bf16)
  bcast_S_S3x3x128x128 : S_.BroadcastsInDim S3x3x128x128 (![] : Fin 0 → Fin S3x3x128x128.rank)
  inb_S1x114x114x128_S1x112x112x128_0_0_0_0 : ∀ a, (![0, 0, 0, 0] : Fin 4 → Nat) a + S1x112x112x128.size a ≤ S1x114x114x128.size a
  shapeCasts_S112x112x128_S12544x128 : S112x112x128.ShapeCasts S12544x128
  inb_S3x3x128x128_S1x1x128x128_0_0_0_0 : ∀ a, (![0, 0, 0, 0] : Fin 4 → Nat) a + S1x1x128x128.size a ≤ S3x3x128x128.size a
  h_S1x1x128x128 : 0 < S1x1x128x128.numel
  shapeCasts_S1x1x128x128_S128x128 : S1x1x128x128.ShapeCasts S128x128
  inb_S1x114x114x128_S1x112x112x128_0_0_1_0 : ∀ a, (![0, 0, 1, 0] : Fin 4 → Nat) a + S1x112x112x128.size a ≤ S1x114x114x128.size a
  inb_S3x3x128x128_S1x1x128x128_0_1_0_0 : ∀ a, (![0, 1, 0, 0] : Fin 4 → Nat) a + S1x1x128x128.size a ≤ S3x3x128x128.size a
  inb_S1x114x114x128_S1x112x112x128_0_0_2_0 : ∀ a, (![0, 0, 2, 0] : Fin 4 → Nat) a + S1x112x112x128.size a ≤ S1x114x114x128.size a
  inb_S3x3x128x128_S1x1x128x128_0_2_0_0 : ∀ a, (![0, 2, 0, 0] : Fin 4 → Nat) a + S1x1x128x128.size a ≤ S3x3x128x128.size a
  inb_S1x114x114x128_S1x112x112x128_0_1_0_0 : ∀ a, (![0, 1, 0, 0] : Fin 4 → Nat) a + S1x112x112x128.size a ≤ S1x114x114x128.size a
  inb_S3x3x128x128_S1x1x128x128_1_0_0_0 : ∀ a, (![1, 0, 0, 0] : Fin 4 → Nat) a + S1x1x128x128.size a ≤ S3x3x128x128.size a
  inb_S3x3x128x128_S1x1x128x128_1_1_0_0 : ∀ a, (![1, 1, 0, 0] : Fin 4 → Nat) a + S1x1x128x128.size a ≤ S3x3x128x128.size a
  inb_S1x114x114x128_S1x112x112x128_0_1_2_0 : ∀ a, (![0, 1, 2, 0] : Fin 4 → Nat) a + S1x112x112x128.size a ≤ S1x114x114x128.size a
  inb_S3x3x128x128_S1x1x128x128_1_2_0_0 : ∀ a, (![1, 2, 0, 0] : Fin 4 → Nat) a + S1x1x128x128.size a ≤ S3x3x128x128.size a
  inb_S1x114x114x128_S1x112x112x128_0_2_0_0 : ∀ a, (![0, 2, 0, 0] : Fin 4 → Nat) a + S1x112x112x128.size a ≤ S1x114x114x128.size a
  inb_S3x3x128x128_S1x1x128x128_2_0_0_0 : ∀ a, (![2, 0, 0, 0] : Fin 4 → Nat) a + S1x1x128x128.size a ≤ S3x3x128x128.size a
  inb_S1x114x114x128_S1x112x112x128_0_2_1_0 : ∀ a, (![0, 2, 1, 0] : Fin 4 → Nat) a + S1x112x112x128.size a ≤ S1x114x114x128.size a
  inb_S3x3x128x128_S1x1x128x128_2_1_0_0 : ∀ a, (![2, 1, 0, 0] : Fin 4 → Nat) a + S1x1x128x128.size a ≤ S3x3x128x128.size a
  inb_S1x114x114x128_S1x112x112x128_0_2_2_0 : ∀ a, (![0, 2, 2, 0] : Fin 4 → Nat) a + S1x112x112x128.size a ≤ S1x114x114x128.size a
  inb_S3x3x128x128_S1x1x128x128_2_2_0_0 : ∀ a, (![2, 2, 0, 0] : Fin 4 → Nat) a + S1x1x128x128.size a ≤ S3x3x128x128.size a
  inb_S1x112x112x128_S1x112x112x128_0_0_0_0 : ∀ a, (![0, 0, 0, 0] : Fin 4 → Nat) a + S1x112x112x128.size a ≤ S1x112x112x128.size a
  packedbf16_S1x112x112x128_S1x112x112x128_0_0_0_0 : (Rect.unit (s := S1x112x112x128) ![0, 0, 0, 0] S1x112x112x128.size inb_S1x112x112x128_S1x112x112x128_0_0_0_0).PackedRows (EltTy.packing .bf16)
  shapeCasts_S8x112x112x128_S8x56x2x56x256 : S8x112x112x128.ShapeCasts S8x56x2x56x256
  inb_S1x56x2x56x256_S1x56x1x56x256_0_0_0_0_0 : ∀ a, (![0, 0, 0, 0, 0] : Fin 5 → Nat) a + S1x56x1x56x256.size a ≤ S1x56x2x56x256.size a
  h_S1x56x1x56x256 : 0 < S1x56x1x56x256.numel
  shapeCasts_S1x56x1x56x256_S56x56x256 : S1x56x1x56x256.ShapeCasts S56x56x256
  inb_S1x56x2x56x256_S1x56x1x56x256_0_0_1_0_0 : ∀ a, (![0, 0, 1, 0, 0] : Fin 5 → Nat) a + S1x56x1x56x256.size a ≤ S1x56x2x56x256.size a
  slices_S56x56x256_o0_0_0_S56x56x128 : S56x56x256.Slices ![0, 0, 0] S56x56x128
  slices_S56x56x256_o0_0_128_S56x56x128 : S56x56x256.Slices ![0, 0, 128] S56x56x128
  inb_S1x56x56x128_S1x56x56x128_0_0_0_0 : ∀ a, (![0, 0, 0, 0] : Fin 4 → Nat) a + S1x56x56x128.size a ≤ S1x56x56x128.size a
  h_S1x56x56x128 : 0 < S1x56x56x128.numel
  shapeCasts_S1x56x56x128_S56x56x128 : S1x56x56x128.ShapeCasts S56x56x128
  shapeCasts_S56x56x128_S1x56x56x128 : S56x56x128.ShapeCasts S1x56x56x128
  packedbf16_S1x56x56x128_S1x56x56x128_0_0_0_0 : (Rect.unit (s := S1x56x56x128) ![0, 0, 0, 0] S1x56x56x128.size inb_S1x56x56x128_S1x56x56x128_0_0_0_0).PackedRows (EltTy.packing .bf16)
  transposes_S8x56x56x128_S8x128x56x56_0_3_1_2 : S8x56x56x128.Transposes [0, 3, 1, 2] S8x128x56x56
  scatter_S3x3x64x128_S0_S3x3x64x128_0123_n_n_0_wf : ScatterDims.WF S3x3x64x128 S0 S3x3x64x128 [0, 1, 2, 3] [] [] 0
  scatter_S1x128_S1_S128_0_0_0_0_wf : ScatterDims.WF S1x128 S1 S128 [0] [0] [0] 0
  dot_S12544x64_S64x128_S12544x128_1_0_0_1_n_n_wf : DotDims.WF S12544x64 S64x128 S12544x128 [1] [0] [0] [1] [] []
  scatter_S3x3x128x128_S0_S3x3x128x128_0123_n_n_0_wf : ScatterDims.WF S3x3x128x128 S0 S3x3x128x128 [0, 1, 2, 3] [] [] 0
  dot_S12544x128_S128x128_S12544x128_1_0_0_1_n_n_wf : DotDims.WF S12544x128 S128x128 S12544x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x114x114x64.size a ≤ S8x114x114x64.size a
  hwx0_0 : ∀ i : grid0.Coords, EltTy.bits .bf16 = 32 ∨ (Rect.block (s := S8x114x114x64) S1x114x114x64.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S3x3x64x128.size a ≤ S3x3x64x128.size a
  hwx0_1 : ∀ i : grid0.Coords, EltTy.bits .bf16 = 32 ∨ (Rect.block (s := S3x3x64x128) S3x3x64x128.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x114x114x128.size a ≤ S8x114x114x128.size a
  hwx0_3 : ∀ i : grid0.Coords, EltTy.bits .bf16 = 32 ∨ (Rect.block (s := S8x114x114x128) S1x114x114x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x114x114x128.size a ≤ S8x114x114x128.size a
  hwx1_0 : ∀ i : grid1.Coords, EltTy.bits .bf16 = 32 ∨ (Rect.block (s := S8x114x114x128) S1x114x114x128.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S3x3x128x128.size a ≤ S3x3x128x128.size a
  hwx1_1 : ∀ i : grid1.Coords, EltTy.bits .bf16 = 32 ∨ (Rect.block (s := S3x3x128x128) S3x3x128x128.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x112x112x128.size a ≤ S8x112x112x128.size a
  hwx1_3 : ∀ i : grid1.Coords, EltTy.bits .bf16 = 32 ∨ (Rect.block (s := S8x112x112x128) S1x112x112x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x56x2x56x256.size a ≤ S8x56x2x56x256.size a
  hwx2_0 : ∀ i : grid2.Coords, EltTy.bits .bf16 = 32 ∨ (Rect.block (s := S8x56x2x56x256) S1x56x2x56x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x56x56x128.size a ≤ S8x56x56x128.size a
  hwx2_1 : ∀ i : grid2.Coords, EltTy.bits .bf16 = 32 ∨ (Rect.block (s := S8x56x56x128) S1x56x56x128.size (cc2_transform_1 i) (hinb2_1 i)).WholeWords (EltTy.packing .bf16)

variable [Facts₀]

def scatter_S3x3x64x128_S0_S3x3x64x128_0123_n_n_0 : ScatterDims S3x3x64x128 S0 S3x3x64x128 where
  updateWindowDims := [0, 1, 2, 3]
  insertedWindowDims := []
  scatterDimsToOperandDims := []
  indexVectorDim := 0
  wf := scatter_S3x3x64x128_S0_S3x3x64x128_0123_n_n_0_wf
def scatter_S1x128_S1_S128_0_0_0_0 : ScatterDims S1x128 S1 S128 where
  updateWindowDims := [0]
  insertedWindowDims := [0]
  scatterDimsToOperandDims := [0]
  indexVectorDim := 0
  wf := scatter_S1x128_S1_S128_0_0_0_0_wf
def dot_S12544x64_S64x128_S12544x128_1_0_0_1_n_n : DotDims S12544x64 S64x128 S12544x128 where
  lhsContracting := [1]
  rhsContracting := [0]
  lhsNonContracting := [0]
  rhsNonContracting := [1]
  lhsBatch := []
  rhsBatch := []
  wf := dot_S12544x64_S64x128_S12544x128_1_0_0_1_n_n_wf
def scatter_S3x3x128x128_S0_S3x3x128x128_0123_n_n_0 : ScatterDims S3x3x128x128 S0 S3x3x128x128 where
  updateWindowDims := [0, 1, 2, 3]
  insertedWindowDims := []
  scatterDimsToOperandDims := []
  indexVectorDim := 0
  wf := scatter_S3x3x128x128_S0_S3x3x128x128_0123_n_n_0_wf
def dot_S12544x128_S128x128_S12544x128_1_0_0_1_n_n : DotDims S12544x128 S128x128 S12544x128 where
  lhsContracting := [1]
  rhsContracting := [0]
  lhsNonContracting := [0]
  rhsNonContracting := [1]
  lhsBatch := []
  rhsBatch := []
  wf := dot_S12544x128_S128x128_S12544x128_1_0_0_1_n_n_wf

abbrev win0_0 : Pipeline.Window sig grid0 :=
  Pipeline.Window.ofSpec (Memref.whole main_v2) S1x114x114x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3x3x64x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x114x114x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x114x114x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S3x3x128x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x112x112x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S1x56x2x56x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x56x56x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== Proof.KRun.lean ====
import proofs.«120882_g2000303031884594_pallasbulk_961_21_alg».proof.Proof.Gen.Kernel.Launch
import proofs.«120882_g2000303031884594_pallasbulk_961_21_alg».proof.Proof.Gen.Kernel.Skeleton
import proofs.«120882_g2000303031884594_pallasbulk_961_21_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The fused body run once on whole staging memrefs: the six inputs at given contents, the output
    buffer at anything, the five work buffers at given contents.  The run leaves the inputs as they
    were and each written buffer with a list of written pieces; the lists are found by the run. -/

set_option maxHeartbeats 4000000 in
noncomputable def bodyRun (c : Dev nD) (i : grid0.Coords) (arg1 : Memref sig .tc .vmem S1x64x112x112 .f32) (harg1 : arg1.IsWhole) (arg2 : Memref sig .tc .vmem S256x384 .bf16) (harg2 : arg2.IsWhole) (arg3 : Memref sig .tc .vmem S256x384 .bf16) (harg3 : arg3.IsWhole) (arg4 : Memref sig .tc .vmem S128x384 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x56x56x128 .bf16) (harg7 : arg7.IsWhole) (arg8 : Memref sig .tc .vmem S114x128x64 .bf16) (harg8 : arg8.IsWhole) (arg9 : Memref sig .tc .vmem S114x112x256 .bf16) (harg9 : arg9.IsWhole) (arg10 : Memref sig .tc .vmem S114x128x128 .bf16) (harg10 : arg10.IsWhole) (arg11 : Memref sig .tc .vmem S114x112x384 .f32) (harg11 : arg11.IsWhole) (arg12 : Memref sig .tc .vmem S12544x128 .f32) (harg12 : arg12.IsWhole)
    (x1 : Vec F S1x64x112x112 .f32) (x2 : Vec F S256x384 .bf16) (x3 : Vec F S256x384 .bf16) (x4 : Vec F S128x384 .bf16) (x5 : Vec F S1x128 .f32) (x6 : Vec F S1x128 .f32) (s8 : Vec F S114x128x64 .bf16) (s9 : Vec F S114x112x256 .bf16) (s10 : Vec F S114x128x128 .bf16) (s11 : Vec F S114x112x384 .f32) (s12 : Vec F S12544x128 .f32) :
    Σ' (L7 : List (View.Piece (Elt F) S1x56x56x128 .bf16)) (L8 : List (View.Piece (Elt F) S114x128x64 .bf16)) (L9 : List (View.Piece (Elt F) S114x112x256 .bf16)) (L10 : List (View.Piece (Elt F) S114x128x128 .bf16)) (L11 : List (View.Piece (Elt F) S114x112x384 .f32)),
      { L12 : List (View.Piece (Elt F) S12544x128 .f32) // ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare s8 ∗ owns (c : Thread nD τ) arg9 fullShare s9 ∗ owns (c : Thread nD τ) arg10 fullShare s10 ∗ owns (c : Thread nD τ) arg11 fullShare s11 ∗ owns (c : Thread nD τ) arg12 fullShare s12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0__fused_vgg_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__fused_vgg_kernel_eq_skeleton]; unfold cc0__fused_vgg_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg8.eq_unread hf8; obtain rfl := harg9.eq_unread hf9; obtain rfl := harg10.eq_unread hf10
    obtain rfl := harg11.eq_unread hf11; obtain rfl := harg12.eq_unread hf12
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Kernel.Gen

end
-- ==== Proof.KForget.lean ====
import proofs.«120882_g2000303031884594_pallasbulk_961_21_alg».proof.Proof.KRun
import Idealize.ShloMosaic.Lib.StableHlo.Run
import Idealize.ShloMosaic.Lib.ValueIdx

set_option maxRecDepth 16384

noncomputable section

namespace Cert.Kernel.KForget

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The frame: the program runs and leaves its arguments as they were

Nothing is said here about what the output block holds: the body is handed the output's staging buffer
at anything and gives it back at anything. -/

/-- The body's triple, the output buffer and the work buffers at unnamed contents before and after. -/
theorem sound_kernel (c : Dev nD) (E : Set ℕ) (i : grid0.Coords) (arg1 : Memref sig .tc .vmem S1x64x112x112 .f32) (harg1 : arg1.IsWhole) (arg2 : Memref sig .tc .vmem S256x384 .bf16) (harg2 : arg2.IsWhole) (arg3 : Memref sig .tc .vmem S256x384 .bf16) (harg3 : arg3.IsWhole) (arg4 : Memref sig .tc .vmem S128x384 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x56x56x128 .bf16) (harg7 : arg7.IsWhole) (arg8 : Memref sig .tc .vmem S114x128x64 .bf16) (harg8 : arg8.IsWhole) (arg9 : Memref sig .tc .vmem S114x112x256 .bf16) (harg9 : arg9.IsWhole) (arg10 : Memref sig .tc .vmem S114x128x128 .bf16) (harg10 : arg10.IsWhole) (arg11 : Memref sig .tc .vmem S114x112x384 .f32) (harg11 : arg11.IsWhole) (arg12 : Memref sig .tc .vmem S12544x128 .f32) (harg12 : arg12.IsWhole)
    (x1 : Vec F S1x64x112x112 .f32) (x2 : Vec F S256x384 .bf16) (x3 : Vec F S256x384 .bf16) (x4 : Vec F S128x384 .bf16) (x5 : Vec F S1x128 .f32) (x6 : Vec F S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0__fused_vgg_kernel i arg1 harg1 arg2 harg2 arg3 harg3 arg4 harg4 arg5 harg5 arg6 harg6 arg7 harg7 arg8 harg8 arg9 harg9 arg10 harg10 arg11 harg11 arg12 harg12) K := by
  iintro ⟨H1, H2, H3, H4, H5, H6, H7, ⟨%s8, H8⟩, ⟨%s9, H9⟩, ⟨%s10, H10⟩, ⟨%s11, H11⟩, ⟨%s12, H12⟩, Hk⟩
  iapply ((bodyRun (F := F) c i arg1 harg1 arg2 harg2 arg3 harg3 arg4 harg4 arg5 harg5 arg6 harg6 arg7 harg7 arg8 harg8 arg9 harg9 arg10 harg10 arg11 harg11 arg12 harg12 x1 x2 x3 x4 x5 x6 s8 s9 s10 s11 s12).2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, ⟨%f7, H7⟩, ⟨%f8, H8⟩, ⟨%f9, H9⟩, ⟨%f10, H10⟩, ⟨%f11, H11⟩, ⟨%f12, H12⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; unfold owns; iexists _; isplitr
    swap; · iexact H7
    ipureintro; rfl
  isplitl [H8]
  · iexists _; unfold owns; iexists _; isplitr
    swap; · iexact H8
    ipureintro; rfl
  isplitl [H9]
  · iexists _; unfold owns; iexists _; isplitr
    swap; · iexact H9
    ipureintro; rfl
  isplitl [H10]
  · iexists _; unfold owns; iexists _; isplitr
    swap; · iexact H10
    ipureintro; rfl
  isplitl [H11]
  · iexists _; unfold owns; iexists _; isplitr
    swap; · iexact H11
    ipureintro; rfl
  iexists _; unfold owns; iexists _; isplitr
  swap; · iexact H12
  ipureintro; rfl

variable (m : (ℓ : Loc nD τ sig) → Buf (Elt F) ℓ) (ρ : Dev nD → PrngReg)

abbrev V0 (c : Dev nD) : Valuation τ sig (Elt F) := StableHlo.after (List.flatten [hostOps0, hostOps0_1, hostOps0_2]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.unary_writes, Finset.mem_singleton] <;> exact StableHlo.devRef_ne_of_ne (by decide)
/-- The one line after the region writes the result only. -/
theorem sfx_writes : ∀ ops ∈ ([hostOps1] : List (List (HloOp τ sig (Elt F)))), ∀ op ∈ ops, ∀ b : Ref sig .tc,
    Proc.devRef .tc b ∈ op.writes → b ∈ ({main_v33} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective _ hb)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The output window is forgotten. -/
def forgets0 : Fin 7 → Bool := fun w => w.val == 6

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

abbrev scM0 : Memref sig .tc .vmem S114x128x64 .bf16 := Memref.whole cc0_scratch0
abbrev scM1 : Memref sig .tc .vmem S114x112x256 .bf16 := Memref.whole cc0_scratch1
abbrev scM2 : Memref sig .tc .vmem S114x128x128 .bf16 := Memref.whole cc0_scratch2
abbrev scM3 : Memref sig .tc .vmem S114x112x384 .f32 := Memref.whole cc0_scratch3
abbrev scM4 : Memref sig .tc .vmem S12544x128 .f32 := Memref.whole cc0_scratch4

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, H6⟩
  iapply (sound_kernel c Set.univ _ _ _ _ _ _ _ _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitr [Hg]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ forgets0 := fun t => by
  rw [bigSep_W0, bigSep_W0]
  exact sound_body m c t

set_option backward.isDefEq.respectTransparency.types false in
theorem run_main : θ_run defs (onTc (τ := τ) (main (F := F))) (s₀ m ρ)
    (Pipeline.RDat.FramePostR (cfgs 0) (fun c => (dats m 0 c).toRForget forgets0) {main_v33} (fun c b => V0 m c (Proc.devRef .tc b))) :=
  Pipeline.RDat.θ_run_frame_around_T cfgs (0 : Fin 1) launch0 defs₀ Variants.none (fun c => (dats m 0 c).toRForget forgets0) {main_v33} m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- Read the host lines before the region at one buffer. -/
macro "read_prefix" : tactic =>
  `(tactic| (
    dsimp only [V, V0]
    simp only [hostOps0, hostOps0_1, hostOps0_2, List.flatten_cons, List.flatten_nil, List.append_nil, List.cons_append, List.nil_append]
    after_results
    try beta_reduce
    try simp only [Matrix.cons_val_zero, Matrix.cons_val_one, Matrix.cons_val_two, Matrix.head_cons, Matrix.cons_val_succ, Matrix.cons_val_fin_one]
    repeat (first
      | rw [StableHlo.nullary_result] | rw [StableHlo.unary_result] | rw [StableHlo.binary_result] | rw [StableHlo.reshape_result] | rw [StableHlo.nary_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide))
    try rfl))

set_option maxHeartbeats 2000000 in
theorem V_main_arg0 (c : Dev nD) : V m c main_arg0 = m ((c : Thread nD τ).loc main_arg0) := by
  read_prefix
set_option maxHeartbeats 2000000 in
theorem V_main_arg1 (c : Dev nD) : V m c main_arg1 = m ((c : Thread nD τ).loc main_arg1) := by
  read_prefix
set_option maxHeartbeats 2000000 in
theorem V_main_arg2 (c : Dev nD) : V m c main_arg2 = m ((c : Thread nD τ).loc main_arg2) := by
  read_prefix
set_option maxHeartbeats 2000000 in
theorem V_main_arg3 (c : Dev nD) : V m c main_arg3 = m ((c : Thread nD τ).loc main_arg3) := by
  read_prefix
set_option maxHeartbeats 2000000 in
theorem V_main_arg4 (c : Dev nD) : V m c main_arg4 = m ((c : Thread nD τ).loc main_arg4) := by
  read_prefix

/-- THE FRAME: the program runs to the end, faults nowhere, and its five arguments end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Eq.mp (congrFun (((dats m 0 c).toRForget forgets0).ArrAt_in 0 rfl _) _) ((h c).1 0)).trans ((A_eq m c 0).trans (V_main_arg0 m c)),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     ((h c).2 main_arg4 (Finset.mem_sdiff.mpr ⟨Pipeline.mem_restRefs_of main_arg4 (by decide) (by decide), by decide⟩)).trans (V_main_arg4 m c)⟩)
    (run_main m ρ)

end Cert.Kernel.KForget

end
-- ==== Proof.KIRun.lean ====
import proofs.«120882_g2000303031884594_pallasbulk_961_21_alg».proof.Proof.Gen.KernelIdeal.Launch
import proofs.«120882_g2000303031884594_pallasbulk_961_21_alg».proof.Proof.Gen.KernelIdeal.Skeleton
import proofs.«120882_g2000303031884594_pallasbulk_961_21_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The fused body run once on whole staging memrefs: the six inputs at given contents, the output
    buffer at anything, the five work buffers at given contents.  The run leaves the inputs as they
    were and each written buffer with a list of written pieces; the lists are found by the run. -/

set_option maxHeartbeats 4000000 in
noncomputable def bodyRun (c : Dev nD) (i : grid0.Coords) (arg1 : Memref sig .tc .vmem S1x64x112x112 .f32) (harg1 : arg1.IsWhole) (arg2 : Memref sig .tc .vmem S256x384 .bf16) (harg2 : arg2.IsWhole) (arg3 : Memref sig .tc .vmem S256x384 .bf16) (harg3 : arg3.IsWhole) (arg4 : Memref sig .tc .vmem S128x384 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x56x56x128 .bf16) (harg7 : arg7.IsWhole) (arg8 : Memref sig .tc .vmem S114x128x64 .bf16) (harg8 : arg8.IsWhole) (arg9 : Memref sig .tc .vmem S114x112x256 .bf16) (harg9 : arg9.IsWhole) (arg10 : Memref sig .tc .vmem S114x128x128 .bf16) (harg10 : arg10.IsWhole) (arg11 : Memref sig .tc .vmem S114x112x384 .f32) (harg11 : arg11.IsWhole) (arg12 : Memref sig .tc .vmem S12544x128 .f32) (harg12 : arg12.IsWhole)
    (x1 : Vec F S1x64x112x112 .f32) (x2 : Vec F S256x384 .bf16) (x3 : Vec F S256x384 .bf16) (x4 : Vec F S128x384 .bf16) (x5 : Vec F S1x128 .f32) (x6 : Vec F S1x128 .f32) (s8 : Vec F S114x128x64 .bf16) (s9 : Vec F S114x112x256 .bf16) (s10 : Vec F S114x128x128 .bf16) (s11 : Vec F S114x112x384 .f32) (s12 : Vec F S12544x128 .f32) :
    Σ' (L7 : List (View.Piece (Elt F) S1x56x56x128 .bf16)) (L8 : List (View.Piece (Elt F) S114x128x64 .bf16)) (L9 : List (View.Piece (Elt F) S114x112x256 .bf16)) (L10 : List (View.Piece (Elt F) S114x128x128 .bf16)) (L11 : List (View.Piece (Elt F) S114x112x384 .f32)),
      { L12 : List (View.Piece (Elt F) S12544x128 .f32) // ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare s8 ∗ owns (c : Thread nD τ) arg9 fullShare s9 ∗ owns (c : Thread nD τ) arg10 fullShare s10 ∗ owns (c : Thread nD τ) arg11 fullShare s11 ∗ owns (c : Thread nD τ) arg12 fullShare s12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0__fused_vgg_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__fused_vgg_kernel_eq_skeleton]; unfold cc0__fused_vgg_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg8.eq_unread hf8; obtain rfl := harg9.eq_unread hf9; obtain rfl := harg10.eq_unread hf10
    obtain rfl := harg11.eq_unread hf11; obtain rfl := harg12.eq_unread hf12
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.KernelIdeal.Gen

end
-- ==== Proof.LibCanonUnit.lean ====
import Idealize.ShloMosaic.Lib.Pipeline.FrameBody
import Idealize.ShloMosaic.Lib.Pipeline.Value
import Idealize.ShloMosaic.Lib.WritesUnit
import Idealize.ShloMosaic.Lib.ValueIdx

/-!
# Writes through unit-stride rectangles, read by coordinates

`View.canon L` is what a list of unmasked writes (newest first) leaves, as a function of the pieces
alone.  Here: the newest piece read by an `if` on the index's coordinates (any rank, and at rank 3
with the coordinates written out), a load through a unit-stride box read by coordinates, and
`updateSlice` — a block with a sub-block replaced — read inside and outside the replaced part.
-/

noncomputable section

namespace Idealize.ShloMosaic

open Idealize.ShloMosaic.ValueIdx

namespace View

variable {s : Shape} {e : EltTy} {Val : EltTy → Type}

/-- Newest wins: under the newest piece's unit-stride rectangle the canon is that piece's payload at
    the index minus the offsets, elsewhere the canon of the earlier pieces. -/
theorem canon_cons_unit [∀ e, Nonempty (Val e)] {off size : Fin s.rank → ℕ} (inb : ∀ a, off a + size a ≤ s.size a)
    (w : (Rect.unit off size inb).shape.Idx → Val e) (L : List (Piece Val s e)) (y : s.Idx) :
    canon ((⟨Rect.unit off size inb, w⟩ : Piece Val s e) :: L) y
      = if h : ∀ a, off a ≤ (y a).val ∧ (y a).val < off a + size a then
          w (Rect.unitLocal (s := s) (off := off) (size := size) y h)
        else canon L y := by
  by_cases h : ∀ a, off a ≤ (y a).val ∧ (y a).val < off a + size a
  · rw [dif_pos h]
    have hy : (Rect.unit off size inb).emb (Rect.unitLocal (s := s) (off := off) (size := size) y h) = y :=
      funext fun a => Fin.ext (by
        show off a + 1 * ((y a).val - off a) = (y a).val
        have := h a; omega)
    exact (congrArg (canon ((⟨Rect.unit off size inb, w⟩ : Piece Val s e) :: L)) hy.symm).trans
      (canon_cons_emb (Rect.unit off size inb) w L _)
  · rw [dif_neg h]
    exact canon_cons_of_not_mem _ L (fun hm => h ((Rect.mem_set_unit (inb := inb)).mp hm))

/-- The same with the index's position inside the rectangle NAMED by the caller. -/
theorem canon_cons_unit_of_mem [∀ e, Nonempty (Val e)] {off size : Fin s.rank → ℕ} (inb : ∀ a, off a + size a ≤ s.size a)
    (w : (Rect.unit off size inb).shape.Idx → Val e) (L : List (Piece Val s e)) (y : s.Idx)
    (x : (Rect.unit off size inb).shape.Idx) (hx : ∀ a, (y a).val = off a + (x a).val) :
    canon ((⟨Rect.unit off size inb, w⟩ : Piece Val s e) :: L) y = w x := by
  have hy : (Rect.unit off size inb).emb x = y := funext fun a => Fin.ext (by
    show off a + 1 * (x a).val = (y a).val
    rw [hx a, Nat.one_mul])
  exact (congrArg (canon ((⟨Rect.unit off size inb, w⟩ : Piece Val s e) :: L)) hy.symm).trans
    (canon_cons_emb (Rect.unit off size inb) w L x)

/-- An index that misses the newest piece's rectangle on axis `a` reads the earlier pieces. -/
theorem canon_cons_unit_of_not_mem [∀ e, Nonempty (Val e)] {off size : Fin s.rank → ℕ} (inb : ∀ a, off a + size a ≤ s.size a)
    (w : (Rect.unit off size inb).shape.Idx → Val e) (L : List (Piece Val s e)) (y : s.Idx)
    (a : Fin s.rank) (ha : (y a).val < off a ∨ off a + size a ≤ (y a).val) :
    canon ((⟨Rect.unit off size inb, w⟩ : Piece Val s e) :: L) y = canon L y :=
  canon_cons_of_not_mem _ L (fun hm => by have := (Rect.mem_set_unit (inb := inb)).mp hm a; omega)

/-- A covered load through a unit-stride box reads the canon at the box's offsets plus the position. -/
theorem readCov_unit_apply [∀ e, Nonempty (Val e)] {sig : RefSig} {κ : Kind} {sp : Space} (v : View sig κ sp s e)
    (L : List (Piece Val s e)) {off size : Fin s.rank → ℕ} (inb : ∀ a, off a + size a ≤ s.size a)
    (j : (Rect.unit off size inb).shape.Idx) (y : s.Idx) (hy : ∀ a, (y a).val = off a + (j a).val) :
    v.readCov L (Rect.unit off size inb).toLoadRect j = canon L y := by
  rw [readCov_eq_canon']
  refine congrArg (canon L) (funext fun a => Fin.ext ?_)
  show off a + 1 * (j a).val = (y a).val
  rw [hy a, Nat.one_mul]

end View

/-- A block with a sub-block replaced, read INSIDE the replaced part: the replacement at the index
    minus the start. -/
theorem updateSlice_apply_of_mem {α : Type} {s u : Shape} (x : s.Idx → α) (upd : u.Idx → α) (start : Fin s.rank → ℕ)
    (h : s.Slices start u) (i : s.Idx) (k : u.Idx)
    (hk : ∀ a : Fin s.rank, (i a).val = start a + (k (a.cast h.1.symm)).val) :
    updateSlice x upd start h i = upd k := by
  unfold updateSlice
  have hin : ∀ a : Fin s.rank, start a ≤ (i a).val ∧ (i a).val < start a + u.size (a.cast h.1.symm) := fun a => by
    have := hk a; have := (k (a.cast h.1.symm)).isLt; omega
  rw [dif_pos hin]
  refine congrArg upd (funext fun b => Fin.ext ?_)
  have := hk (b.cast h.1)
  have e : (b.cast h.1).cast h.1.symm = b := rfl
  rw [e] at this
  show (i (b.cast h.1)).val - start (b.cast h.1) = (k b).val
  omega

/-- Read OUTSIDE the replaced part (the index misses it on axis `a`): the block as it was. -/
theorem updateSlice_apply_of_not_mem {α : Type} {s u : Shape} (x : s.Idx → α) (upd : u.Idx → α) (start : Fin s.rank → ℕ)
    (h : s.Slices start u) (i : s.Idx) (a : Fin s.rank)
    (ha : (i a).val < start a ∨ start a + u.size (a.cast h.1.symm) ≤ (i a).val) :
    updateSlice x upd start h i = x i := by
  unfold updateSlice
  rw [dif_neg (fun hin => by have := hin a; omega)]

/-! ## Rank 3, coordinates written out -/

/-- A statement about every axis of a rank-3 shape from its three instances. -/
theorem forall_fin3 {P : Fin 3 → Prop} (h0 : P 0) (h1 : P 1) (h2 : P 2) : ∀ a, P a :=
  fun a => match a with | ⟨0, _⟩ => h0 | ⟨1, _⟩ => h1 | ⟨2, _⟩ => h2

namespace View

variable {e : EltTy} {Val : EltTy → Type}

/-- Rank 3: an index at position `(x0, x1, x2)` of the newest piece's rectangle reads its payload there. -/
theorem canon_cons_unit3_of_mem [∀ e, Nonempty (Val e)] {d : Fin 3 → ℕ} {o0 o1 o2 z0 z1 z2 : ℕ}
    (inb : ∀ a, (![o0, o1, o2] : Fin 3 → ℕ) a + (![z0, z1, z2] : Fin 3 → ℕ) a ≤ (⟨3, d⟩ : Shape).size a)
    (w : (⟨3, ![z0, z1, z2]⟩ : Shape).Idx → Val e) (L : List (Piece Val (⟨3, d⟩ : Shape) e)) (y : (⟨3, d⟩ : Shape).Idx)
    (x0 : Fin z0) (x1 : Fin z1) (x2 : Fin z2)
    (h0 : (y 0).val = o0 + x0.val) (h1 : (y 1).val = o1 + x1.val) (h2 : (y 2).val = o2 + x2.val) :
    canon ((⟨Rect.unit (s := (⟨3, d⟩ : Shape)) ![o0, o1, o2] ![z0, z1, z2] inb, w⟩ : Piece Val (⟨3, d⟩ : Shape) e) :: L) y
      = w (ix3 x0 x1 x2) :=
  canon_cons_unit_of_mem (s := (⟨3, d⟩ : Shape)) inb w L y (ix3 x0 x1 x2) (forall_fin3 h0 h1 h2)

/-- Rank 3: an index that misses the newest piece's rectangle on axis `a` reads the earlier pieces. -/
theorem canon_cons_unit3_of_not_mem [∀ e, Nonempty (Val e)] {d : Fin 3 → ℕ} {o0 o1 o2 z0 z1 z2 : ℕ}
    (inb : ∀ a, (![o0, o1, o2] : Fin 3 → ℕ) a + (![z0, z1, z2] : Fin 3 → ℕ) a ≤ (⟨3, d⟩ : Shape).size a)
    (w : (⟨3, ![z0, z1, z2]⟩ : Shape).Idx → Val e) (L : List (Piece Val (⟨3, d⟩ : Shape) e)) (y : (⟨3, d⟩ : Shape).Idx)
    (a : Fin 3) (ha : (y a).val < (![o0, o1, o2] : Fin 3 → ℕ) a ∨ (![o0, o1, o2] : Fin 3 → ℕ) a + (![z0, z1, z2] : Fin 3 → ℕ) a ≤ (y a).val) :
    canon ((⟨Rect.unit (s := (⟨3, d⟩ : Shape)) ![o0, o1, o2] ![z0, z1, z2] inb, w⟩ : Piece Val (⟨3, d⟩ : Shape) e) :: L) y
      = canon L y :=
  canon_cons_unit_of_not_mem (s := (⟨3, d⟩ : Shape)) inb w L y a ha

/-- Rank 3: a covered load through a unit-stride box at position `j` reads the canon at the offsets
    plus `j`'s coordinates. -/
theorem readCov_unit3_apply [∀ e, Nonempty (Val e)] {sig : RefSig} {κ : Kind} {sp : Space} {d : Fin 3 → ℕ}
    (v : View sig κ sp (⟨3, d⟩ : Shape) e) (L : List (Piece Val (⟨3, d⟩ : Shape) e)) {o0 o1 o2 z0 z1 z2 : ℕ}
    (inb : ∀ a, (![o0, o1, o2] : Fin 3 → ℕ) a + (![z0, z1, z2] : Fin 3 → ℕ) a ≤ (⟨3, d⟩ : Shape).size a)
    (j : (⟨3, ![z0, z1, z2]⟩ : Shape).Idx) (y : (⟨3, d⟩ : Shape).Idx)
    (h0 : (y 0).val = o0 + (j 0).val) (h1 : (y 1).val = o1 + (j 1).val) (h2 : (y 2).val = o2 + (j 2).val) :
    v.readCov L (Rect.unit (s := (⟨3, d⟩ : Shape)) ![o0, o1, o2] ![z0, z1, z2] inb).toLoadRect j = canon L y :=
  readCov_unit_apply (s := (⟨3, d⟩ : Shape)) v L inb j y (forall_fin3 h0 h1 h2)

end View

/-- Rank 3: a block with a sub-block replaced, read inside the replaced part. -/
theorem updateSlice3_of_mem {α : Type} {d : Fin 3 → ℕ} {z0 z1 z2 o0 o1 o2 : ℕ} (x : (⟨3, d⟩ : Shape).Idx → α)
    (upd : (⟨3, ![z0, z1, z2]⟩ : Shape).Idx → α) (h : (⟨3, d⟩ : Shape).Slices ![o0, o1, o2] (⟨3, ![z0, z1, z2]⟩ : Shape))
    (i : (⟨3, d⟩ : Shape).Idx) (k0 : Fin z0) (k1 : Fin z1) (k2 : Fin z2)
    (h0 : (i 0).val = o0 + k0.val) (h1 : (i 1).val = o1 + k1.val) (h2 : (i 2).val = o2 + k2.val) :
    updateSlice x upd ![o0, o1, o2] h i = upd (ix3 k0 k1 k2) :=
  updateSlice_apply_of_mem x upd _ h i (ix3 k0 k1 k2) (forall_fin3 h0 h1 h2)

end Idealize.ShloMosaic

end
-- ==== Proof.LibHaloRead.lean ====
import proofs.«120882_g2000303031884594_pallasbulk_961_21_alg».proof.Proof.LibCanonUnit

/-!
# A zero-bordered image held in a wider buffer, read by coordinates

A buffer of 114 rows, 128 columns and `C` channels is written in five steps: the top row, the
bottom row, the column left of the image and the column right of it are set to one value `z` — each
through a two-column-aligned rectangle that also rewrites a neighbouring column with what was there
before — and the image of 112 × 112 positions is stored at row 1, column 8.  Read anywhere in
columns 7 to 120, the buffer then holds the image inside and `z` on the border, whatever it held
before.
-/

noncomputable section

namespace Idealize.ShloMosaic

open Idealize.ShloMosaic.ValueIdx

variable {e : EltTy} {Val : EltTy → Type}

set_option maxHeartbeats 1000000 in
/-- The five writes (newest first: image, right column, left column, bottom row, top row) read at
    row `r`, column `q` with `7 ≤ q ≤ 120`, channel `k`. -/
theorem haloCanon [∀ e, Nonempty (Val e)] {C : ℕ} (z : Val e)
    (A : (⟨3, ![112, 112, C]⟩ : Shape).Idx → Val e)
    (o2 o3 : (⟨3, ![114, 2, C]⟩ : Shape).Idx → Val e) (o4 o5 : (⟨3, ![1, 116, C]⟩ : Shape).Idx → Val e)
    (Z2 Z3 : (⟨3, ![114, 1, C]⟩ : Shape).Idx → Val e) (Z4 Z5 : (⟨3, ![1, 114, C]⟩ : Shape).Idx → Val e)
    (hZ2 : ∀ i, Z2 i = z) (hZ3 : ∀ i, Z3 i = z) (hZ4 : ∀ i, Z4 i = z) (hZ5 : ∀ i, Z5 i = z)
    (i1 : ∀ a, (![1, 8, 0] : Fin 3 → ℕ) a + (![112, 112, C] : Fin 3 → ℕ) a ≤ (⟨3, ![114, 128, C]⟩ : Shape).size a)
    (i2 : ∀ a, (![0, 120, 0] : Fin 3 → ℕ) a + (![114, 2, C] : Fin 3 → ℕ) a ≤ (⟨3, ![114, 128, C]⟩ : Shape).size a)
    (i3 : ∀ a, (![0, 6, 0] : Fin 3 → ℕ) a + (![114, 2, C] : Fin 3 → ℕ) a ≤ (⟨3, ![114, 128, C]⟩ : Shape).size a)
    (i4 : ∀ a, (![113, 6, 0] : Fin 3 → ℕ) a + (![1, 116, C] : Fin 3 → ℕ) a ≤ (⟨3, ![114, 128, C]⟩ : Shape).size a)
    (i5 : ∀ a, (![0, 6, 0] : Fin 3 → ℕ) a + (![1, 116, C] : Fin 3 → ℕ) a ≤ (⟨3, ![114, 128, C]⟩ : Shape).size a)
    (h2 : (⟨3, ![114, 2, C]⟩ : Shape).Slices ![0, 0, 0] (⟨3, ![114, 1, C]⟩ : Shape))
    (h3 : (⟨3, ![114, 2, C]⟩ : Shape).Slices ![0, 1, 0] (⟨3, ![114, 1, C]⟩ : Shape))
    (h4 : (⟨3, ![1, 116, C]⟩ : Shape).Slices ![0, 1, 0] (⟨3, ![1, 114, C]⟩ : Shape))
    (h5 : (⟨3, ![1, 116, C]⟩ : Shape).Slices ![0, 1, 0] (⟨3, ![1, 114, C]⟩ : Shape))
    (r : Fin 114) (q : Fin 128) (k : Fin C) (hq : 7 ≤ q.val ∧ q.val ≤ 120) :
    View.canon (Val := Val) (s := (⟨3, ![114, 128, C]⟩ : Shape)) (e := e)
      [⟨Rect.unit (s := (⟨3, ![114, 128, C]⟩ : Shape)) ![1, 8, 0] ![112, 112, C] i1, A⟩,
       ⟨Rect.unit (s := (⟨3, ![114, 128, C]⟩ : Shape)) ![0, 120, 0] ![114, 2, C] i2, updateSlice o2 Z2 ![0, 0, 0] h2⟩,
       ⟨Rect.unit (s := (⟨3, ![114, 128, C]⟩ : Shape)) ![0, 6, 0] ![114, 2, C] i3, updateSlice o3 Z3 ![0, 1, 0] h3⟩,
       ⟨Rect.unit (s := (⟨3, ![114, 128, C]⟩ : Shape)) ![113, 6, 0] ![1, 116, C] i4, updateSlice o4 Z4 ![0, 1, 0] h4⟩,
       ⟨Rect.unit (s := (⟨3, ![114, 128, C]⟩ : Shape)) ![0, 6, 0] ![1, 116, C] i5, updateSlice o5 Z5 ![0, 1, 0] h5⟩]
      (ix3 r q k)
    = if h : (1 ≤ r.val ∧ r.val ≤ 112) ∧ (8 ≤ q.val ∧ q.val ≤ 119) then
        A (ix3 ⟨r.val - 1, by omega⟩ ⟨q.val - 8, by omega⟩ k)
      else z := by
  have hk : k.val = 0 + k.val := (Nat.zero_add _).symm
  by_cases hI : (1 ≤ r.val ∧ r.val ≤ 112) ∧ (8 ≤ q.val ∧ q.val ≤ 119)
  · rw [dif_pos hI]
    exact View.canon_cons_unit3_of_mem i1 A _ (ix3 r q k) ⟨r.val - 1, by omega⟩ ⟨q.val - 8, by omega⟩ k
      (show r.val = 1 + (r.val - 1) by omega) (show q.val = 8 + (q.val - 8) by omega) hk
  · rw [dif_neg hI]
    -- the image's rectangle is missed on the row axis or on the column axis
    have e1 : ∀ L, View.canon (Val := Val) (e := e)
        (⟨Rect.unit (s := (⟨3, ![114, 128, C]⟩ : Shape)) ![1, 8, 0] ![112, 112, C] i1, A⟩ :: L) (ix3 r q k)
          = View.canon L (ix3 r q k) := fun L => by
      by_cases hr : 1 ≤ r.val ∧ r.val ≤ 112
      · exact View.canon_cons_unit3_of_not_mem i1 A L (ix3 r q k) 1
          (show q.val < 8 ∨ 8 + 112 ≤ q.val by omega)
      · exact View.canon_cons_unit3_of_not_mem i1 A L (ix3 r q k) 0
          (show r.val < 1 ∨ 1 + 112 ≤ r.val by omega)
    rw [e1]
    by_cases hq120 : q.val = 120
    · -- the right column
      refine (View.canon_cons_unit3_of_mem i2 _ _ (ix3 r q k) r ⟨0, by omega⟩ k
        (show r.val = 0 + r.val by omega) (show q.val = 120 + 0 by omega) hk).trans ?_
      exact (updateSlice3_of_mem o2 Z2 h2 (ix3 r ⟨0, by omega⟩ k) r ⟨0, by omega⟩ k
        (show r.val = 0 + r.val by omega) (show (0 : ℕ) = 0 + 0 by omega) hk).trans (hZ2 _)
    · rw [View.canon_cons_unit3_of_not_mem i2 _ _ (ix3 r q k) 1 (show q.val < 120 ∨ 120 + 2 ≤ q.val by omega)]
      by_cases hq7 : q.val = 7
      · -- the left column
        refine (View.canon_cons_unit3_of_mem i3 _ _ (ix3 r q k) r ⟨1, by omega⟩ k
          (show r.val = 0 + r.val by omega) (show q.val = 6 + 1 by omega) hk).trans ?_
        exact (updateSlice3_of_mem o3 Z3 h3 (ix3 r ⟨1, by omega⟩ k) r ⟨0, by omega⟩ k
          (show r.val = 0 + r.val by omega) (show (1 : ℕ) = 1 + 0 by omega) hk).trans (hZ3 _)
      · rw [View.canon_cons_unit3_of_not_mem i3 _ _ (ix3 r q k) 1 (show q.val < 6 ∨ 6 + 2 ≤ q.val by omega)]
        by_cases hr113 : r.val = 113
        · -- the bottom row
          refine (View.canon_cons_unit3_of_mem i4 _ _ (ix3 r q k) ⟨0, by omega⟩ ⟨q.val - 6, by omega⟩ k
            (show r.val = 113 + 0 by omega) (show q.val = 6 + (q.val - 6) by omega) hk).trans ?_
          exact (updateSlice3_of_mem o4 Z4 h4 (ix3 ⟨0, by omega⟩ ⟨q.val - 6, by omega⟩ k) ⟨0, by omega⟩ ⟨q.val - 7, by omega⟩ k
            (show (0 : ℕ) = 0 + 0 by omega) (show q.val - 6 = 1 + (q.val - 7) by omega) hk).trans (hZ4 _)
        · rw [View.canon_cons_unit3_of_not_mem i4 _ _ (ix3 r q k) 0 (show r.val < 113 ∨ 113 + 1 ≤ r.val by omega)]
          -- the top row
          have hr0 : r.val = 0 := by omega
          refine (View.canon_cons_unit3_of_mem i5 _ _ (ix3 r q k) ⟨0, by omega⟩ ⟨q.val - 6, by omega⟩ k
            (show r.val = 0 + 0 by omega) (show q.val = 6 + (q.val - 6) by omega) hk).trans ?_
          exact (updateSlice3_of_mem o5 Z5 h5 (ix3 ⟨0, by omega⟩ ⟨q.val - 6, by omega⟩ k) ⟨0, by omega⟩ ⟨q.val - 7, by omega⟩ k
            (show (0 : ℕ) = 0 + 0 by omega) (show q.val - 6 = 1 + (q.val - 7) by omega) hk).trans (hZ5 _)

end Idealize.ShloMosaic

end
-- ==== Proof.LibLayout3.lean ====
import Idealize.ShloMosaic.Lib.Pipeline.Value
import Idealize.ShloMosaic.Lib.ValueIdx
import Idealize.ShloMosaic.Lib.ValueLayout

/-!
# More layout operations read by coordinates

A rank-3 transposition that swaps the first two axes; a last-axis slice of a rank-3 array; joins of
two or three equal-width arrays along the last axis (rank 3) or along the columns (rank 2); the two
reshapes of a 2×2 pooling — a pixel-major matrix of `2a` rows of `2b` pixels and `c` channels seen as
`[a, 2, b, 2c]`, and a unit second axis dropped.
-/

noncomputable section

namespace Idealize.ShloMosaic.Layout3

open Idealize.ShloMosaic Idealize.ShloMosaic.ValueIdx

variable {α : Type}

/-- The first two axes swapped (permutation `[1, 0, 2]`): at `(j, i, k)` the operand at `(i, j, k)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- A rank-4 permutation `[0, 3, 1, 2]` (position-major to channel-major): at `(n, c, i, j)` the
    operand at `(n, i, j, c)`. -/
theorem transpose_ix4_0312_apply {n a b c : ℕ} (x : (⟨4, ![n, a, b, c]⟩ : Shape).Idx → α)
    (h : (⟨4, ![n, a, b, c]⟩ : Shape).Transposes [0, 3, 1, 2] ⟨4, ![n, c, a, b]⟩) (p : Fin n) (k : Fin c) (i : Fin a) (j : Fin b) :
    transpose ⟨4, ![n, c, a, b]⟩ [0, 3, 1, 2] x h (ix4 p k i j) = x (ix4 p i j k) :=
  transpose_apply _ x h _ _ fun d => match d with | ⟨0, _⟩ => rfl | ⟨1, _⟩ => rfl | ⟨2, _⟩ => rfl | ⟨3, _⟩ => rfl

/-- A slice along the last axis of a rank-3 array. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A unit second axis dropped: `[a, 1, b, c]` as `[a, b, c]`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    rw [Nat.mul_one, Nat.add_zero])

/-- A matrix of `m` pixel rows and `c` channels seen as `[a, u, b, d]`: entry `(i, s, j, l)` is the
    matrix's entry `(q, k)` whenever the row-major positions agree. -/
theorem shapeCast_mc_aubd_apply {m c a u b d : ℕ} (x : (⟨2, ![m, c]⟩ : Shape).Idx → α)
    (h : (⟨2, ![m, c]⟩ : Shape).ShapeCasts ⟨4, ![a, u, b, d]⟩) (i : Fin a) (s : Fin u) (j : Fin b) (l : Fin d)
    (q : Fin m) (k : Fin c) (hq : q.val * c + k.val = ((i.val * u + s.val) * b + j.val) * d + l.val) :
    shapeCast ⟨4, ![a, u, b, d]⟩ x h (ix4 i s j l) = x (ix2 q k) :=
  shapeCast_apply x h _ _ (by
    rw [Shape.rowMajor_val_four, Shape.rowMajor_val_two]
    exact hq)

/-- Three arrays of equal width joined along the last axis: column `p · w + c` of the join is column
    `c` of the `p`-th array. -/
theorem concat3_axis2_apply {A B w W : ℕ} (x0 x1 x2 : (⟨3, ![A, B, w]⟩ : Shape).Idx → α)
    (h : Shape.Concatenates ([(⟨(⟨3, ![A, B, w]⟩ : Shape), x0⟩ : (s : Shape) × (s.Idx → α)), ⟨(⟨3, ![A, B, w]⟩ : Shape), x1⟩, ⟨(⟨3, ![A, B, w]⟩ : Shape), x2⟩].map (·.1)) (⟨3, ![A, B, W]⟩ : Shape) (2 : Fin 3))
    (a : Fin A) (b : Fin B) (k : Fin W) (c : Fin w) :
    (k.val = c.val → concatenate (⟨3, ![A, B, W]⟩ : Shape) (2 : Fin 3) [⟨(⟨3, ![A, B, w]⟩ : Shape), x0⟩, ⟨(⟨3, ![A, B, w]⟩ : Shape), x1⟩, ⟨(⟨3, ![A, B, w]⟩ : Shape), x2⟩] h (ix3 a b k) = x0 (ix3 a b c))
    ∧ (k.val = w + c.val → concatenate (⟨3, ![A, B, W]⟩ : Shape) (2 : Fin 3) [⟨(⟨3, ![A, B, w]⟩ : Shape), x0⟩, ⟨(⟨3, ![A, B, w]⟩ : Shape), x1⟩, ⟨(⟨3, ![A, B, w]⟩ : Shape), x2⟩] h (ix3 a b k) = x1 (ix3 a b c))
    ∧ (k.val = w + w + c.val → concatenate (⟨3, ![A, B, W]⟩ : Shape) (2 : Fin 3) [⟨(⟨3, ![A, B, w]⟩ : Shape), x0⟩, ⟨(⟨3, ![A, B, w]⟩ : Shape), x1⟩, ⟨(⟨3, ![A, B, w]⟩ : Shape), x2⟩] h (ix3 a b k) = x2 (ix3 a b c)) := by
  have hi : ∀ d : Fin 3, d ≠ (2 : Fin 3) → ((ix3 a b c : (⟨3, ![A, B, w]⟩ : Shape).Idx) d).val = ((ix3 a b k : (⟨3, ![A, B, W]⟩ : Shape).Idx) d).val :=
    fun d hd => match d, hd with | ⟨0, _⟩, _ => rfl | ⟨1, _⟩, _ => rfl | ⟨2, _⟩, hd => absurd rfl hd
  refine ⟨fun hk => ?_, fun hk => ?_, fun hk => ?_⟩
  · exact concatenate_apply_piece (t := (⟨3, ![A, B, W]⟩ : Shape)) (2 : Fin 3) [⟨(⟨3, ![A, B, w]⟩ : Shape), x0⟩, ⟨(⟨3, ![A, B, w]⟩ : Shape), x1⟩, ⟨(⟨3, ![A, B, w]⟩ : Shape), x2⟩] h (ix3 a b k) 0 (by simp) (⟨3, ![A, B, w]⟩ : Shape) x0 rfl rfl 0 (by first | rfl | simp) (ix3 a b c) (fun d hd => hi d hd)
      (show 0 + c.val = k.val by omega)
  · exact concatenate_apply_piece (t := (⟨3, ![A, B, W]⟩ : Shape)) (2 : Fin 3) [⟨(⟨3, ![A, B, w]⟩ : Shape), x0⟩, ⟨(⟨3, ![A, B, w]⟩ : Shape), x1⟩, ⟨(⟨3, ![A, B, w]⟩ : Shape), x2⟩] h (ix3 a b k) 1 (by simp) (⟨3, ![A, B, w]⟩ : Shape) x1 rfl rfl w (by first | rfl | simp) (ix3 a b c) (fun d hd => hi d hd)
      (show w + c.val = k.val by omega)
  · exact concatenate_apply_piece (t := (⟨3, ![A, B, W]⟩ : Shape)) (2 : Fin 3) [⟨(⟨3, ![A, B, w]⟩ : Shape), x0⟩, ⟨(⟨3, ![A, B, w]⟩ : Shape), x1⟩, ⟨(⟨3, ![A, B, w]⟩ : Shape), x2⟩] h (ix3 a b k) 2 (by simp) (⟨3, ![A, B, w]⟩ : Shape) x2 rfl rfl (w + w) (by first | rfl | simp) (ix3 a b c) (fun d hd => hi d hd)
      (show (w + w) + c.val = k.val by omega)

/-- Two arrays of equal width joined along the last axis. -/
theorem concat2_axis2_apply {A B w W : ℕ} (x0 x1 : (⟨3, ![A, B, w]⟩ : Shape).Idx → α)
    (h : Shape.Concatenates ([(⟨(⟨3, ![A, B, w]⟩ : Shape), x0⟩ : (s : Shape) × (s.Idx → α)), ⟨(⟨3, ![A, B, w]⟩ : Shape), x1⟩].map (·.1)) (⟨3, ![A, B, W]⟩ : Shape) (2 : Fin 3))
    (a : Fin A) (b : Fin B) (k : Fin W) (c : Fin w) :
    (k.val = c.val → concatenate (⟨3, ![A, B, W]⟩ : Shape) (2 : Fin 3) [⟨(⟨3, ![A, B, w]⟩ : Shape), x0⟩, ⟨(⟨3, ![A, B, w]⟩ : Shape), x1⟩] h (ix3 a b k) = x0 (ix3 a b c))
    ∧ (k.val = w + c.val → concatenate (⟨3, ![A, B, W]⟩ : Shape) (2 : Fin 3) [⟨(⟨3, ![A, B, w]⟩ : Shape), x0⟩, ⟨(⟨3, ![A, B, w]⟩ : Shape), x1⟩] h (ix3 a b k) = x1 (ix3 a b c)) := by
  have hi : ∀ d : Fin 3, d ≠ (2 : Fin 3) → ((ix3 a b c : (⟨3, ![A, B, w]⟩ : Shape).Idx) d).val = ((ix3 a b k : (⟨3, ![A, B, W]⟩ : Shape).Idx) d).val :=
    fun d hd => match d, hd with | ⟨0, _⟩, _ => rfl | ⟨1, _⟩, _ => rfl | ⟨2, _⟩, hd => absurd rfl hd
  refine ⟨fun hk => ?_, fun hk => ?_⟩
  · exact concatenate_apply_piece (t := (⟨3, ![A, B, W]⟩ : Shape)) (2 : Fin 3) [⟨(⟨3, ![A, B, w]⟩ : Shape), x0⟩, ⟨(⟨3, ![A, B, w]⟩ : Shape), x1⟩] h (ix3 a b k) 0 (by simp) (⟨3, ![A, B, w]⟩ : Shape) x0 rfl rfl 0 (by first | rfl | simp) (ix3 a b c) (fun d hd => hi d hd)
      (show 0 + c.val = k.val by omega)
  · exact concatenate_apply_piece (t := (⟨3, ![A, B, W]⟩ : Shape)) (2 : Fin 3) [⟨(⟨3, ![A, B, w]⟩ : Shape), x0⟩, ⟨(⟨3, ![A, B, w]⟩ : Shape), x1⟩] h (ix3 a b k) 1 (by simp) (⟨3, ![A, B, w]⟩ : Shape) x1 rfl rfl w (by first | rfl | simp) (ix3 a b c) (fun d hd => hi d hd)
      (show w + c.val = k.val by omega)

/-- Three matrices of equal width joined along the columns. -/
theorem concat3_cols_apply {A w W : ℕ} (x0 x1 x2 : (⟨2, ![A, w]⟩ : Shape).Idx → α)
    (h : Shape.Concatenates ([(⟨(⟨2, ![A, w]⟩ : Shape), x0⟩ : (s : Shape) × (s.Idx → α)), ⟨(⟨2, ![A, w]⟩ : Shape), x1⟩, ⟨(⟨2, ![A, w]⟩ : Shape), x2⟩].map (·.1)) (⟨2, ![A, W]⟩ : Shape) (1 : Fin 2))
    (a : Fin A) (k : Fin W) (c : Fin w) :
    (k.val = c.val → concatenate (⟨2, ![A, W]⟩ : Shape) (1 : Fin 2) [⟨(⟨2, ![A, w]⟩ : Shape), x0⟩, ⟨(⟨2, ![A, w]⟩ : Shape), x1⟩, ⟨(⟨2, ![A, w]⟩ : Shape), x2⟩] h (ix2 a k) = x0 (ix2 a c))
    ∧ (k.val = w + c.val → concatenate (⟨2, ![A, W]⟩ : Shape) (1 : Fin 2) [⟨(⟨2, ![A, w]⟩ : Shape), x0⟩, ⟨(⟨2, ![A, w]⟩ : Shape), x1⟩, ⟨(⟨2, ![A, w]⟩ : Shape), x2⟩] h (ix2 a k) = x1 (ix2 a c))
    ∧ (k.val = w + w + c.val → concatenate (⟨2, ![A, W]⟩ : Shape) (1 : Fin 2) [⟨(⟨2, ![A, w]⟩ : Shape), x0⟩, ⟨(⟨2, ![A, w]⟩ : Shape), x1⟩, ⟨(⟨2, ![A, w]⟩ : Shape), x2⟩] h (ix2 a k) = x2 (ix2 a c)) := by
  have hi : ∀ d : Fin 2, d ≠ (1 : Fin 2) → ((ix2 a c : (⟨2, ![A, w]⟩ : Shape).Idx) d).val = ((ix2 a k : (⟨2, ![A, W]⟩ : Shape).Idx) d).val :=
    fun d hd => match d, hd with | ⟨0, _⟩, _ => rfl | ⟨1, _⟩, hd => absurd rfl hd
  refine ⟨fun hk => ?_, fun hk => ?_, fun hk => ?_⟩
  · exact concatenate_apply_piece (t := (⟨2, ![A, W]⟩ : Shape)) (1 : Fin 2) [⟨(⟨2, ![A, w]⟩ : Shape), x0⟩, ⟨(⟨2, ![A, w]⟩ : Shape), x1⟩, ⟨(⟨2, ![A, w]⟩ : Shape), x2⟩] h (ix2 a k) 0 (by simp) (⟨2, ![A, w]⟩ : Shape) x0 rfl rfl 0 (by first | rfl | simp) (ix2 a c) (fun d hd => hi d hd)
      (show 0 + c.val = k.val by omega)
  · exact concatenate_apply_piece (t := (⟨2, ![A, W]⟩ : Shape)) (1 : Fin 2) [⟨(⟨2, ![A, w]⟩ : Shape), x0⟩, ⟨(⟨2, ![A, w]⟩ : Shape), x1⟩, ⟨(⟨2, ![A, w]⟩ : Shape), x2⟩] h (ix2 a k) 1 (by simp) (⟨2, ![A, w]⟩ : Shape) x1 rfl rfl w (by first | rfl | simp) (ix2 a c) (fun d hd => hi d hd)
      (show w + c.val = k.val by omega)
  · exact concatenate_apply_piece (t := (⟨2, ![A, W]⟩ : Shape)) (1 : Fin 2) [⟨(⟨2, ![A, w]⟩ : Shape), x0⟩, ⟨(⟨2, ![A, w]⟩ : Shape), x1⟩, ⟨(⟨2, ![A, w]⟩ : Shape), x2⟩] h (ix2 a k) 2 (by simp) (⟨2, ![A, w]⟩ : Shape) x2 rfl rfl (w + w) (by first | rfl | simp) (ix2 a c) (fun d hd => hi d hd)
      (show (w + w) + c.val = k.val by omega)

end Idealize.ShloMosaic.Layout3

end
-- ==== Proof.LibLayoutRead.lean ====
/-
  Layout operations read at an index written by its coordinates: the shape casts that add a trailing unit axis
  (a row sum kept as a column), the casts between [a, b, c] and [a·b, c] (rows of a slab laid end to end), the
  broadcasts along unit axes, and the source index of a reduction over the last axis. Each is the general
  read-at-an-index lemma of the library with its per-axis side condition discharged once.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LayoutRead

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b, c] array cast to [m, c] (m = a·b: the rows laid end to end) reads, at (q, k) with q = i·b + j, the
    operand at (i, j, k). -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (q : Fin m)
    (hq : q.val = i.val * b + j.val) :
    shapeCast ⟨2, ![m, c]⟩ x h (ix2 q k) = x (ix3 i j k) :=
  shapeCast_apply x h _ _ (by
    rw [Shape.rowMajor_val_three, Shape.rowMajor_val_two]
    show (i.val * b + j.val) * c + k.val = q.val * c + k.val
    rw [hq])

/-- An [m, c] array cast to [a, b, c] reads, at (i, j, k), the operand at (q, k) with q = i·b + j. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (q : Fin m)
    (hq : q.val = i.val * b + j.val) :
    shapeCast ⟨3, ![a, b, c]⟩ x h (ix3 i j k) = x (ix2 q k) :=
  shapeCast_apply x h _ _ (by
    rw [Shape.rowMajor_val_three, Shape.rowMajor_val_two]
    show q.val * c + k.val = (i.val * b + j.val) * c + k.val
    rw [hq])

/-- A broadcast of an [a, b, 1] array along its unit axis reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) :=
  broadcastTo_apply v h _ _ (by
    intro d
    match d with
    | ⟨0, _⟩ =>
      show i.val = if a = 1 then 0 else i.val
      split
      · omega
      · rfl
    | ⟨1, _⟩ =>
      show j.val = if b = 1 then 0 else j.val
      split
      · omega
      · rfl
    | ⟨2, _⟩ => rfl)

/-- A broadcast of a [1, 1, c] array over the two leading axes reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) :=
  broadcastTo_apply v h _ _ (by
    intro d
    match d with
    | ⟨0, _⟩ => rfl
    | ⟨1, _⟩ => rfl
    | ⟨2, _⟩ =>
      show k.val = if c = 1 then 0 else k.val
      split
      · omega
      · rfl)

/-- A broadcast of an [a, 1] column over b columns reads, at (i, j), the operand at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) :=
  broadcastTo_apply v h _ _ (by
    intro d
    match d with
    | ⟨0, _⟩ =>
      show i.val = if a = 1 then 0 else i.val
      split
      · omega
      · rfl
    | ⟨1, _⟩ => rfl)

/-- The source index of a reduction of an [a, b] array over its last axis, over result index i with the summed
    coordinate k: (i, k). -/
theorem lift_ab_last {a b : ℕ} (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- A sum over the last axis of an [a, b] array at the ideal values, read at i: the sum over k of the entries (i, k). -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

end Idealize.ShloMosaic.LayoutRead

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.Spec.lean ====
import Idealize.ShloMosaic.PureOps.Ideal
import Idealize.ShloMosaic.Lib.ValueIdx

/-!
# The block's mathematics

Two 3×3 convolutions with zero padding, each followed by a bias and a rectification, then a 2×2
maximum.  Everything is stated over the extended reals on plain coordinate functions; `G` reads the
five argument arrays by coordinates and is the whole-array result in channel-major layout.
-/

noncomputable section

open scoped BigOperators

namespace Vgg

open Idealize.ShloMosaic Idealize.ShloMosaic.ValueIdx

/-- An image of 112×112 positions set in a 114×114 frame whose border is zero: position `(r, q)` of
    the frame is the image's `(r - 1, q - 1)` inside the border and `0` on it (and beyond it). -/
def halo {C : ℕ} (img : Fin 112 → Fin 112 → Fin C → EReal) (r q : ℕ) (ci : Fin C) : EReal :=
  if h : (1 ≤ r ∧ r ≤ 112) ∧ (1 ≤ q ∧ q ≤ 112) then img ⟨r - 1, by omega⟩ ⟨q - 1, by omega⟩ ci else 0

/-- The 3×3 correlation of a framed image with a stack of kernels: output position `(h, w)`,
    output channel `c`. -/
def conv {C : ℕ} (inp : ℕ → ℕ → Fin C → EReal) (W : Fin 3 → Fin 3 → Fin C → Fin 128 → EReal)
    (h w : ℕ) (c : Fin 128) : EReal :=
  ∑ dy : Fin 3, ∑ dx : Fin 3, ∑ ci : Fin C, inp (h + dy.val) (w + dx.val) ci * W dy dx ci c

/-- One layer: the zero-padded correlation, plus the channel's bias, rectified. -/
def layer {C : ℕ} (img : Fin 112 → Fin 112 → Fin C → EReal) (W : Fin 3 → Fin 3 → Fin C → Fin 128 → EReal)
    (b : Fin 128 → EReal) : Fin 112 → Fin 112 → Fin 128 → EReal :=
  fun h w c => max (conv (halo img) W h.val w.val c + b c) 0

/-- The 2×2 maximum with stride 2: first over the two rows, then over the two columns. -/
def pool (a : Fin 112 → Fin 112 → Fin 128 → EReal) (i j : Fin 56) (c : Fin 128) : EReal :=
  max (max (a ⟨2 * i.val, by omega⟩ ⟨2 * j.val, by omega⟩ c) (a ⟨2 * i.val + 1, by omega⟩ ⟨2 * j.val, by omega⟩ c))
      (max (a ⟨2 * i.val, by omega⟩ ⟨2 * j.val + 1, by omega⟩ c) (a ⟨2 * i.val + 1, by omega⟩ ⟨2 * j.val + 1, by omega⟩ c))

/-- Image `n` of a channel-major batch, as position-major coordinates. -/
def image (x : (⟨4, ![8, 64, 112, 112]⟩ : Shape).Idx → EReal) (n : Fin 8) : Fin 112 → Fin 112 → Fin 64 → EReal :=
  fun h w ci => x (ix4 n ci h w)

/-- A weight array by coordinates. -/
def weights {C : ℕ} (w : (⟨4, ![3, 3, C, 128]⟩ : Shape).Idx → EReal) : Fin 3 → Fin 3 → Fin C → Fin 128 → EReal :=
  fun dy dx ci c => w (ix4 dy dx ci c)

/-- A bias vector by its coordinate. -/
def bias (b : (⟨1, ![128]⟩ : Shape).Idx → EReal) : Fin 128 → EReal := fun c => b (ix1 c)

/-- What the block computes for image `n`, position-major: both layers, then the pooling. -/
def blockOut (x : (⟨4, ![8, 64, 112, 112]⟩ : Shape).Idx → EReal) (w0 : (⟨4, ![3, 3, 64, 128]⟩ : Shape).Idx → EReal)
    (b0 : (⟨1, ![128]⟩ : Shape).Idx → EReal) (w1 : (⟨4, ![3, 3, 128, 128]⟩ : Shape).Idx → EReal)
    (b1 : (⟨1, ![128]⟩ : Shape).Idx → EReal) (n : Fin 8) : Fin 56 → Fin 56 → Fin 128 → EReal :=
  pool (layer (layer (image x n) (weights w0) (bias b0)) (weights w1) (bias b1))

/-- The whole result, channel-major: entry `(n, c, i, j)`. -/
def G (x : (⟨4, ![8, 64, 112, 112]⟩ : Shape).Idx → EReal) (w0 : (⟨4, ![3, 3, 64, 128]⟩ : Shape).Idx → EReal)
    (b0 : (⟨1, ![128]⟩ : Shape).Idx → EReal) (w1 : (⟨4, ![3, 3, 128, 128]⟩ : Shape).Idx → EReal)
    (b1 : (⟨1, ![128]⟩ : Shape).Idx → EReal) : (⟨4, ![8, 128, 56, 56]⟩ : Shape).Idx → EReal :=
  fun i => blockOut x w0 b0 w1 b1 (i 0) (i 2) (i 3) (i 1)

/-- The same result position-major (batch, row, column, channel): what the kernels write before the
    final transposition. -/
def Gnhwc (x : (⟨4, ![8, 64, 112, 112]⟩ : Shape).Idx → EReal) (w0 : (⟨4, ![3, 3, 64, 128]⟩ : Shape).Idx → EReal)
    (b0 : (⟨1, ![128]⟩ : Shape).Idx → EReal) (w1 : (⟨4, ![3, 3, 128, 128]⟩ : Shape).Idx → EReal)
    (b1 : (⟨1, ![128]⟩ : Shape).Idx → EReal) : (⟨4, ![8, 56, 56, 128]⟩ : Shape).Idx → EReal :=
  fun i => blockOut x w0 b0 w1 b1 (i 0) (i 1) (i 2) (i 3)

end Vgg

end
-- ==== Proof.KIVal1.lean ====
import proofs.«120882_g2000303031884594_pallasbulk_961_21_alg».proof.Proof.KIRun
import proofs.«120882_g2000303031884594_pallasbulk_961_21_alg».proof.Proof.LibHaloRead
import proofs.«120882_g2000303031884594_pallasbulk_961_21_alg».proof.Proof.LibLayout3
import proofs.«120882_g2000303031884594_pallasbulk_961_21_alg».proof.Proof.LibLayoutRead
import proofs.«120882_g2000303031884594_pallasbulk_961_21_alg».proof.Proof.LibPlainDot
import proofs.«120882_g2000303031884594_pallasbulk_961_21_alg».proof.Proof.Spec

set_option maxRecDepth 16384

noncomputable section

open scoped BigOperators

namespace Cert.KernelIdeal.KVal

open Idealize.ShloMosaic Idealize.ShloMosaic.ValueIdx Idealize.ShloMosaic.TcCoe Idealize.SL.Sem
open Cert.KernelIdeal Cert.KernelIdeal.Gen

/-! ## The first work buffer: the image, position-major, inside a zero border -/

/-- The block's image by position and channel (the block is one image, channel-major). -/
def img (x1 : Vec Ideal S1x64x112x112 .f32) : Fin 112 → Fin 112 → Fin 64 → EReal :=
  fun h w ci => x1 (ix4 (0 : Fin 1) ci h w)

theorem bf16_zero : Ideal.ofBits .bf16 0x0000#16 = 0 := by simp [Ideal.ofBits, Ideal.ieee]

theorem pay2_apply (i) : k0_pay2 (F := Ideal) i = 0 := bf16_zero
theorem pay3_apply (i) : k0_pay3 (F := Ideal) i = 0 := bf16_zero
theorem pay4_apply (i) : k0_pay4 (F := Ideal) i = 0 := bf16_zero
theorem pay5_apply (i) : k0_pay5 (F := Ideal) i = 0 := bf16_zero
theorem pay8_apply (i) : k0_pay8 (F := Ideal) i = 0 := bf16_zero
theorem pay12_apply (i) : k0_pay12 (F := Ideal) i = 0 := bf16_zero
theorem pay13_apply (i) : k0_pay13 (F := Ideal) i = 0 := bf16_zero
theorem pay14_apply (i) : k0_pay14 (F := Ideal) i = 0 := bf16_zero
theorem pay15_apply (i) : k0_pay15 (F := Ideal) i = 0 := bf16_zero

/-- The stored image: the two transpositions take channel-major to position-major. -/
theorem pay6_apply (x1 : Vec Ideal S1x64x112x112 .f32) (h w : Fin 112) (ci : Fin 64) :
    k0_pay6 (F := Ideal) x1 (ix3 h w ci) = img x1 h w ci := by
  unfold k0_pay6
  dsimp only
  rw [shapeCast_self]
  refine (transpose_ix3_021_apply _ _ h w ci).trans ?_
  refine (Layout3.transpose_ix3_102_apply _ _ h ci w).trans ?_
  exact shapeCast_1abc_abc_apply x1 _ ci h w

/-- A load through the whole buffer of a whole memref held at contents `X` reads `X`. -/
theorem readAt_whole {s : Shape} {e : EltTy} (m : Memref sig .tc .vmem s e) (hm : m.IsWhole) (X : s.Idx → Elt Ideal e)
    {off : Fin s.rank → ℕ} (h0 : off = fun _ => 0) (inb : ∀ a, off a + s.size a ≤ s.size a) :
    View.readAt (Elt Ideal) m.view (Rect.unit off s.size inb).toLoadRect (hm.unread X) = X := by
  rw [View.readAt_eq_ld, hm.read_unread, View.ld_unit_zero h0]

theorem zero4 : (![0, 0, 0, 0] : Fin 4 → ℕ) = fun _ => 0 := by funext a; fin_cases a <;> rfl
theorem zero3 : (![0, 0, 0] : Fin 3 → ℕ) = fun _ => 0 := by funext a; fin_cases a <;> rfl
theorem zero2 : (![0, 0] : Fin 2 → ℕ) = fun _ => 0 := by funext a; fin_cases a <;> rfl

set_option maxHeartbeats 1000000 in
/-- What the first work buffer holds after its five stores, anywhere in columns 7 to 120: the image
    inside a zero border, column 7 being the border's left edge. -/
theorem xh_read (c : Dev nD) (arg1 : Memref sig .tc .vmem S1x64x112x112 .f32) (harg1 : arg1.IsWhole)
    (arg8 : Memref sig .tc .vmem S114x128x64 .bf16) (harg8 : arg8.IsWhole)
    (x1 : Vec Ideal S1x64x112x112 .f32) (s8 : Vec Ideal S114x128x64 .bf16)
    (r : Fin 114) (q : Fin 128) (ci : Fin 64) (hq : 7 ≤ q.val ∧ q.val ≤ 120) :
    View.canon (bodyRun.sl.H8_5 (F := Ideal) c arg1 harg1 arg8 harg8 x1 s8) (ix3 r q ci)
      = Vgg.halo (img x1) r.val (q.val - 7) ci := by
  unfold bodyRun.sl.H8_5 bodyRun.sl.H8_3 bodyRun.sl.H8_2
  refine (haloCanon (Val := Elt Ideal) (e := .bf16) (C := 64) (0 : EReal) _ _ _ _ _ _ _ _ _
    pay5_apply pay4_apply pay3_apply pay2_apply _ _ _ _ _ _ _ _ _ r q ci hq).trans ?_
  unfold Vgg.halo
  by_cases hI : (1 ≤ r.val ∧ r.val ≤ 112) ∧ (8 ≤ q.val ∧ q.val ≤ 119)
  · rw [dif_pos hI, dif_pos (show (1 ≤ r.val ∧ r.val ≤ 112) ∧ (1 ≤ q.val - 7 ∧ q.val - 7 ≤ 112) by omega)]
    rw [readAt_whole arg1 harg1 x1 zero4]
    refine (pay6_apply x1 _ _ ci).trans ?_
    exact congrArg (fun t => img x1 _ t ci) (Fin.ext (show q.val - 8 = q.val - 7 - 1 by omega))
  · rw [dif_neg hI, dif_neg (show ¬((1 ≤ r.val ∧ r.val ≤ 112) ∧ (1 ≤ q.val - 7 ∧ q.val - 7 ≤ 112)) by omega)]

end Cert.KernelIdeal.KVal

end
-- ==== Proof.KForm.lean ====
import proofs.«120882_g2000303031884594_pallasbulk_961_21_alg».proof.Proof.Spec

/-!
# The fused arrangement of the two convolutions

The three horizontal taps are merged along the contracted axis and the three vertical taps are packed
along the output axis: one matrix product over a row of the framed image gives, in its three column
thirds, the three vertical taps' contributions, which differ only by a row shift.  For the first
layer the 3·64 merged channels are padded with zeros to 256; the second layer splits the horizontal
taps into a pair (256 merged channels) and a single one (128).
-/

noncomputable section

open scoped BigOperators

namespace Vgg

/-- The first layer's merged row: channel `k < 192` is horizontal tap `k / 64`, image channel
    `k % 64`; the 64 channels above are zero. -/
def cat1 (inp : ℕ → ℕ → Fin 64 → EReal) (r w : ℕ) (k : Fin 256) : EReal :=
  if h : k.val < 192 then inp r (w + k.val / 64) ⟨k.val % 64, Nat.mod_lt _ (by omega)⟩ else 0

/-- The second layer's merged pair: channel `k` is horizontal tap `k / 128` (0 or 1), channel `k % 128`. -/
def cat2 (inp : ℕ → ℕ → Fin 128 → EReal) (r w : ℕ) (k : Fin 256) : EReal :=
  inp r (w + k.val / 128) ⟨k.val % 128, Nat.mod_lt _ (by omega)⟩

/-- A product with a packed weight matrix, at frame row `r`, column `w`, packed output column `n`. -/
def prod {K : ℕ} (cat : ℕ → ℕ → Fin K → EReal) (W : Fin K → Fin 384 → EReal) (r w : ℕ) (n : Fin 384) : EReal :=
  ∑ k : Fin K, cat r w k * W k n

/-- The three column thirds of a packed product recombined with their row shifts. -/
def shifts (p : ℕ → ℕ → Fin 384 → EReal) (h w : ℕ) (c : Fin 128) : EReal :=
  (p h w ⟨c.val, by omega⟩ + p (h + 1) w ⟨128 + c.val, by omega⟩) + p (h + 2) w ⟨256 + c.val, by omega⟩

/-- The first layer as the fused kernel computes it. -/
def klayer1 (img : Fin 112 → Fin 112 → Fin 64 → EReal) (W : Fin 256 → Fin 384 → EReal) (b : Fin 128 → EReal) :
    Fin 112 → Fin 112 → Fin 128 → EReal :=
  fun h w c => max (shifts (prod (cat1 (halo img)) W) h.val w.val c + b c) 0

/-- The second layer as the fused kernel computes it: the pair's product, then the third tap's added. -/
def klayer2 (img : Fin 112 → Fin 112 → Fin 128 → EReal) (Wa : Fin 256 → Fin 384 → EReal) (Wb : Fin 128 → Fin 384 → EReal)
    (b : Fin 128 → EReal) : Fin 112 → Fin 112 → Fin 128 → EReal :=
  fun h w c => max ((shifts (prod (cat2 (halo img)) Wa) h.val w.val c
      + shifts (prod (fun r w k => halo img r (w + 2) k) Wb) h.val w.val c) + b c) 0

/-- The fused kernel's block, position-major. -/
def kblock (img : Fin 112 → Fin 112 → Fin 64 → EReal) (W0 : Fin 256 → Fin 384 → EReal) (b0 : Fin 128 → EReal)
    (Wa : Fin 256 → Fin 384 → EReal) (Wb : Fin 128 → Fin 384 → EReal) (b1 : Fin 128 → EReal) :
    Fin 56 → Fin 56 → Fin 128 → EReal :=
  pool (klayer2 (klayer1 img W0 b0) Wa Wb b1)

end Vgg

end
-- ==== Proof.KIVal2.lean ====
import proofs.«120882_g2000303031884594_pallasbulk_961_21_alg».proof.Proof.KIVal1
import proofs.«120882_g2000303031884594_pallasbulk_961_21_alg».proof.Proof.KForm

set_option maxRecDepth 16384

noncomputable section

open scoped BigOperators

namespace Cert.KernelIdeal.KVal

open Idealize.ShloMosaic Idealize.ShloMosaic.ValueIdx Idealize.ShloMosaic.TcCoe Idealize.SL.Sem
open Cert.KernelIdeal Cert.KernelIdeal.Gen

/-! ## The first product: the merged row against the packed weights -/

variable (c : Dev nD)
  (arg1 : Memref sig .tc .vmem S1x64x112x112 .f32) (harg1 : arg1.IsWhole)
  (arg2 : Memref sig .tc .vmem S256x384 .bf16) (harg2 : arg2.IsWhole)
  (arg3 : Memref sig .tc .vmem S256x384 .bf16) (harg3 : arg3.IsWhole)
  (arg4 : Memref sig .tc .vmem S128x384 .bf16) (harg4 : arg4.IsWhole)
  (arg5 : Memref sig .tc .vmem S1x128 .f32) (harg5 : arg5.IsWhole)
  (arg6 : Memref sig .tc .vmem S1x128 .f32) (harg6 : arg6.IsWhole)
  (arg8 : Memref sig .tc .vmem S114x128x64 .bf16) (harg8 : arg8.IsWhole)
  (arg9 : Memref sig .tc .vmem S114x112x256 .bf16)
  (arg10 : Memref sig .tc .vmem S114x128x128 .bf16) (harg10 : arg10.IsWhole)
  (arg11 : Memref sig .tc .vmem S114x112x384 .f32)
  (arg12 : Memref sig .tc .vmem S12544x128 .f32)
  (x1 : Vec Ideal S1x64x112x112 .f32) (x2 x3 : Vec Ideal S256x384 .bf16) (x4 : Vec Ideal S128x384 .bf16)
  (x5 x6 : Vec Ideal S1x128 .f32) (s8 : Vec Ideal S114x128x64 .bf16) (s10 : Vec Ideal S114x128x128 .bf16)

theorem v24_apply (r : Fin 114) (w : Fin 112) (ci : Fin 64) :
    bodyRun.sl.v (F := Ideal) c arg1 harg1 arg8 harg8 x1 s8 (ix3 r w ci) = Vgg.halo (img x1) r.val (w.val + 0) ci := by
  unfold bodyRun.sl.v
  refine (View.readCov_unit3_apply arg8.view _ _ (ix3 r w ci) (ix3 r ⟨7 + w.val, by omega⟩ ci)
    (show r.val = 0 + r.val by omega) rfl (show ci.val = 0 + ci.val by omega)).trans ?_
  refine (xh_read c arg1 harg1 arg8 harg8 x1 s8 r ⟨7 + w.val, by omega⟩ ci
    ⟨show 7 ≤ 7 + w.val by omega, show 7 + w.val ≤ 120 by omega⟩).trans ?_
  exact congrArg (fun t => Vgg.halo (img x1) r.val t ci) (show 7 + w.val - 7 = w.val + 0 by omega)

theorem v25_apply (r : Fin 114) (w : Fin 112) (ci : Fin 64) :
    bodyRun.sl.v25 (F := Ideal) c arg1 harg1 arg8 harg8 x1 s8 (ix3 r w ci) = Vgg.halo (img x1) r.val (w.val + 1) ci := by
  unfold bodyRun.sl.v25
  refine (View.readCov_unit3_apply arg8.view _ _ (ix3 r w ci) (ix3 r ⟨8 + w.val, by omega⟩ ci)
    (show r.val = 0 + r.val by omega) rfl (show ci.val = 0 + ci.val by omega)).trans ?_
  refine (xh_read c arg1 harg1 arg8 harg8 x1 s8 r ⟨8 + w.val, by omega⟩ ci
    ⟨show 7 ≤ 8 + w.val by omega, show 8 + w.val ≤ 120 by omega⟩).trans ?_
  exact congrArg (fun t => Vgg.halo (img x1) r.val t ci) (show 8 + w.val - 7 = w.val + 1 by omega)

theorem v26_apply (r : Fin 114) (w : Fin 112) (ci : Fin 64) :
    bodyRun.sl.v26 (F := Ideal) c arg1 harg1 arg8 harg8 x1 s8 (ix3 r w ci) = Vgg.halo (img x1) r.val (w.val + 2) ci := by
  unfold bodyRun.sl.v26
  refine (View.readCov_unit3_apply arg8.view _ _ (ix3 r w ci) (ix3 r ⟨9 + w.val, by omega⟩ ci)
    (show r.val = 0 + r.val by omega) rfl (show ci.val = 0 + ci.val by omega)).trans ?_
  refine (xh_read c arg1 harg1 arg8 harg8 x1 s8 r ⟨9 + w.val, by omega⟩ ci
    ⟨show 7 ≤ 9 + w.val by omega, show 9 + w.val ≤ 120 by omega⟩).trans ?_
  exact congrArg (fun t => Vgg.halo (img x1) r.val t ci) (show 9 + w.val - 7 = w.val + 2 by omega)

set_option maxHeartbeats 1000000 in
/-- The merged row as the second work buffer holds it: three shifted windows side by side, then zeros. -/
theorem v35_apply (r : Fin 114) (w : Fin 112) (k : Fin 256) :
    bodyRun.sl.v35 (F := Ideal) c arg1 harg1 arg8 harg8 arg9 x1 s8 (ix3 r w k)
      = Vgg.cat1 (Vgg.halo (img x1)) r.val w.val k := by
  unfold bodyRun.sl.v35
  refine (View.readCov_unit3_apply arg9.view _ _ (ix3 r w k) (ix3 r w k)
    (show r.val = 0 + r.val by omega) (show w.val = 0 + w.val by omega) (show k.val = 0 + k.val by omega)).trans ?_
  unfold bodyRun.sl.H9_2 Vgg.cat1
  by_cases hk : k.val < 192
  · rw [dif_pos hk]
    rw [View.canon_cons_unit3_of_not_mem _ _ _ (ix3 r w k) 2 (show k.val < 192 ∨ 192 + 64 ≤ k.val from Or.inl hk)]
    refine (View.canon_cons_unit3_of_mem _ _ _ (ix3 r w k) r w ⟨k.val, hk⟩
      (show r.val = 0 + r.val by omega) (show w.val = 0 + w.val by omega) (show k.val = 0 + k.val by omega)).trans ?_
    unfold k0_pay7
    (try dsimp only)
    rw [shapeCast_self]
    have hc := Layout3.concat3_axis2_apply (bodyRun.sl.v (F := Ideal) c arg1 harg1 arg8 harg8 x1 s8)
      (bodyRun.sl.v25 (F := Ideal) c arg1 harg1 arg8 harg8 x1 s8) (bodyRun.sl.v26 (F := Ideal) c arg1 harg1 arg8 harg8 x1 s8)
      concatenates_S114x112x64_S114x112x64_S114x112x64_S114x112x192_d2 r w ⟨k.val, hk⟩ ⟨k.val % 64, Nat.mod_lt _ (by omega)⟩
    rcases (show k.val / 64 = 0 ∨ k.val / 64 = 1 ∨ k.val / 64 = 2 by omega) with h0 | h1 | h2
    · refine (hc.1 (show k.val = k.val % 64 by omega)).trans ?_
      rw [v24_apply, h0]
    · refine (hc.2.1 (show k.val = 64 + k.val % 64 by omega)).trans ?_
      rw [v25_apply, h1]
    · refine (hc.2.2 (show k.val = 64 + 64 + k.val % 64 by omega)).trans ?_
      rw [v26_apply, h2]
  · rw [dif_neg hk]
    refine (View.canon_cons_unit3_of_mem _ _ _ (ix3 r w k) r w ⟨k.val - 192, by omega⟩
      (show r.val = 0 + r.val by omega) (show w.val = 0 + w.val by omega) (show k.val = 192 + (k.val - 192) by omega)).trans ?_
    exact pay8_apply _

/-- A reshaped product at an index: row `r · 112 + w` of the flattened rows against column `n`. -/
theorem pay9_apply (v35 : Vec Ideal S114x112x256 .bf16) (v37 : Vec Ideal S256x384 .bf16) (r : Fin 114) (w : Fin 112) (n : Fin 384) :
    k0_pay9 (F := Ideal) v35 v37 (ix3 r w n) = ∑ k : Fin 256, v35 (ix3 r w k) * v37 (ix2 k n) := by
  unfold k0_pay9
  (try dsimp only)
  rw [shapeCast_self]
  refine (LayoutRead.shapeCast_mc_abc_apply _ _ r w n ⟨r.val * 112 + w.val, by omega⟩ rfl).trans ?_
  refine (PlainDot.matmul_zero_apply (M := 12768) (K := 256) (N := 384) none _ _ ⟨r.val * 112 + w.val, by omega⟩ n).trans ?_
  refine Finset.sum_congr rfl fun k _ => ?_
  rw [LayoutRead.shapeCast_abc_mc_apply _ _ r w k ⟨r.val * 112 + w.val, by omega⟩ rfl, shapeCast_self]

/-- The first packed product as a function of the block's image and the packed weights. -/
def P1 (x1 : Vec Ideal S1x64x112x112 .f32) (x2 : Vec Ideal S256x384 .bf16) : ℕ → ℕ → Fin 384 → EReal :=
  Vgg.prod (Vgg.cat1 (Vgg.halo (img x1))) (fun k n => x2 (ix2 k n))

theorem p1_apply (r : Fin 114) (w : Fin 112) (n : Fin 384) :
    k0_pay9 (F := Ideal) (bodyRun.sl.v35 (F := Ideal) c arg1 harg1 arg8 harg8 arg9 x1 s8) x2 (ix3 r w n)
      = P1 x1 x2 r.val w.val n := by
  rw [pay9_apply]
  unfold P1 Vgg.prod
  exact Finset.sum_congr rfl fun k _ => by rw [v35_apply]

theorem v44_apply (h w : Fin 112) (cc : Fin 128) :
    bodyRun.sl.v44 (F := Ideal) c arg1 harg1 arg2 harg2 arg8 harg8 arg9 arg11 x1 x2 s8 (ix3 h w cc)
      = P1 x1 x2 (h.val) w.val ⟨cc.val, by omega⟩ := by
  unfold bodyRun.sl.v44
  refine (View.readCov_unit3_apply arg11.view _ _ (ix3 h w cc) (ix3 ⟨h.val, by omega⟩ w ⟨cc.val, by omega⟩)
    (show h.val = 0 + h.val by omega) (show w.val = 0 + w.val by omega) (show cc.val = 0 + cc.val by omega)).trans ?_
  unfold bodyRun.sl.H11_1
  rw [View.canon_unit_zero zero3, readAt_whole arg2 harg2 x2 zero2]
  exact p1_apply c arg1 harg1 arg8 harg8 arg9 x1 x2 s8 ⟨h.val, by omega⟩ w ⟨cc.val, by omega⟩

theorem v45_apply (h w : Fin 112) (cc : Fin 128) :
    bodyRun.sl.v45 (F := Ideal) c arg1 harg1 arg2 harg2 arg8 harg8 arg9 arg11 x1 x2 s8 (ix3 h w cc)
      = P1 x1 x2 (h.val + 1) w.val ⟨128 + cc.val, by omega⟩ := by
  unfold bodyRun.sl.v45
  refine (View.readCov_unit3_apply arg11.view _ _ (ix3 h w cc) (ix3 ⟨h.val + 1, by omega⟩ w ⟨128 + cc.val, by omega⟩)
    (show h.val + 1 = 1 + h.val by omega) (show w.val = 0 + w.val by omega) (show 128 + cc.val = 128 + cc.val by omega)).trans ?_
  unfold bodyRun.sl.H11_1
  rw [View.canon_unit_zero zero3, readAt_whole arg2 harg2 x2 zero2]
  exact p1_apply c arg1 harg1 arg8 harg8 arg9 x1 x2 s8 ⟨h.val + 1, by omega⟩ w ⟨128 + cc.val, by omega⟩

theorem v47_apply (h w : Fin 112) (cc : Fin 128) :
    bodyRun.sl.v47 (F := Ideal) c arg1 harg1 arg2 harg2 arg8 harg8 arg9 arg11 x1 x2 s8 (ix3 h w cc)
      = P1 x1 x2 (h.val + 2) w.val ⟨256 + cc.val, by omega⟩ := by
  unfold bodyRun.sl.v47
  refine (View.readCov_unit3_apply arg11.view _ _ (ix3 h w cc) (ix3 ⟨h.val + 2, by omega⟩ w ⟨256 + cc.val, by omega⟩)
    (show h.val + 2 = 2 + h.val by omega) (show w.val = 0 + w.val by omega) (show 256 + cc.val = 256 + cc.val by omega)).trans ?_
  unfold bodyRun.sl.H11_1
  rw [View.canon_unit_zero zero3, readAt_whole arg2 harg2 x2 zero2]
  exact p1_apply c arg1 harg1 arg8 harg8 arg9 x1 x2 s8 ⟨h.val + 2, by omega⟩ w ⟨256 + cc.val, by omega⟩

/-- The first accumulator: the three column thirds with their row shifts. -/
theorem r_apply (h w : Fin 112) (cc : Fin 128) (p : Fin 12544) (hp : p.val = h.val * 112 + w.val) :
    bodyRun.sl.r (F := Ideal) c arg1 harg1 arg2 harg2 arg8 harg8 arg9 arg11 x1 x2 s8 (ix2 p cc) = Vgg.shifts (P1 x1 x2) h.val w.val cc := by
  unfold bodyRun.sl.r k0_pay10
  (try dsimp only)
  refine (LayoutRead.shapeCast_abc_mc_apply _ _ h w cc p hp).trans ?_
  rw [addf_apply, addf_apply, v44_apply, v45_apply, v47_apply]
  rfl

theorem v53_eq :
    bodyRun.sl.v53 (F := Ideal) c arg1 harg1 arg2 harg2 arg8 harg8 arg9 arg11 arg12 x1 x2 s8
      = bodyRun.sl.r (F := Ideal) c arg1 harg1 arg2 harg2 arg8 harg8 arg9 arg11 x1 x2 s8 := by
  unfold bodyRun.sl.v53 bodyRun.sl.H12_1
  rw [View.readCov_cons_toLoadRect]
  unfold k0_pay11
  (try dsimp only)
  rw [shapeCast_self]

theorem f32_zero : (Scalar.ofBits (F := Ideal) .f32 0x00000000#32) = 0 := Ideal.ofBits_zero_f32

/-- The first activation at a position: the accumulator plus the bias, rectified. -/
theorem pay16_apply (v53 : Vec Ideal S12544x128 .f32) (v54 : Vec Ideal S1x128 .f32) (h w : Fin 112) (cc : Fin 128) :
    k0_pay16 (F := Ideal) v53 v54 (ix3 h w cc)
      = max (v53 (ix2 ⟨h.val * 112 + w.val, by omega⟩ cc) + v54 (ix2 (0 : Fin 1) cc)) 0 := by
  unfold k0_pay16
  (try dsimp only)
  rw [shapeCast_self]
  refine (LayoutRead.shapeCast_mc_abc_apply _ _ h w cc ⟨h.val * 112 + w.val, by omega⟩ rfl).trans ?_
  rw [truncf_apply, maximumf_apply, addf_apply, shapeCast_self, broadcastTo_1b_ab_apply, broadcast_apply, f32_zero]

end Cert.KernelIdeal.KVal

end
-- ==== Proof.KIVal3.lean ====
import proofs.«120882_g2000303031884594_pallasbulk_961_21_alg».proof.Proof.KIVal2

set_option maxRecDepth 16384

noncomputable section

open scoped BigOperators

namespace Cert.KernelIdeal.KVal

open Idealize.ShloMosaic Idealize.ShloMosaic.ValueIdx Idealize.ShloMosaic.TcCoe Idealize.SL.Sem
open Cert.KernelIdeal Cert.KernelIdeal.Gen

/-! ## The second layer: the first activation inside a zero border, two more products -/

variable (c : Dev nD)
  (arg1 : Memref sig .tc .vmem S1x64x112x112 .f32) (harg1 : arg1.IsWhole)
  (arg2 : Memref sig .tc .vmem S256x384 .bf16) (harg2 : arg2.IsWhole)
  (arg3 : Memref sig .tc .vmem S256x384 .bf16) (harg3 : arg3.IsWhole)
  (arg4 : Memref sig .tc .vmem S128x384 .bf16) (harg4 : arg4.IsWhole)
  (arg5 : Memref sig .tc .vmem S1x128 .f32) (harg5 : arg5.IsWhole)
  (arg6 : Memref sig .tc .vmem S1x128 .f32) (harg6 : arg6.IsWhole)
  (arg8 : Memref sig .tc .vmem S114x128x64 .bf16) (harg8 : arg8.IsWhole)
  (arg9 : Memref sig .tc .vmem S114x112x256 .bf16)
  (arg10 : Memref sig .tc .vmem S114x128x128 .bf16) (harg10 : arg10.IsWhole)
  (arg11 : Memref sig .tc .vmem S114x112x384 .f32)
  (arg12 : Memref sig .tc .vmem S12544x128 .f32)
  (x1 : Vec Ideal S1x64x112x112 .f32) (x2 x3 : Vec Ideal S256x384 .bf16) (x4 : Vec Ideal S128x384 .bf16)
  (x5 x6 : Vec Ideal S1x128 .f32) (s8 : Vec Ideal S114x128x64 .bf16) (s10 : Vec Ideal S114x128x128 .bf16)

/-- The first activation as a function of the block's inputs. -/
def A1 (x1 : Vec Ideal S1x64x112x112 .f32) (x2 : Vec Ideal S256x384 .bf16) (x5 : Vec Ideal S1x128 .f32) :
    Fin 112 → Fin 112 → Fin 128 → EReal :=
  Vgg.klayer1 (img x1) (fun k n => x2 (ix2 k n)) (fun cc => x5 (ix2 (0 : Fin 1) cc))

theorem a1_apply (h w : Fin 112) (cc : Fin 128) :
    k0_pay16 (F := Ideal) (bodyRun.sl.v53 (F := Ideal) c arg1 harg1 arg2 harg2 arg8 harg8 arg9 arg11 arg12 x1 x2 s8)
      (View.readAt (Elt Ideal) arg5.view (Rect.unit ![0, 0] S1x128.size inb_S1x128_S1x128_0_0).toLoadRect (harg5.unread x5)) (ix3 h w cc)
      = A1 x1 x2 x5 h w cc := by
  rw [pay16_apply, v53_eq, r_apply c arg1 harg1 arg2 harg2 arg8 harg8 arg9 arg11 x1 x2 s8 h w cc _ rfl,
    readAt_whole arg5 harg5 x5 zero2]
  rfl

set_option maxHeartbeats 1000000 in
/-- What the third work buffer holds after its five stores, anywhere in columns 7 to 120. -/
theorem c1_read (r : Fin 114) (q : Fin 128) (ci : Fin 128) (hq : 7 ≤ q.val ∧ q.val ≤ 120) :
    View.canon (bodyRun.sl.H10_5 (F := Ideal) c arg1 harg1 arg2 harg2 arg5 harg5 arg8 harg8 arg9 arg10 harg10 arg11 arg12 x1 x2 x5 s8 s10) (ix3 r q ci)
      = Vgg.halo (A1 x1 x2 x5) r.val (q.val - 7) ci := by
  unfold bodyRun.sl.H10_5 bodyRun.sl.H10_3 bodyRun.sl.H10_2
  refine (haloCanon (Val := Elt Ideal) (e := .bf16) (C := 128) (0 : EReal) _ _ _ _ _ _ _ _ _
    pay15_apply pay14_apply pay13_apply pay12_apply _ _ _ _ _ _ _ _ _ r q ci hq).trans ?_
  unfold Vgg.halo
  by_cases hI : (1 ≤ r.val ∧ r.val ≤ 112) ∧ (8 ≤ q.val ∧ q.val ≤ 119)
  · rw [dif_pos hI, dif_pos (show (1 ≤ r.val ∧ r.val ≤ 112) ∧ (1 ≤ q.val - 7 ∧ q.val - 7 ≤ 112) by omega)]
    refine (a1_apply c arg1 harg1 arg2 harg2 arg5 harg5 arg8 harg8 arg9 arg11 arg12 x1 x2 x5 s8 _ _ ci).trans ?_
    exact congrArg (fun t => A1 x1 x2 x5 _ t ci) (Fin.ext (show q.val - 8 = q.val - 7 - 1 by omega))
  · rw [dif_neg hI, dif_neg (show ¬((1 ≤ r.val ∧ r.val ≤ 112) ∧ (1 ≤ q.val - 7 ∧ q.val - 7 ≤ 112)) by omega)]

theorem v81_apply (r : Fin 114) (w : Fin 112) (ci : Fin 128) :
    bodyRun.sl.v81 (F := Ideal) c arg1 harg1 arg2 harg2 arg5 harg5 arg8 harg8 arg9 arg10 harg10 arg11 arg12 x1 x2 x5 s8 s10 (ix3 r w ci) = Vgg.halo (A1 x1 x2 x5) r.val (w.val + 0) ci := by
  unfold bodyRun.sl.v81
  refine (View.readCov_unit3_apply arg10.view _ _ (ix3 r w ci) (ix3 r ⟨7 + w.val, by omega⟩ ci)
    (show r.val = 0 + r.val by omega) rfl (show ci.val = 0 + ci.val by omega)).trans ?_
  refine (c1_read c arg1 harg1 arg2 harg2 arg5 harg5 arg8 harg8 arg9 arg10 harg10 arg11 arg12 x1 x2 x5 s8 s10 r ⟨7 + w.val, by omega⟩ ci
    ⟨show 7 ≤ 7 + w.val by omega, show 7 + w.val ≤ 120 by omega⟩).trans ?_
  exact congrArg (fun t => Vgg.halo (A1 x1 x2 x5) r.val t ci) (show 7 + w.val - 7 = w.val + 0 by omega)

theorem v82_apply (r : Fin 114) (w : Fin 112) (ci : Fin 128) :
    bodyRun.sl.v82 (F := Ideal) c arg1 harg1 arg2 harg2 arg5 harg5 arg8 harg8 arg9 arg10 harg10 arg11 arg12 x1 x2 x5 s8 s10 (ix3 r w ci) = Vgg.halo (A1 x1 x2 x5) r.val (w.val + 1) ci := by
  unfold bodyRun.sl.v82
  refine (View.readCov_unit3_apply arg10.view _ _ (ix3 r w ci) (ix3 r ⟨8 + w.val, by omega⟩ ci)
    (show r.val = 0 + r.val by omega) rfl (show ci.val = 0 + ci.val by omega)).trans ?_
  refine (c1_read c arg1 harg1 arg2 harg2 arg5 harg5 arg8 harg8 arg9 arg10 harg10 arg11 arg12 x1 x2 x5 s8 s10 r ⟨8 + w.val, by omega⟩ ci
    ⟨show 7 ≤ 8 + w.val by omega, show 8 + w.val ≤ 120 by omega⟩).trans ?_
  exact congrArg (fun t => Vgg.halo (A1 x1 x2 x5) r.val t ci) (show 8 + w.val - 7 = w.val + 1 by omega)

theorem v105_apply (r : Fin 114) (w : Fin 112) (ci : Fin 128) :
    bodyRun.sl.v105 (F := Ideal) c arg1 harg1 arg2 harg2 arg5 harg5 arg8 harg8 arg9 arg10 harg10 arg11 arg12 x1 x2 x5 s8 s10 (ix3 r w ci) = Vgg.halo (A1 x1 x2 x5) r.val (w.val + 2) ci := by
  unfold bodyRun.sl.v105
  refine (View.readCov_unit3_apply arg10.view _ _ (ix3 r w ci) (ix3 r ⟨9 + w.val, by omega⟩ ci)
    (show r.val = 0 + r.val by omega) rfl (show ci.val = 0 + ci.val by omega)).trans ?_
  refine (c1_read c arg1 harg1 arg2 harg2 arg5 harg5 arg8 harg8 arg9 arg10 harg10 arg11 arg12 x1 x2 x5 s8 s10 r ⟨9 + w.val, by omega⟩ ci
    ⟨show 7 ≤ 9 + w.val by omega, show 9 + w.val ≤ 120 by omega⟩).trans ?_
  exact congrArg (fun t => Vgg.halo (A1 x1 x2 x5) r.val t ci) (show 9 + w.val - 7 = w.val + 2 by omega)

/-- The merged pair as the second work buffer holds it the second time. -/
theorem v87_apply (r : Fin 114) (w : Fin 112) (k : Fin 256) :
    bodyRun.sl.v87 (F := Ideal) c arg1 harg1 arg2 harg2 arg5 harg5 arg8 harg8 arg9 arg10 harg10 arg11 arg12 x1 x2 x5 s8 s10 (ix3 r w k) = Vgg.cat2 (Vgg.halo (A1 x1 x2 x5)) r.val w.val k := by
  unfold bodyRun.sl.v87 bodyRun.sl.H9_3
  rw [View.readCov_cons_toLoadRect]
  unfold k0_pay17 Vgg.cat2
  (try dsimp only)
  rw [shapeCast_self]
  have hc := Layout3.concat2_axis2_apply (bodyRun.sl.v81 (F := Ideal) c arg1 harg1 arg2 harg2 arg5 harg5 arg8 harg8 arg9 arg10 harg10 arg11 arg12 x1 x2 x5 s8 s10) (bodyRun.sl.v82 (F := Ideal) c arg1 harg1 arg2 harg2 arg5 harg5 arg8 harg8 arg9 arg10 harg10 arg11 arg12 x1 x2 x5 s8 s10)
    concatenates_S114x112x128_S114x112x128_S114x112x256_d2 r w k ⟨k.val % 128, Nat.mod_lt _ (by omega)⟩
  rcases (show k.val / 128 = 0 ∨ k.val / 128 = 1 by omega) with h0 | h1
  · refine (hc.1 (show k.val = k.val % 128 by omega)).trans ?_
    rw [v81_apply, h0]
  · refine (hc.2 (show k.val = 128 + k.val % 128 by omega)).trans ?_
    rw [v82_apply, h1]

theorem pay18_apply (v87 : Vec Ideal S114x112x256 .bf16) (v89 : Vec Ideal S256x384 .bf16) (r : Fin 114) (w : Fin 112) (n : Fin 384) :
    k0_pay18 (F := Ideal) v87 v89 (ix3 r w n) = ∑ k : Fin 256, v87 (ix3 r w k) * v89 (ix2 k n) := by
  unfold k0_pay18
  (try dsimp only)
  rw [shapeCast_self]
  refine (LayoutRead.shapeCast_mc_abc_apply _ _ r w n ⟨r.val * 112 + w.val, by omega⟩ rfl).trans ?_
  refine (PlainDot.matmul_zero_apply (M := 12768) (K := 256) (N := 384) none _ _ ⟨r.val * 112 + w.val, by omega⟩ n).trans ?_
  refine Finset.sum_congr rfl fun k _ => ?_
  rw [LayoutRead.shapeCast_abc_mc_apply _ _ r w k ⟨r.val * 112 + w.val, by omega⟩ rfl, shapeCast_self]

/-- The pair's packed product. -/
def P2a (x1 : Vec Ideal S1x64x112x112 .f32) (x2 x3 : Vec Ideal S256x384 .bf16) (x5 : Vec Ideal S1x128 .f32) : ℕ → ℕ → Fin 384 → EReal :=
  Vgg.prod (Vgg.cat2 (Vgg.halo (A1 x1 x2 x5))) (fun k n => x3 (ix2 k n))

theorem p2a_apply (r : Fin 114) (w : Fin 112) (n : Fin 384) :
    k0_pay18 (F := Ideal) (bodyRun.sl.v87 (F := Ideal) c arg1 harg1 arg2 harg2 arg5 harg5 arg8 harg8 arg9 arg10 harg10 arg11 arg12 x1 x2 x5 s8 s10) x3 (ix3 r w n) = P2a x1 x2 x3 x5 r.val w.val n := by
  rw [pay18_apply]
  unfold P2a Vgg.prod
  exact Finset.sum_congr rfl fun k _ => by rw [v87_apply]

theorem v96_apply (h w : Fin 112) (cc : Fin 128) :
    bodyRun.sl.v96 (F := Ideal) c arg1 harg1 arg2 harg2 arg3 harg3 arg5 harg5 arg8 harg8 arg9 arg10 harg10 arg11 arg12 x1 x2 x3 x5 s8 s10 (ix3 h w cc)
      = P2a x1 x2 x3 x5 (h.val) w.val ⟨cc.val, by omega⟩ := by
  unfold bodyRun.sl.v96
  refine (View.readCov_unit3_apply arg11.view _ _ (ix3 h w cc) (ix3 ⟨h.val, by omega⟩ w ⟨cc.val, by omega⟩)
    (show h.val = 0 + h.val by omega) (show w.val = 0 + w.val by omega) (show cc.val = 0 + cc.val by omega)).trans ?_
  unfold bodyRun.sl.H11_2
  rw [View.canon_cons_unit_zero zero3, readAt_whole arg3 harg3 x3 zero2]
  exact p2a_apply c arg1 harg1 arg2 harg2 arg5 harg5 arg8 harg8 arg9 arg10 harg10 arg11 arg12 x1 x2 x3 x5 s8 s10 ⟨h.val, by omega⟩ w ⟨cc.val, by omega⟩

theorem v97_apply (h w : Fin 112) (cc : Fin 128) :
    bodyRun.sl.v97 (F := Ideal) c arg1 harg1 arg2 harg2 arg3 harg3 arg5 harg5 arg8 harg8 arg9 arg10 harg10 arg11 arg12 x1 x2 x3 x5 s8 s10 (ix3 h w cc)
      = P2a x1 x2 x3 x5 (h.val + 1) w.val ⟨128 + cc.val, by omega⟩ := by
  unfold bodyRun.sl.v97
  refine (View.readCov_unit3_apply arg11.view _ _ (ix3 h w cc) (ix3 ⟨h.val + 1, by omega⟩ w ⟨128 + cc.val, by omega⟩)
    (show h.val + 1 = 1 + h.val by omega) (show w.val = 0 + w.val by omega) (show 128 + cc.val = 128 + cc.val by omega)).trans ?_
  unfold bodyRun.sl.H11_2
  rw [View.canon_cons_unit_zero zero3, readAt_whole arg3 harg3 x3 zero2]
  exact p2a_apply c arg1 harg1 arg2 harg2 arg5 harg5 arg8 harg8 arg9 arg10 harg10 arg11 arg12 x1 x2 x3 x5 s8 s10 ⟨h.val + 1, by omega⟩ w ⟨128 + cc.val, by omega⟩

theorem v99_apply (h w : Fin 112) (cc : Fin 128) :
    bodyRun.sl.v99 (F := Ideal) c arg1 harg1 arg2 harg2 arg3 harg3 arg5 harg5 arg8 harg8 arg9 arg10 harg10 arg11 arg12 x1 x2 x3 x5 s8 s10 (ix3 h w cc)
      = P2a x1 x2 x3 x5 (h.val + 2) w.val ⟨256 + cc.val, by omega⟩ := by
  unfold bodyRun.sl.v99
  refine (View.readCov_unit3_apply arg11.view _ _ (ix3 h w cc) (ix3 ⟨h.val + 2, by omega⟩ w ⟨256 + cc.val, by omega⟩)
    (show h.val + 2 = 2 + h.val by omega) (show w.val = 0 + w.val by omega) (show 256 + cc.val = 256 + cc.val by omega)).trans ?_
  unfold bodyRun.sl.H11_2
  rw [View.canon_cons_unit_zero zero3, readAt_whole arg3 harg3 x3 zero2]
  exact p2a_apply c arg1 harg1 arg2 harg2 arg5 harg5 arg8 harg8 arg9 arg10 harg10 arg11 arg12 x1 x2 x3 x5 s8 s10 ⟨h.val + 2, by omega⟩ w ⟨256 + cc.val, by omega⟩

end Cert.KernelIdeal.KVal

end
-- ==== Proof.KIVal4.lean ====
import proofs.«120882_g2000303031884594_pallasbulk_961_21_alg».proof.Proof.KIVal3

set_option maxRecDepth 16384

noncomputable section

open scoped BigOperators

namespace Cert.KernelIdeal.KVal

open Idealize.ShloMosaic Idealize.ShloMosaic.ValueIdx Idealize.ShloMosaic.TcCoe Idealize.SL.Sem
open Cert.KernelIdeal Cert.KernelIdeal.Gen

/-! ## The second accumulator, the third tap, the pooling -/

variable (c : Dev nD)
  (arg1 : Memref sig .tc .vmem S1x64x112x112 .f32) (harg1 : arg1.IsWhole)
  (arg2 : Memref sig .tc .vmem S256x384 .bf16) (harg2 : arg2.IsWhole)
  (arg3 : Memref sig .tc .vmem S256x384 .bf16) (harg3 : arg3.IsWhole)
  (arg4 : Memref sig .tc .vmem S128x384 .bf16) (harg4 : arg4.IsWhole)
  (arg5 : Memref sig .tc .vmem S1x128 .f32) (harg5 : arg5.IsWhole)
  (arg6 : Memref sig .tc .vmem S1x128 .f32) (harg6 : arg6.IsWhole)
  (arg8 : Memref sig .tc .vmem S114x128x64 .bf16) (harg8 : arg8.IsWhole)
  (arg9 : Memref sig .tc .vmem S114x112x256 .bf16)
  (arg10 : Memref sig .tc .vmem S114x128x128 .bf16) (harg10 : arg10.IsWhole)
  (arg11 : Memref sig .tc .vmem S114x112x384 .f32)
  (arg12 : Memref sig .tc .vmem S12544x128 .f32)
  (x1 : Vec Ideal S1x64x112x112 .f32) (x2 x3 : Vec Ideal S256x384 .bf16) (x4 : Vec Ideal S128x384 .bf16)
  (x5 x6 : Vec Ideal S1x128 .f32) (s8 : Vec Ideal S114x128x64 .bf16) (s10 : Vec Ideal S114x128x128 .bf16)

theorem pay19_apply (v96 v97 v99 : Vec Ideal S112x112x128 .f32) (h w : Fin 112) (cc : Fin 128) (p : Fin 12544)
    (hp : p.val = h.val * 112 + w.val) :
    k0_pay19 (F := Ideal) v96 v97 v99 (ix2 p cc) = (v96 (ix3 h w cc) + v97 (ix3 h w cc)) + v99 (ix3 h w cc) := by
  unfold k0_pay19
  (try dsimp only)
  rw [shapeCast_self]
  refine (LayoutRead.shapeCast_abc_mc_apply _ _ h w cc p hp).trans ?_
  rw [addf_apply, addf_apply]

/-- The pair's accumulator read back. -/
theorem v114_apply (h w : Fin 112) (cc : Fin 128) (p : Fin 12544) (hp : p.val = h.val * 112 + w.val) :
    bodyRun.sl.v114 (F := Ideal) c arg1 harg1 arg2 harg2 arg3 harg3 arg5 harg5 arg8 harg8 arg9 arg10 harg10 arg11 arg12 x1 x2 x3 x5 s8 s10 (ix2 p cc) = Vgg.shifts (P2a x1 x2 x3 x5) h.val w.val cc := by
  unfold bodyRun.sl.v114 bodyRun.sl.H12_2
  rw [View.readCov_cons_toLoadRect, pay19_apply _ _ _ h w cc p hp, v96_apply, v97_apply, v99_apply]
  rfl

/-- The third tap's rows, flattened. -/
theorem r1_apply (r : Fin 114) (w : Fin 112) (k : Fin 128) (q : Fin 12768) (hq : q.val = r.val * 112 + w.val) :
    bodyRun.sl.r_1 (F := Ideal) c arg1 harg1 arg2 harg2 arg5 harg5 arg8 harg8 arg9 arg10 harg10 arg11 arg12 x1 x2 x5 s8 s10 (ix2 q k) = Vgg.halo (A1 x1 x2 x5) r.val (w.val + 2) k := by
  unfold bodyRun.sl.r_1 k0_pay20
  (try dsimp only)
  refine (LayoutRead.shapeCast_abc_mc_apply _ _ r w k q hq).trans ?_
  exact v105_apply c arg1 harg1 arg2 harg2 arg5 harg5 arg8 harg8 arg9 arg10 harg10 arg11 arg12 x1 x2 x5 s8 s10 r w k

theorem pay21_apply (v106 : FVec Ideal S12768x128 .bf16) (v107 : Vec Ideal S128x384 .bf16) (r : Fin 114) (w : Fin 112) (n : Fin 384) :
    k0_pay21 (F := Ideal) v106 v107 (ix3 r w n)
      = ∑ k : Fin 128, v106 (ix2 ⟨r.val * 112 + w.val, by omega⟩ k) * v107 (ix2 k n) := by
  unfold k0_pay21
  (try dsimp only)
  rw [shapeCast_self]
  refine (LayoutRead.shapeCast_mc_abc_apply _ _ r w n ⟨r.val * 112 + w.val, by omega⟩ rfl).trans ?_
  refine (PlainDot.matmul_zero_apply (M := 12768) (K := 128) (N := 384) none _ _ ⟨r.val * 112 + w.val, by omega⟩ n).trans ?_
  refine Finset.sum_congr rfl fun k _ => ?_
  rw [shapeCast_self]

/-- The third tap's packed product. -/
def P2b (x1 : Vec Ideal S1x64x112x112 .f32) (x2 : Vec Ideal S256x384 .bf16) (x4 : Vec Ideal S128x384 .bf16) (x5 : Vec Ideal S1x128 .f32) :
    ℕ → ℕ → Fin 384 → EReal :=
  Vgg.prod (fun r w k => Vgg.halo (A1 x1 x2 x5) r (w + 2) k) (fun k n => x4 (ix2 k n))

theorem p2b_apply (r : Fin 114) (w : Fin 112) (n : Fin 384) :
    k0_pay21 (F := Ideal) (bodyRun.sl.r_1 (F := Ideal) c arg1 harg1 arg2 harg2 arg5 harg5 arg8 harg8 arg9 arg10 harg10 arg11 arg12 x1 x2 x5 s8 s10) x4 (ix3 r w n) = P2b x1 x2 x4 x5 r.val w.val n := by
  rw [pay21_apply]
  unfold P2b Vgg.prod
  exact Finset.sum_congr rfl fun k _ => by rw [r1_apply c arg1 harg1 arg2 harg2 arg5 harg5 arg8 harg8 arg9 arg10 harg10 arg11 arg12 x1 x2 x5 s8 s10 r w k _ rfl]

theorem v115_apply (h w : Fin 112) (cc : Fin 128) :
    bodyRun.sl.v115 (F := Ideal) c arg1 harg1 arg2 harg2 arg3 harg3 arg4 harg4 arg5 harg5 arg8 harg8 arg9 arg10 harg10 arg11 arg12 x1 x2 x3 x4 x5 s8 s10 (ix3 h w cc)
      = P2b x1 x2 x4 x5 (h.val) w.val ⟨cc.val, by omega⟩ := by
  unfold bodyRun.sl.v115
  refine (View.readCov_unit3_apply arg11.view _ _ (ix3 h w cc) (ix3 ⟨h.val, by omega⟩ w ⟨cc.val, by omega⟩)
    (show h.val = 0 + h.val by omega) (show w.val = 0 + w.val by omega) (show cc.val = 0 + cc.val by omega)).trans ?_
  unfold bodyRun.sl.H11_3
  rw [View.canon_cons_unit_zero zero3, readAt_whole arg4 harg4 x4 zero2]
  exact p2b_apply c arg1 harg1 arg2 harg2 arg5 harg5 arg8 harg8 arg9 arg10 harg10 arg11 arg12 x1 x2 x4 x5 s8 s10 ⟨h.val, by omega⟩ w ⟨cc.val, by omega⟩

theorem v116_apply (h w : Fin 112) (cc : Fin 128) :
    bodyRun.sl.v116 (F := Ideal) c arg1 harg1 arg2 harg2 arg3 harg3 arg4 harg4 arg5 harg5 arg8 harg8 arg9 arg10 harg10 arg11 arg12 x1 x2 x3 x4 x5 s8 s10 (ix3 h w cc)
      = P2b x1 x2 x4 x5 (h.val + 1) w.val ⟨128 + cc.val, by omega⟩ := by
  unfold bodyRun.sl.v116
  refine (View.readCov_unit3_apply arg11.view _ _ (ix3 h w cc) (ix3 ⟨h.val + 1, by omega⟩ w ⟨128 + cc.val, by omega⟩)
    (show h.val + 1 = 1 + h.val by omega) (show w.val = 0 + w.val by omega) (show 128 + cc.val = 128 + cc.val by omega)).trans ?_
  unfold bodyRun.sl.H11_3
  rw [View.canon_cons_unit_zero zero3, readAt_whole arg4 harg4 x4 zero2]
  exact p2b_apply c arg1 harg1 arg2 harg2 arg5 harg5 arg8 harg8 arg9 arg10 harg10 arg11 arg12 x1 x2 x4 x5 s8 s10 ⟨h.val + 1, by omega⟩ w ⟨128 + cc.val, by omega⟩

theorem v118_apply (h w : Fin 112) (cc : Fin 128) :
    bodyRun.sl.v118 (F := Ideal) c arg1 harg1 arg2 harg2 arg3 harg3 arg4 harg4 arg5 harg5 arg8 harg8 arg9 arg10 harg10 arg11 arg12 x1 x2 x3 x4 x5 s8 s10 (ix3 h w cc)
      = P2b x1 x2 x4 x5 (h.val + 2) w.val ⟨256 + cc.val, by omega⟩ := by
  unfold bodyRun.sl.v118
  refine (View.readCov_unit3_apply arg11.view _ _ (ix3 h w cc) (ix3 ⟨h.val + 2, by omega⟩ w ⟨256 + cc.val, by omega⟩)
    (show h.val + 2 = 2 + h.val by omega) (show w.val = 0 + w.val by omega) (show 256 + cc.val = 256 + cc.val by omega)).trans ?_
  unfold bodyRun.sl.H11_3
  rw [View.canon_cons_unit_zero zero3, readAt_whole arg4 harg4 x4 zero2]
  exact p2b_apply c arg1 harg1 arg2 harg2 arg5 harg5 arg8 harg8 arg9 arg10 harg10 arg11 arg12 x1 x2 x4 x5 s8 s10 ⟨h.val + 2, by omega⟩ w ⟨256 + cc.val, by omega⟩

theorem pay22_apply (v114 : Vec Ideal S12544x128 .f32) (v115 v116 v118 : Vec Ideal S112x112x128 .f32)
    (h w : Fin 112) (cc : Fin 128) (p : Fin 12544) (hp : p.val = h.val * 112 + w.val) :
    k0_pay22 (F := Ideal) v114 v115 v116 v118 (ix2 p cc)
      = v114 (ix2 p cc) + ((v115 (ix3 h w cc) + v116 (ix3 h w cc)) + v118 (ix3 h w cc)) := by
  unfold k0_pay22
  (try dsimp only)
  rw [shapeCast_self, addf_apply]
  congr 1
  refine (LayoutRead.shapeCast_abc_mc_apply _ _ h w cc p hp).trans ?_
  rw [addf_apply, addf_apply]

/-- The second accumulator read back: the pair's thirds plus the third tap's. -/
theorem v125_apply (h w : Fin 112) (cc : Fin 128) (p : Fin 12544) (hp : p.val = h.val * 112 + w.val) :
    bodyRun.sl.v125 (F := Ideal) c arg1 harg1 arg2 harg2 arg3 harg3 arg4 harg4 arg5 harg5 arg8 harg8 arg9 arg10 harg10 arg11 arg12 x1 x2 x3 x4 x5 s8 s10 (ix2 p cc)
      = Vgg.shifts (P2a x1 x2 x3 x5) h.val w.val cc + Vgg.shifts (P2b x1 x2 x4 x5) h.val w.val cc := by
  unfold bodyRun.sl.v125 bodyRun.sl.H12_3
  rw [View.readCov_cons_toLoadRect, pay22_apply _ _ _ _ h w cc p hp, v114_apply c arg1 harg1 arg2 harg2 arg3 harg3 arg5 harg5 arg8 harg8 arg9 arg10 harg10 arg11 arg12 x1 x2 x3 x5 s8 s10 h w cc p hp,
    v115_apply, v116_apply, v118_apply]
  rfl

end Cert.KernelIdeal.KVal

end
-- ==== Proof.KIVal5.lean ====
import proofs.«120882_g2000303031884594_pallasbulk_961_21_alg».proof.Proof.KIVal4

set_option maxRecDepth 16384

noncomputable section

open scoped BigOperators

namespace Cert.KernelIdeal.KVal

open Idealize.ShloMosaic Idealize.ShloMosaic.ValueIdx Idealize.ShloMosaic.TcCoe Idealize.SL.Sem
open Cert.KernelIdeal Cert.KernelIdeal.Gen

/-! ## The rectified second layer pooled 2×2, and the block the body leaves -/

variable (c : Dev nD)
  (arg1 : Memref sig .tc .vmem S1x64x112x112 .f32) (harg1 : arg1.IsWhole)
  (arg2 : Memref sig .tc .vmem S256x384 .bf16) (harg2 : arg2.IsWhole)
  (arg3 : Memref sig .tc .vmem S256x384 .bf16) (harg3 : arg3.IsWhole)
  (arg4 : Memref sig .tc .vmem S128x384 .bf16) (harg4 : arg4.IsWhole)
  (arg5 : Memref sig .tc .vmem S1x128 .f32) (harg5 : arg5.IsWhole)
  (arg6 : Memref sig .tc .vmem S1x128 .f32) (harg6 : arg6.IsWhole)
  (arg8 : Memref sig .tc .vmem S114x128x64 .bf16) (harg8 : arg8.IsWhole)
  (arg9 : Memref sig .tc .vmem S114x112x256 .bf16)
  (arg10 : Memref sig .tc .vmem S114x128x128 .bf16) (harg10 : arg10.IsWhole)
  (arg11 : Memref sig .tc .vmem S114x112x384 .f32)
  (arg12 : Memref sig .tc .vmem S12544x128 .f32)
  (x1 : Vec Ideal S1x64x112x112 .f32) (x2 x3 : Vec Ideal S256x384 .bf16) (x4 : Vec Ideal S128x384 .bf16)
  (x5 x6 : Vec Ideal S1x128 .f32) (s8 : Vec Ideal S114x128x64 .bf16) (s10 : Vec Ideal S114x128x128 .bf16)

/-- The two halves of the last axis compared. -/
theorem pool_cols (v137 : FVec Ideal S56x56x256 .f32) (i j : Fin 56) (cc : Fin 128) :
    maximumf (extractStridedSlice S56x56x128 ![0, 0, 0] v137 slices_S56x56x256_o0_0_0_S56x56x128)
      (extractStridedSlice S56x56x128 ![0, 0, 128] v137 slices_S56x56x256_o0_0_128_S56x56x128) (ix3 i j cc)
    = max (v137 (ix3 i j ⟨cc.val, by omega⟩)) (v137 (ix3 i j ⟨128 + cc.val, by omega⟩)) := by
  show max _ _ = max _ _
  refine congrArg₂ max ?_ ?_
  · exact Layout3.slice3_axis2_apply 0 v137 slices_S56x56x256_o0_0_0_S56x56x128 i j cc ⟨cc.val, by omega⟩ (show cc.val = 0 + cc.val by omega)
  · exact Layout3.slice3_axis2_apply 128 v137 slices_S56x56x256_o0_0_128_S56x56x128 i j cc ⟨128 + cc.val, by omega⟩ rfl

/-- The two rows of a pair compared (the second axis of `[56, 2, 56, 2·128]`). -/
theorem pool_rows (v132 : FVec Ideal S56x2x56x256 .f32) (i j : Fin 56) (l : Fin 256) :
    (maximumf (shapeCast S56x56x256 (extractStridedSlice S56x1x56x256 ![0, 0, 0, 0] v132 slices_S56x2x56x256_o0_0_0_0_S56x1x56x256) shapeCasts_S56x1x56x256_S56x56x256) (shapeCast S56x56x256 (extractStridedSlice S56x1x56x256 ![0, 1, 0, 0] v132 slices_S56x2x56x256_o0_1_0_0_S56x1x56x256) shapeCasts_S56x1x56x256_S56x56x256)) (ix3 i j l) = max (v132 (ix4 i (0 : Fin 2) j l)) (v132 (ix4 i (1 : Fin 2) j l)) := by
  show max _ _ = max _ _
  refine congrArg₂ max ?_ ?_
  · refine (Layout3.shapeCast_a1bc_abc_apply (extractStridedSlice S56x1x56x256 ![0, 0, 0, 0] v132 slices_S56x2x56x256_o0_0_0_0_S56x1x56x256) shapeCasts_S56x1x56x256_S56x56x256 i j l).trans ?_
    exact slice4_axis1_apply 0 v132 slices_S56x2x56x256_o0_0_0_0_S56x1x56x256 i (0 : Fin 1) j l (0 : Fin 2) rfl
  · refine (Layout3.shapeCast_a1bc_abc_apply (extractStridedSlice S56x1x56x256 ![0, 1, 0, 0] v132 slices_S56x2x56x256_o0_1_0_0_S56x1x56x256) shapeCasts_S56x1x56x256_S56x56x256 i j l).trans ?_
    exact slice4_axis1_apply 1 v132 slices_S56x2x56x256_o0_1_0_0_S56x1x56x256 i (0 : Fin 1) j l (1 : Fin 2) rfl

/-- The pooling's layout work on an array already seen as `[56, 2, 56, 2·128]`: the maximum over the
    row pair (second axis), then over the two halves of the last axis. -/
theorem pool_core (v132 : FVec Ideal S56x2x56x256 .f32) (i j : Fin 56) (cc : Fin 128) :
    maximumf (extractStridedSlice S56x56x128 ![0, 0, 0] (maximumf (shapeCast S56x56x256 (extractStridedSlice S56x1x56x256 ![0, 0, 0, 0] v132 slices_S56x2x56x256_o0_0_0_0_S56x1x56x256) shapeCasts_S56x1x56x256_S56x56x256) (shapeCast S56x56x256 (extractStridedSlice S56x1x56x256 ![0, 1, 0, 0] v132 slices_S56x2x56x256_o0_1_0_0_S56x1x56x256) shapeCasts_S56x1x56x256_S56x56x256)) slices_S56x56x256_o0_0_0_S56x56x128)
      (extractStridedSlice S56x56x128 ![0, 0, 128] (maximumf (shapeCast S56x56x256 (extractStridedSlice S56x1x56x256 ![0, 0, 0, 0] v132 slices_S56x2x56x256_o0_0_0_0_S56x1x56x256) shapeCasts_S56x1x56x256_S56x56x256) (shapeCast S56x56x256 (extractStridedSlice S56x1x56x256 ![0, 1, 0, 0] v132 slices_S56x2x56x256_o0_1_0_0_S56x1x56x256) shapeCasts_S56x1x56x256_S56x56x256)) slices_S56x56x256_o0_0_128_S56x56x128) (ix3 i j cc)
    = max (max (v132 (ix4 i (0 : Fin 2) j ⟨cc.val, by omega⟩)) (v132 (ix4 i (1 : Fin 2) j ⟨cc.val, by omega⟩)))
        (max (v132 (ix4 i (0 : Fin 2) j ⟨128 + cc.val, by omega⟩)) (v132 (ix4 i (1 : Fin 2) j ⟨128 + cc.val, by omega⟩))) :=
  (pool_cols (maximumf (shapeCast S56x56x256 (extractStridedSlice S56x1x56x256 ![0, 0, 0, 0] v132 slices_S56x2x56x256_o0_0_0_0_S56x1x56x256) shapeCasts_S56x1x56x256_S56x56x256) (shapeCast S56x56x256 (extractStridedSlice S56x1x56x256 ![0, 1, 0, 0] v132 slices_S56x2x56x256_o0_1_0_0_S56x1x56x256) shapeCasts_S56x1x56x256_S56x56x256)) i j cc).trans (congrArg₂ max (pool_rows v132 i j _) (pool_rows v132 i j _))

set_option maxHeartbeats 2000000 in
/-- The pooling payload: rows of 112 pixels seen as `[56, 2, 56, 2·128]`, the maximum over the row
    pair, then over the column pair. -/
theorem pay23_apply (v125 : Vec Ideal S12544x128 .f32) (v126 : Vec Ideal S1x128 .f32) (i j : Fin 56) (cc : Fin 128) :
    k0_pay23 (F := Ideal) v125 v126 (ix3 i j cc)
      = Vgg.pool (fun h w c => max (v125 (ix2 ⟨h.val * 112 + w.val, by omega⟩ c) + v126 (ix2 (0 : Fin 1) c)) 0) i j cc := by
  -- the rectified sum at a pixel row
  have hrelu : ∀ (q : Fin 12544) (k : Fin 128),
      maximumf (addf v125 (broadcastTo S12544x128 (shapeCast S1x128 v126 shapeCasts_S1x128_S1x128) broadcasts_S1x128_S12544x128))
        (broadcast S12544x128 (Scalar.ofBits (F := Ideal) .f32 0x00000000#32)) (ix2 q k)
        = max (v125 (ix2 q k) + v126 (ix2 (0 : Fin 1) k)) 0 := fun q k => by
    rw [maximumf_apply, addf_apply, shapeCast_self, broadcastTo_1b_ab_apply, broadcast_apply, f32_zero]
  -- one corner of the 2×2 window: row parity `s`, column parity `dj`
  have hcorner : ∀ (s dj : Fin 2) (l : Fin 256) (hl : l.val = 128 * dj.val + cc.val),
      shapeCast S56x2x56x256 (maximumf (addf v125 (broadcastTo S12544x128 (shapeCast S1x128 v126 shapeCasts_S1x128_S1x128) broadcasts_S1x128_S12544x128))
        (broadcast S12544x128 (Scalar.ofBits (F := Ideal) .f32 0x00000000#32))) shapeCasts_S12544x128_S56x2x56x256 (ix4 i s j l)
        = max (v125 (ix2 ⟨(2 * i.val + s.val) * 112 + (2 * j.val + dj.val), by omega⟩ cc) + v126 (ix2 (0 : Fin 1) cc)) 0 :=
    fun s dj l hl => by
      refine (Layout3.shapeCast_mc_aubd_apply (maximumf (addf v125 (broadcastTo S12544x128 (shapeCast S1x128 v126 shapeCasts_S1x128_S1x128) broadcasts_S1x128_S12544x128)) (broadcast S12544x128 (Scalar.ofBits (F := Ideal) .f32 0x00000000#32))) shapeCasts_S12544x128_S56x2x56x256 i s j l ⟨(2 * i.val + s.val) * 112 + (2 * j.val + dj.val), by omega⟩ cc
        (show ((2 * i.val + s.val) * 112 + (2 * j.val + dj.val)) * 128 + cc.val = ((i.val * 2 + s.val) * 56 + j.val) * 256 + l.val by omega)).trans ?_
      exact hrelu _ _
  unfold k0_pay23 Vgg.pool
  (try dsimp only)
  refine (pool_core (shapeCast S56x2x56x256 (maximumf (addf v125 (broadcastTo S12544x128 (shapeCast S1x128 v126 shapeCasts_S1x128_S1x128) broadcasts_S1x128_S12544x128)) (broadcast S12544x128 (Scalar.ofBits (F := Ideal) .f32 0x00000000#32))) shapeCasts_S12544x128_S56x2x56x256) i j cc).trans ?_
  refine congrArg₂ max (congrArg₂ max ?_ ?_) (congrArg₂ max ?_ ?_)
  · exact hcorner 0 0 ⟨cc.val, by omega⟩ (by simp)
  · exact hcorner 1 0 ⟨cc.val, by omega⟩ (by simp)
  · exact hcorner 0 1 ⟨128 + cc.val, by omega⟩ (by simp)
  · exact hcorner 1 1 ⟨128 + cc.val, by omega⟩ (by simp)

theorem pay1_apply (v140 : FVec Ideal S56x56x128 .f32) (u : Fin 1) (i j : Fin 56) (cc : Fin 128) :
    k0_pay1 (F := Ideal) v140 (ix4 u i j cc) = v140 (ix3 i j cc) := by
  unfold k0_pay1
  (try dsimp only)
  exact (shapeCast_abc_1abc_apply _ _ u i j cc).trans (truncf_apply _ _ _)

/-- The block the body leaves: the fused arrangement of the block's image against the packed weights. -/
def outBlock (x1 : Vec Ideal S1x64x112x112 .f32) (x2 x3 : Vec Ideal S256x384 .bf16) (x4 : Vec Ideal S128x384 .bf16)
    (x5 x6 : Vec Ideal S1x128 .f32) : Vec Ideal S1x56x56x128 .bf16 :=
  fun y => Vgg.kblock (img x1) (fun k n => x2 (ix2 k n)) (fun cc => x5 (ix2 (0 : Fin 1) cc))
    (fun k n => x3 (ix2 k n)) (fun k n => x4 (ix2 k n)) (fun cc => x6 (ix2 (0 : Fin 1) cc)) (y 1) (y 2) (y 3)

theorem r2_apply (i j : Fin 56) (cc : Fin 128) :
    bodyRun.sl.r_2 (F := Ideal) c arg1 harg1 arg2 harg2 arg3 harg3 arg4 harg4 arg5 harg5 arg6 harg6 arg8 harg8 arg9 arg10 harg10 arg11 arg12 x1 x2 x3 x4 x5 x6 s8 s10 (ix3 i j cc)
      = Vgg.kblock (img x1) (fun k n => x2 (ix2 k n)) (fun cc => x5 (ix2 (0 : Fin 1) cc))
          (fun k n => x3 (ix2 k n)) (fun k n => x4 (ix2 k n)) (fun cc => x6 (ix2 (0 : Fin 1) cc)) i j cc := by
  unfold bodyRun.sl.r_2
  rw [pay23_apply, readAt_whole arg6 harg6 x6 zero2]
  unfold Vgg.kblock
  refine congrArg (fun a => Vgg.pool a i j cc) (funext fun h => funext fun w => funext fun c' => ?_)
  rw [v125_apply c arg1 harg1 arg2 harg2 arg3 harg3 arg4 harg4 arg5 harg5 arg8 harg8 arg9 arg10 harg10 arg11 arg12 x1 x2 x3 x4 x5 s8 s10 h w c' _ rfl]
  rfl

end Cert.KernelIdeal.KVal

end
-- ==== Proof.KIFrame.lean ====
import proofs.«120882_g2000303031884594_pallasbulk_961_21_alg».proof.Proof.KIVal5

set_option maxRecDepth 16384

noncomputable section

namespace Cert.KernelIdeal.KFrame

open Cert.KernelIdeal Cert.KernelIdeal.Gen Cert.KernelIdeal.KVal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The body on whole staging memrefs, its output block named -/

/-- The output block after the body: the canon of the run's one store. -/
def outK (c : Dev nD) (i : grid0.Coords) (arg1 : Memref sig .tc .vmem S1x64x112x112 .f32) (harg1 : arg1.IsWhole) (arg2 : Memref sig .tc .vmem S256x384 .bf16) (harg2 : arg2.IsWhole) (arg3 : Memref sig .tc .vmem S256x384 .bf16) (harg3 : arg3.IsWhole) (arg4 : Memref sig .tc .vmem S128x384 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x56x56x128 .bf16) (harg7 : arg7.IsWhole) (arg8 : Memref sig .tc .vmem S114x128x64 .bf16) (harg8 : arg8.IsWhole) (arg9 : Memref sig .tc .vmem S114x112x256 .bf16) (harg9 : arg9.IsWhole) (arg10 : Memref sig .tc .vmem S114x128x128 .bf16) (harg10 : arg10.IsWhole) (arg11 : Memref sig .tc .vmem S114x112x384 .f32) (harg11 : arg11.IsWhole) (arg12 : Memref sig .tc .vmem S12544x128 .f32) (harg12 : arg12.IsWhole)
    (x1 : Vec Ideal S1x64x112x112 .f32) (x2 : Vec Ideal S256x384 .bf16) (x3 : Vec Ideal S256x384 .bf16) (x4 : Vec Ideal S128x384 .bf16) (x5 : Vec Ideal S1x128 .f32) (x6 : Vec Ideal S1x128 .f32) (s8 : Vec Ideal S114x128x64 .bf16) (s9 : Vec Ideal S114x112x256 .bf16) (s10 : Vec Ideal S114x128x128 .bf16) (s11 : Vec Ideal S114x112x384 .f32) (s12 : Vec Ideal S12544x128 .f32) : Vec Ideal S1x56x56x128 .bf16 :=
  View.canon (bodyRun (F := Ideal) c i arg1 harg1 arg2 harg2 arg3 harg3 arg4 harg4 arg5 harg5 arg6 harg6 arg7 harg7 arg8 harg8 arg9 harg9 arg10 harg10 arg11 harg11 arg12 harg12 x1 x2 x3 x4 x5 x6 s8 s9 s10 s11 s12).1

theorem cover7 (c : Dev nD) (i : grid0.Coords) (arg1 : Memref sig .tc .vmem S1x64x112x112 .f32) (harg1 : arg1.IsWhole) (arg2 : Memref sig .tc .vmem S256x384 .bf16) (harg2 : arg2.IsWhole) (arg3 : Memref sig .tc .vmem S256x384 .bf16) (harg3 : arg3.IsWhole) (arg4 : Memref sig .tc .vmem S128x384 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x56x56x128 .bf16) (harg7 : arg7.IsWhole) (arg8 : Memref sig .tc .vmem S114x128x64 .bf16) (harg8 : arg8.IsWhole) (arg9 : Memref sig .tc .vmem S114x112x256 .bf16) (harg9 : arg9.IsWhole) (arg10 : Memref sig .tc .vmem S114x128x128 .bf16) (harg10 : arg10.IsWhole) (arg11 : Memref sig .tc .vmem S114x112x384 .f32) (harg11 : arg11.IsWhole) (arg12 : Memref sig .tc .vmem S12544x128 .f32) (harg12 : arg12.IsWhole)
    (x1 : Vec Ideal S1x64x112x112 .f32) (x2 : Vec Ideal S256x384 .bf16) (x3 : Vec Ideal S256x384 .bf16) (x4 : Vec Ideal S128x384 .bf16) (x5 : Vec Ideal S1x128 .f32) (x6 : Vec Ideal S1x128 .f32) (s8 : Vec Ideal S114x128x64 .bf16) (s9 : Vec Ideal S114x112x256 .bf16) (s10 : Vec Ideal S114x128x128 .bf16) (s11 : Vec Ideal S114x112x384 .f32) (s12 : Vec Ideal S12544x128 .f32) (y : S1x56x56x128.Idx) :
    ∃ p ∈ (bodyRun (F := Ideal) c i arg1 harg1 arg2 harg2 arg3 harg3 arg4 harg4 arg5 harg5 arg6 harg6 arg7 harg7 arg8 harg8 arg9 harg9 arg10 harg10 arg11 harg11 arg12 harg12 x1 x2 x3 x4 x5 x6 s8 s9 s10 s11 s12).1, y ∈ p.1.set :=
  ⟨_, List.Mem.head _, View.mem_set_unit_zero zero4 inb_S1x56x56x128_S1x56x56x128_0_0_0_0 y⟩

/-- At the ideal values the block is the fused arrangement of the input blocks, whatever the work buffers held. -/
theorem outK_eq (c : Dev nD) (i : grid0.Coords) (arg1 : Memref sig .tc .vmem S1x64x112x112 .f32) (harg1 : arg1.IsWhole) (arg2 : Memref sig .tc .vmem S256x384 .bf16) (harg2 : arg2.IsWhole) (arg3 : Memref sig .tc .vmem S256x384 .bf16) (harg3 : arg3.IsWhole) (arg4 : Memref sig .tc .vmem S128x384 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x56x56x128 .bf16) (harg7 : arg7.IsWhole) (arg8 : Memref sig .tc .vmem S114x128x64 .bf16) (harg8 : arg8.IsWhole) (arg9 : Memref sig .tc .vmem S114x112x256 .bf16) (harg9 : arg9.IsWhole) (arg10 : Memref sig .tc .vmem S114x128x128 .bf16) (harg10 : arg10.IsWhole) (arg11 : Memref sig .tc .vmem S114x112x384 .f32) (harg11 : arg11.IsWhole) (arg12 : Memref sig .tc .vmem S12544x128 .f32) (harg12 : arg12.IsWhole)
    (x1 : Vec Ideal S1x64x112x112 .f32) (x2 : Vec Ideal S256x384 .bf16) (x3 : Vec Ideal S256x384 .bf16) (x4 : Vec Ideal S128x384 .bf16) (x5 : Vec Ideal S1x128 .f32) (x6 : Vec Ideal S1x128 .f32) (s8 : Vec Ideal S114x128x64 .bf16) (s9 : Vec Ideal S114x112x256 .bf16) (s10 : Vec Ideal S114x128x128 .bf16) (s11 : Vec Ideal S114x112x384 .f32) (s12 : Vec Ideal S12544x128 .f32) :
    outK c i arg1 harg1 arg2 harg2 arg3 harg3 arg4 harg4 arg5 harg5 arg6 harg6 arg7 harg7 arg8 harg8 arg9 harg9 arg10 harg10 arg11 harg11 arg12 harg12 x1 x2 x3 x4 x5 x6 s8 s9 s10 s11 s12 = outBlock x1 x2 x3 x4 x5 x6 := by
  unfold outK
  show View.canon [(⟨Rect.unit ![0, 0, 0, 0] S1x56x56x128.size inb_S1x56x56x128_S1x56x56x128_0_0_0_0, k0_pay1 (bodyRun.sl.r_2 (F := Ideal) c arg1 harg1 arg2 harg2 arg3 harg3 arg4 harg4 arg5 harg5 arg6 harg6 arg8 harg8 arg9 arg10 harg10 arg11 arg12 x1 x2 x3 x4 x5 x6 s8 s10)⟩ : View.Piece (Elt Ideal) S1x56x56x128 .bf16)] = _
  rw [View.canon_unit_zero zero4]
  funext y
  obtain ⟨u, i', j, cc, rfl⟩ : ∃ (u : Fin 1) (i' j : Fin 56) (cc : Fin 128), y = ix4 u i' j cc := ⟨y 0, y 1, y 2, y 3, eq_ix4 y⟩
  rw [pay1_apply, r2_apply]
  rfl

/-- The body's triple with the output block named. -/
theorem sound_kernel (c : Dev nD) (E : Set ℕ) (i : grid0.Coords) (arg1 : Memref sig .tc .vmem S1x64x112x112 .f32) (harg1 : arg1.IsWhole) (arg2 : Memref sig .tc .vmem S256x384 .bf16) (harg2 : arg2.IsWhole) (arg3 : Memref sig .tc .vmem S256x384 .bf16) (harg3 : arg3.IsWhole) (arg4 : Memref sig .tc .vmem S128x384 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x56x56x128 .bf16) (harg7 : arg7.IsWhole) (arg8 : Memref sig .tc .vmem S114x128x64 .bf16) (harg8 : arg8.IsWhole) (arg9 : Memref sig .tc .vmem S114x112x256 .bf16) (harg9 : arg9.IsWhole) (arg10 : Memref sig .tc .vmem S114x128x128 .bf16) (harg10 : arg10.IsWhole) (arg11 : Memref sig .tc .vmem S114x112x384 .f32) (harg11 : arg11.IsWhole) (arg12 : Memref sig .tc .vmem S12544x128 .f32) (harg12 : arg12.IsWhole)
    (x1 : Vec Ideal S1x64x112x112 .f32) (x2 : Vec Ideal S256x384 .bf16) (x3 : Vec Ideal S256x384 .bf16) (x4 : Vec Ideal S128x384 .bf16) (x5 : Vec Ideal S1x128 .f32) (x6 : Vec Ideal S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outBlock x1 x2 x3 x4 x5 x6)
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := Ideal)) Variants.none c none) E (cc0__fused_vgg_kernel i arg1 harg1 arg2 harg2 arg3 harg3 arg4 harg4 arg5 harg5 arg6 harg6 arg7 harg7 arg8 harg8 arg9 harg9 arg10 harg10 arg11 harg11 arg12 harg12) K := by
  iintro ⟨H1, H2, H3, H4, H5, H6, H7, ⟨%s8, H8⟩, ⟨%s9, H9⟩, ⟨%s10, H10⟩, ⟨%s11, H11⟩, ⟨%s12, H12⟩, Hk⟩
  iapply ((bodyRun (F := Ideal) c i arg1 harg1 arg2 harg2 arg3 harg3 arg4 harg4 arg5 harg5 arg6 harg6 arg7 harg7 arg8 harg8 arg9 harg9 arg10 harg10 arg11 harg11 arg12 harg12 x1 x2 x3 x4 x5 x6 s8 s9 s10 s11 s12).2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, ⟨%f7, H7⟩, ⟨%f8, H8⟩, ⟨%f9, H9⟩, ⟨%f10, H10⟩, ⟨%f11, H11⟩, ⟨%f12, H12⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns
    iexists _; isplitr
    swap; · iexact H7
    ipureintro
    exact (View.read_writes_eq_canon _ _ _ (cover7 c i arg1 harg1 arg2 harg2 arg3 harg3 arg4 harg4 arg5 harg5 arg6 harg6 arg7 harg7 arg8 harg8 arg9 harg9 arg10 harg10 arg11 harg11 arg12 harg12 x1 x2 x3 x4 x5 x6 s8 s9 s10 s11 s12)).trans
      (outK_eq c i arg1 harg1 arg2 harg2 arg3 harg3 arg4 harg4 arg5 harg5 arg6 harg6 arg7 harg7 arg8 harg8 arg9 harg9 arg10 harg10 arg11 harg11 arg12 harg12 x1 x2 x3 x4 x5 x6 s8 s9 s10 s11 s12)
  isplitl [H8]
  · iexists _; unfold owns; iexists _; isplitr
    swap; · iexact H8
    ipureintro; rfl
  isplitl [H9]
  · iexists _; unfold owns; iexists _; isplitr
    swap; · iexact H9
    ipureintro; rfl
  isplitl [H10]
  · iexists _; unfold owns; iexists _; isplitr
    swap; · iexact H10
    ipureintro; rfl
  isplitl [H11]
  · iexists _; unfold owns; iexists _; isplitr
    swap; · iexact H11
    ipureintro; rfl
  iexists _; unfold owns; iexists _; isplitr
  swap; · iexact H12
  ipureintro; rfl

/-! ## @main around the region -/

variable (m : (ℓ : Loc nD τ sig) → Buf (Elt Ideal) ℓ) (ρ : Dev nD → PrngReg)

/-- Core `c`'s buffer contents when the region is entered: after the host lines before it. -/
abbrev V0 (c : Dev nD) : Valuation τ sig (Elt Ideal) := StableHlo.after (List.flatten [hostOps0, hostOps0_1, hostOps0_2]) (fun b => m (c, b))
abbrev V (c : Dev nD) (b : Ref sig .tc) : Buf (Elt Ideal) ((c : Thread nD τ).loc b) := V0 m c (Proc.devRef .tc b)

theorem hostOps0_fresh : (hostOps0 : List (HloOp τ sig (Elt Ideal))).Forall fun op => op.fresh = ∅ := by
  simp only [List.Forall]; repeat' constructor
theorem hostOps0_1_fresh : (hostOps0_1 : List (HloOp τ sig (Elt Ideal))).Forall fun op => op.fresh = ∅ := by
  simp only [List.Forall]; repeat' constructor
theorem hostOps0_2_fresh : (hostOps0_2 : List (HloOp τ sig (Elt Ideal))).Forall fun op => op.fresh = ∅ := by
  simp only [List.Forall]; repeat' constructor
theorem hostOps1_fresh : (hostOps1 : List (HloOp τ sig (Elt Ideal))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := Ideal)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

theorem sfx_sub : ∀ ops ∈ ([hostOps1] : List (List (HloOp τ sig (Elt Ideal)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt Ideal)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt Ideal)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.unary_writes, Finset.mem_singleton] <;> exact StableHlo.devRef_ne_of_ne (by decide)

/-! ## The windows' blocks and the proof data -/

def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

theorem before0_0_of {c : Dev nD} (dat : Dat τ (Elt Ideal) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt Ideal) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt Ideal) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt Ideal) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt Ideal) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt Ideal) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The output block at point `t`: the fused arrangement of the point's input blocks. -/
def outAt (c : Dev nD) (t : Fin cfg0.N) : Vec Ideal S1x56x56x128 .bf16 :=
  outBlock (iblk m c 0 t) (iblk m c 1 t) (iblk m c 2 t) (iblk m c 3 t) (iblk m c 4 t) (iblk m c 5 t)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

abbrev scM0 : Memref sig .tc .vmem S114x128x64 .bf16 := Memref.whole cc0_scratch0
abbrev scM1 : Memref sig .tc .vmem S114x112x256 .bf16 := Memref.whole cc0_scratch1
abbrev scM2 : Memref sig .tc .vmem S114x128x128 .bf16 := Memref.whole cc0_scratch2
abbrev scM3 : Memref sig .tc .vmem S114x112x384 .f32 := Memref.whole cc0_scratch3
abbrev scM4 : Memref sig .tc .vmem S12544x128 .f32 := Memref.whole cc0_scratch4

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitr [Hg]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats m 0 c) (defs₀ (F := Ideal)) Variants.none () Set.univ := fun t => by
  rw [bigSep_W0, bigSep_W0]
  exact sound_body m c t

set_option backward.isDefEq.respectTransparency.types false in
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.KFrame

end
-- ==== Proof.KAlgebra.lean ====
import proofs.«120882_g2000303031884594_pallasbulk_961_21_alg».proof.Proof.KForm

/-!
# The fused arrangement is the convolution

A sum over `N ≥ A·B` merged channels whose terms vanish from `A·B` on, and are a function of
`(k / B, k % B)` below it, is the double sum over `A` taps and `B` channels.  With the weights packed
accordingly, the three shifted column thirds of the packed product add up to the 3×3 correlation.
-/

noncomputable section

open scoped BigOperators

namespace Vgg

variable {M : Type} [AddCommMonoid M]

/-- Merged channels split into taps and channels, the channels from `A · B` on contributing nothing. -/
theorem sum_merged (A B N : ℕ) (hB : 0 < B) (hN : A * B ≤ N) (g : Fin A → Fin B → M) :
    (∑ k : Fin N, if h : k.val < A * B then
        g ⟨k.val / B, Nat.div_lt_of_lt_mul (by rw [Nat.mul_comm]; exact h)⟩ ⟨k.val % B, Nat.mod_lt _ hB⟩ else 0)
      = ∑ a : Fin A, ∑ b : Fin B, g a b := by
  -- as a sum over the naturals below N, cut at A·B
  let F : ℕ → M := fun k => if h : k < A * B then
    g ⟨k / B, Nat.div_lt_of_lt_mul (by rw [Nat.mul_comm]; exact h)⟩ ⟨k % B, Nat.mod_lt _ hB⟩ else 0
  have e1 : (∑ k : Fin N, if h : k.val < A * B then
        g ⟨k.val / B, Nat.div_lt_of_lt_mul (by rw [Nat.mul_comm]; exact h)⟩ ⟨k.val % B, Nat.mod_lt _ hB⟩ else 0)
      = ∑ k ∈ Finset.range N, F k := (Finset.sum_range F).symm
  have e2 : ∑ k ∈ Finset.range N, F k = ∑ k ∈ Finset.range (A * B), F k := by
    obtain ⟨t, rfl⟩ := Nat.exists_eq_add_of_le hN
    rw [Finset.sum_range_add]
    have : ∑ x ∈ Finset.range t, F (A * B + x) = 0 :=
      Finset.sum_eq_zero fun x _ => dif_neg (by omega)
    rw [this, add_zero]
  rw [e1, e2, Finset.sum_range, ← Equiv.sum_comp finProdFinEquiv, Fintype.sum_prod_type]
  refine Finset.sum_congr rfl fun a _ => Finset.sum_congr rfl fun b _ => ?_
  have hv : (finProdFinEquiv (a, b)).val = b.val + B * a.val := rfl
  show F (finProdFinEquiv (a, b)).val = g a b
  rw [hv]
  have hlt : b.val + B * a.val < A * B := by
    have := a.isLt; have := b.isLt
    calc b.val + B * a.val < B + B * a.val := by omega
      _ = B * (a.val + 1) := by ring
      _ ≤ B * A := Nat.mul_le_mul_left _ (by omega)
      _ = A * B := Nat.mul_comm _ _
  show (if h : b.val + B * a.val < A * B then _ else _) = _
  rw [dif_pos hlt]
  congr 1
  · exact Fin.ext (by
      show (b.val + B * a.val) / B = a.val
      rw [Nat.add_mul_div_left _ _ hB, Nat.div_eq_of_lt b.isLt, Nat.zero_add])
  · exact Fin.ext (by
      show (b.val + B * a.val) % B = b.val
      rw [Nat.add_mul_mod_self_left, Nat.mod_eq_of_lt b.isLt])

/-- The first layer's packed weights: row `k < 192` is (tap `k / 64`, channel `k % 64`), the rows above
    are zero; column `n` is (vertical tap `n / 128`, output channel `n % 128`). -/
def pack0 (W : Fin 3 → Fin 3 → Fin 64 → Fin 128 → EReal) : Fin 256 → Fin 384 → EReal :=
  fun k n => if h : k.val < 192 then
    W ⟨n.val / 128, by omega⟩ ⟨k.val / 64, by omega⟩ ⟨k.val % 64, Nat.mod_lt _ (by omega)⟩ ⟨n.val % 128, Nat.mod_lt _ (by omega)⟩
  else 0

/-- The second layer's packed pair: row `k` is (tap `k / 128` ∈ {0, 1}, channel `k % 128`). -/
def packA (W : Fin 3 → Fin 3 → Fin 128 → Fin 128 → EReal) : Fin 256 → Fin 384 → EReal :=
  fun k n => W ⟨n.val / 128, by omega⟩ ⟨k.val / 128, by omega⟩ ⟨k.val % 128, Nat.mod_lt _ (by omega)⟩ ⟨n.val % 128, Nat.mod_lt _ (by omega)⟩

/-- The second layer's third horizontal tap. -/
def packB (W : Fin 3 → Fin 3 → Fin 128 → Fin 128 → EReal) : Fin 128 → Fin 384 → EReal :=
  fun k n => W ⟨n.val / 128, by omega⟩ 2 k ⟨n.val % 128, Nat.mod_lt _ (by omega)⟩

/-- One packed product of the first layer: the vertical tap `dy`'s two inner sums. -/
theorem prod_pack0 (inp : ℕ → ℕ → Fin 64 → EReal) (W : Fin 3 → Fin 3 → Fin 64 → Fin 128 → EReal) (r w : ℕ)
    (dy : Fin 3) (c : Fin 128) (n : Fin 384) (hn : n.val = 128 * dy.val + c.val) :
    prod (cat1 inp) (pack0 W) r w n = ∑ dx : Fin 3, ∑ ci : Fin 64, inp r (w + dx.val) ci * W dy dx ci c := by
  have hd : (⟨n.val / 128, by omega⟩ : Fin 3) = dy := Fin.ext (by show n.val / 128 = dy.val; omega)
  have hc : (⟨n.val % 128, Nat.mod_lt _ (by omega)⟩ : Fin 128) = c := Fin.ext (by show n.val % 128 = c.val; omega)
  rw [← sum_merged 3 64 256 (by omega) (by omega) (fun dx ci => inp r (w + dx.val) ci * W dy dx ci c)]
  unfold prod cat1 pack0
  refine Finset.sum_congr rfl fun k _ => ?_
  by_cases hk : k.val < 192
  · rw [dif_pos hk, dif_pos hk, dif_pos (show k.val < 3 * 64 by omega), hd, hc]
  · rw [dif_neg hk, dif_neg hk, dif_neg (show ¬ k.val < 3 * 64 by omega), zero_mul]

/-- The first layer's three shifted thirds are the 3×3 correlation. -/
theorem shifts_pack0 (inp : ℕ → ℕ → Fin 64 → EReal) (W : Fin 3 → Fin 3 → Fin 64 → Fin 128 → EReal) (h w : ℕ) (c : Fin 128) :
    shifts (prod (cat1 inp) (pack0 W)) h w c = conv inp W h w c := by
  unfold shifts conv
  rw [prod_pack0 inp W h w 0 c _ (by simp), prod_pack0 inp W (h + 1) w 1 c _ (by simp), prod_pack0 inp W (h + 2) w 2 c _ (by simp)]
  conv_rhs => rw [Fin.sum_univ_three]
  rfl

/-- One packed product of the second layer's pair. -/
theorem prod_packA (inp : ℕ → ℕ → Fin 128 → EReal) (W : Fin 3 → Fin 3 → Fin 128 → Fin 128 → EReal) (r w : ℕ)
    (dy : Fin 3) (c : Fin 128) (n : Fin 384) (hn : n.val = 128 * dy.val + c.val) :
    prod (cat2 inp) (packA W) r w n
      = ∑ dx : Fin 2, ∑ ci : Fin 128, inp r (w + dx.val) ci * W dy ⟨dx.val, by omega⟩ ci c := by
  have hd : (⟨n.val / 128, by omega⟩ : Fin 3) = dy := Fin.ext (by show n.val / 128 = dy.val; omega)
  have hc : (⟨n.val % 128, Nat.mod_lt _ (by omega)⟩ : Fin 128) = c := Fin.ext (by show n.val % 128 = c.val; omega)
  rw [← sum_merged 2 128 256 (by omega) (by omega) (fun dx ci => inp r (w + dx.val) ci * W dy ⟨dx.val, by omega⟩ ci c)]
  unfold prod cat2 packA
  refine Finset.sum_congr rfl fun k _ => ?_
  rw [dif_pos (show k.val < 2 * 128 by omega), hd, hc]

/-- One packed product of the second layer's third tap. -/
theorem prod_packB (inp : ℕ → ℕ → Fin 128 → EReal) (W : Fin 3 → Fin 3 → Fin 128 → Fin 128 → EReal) (r w : ℕ)
    (dy : Fin 3) (c : Fin 128) (n : Fin 384) (hn : n.val = 128 * dy.val + c.val) :
    prod (fun r w k => inp r (w + 2) k) (packB W) r w n = ∑ ci : Fin 128, inp r (w + 2) ci * W dy 2 ci c := by
  have hd : (⟨n.val / 128, by omega⟩ : Fin 3) = dy := Fin.ext (by show n.val / 128 = dy.val; omega)
  have hc : (⟨n.val % 128, Nat.mod_lt _ (by omega)⟩ : Fin 128) = c := Fin.ext (by show n.val % 128 = c.val; omega)
  unfold prod packB
  rw [hd, hc]

/-- The second layer's pair and third tap together are the 3×3 correlation. -/
theorem shifts_packAB (inp : ℕ → ℕ → Fin 128 → EReal) (W : Fin 3 → Fin 3 → Fin 128 → Fin 128 → EReal) (h w : ℕ) (c : Fin 128) :
    shifts (prod (cat2 inp) (packA W)) h w c + shifts (prod (fun r w k => inp r (w + 2) k) (packB W)) h w c
      = conv inp W h w c := by
  unfold shifts conv
  rw [prod_packA inp W h w 0 c _ (by simp), prod_packA inp W (h + 1) w 1 c _ (by simp), prod_packA inp W (h + 2) w 2 c _ (by simp),
    prod_packB inp W h w 0 c _ (by simp), prod_packB inp W (h + 1) w 1 c _ (by simp), prod_packB inp W (h + 2) w 2 c _ (by simp)]
  conv_rhs => rw [Fin.sum_univ_three]
  have e : ∀ dy : Fin 3, (∑ dx : Fin 3, ∑ ci : Fin 128, inp (h + dy.val) (w + dx.val) ci * W dy dx ci c)
      = (∑ dx : Fin 2, ∑ ci : Fin 128, inp (h + dy.val) (w + dx.val) ci * W dy ⟨dx.val, by omega⟩ ci c)
        + ∑ ci : Fin 128, inp (h + dy.val) (w + 2) ci * W dy 2 ci c := fun dy => by
    rw [Fin.sum_univ_three, Fin.sum_univ_two]; rfl
  rw [e 0, e 1, e 2]
  show ((_ + _) + _) + ((_ + _) + _) = ((_ + _) + (_ + _)) + (_ + _)
  ac_rfl

/-- The fused arrangement computes the block. -/
theorem kblock_eq (img : Fin 112 → Fin 112 → Fin 64 → EReal) (W0 : Fin 3 → Fin 3 → Fin 64 → Fin 128 → EReal) (b0 : Fin 128 → EReal)
    (W1 : Fin 3 → Fin 3 → Fin 128 → Fin 128 → EReal) (b1 : Fin 128 → EReal) :
    kblock img (pack0 W0) b0 (packA W1) (packB W1) b1 = pool (layer (layer img W0 b0) W1 b1) := by
  have h1 : klayer1 img (pack0 W0) b0 = layer img W0 b0 := by
    funext h w c; unfold klayer1 layer; rw [shifts_pack0]
  unfold kblock
  rw [h1]
  congr 1
  funext h w c; unfold klayer2 layer; rw [shifts_packAB]

end Vgg

end
-- ==== Proof.KIHost.lean ====
import proofs.«120882_g2000303031884594_pallasbulk_961_21_alg».proof.Proof.KIFrame
import proofs.«120882_g2000303031884594_pallasbulk_961_21_alg».proof.Proof.KAlgebra
import Idealize.ShloMosaic.Lib.StableHlo.Run

set_option maxRecDepth 16384

noncomputable section

namespace Cert.KernelIdeal.KFrame

open Cert.KernelIdeal Cert.KernelIdeal.Gen Cert.KernelIdeal.KVal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What the host lines before the region leave in the packed arrays -/

/-- The first layer's packed weights as the host lines build them: the three vertical taps' `[192, 128]`
    matrices side by side, then 64 rows of the padding value below. -/
def W9 (w : FVec Ideal S3x3x64x128 .f32) : FVec Ideal S256x384 .bf16 :=
  pad S256x384 ![0, 0] ![64, 0] ![0, 0]
    (concatenate S192x384 1 [⟨S192x128, shapeCast S192x128 (extractStridedSlice S1x192x128 ![0, 0, 0] (shapeCast S3x192x128 (truncf .bf16 w bitsLt_bf16_f32) shapeCasts_S3x3x64x128_S3x192x128) slices_S3x192x128_S1x192x128_0_0_0) shapeCasts_S1x192x128_S192x128⟩, ⟨S192x128, shapeCast S192x128 (extractStridedSlice S1x192x128 ![1, 0, 0] (shapeCast S3x192x128 (truncf .bf16 w bitsLt_bf16_f32) shapeCasts_S3x3x64x128_S3x192x128) slices_S3x192x128_S1x192x128_1_0_0) shapeCasts_S1x192x128_S192x128⟩, ⟨S192x128, shapeCast S192x128 (extractStridedSlice S1x192x128 ![2, 0, 0] (shapeCast S3x192x128 (truncf .bf16 w bitsLt_bf16_f32) shapeCasts_S3x3x64x128_S3x192x128) slices_S3x192x128_S1x192x128_2_0_0) shapeCasts_S1x192x128_S192x128⟩] concatenates_S192x128_S192x128_S192x128_S192x384_d1)
    (sitofp (F := Ideal) .bf16 (constantI S_ 32 0#32)) pads_S192x384_S256x384_0640_000 h_S_

/-- The second layer's packed pair. -/
def W19 (w : FVec Ideal S3x3x128x128 .f32) : FVec Ideal S256x384 .bf16 :=
  concatenate S256x384 1 [⟨S256x128, shapeCast S256x128 (extractStridedSlice S1x256x128 ![0, 0, 0] (shapeCast S3x256x128 (truncf .bf16 (extractStridedSlice S3x2x128x128 ![0, 0, 0, 0] w slices_S3x3x128x128_S3x2x128x128_0_0_0_0) bitsLt_bf16_f32) shapeCasts_S3x2x128x128_S3x256x128) slices_S3x256x128_S1x256x128_0_0_0) shapeCasts_S1x256x128_S256x128⟩, ⟨S256x128, shapeCast S256x128 (extractStridedSlice S1x256x128 ![1, 0, 0] (shapeCast S3x256x128 (truncf .bf16 (extractStridedSlice S3x2x128x128 ![0, 0, 0, 0] w slices_S3x3x128x128_S3x2x128x128_0_0_0_0) bitsLt_bf16_f32) shapeCasts_S3x2x128x128_S3x256x128) slices_S3x256x128_S1x256x128_1_0_0) shapeCasts_S1x256x128_S256x128⟩, ⟨S256x128, shapeCast S256x128 (extractStridedSlice S1x256x128 ![2, 0, 0] (shapeCast S3x256x128 (truncf .bf16 (extractStridedSlice S3x2x128x128 ![0, 0, 0, 0] w slices_S3x3x128x128_S3x2x128x128_0_0_0_0) bitsLt_bf16_f32) shapeCasts_S3x2x128x128_S3x256x128) slices_S3x256x128_S1x256x128_2_0_0) shapeCasts_S1x256x128_S256x128⟩] concatenates_S256x128_S256x128_S256x128_S256x384_d1

/-- The second layer's third horizontal tap. -/
def W29 (w : FVec Ideal S3x3x128x128 .f32) : FVec Ideal S128x384 .bf16 :=
  concatenate S128x384 1 [⟨S128x128, shapeCast S128x128 (extractStridedSlice S1x128x128 ![0, 0, 0] (truncf .bf16 (shapeCast S3x128x128 (extractStridedSlice S3x1x128x128 ![0, 2, 0, 0] w slices_S3x3x128x128_S3x1x128x128_0_2_0_0) shapeCasts_S3x1x128x128_S3x128x128) bitsLt_bf16_f32) slices_S3x128x128_S1x128x128_0_0_0) shapeCasts_S1x128x128_S128x128⟩, ⟨S128x128, shapeCast S128x128 (extractStridedSlice S1x128x128 ![1, 0, 0] (truncf .bf16 (shapeCast S3x128x128 (extractStridedSlice S3x1x128x128 ![0, 2, 0, 0] w slices_S3x3x128x128_S3x1x128x128_0_2_0_0) shapeCasts_S3x1x128x128_S3x128x128) bitsLt_bf16_f32) slices_S3x128x128_S1x128x128_1_0_0) shapeCasts_S1x128x128_S128x128⟩, ⟨S128x128, shapeCast S128x128 (extractStridedSlice S1x128x128 ![2, 0, 0] (truncf .bf16 (shapeCast S3x128x128 (extractStridedSlice S3x1x128x128 ![0, 2, 0, 0] w slices_S3x3x128x128_S3x1x128x128_0_2_0_0) shapeCasts_S3x1x128x128_S3x128x128) bitsLt_bf16_f32) slices_S3x128x128_S1x128x128_2_0_0) shapeCasts_S1x128x128_S128x128⟩] concatenates_S128x128_S128x128_S128x128_S128x384_d1

variable (m : (ℓ : Loc nD τ sig) → Buf (Elt Ideal) ℓ)

/-- Read the host lines before the region at one buffer: unfold the fold, rewrite each operation's result at its own
    buffer to its function's value and pass every other buffer through, then compare. -/
macro "read_prefix" : tactic =>
  `(tactic| (
    dsimp only [V, V0]
    simp only [hostOps0, hostOps0_1, hostOps0_2, List.flatten_cons, List.flatten_nil, List.append_nil, List.cons_append, List.nil_append]
    after_results
    try beta_reduce
    try simp only [Matrix.cons_val_zero, Matrix.cons_val_one, Matrix.cons_val_two, Matrix.head_cons, Matrix.cons_val_succ, Matrix.cons_val_fin_one]
    repeat (first
      | rw [StableHlo.nullary_result] | rw [StableHlo.unary_result] | rw [StableHlo.binary_result] | rw [StableHlo.reshape_result] | rw [StableHlo.nary_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide))
    try rfl))

set_option maxHeartbeats 2000000 in
theorem V_main_v9 (c : Dev nD) : (V m c main_v9 : FVec Ideal S256x384 .bf16) = W9 (m ((c : Thread nD τ).loc main_arg1)) := by
  read_prefix
set_option maxHeartbeats 2000000 in
theorem V_main_v19 (c : Dev nD) : (V m c main_v19 : FVec Ideal S256x384 .bf16) = W19 (m ((c : Thread nD τ).loc main_arg3)) := by
  read_prefix
set_option maxHeartbeats 2000000 in
theorem V_main_v29 (c : Dev nD) : (V m c main_v29 : FVec Ideal S128x384 .bf16) = W29 (m ((c : Thread nD τ).loc main_arg3)) := by
  read_prefix
set_option maxHeartbeats 2000000 in
theorem V_main_v30 (c : Dev nD) : (V m c main_v30 : FVec Ideal S1x128 .f32) = shapeCast S1x128 (m ((c : Thread nD τ).loc main_arg2)) shapeCasts_S128_S1x128 := by
  read_prefix
set_option maxHeartbeats 2000000 in
theorem V_main_v31 (c : Dev nD) : (V m c main_v31 : FVec Ideal S1x128 .f32) = shapeCast S1x128 (m ((c : Thread nD τ).loc main_arg4)) shapeCasts_S128_S1x128 := by
  read_prefix
set_option maxHeartbeats 2000000 in
theorem V_main_arg0 (c : Dev nD) : V m c main_arg0 = m ((c : Thread nD τ).loc main_arg0) := by
  read_prefix
set_option maxHeartbeats 2000000 in
theorem V_main_arg1 (c : Dev nD) : V m c main_arg1 = m ((c : Thread nD τ).loc main_arg1) := by
  read_prefix
set_option maxHeartbeats 2000000 in
theorem V_main_arg2 (c : Dev nD) : V m c main_arg2 = m ((c : Thread nD τ).loc main_arg2) := by
  read_prefix
set_option maxHeartbeats 2000000 in
theorem V_main_arg3 (c : Dev nD) : V m c main_arg3 = m ((c : Thread nD τ).loc main_arg3) := by
  read_prefix
set_option maxHeartbeats 2000000 in
theorem V_main_arg4 (c : Dev nD) : V m c main_arg4 = m ((c : Thread nD τ).loc main_arg4) := by
  read_prefix

/-! ## The packed arrays by coordinates -/

theorem padval_zero (i : S_.Idx) : sitofp (F := Ideal) .bf16 (constantI S_ 32 0#32) i = 0 := by
  show ((((0#32 : BitVec 32).toInt : ℝ)) : EReal) = 0
  simp

/-- Rows of padding below a matrix: row `k` of the padded matrix is row `k` of the matrix while there is one,
    the padding value after. -/
theorem pad_rows_apply (x : FVec Ideal S192x384 .bf16) (v : FVec Ideal S_ .bf16) (k : Fin 256) (n : Fin 384) :
    pad S256x384 ![0, 0] ![64, 0] ![0, 0] x v pads_S192x384_S256x384_0640_000 h_S_ (ix2 k n)
      = if hk : k.val < 192 then x (ix2 ⟨k.val, hk⟩ n) else v ix0 := by
  unfold pad
  by_cases hk : k.val < 192
  · have hin : ∀ a : Fin S192x384.rank, (![0, 0] : Fin 2 → ℕ) a ≤ ((ix2 k n : S256x384.Idx) (a.cast pads_S192x384_S256x384_0640_000.1)).val
        ∧ (((ix2 k n : S256x384.Idx) (a.cast pads_S192x384_S256x384_0640_000.1)).val - (![0, 0] : Fin 2 → ℕ) a) % ((![0, 0] : Fin 2 → ℕ) a + 1) = 0
        ∧ (((ix2 k n : S256x384.Idx) (a.cast pads_S192x384_S256x384_0640_000.1)).val - (![0, 0] : Fin 2 → ℕ) a) / ((![0, 0] : Fin 2 → ℕ) a + 1) < S192x384.size a :=
      fun a => match a with
        | ⟨0, _⟩ => ⟨Nat.zero_le _, Nat.mod_one _, by show (k.val - 0) / (0 + 1) < 192; simpa using hk⟩
        | ⟨1, _⟩ => ⟨Nat.zero_le _, Nat.mod_one _, by show (n.val - 0) / (0 + 1) < 384; simp⟩
    rw [dif_pos hin, dif_pos hk]
    refine congrArg x (funext fun a => Fin.ext ?_)
    match a with
    | ⟨0, _⟩ => show (k.val - 0) / (0 + 1) = k.val; simp
    | ⟨1, _⟩ => show (n.val - 0) / (0 + 1) = n.val; simp
  · rw [dif_neg hk, dif_neg (fun hin => hk (by
      have h0 := (hin ⟨0, by decide⟩).2.2
      have : (k.val - 0) / (0 + 1) < 192 := h0
      simpa using this))]
    exact congrArg v (Subsingleton.elim _ _)

instance : Subsingleton S_.Idx := ⟨fun a b => funext fun d => d.elim0⟩

/-- One slab of a three-slab array, its unit axis dropped. -/
theorem slab192 (v1 : FVec Ideal S3x192x128 .bf16) (o : ℕ) (dy : Fin 3) (hdy : dy.val = o) (k : Fin 192) (cc : Fin 128)
    (h : S3x192x128.Slices ![o, 0, 0] S1x192x128) :
    shapeCast S192x128 (extractStridedSlice S1x192x128 ![o, 0, 0] v1 h) shapeCasts_S1x192x128_S192x128 (ix2 k cc) = v1 (ix3 dy k cc) := by
  refine (shapeCast_1ab_ab_apply (extractStridedSlice S1x192x128 ![o, 0, 0] v1 h) shapeCasts_S1x192x128_S192x128 k cc).trans ?_
  exact extractStridedSlice_apply ![o, 0, 0] v1 h (ix3 (0 : Fin 1) k cc) (ix3 dy k cc) (fun a => match a with
      | ⟨0, _⟩ => by show dy.val = o + 0; omega
      | ⟨1, _⟩ => (Nat.zero_add _).symm
      | ⟨2, _⟩ => (Nat.zero_add _).symm)
theorem slab256 (v1 : FVec Ideal S3x256x128 .bf16) (o : ℕ) (dy : Fin 3) (hdy : dy.val = o) (k : Fin 256) (cc : Fin 128)
    (h : S3x256x128.Slices ![o, 0, 0] S1x256x128) :
    shapeCast S256x128 (extractStridedSlice S1x256x128 ![o, 0, 0] v1 h) shapeCasts_S1x256x128_S256x128 (ix2 k cc) = v1 (ix3 dy k cc) := by
  refine (shapeCast_1ab_ab_apply (extractStridedSlice S1x256x128 ![o, 0, 0] v1 h) shapeCasts_S1x256x128_S256x128 k cc).trans ?_
  exact extractStridedSlice_apply ![o, 0, 0] v1 h (ix3 (0 : Fin 1) k cc) (ix3 dy k cc) (fun a => match a with
      | ⟨0, _⟩ => by show dy.val = o + 0; omega
      | ⟨1, _⟩ => (Nat.zero_add _).symm
      | ⟨2, _⟩ => (Nat.zero_add _).symm)
theorem slab128 (v1 : FVec Ideal S3x128x128 .bf16) (o : ℕ) (dy : Fin 3) (hdy : dy.val = o) (k : Fin 128) (cc : Fin 128)
    (h : S3x128x128.Slices ![o, 0, 0] S1x128x128) :
    shapeCast S128x128 (extractStridedSlice S1x128x128 ![o, 0, 0] v1 h) shapeCasts_S1x128x128_S128x128 (ix2 k cc) = v1 (ix3 dy k cc) := by
  refine (shapeCast_1ab_ab_apply (extractStridedSlice S1x128x128 ![o, 0, 0] v1 h) shapeCasts_S1x128x128_S128x128 k cc).trans ?_
  exact extractStridedSlice_apply ![o, 0, 0] v1 h (ix3 (0 : Fin 1) k cc) (ix3 dy k cc) (fun a => match a with
      | ⟨0, _⟩ => by show dy.val = o + 0; omega
      | ⟨1, _⟩ => (Nat.zero_add _).symm
      | ⟨2, _⟩ => (Nat.zero_add _).symm)

/-- The first layer's weights with their two middle axes merged: merged row `k` is (tap `k / 64`, channel `k % 64`). -/
theorem merged0 (w : FVec Ideal S3x3x64x128 .f32) (dy : Fin 3) (k : Fin 192) (cc : Fin 128) :
    (shapeCast S3x192x128 (truncf .bf16 w bitsLt_bf16_f32) shapeCasts_S3x3x64x128_S3x192x128) (ix3 dy k cc) = w (ix4 dy ⟨k.val / 64, by omega⟩ ⟨k.val % 64, Nat.mod_lt _ (by omega)⟩ cc) := by
  refine (shapeCast_apply (truncf .bf16 w bitsLt_bf16_f32) shapeCasts_S3x3x64x128_S3x192x128 (ix3 dy k cc)
    (ix4 dy ⟨k.val / 64, by omega⟩ ⟨k.val % 64, Nat.mod_lt _ (by omega)⟩ cc) ?_).trans ?_
  · rw [Shape.rowMajor_val_four, Shape.rowMajor_val_three]
    show ((dy.val * 3 + k.val / 64) * 64 + k.val % 64) * 128 + cc.val = (dy.val * 192 + k.val) * 128 + cc.val
    omega
  · rfl

/-- The second layer's first two horizontal taps merged: merged row `k` is (tap `k / 128`, channel `k % 128`). -/
theorem mergedA (w : FVec Ideal S3x3x128x128 .f32) (dy : Fin 3) (k : Fin 256) (cc : Fin 128) :
    (shapeCast S3x256x128 (truncf .bf16 (extractStridedSlice S3x2x128x128 ![0, 0, 0, 0] w slices_S3x3x128x128_S3x2x128x128_0_0_0_0) bitsLt_bf16_f32) shapeCasts_S3x2x128x128_S3x256x128) (ix3 dy k cc) = w (ix4 dy ⟨k.val / 128, by omega⟩ ⟨k.val % 128, Nat.mod_lt _ (by omega)⟩ cc) := by
  refine (shapeCast_apply (truncf .bf16 (extractStridedSlice S3x2x128x128 ![0, 0, 0, 0] w slices_S3x3x128x128_S3x2x128x128_0_0_0_0) bitsLt_bf16_f32)
    shapeCasts_S3x2x128x128_S3x256x128 (ix3 dy k cc)
    (ix4 dy ⟨k.val / 128, by omega⟩ ⟨k.val % 128, Nat.mod_lt _ (by omega)⟩ cc) ?_).trans ?_
  · rw [Shape.rowMajor_val_four, Shape.rowMajor_val_three]
    show ((dy.val * 2 + k.val / 128) * 128 + k.val % 128) * 128 + cc.val = (dy.val * 256 + k.val) * 128 + cc.val
    omega
  · exact extractStridedSlice_apply ![0, 0, 0, 0] w slices_S3x3x128x128_S3x2x128x128_0_0_0_0
      (ix4 dy ⟨k.val / 128, by omega⟩ ⟨k.val % 128, Nat.mod_lt _ (by omega)⟩ cc)
      (ix4 dy ⟨k.val / 128, by omega⟩ ⟨k.val % 128, Nat.mod_lt _ (by omega)⟩ cc) (fun a => match a with
        | ⟨0, _⟩ => (Nat.zero_add _).symm
        | ⟨1, _⟩ => (Nat.zero_add _).symm
        | ⟨2, _⟩ => (Nat.zero_add _).symm
        | ⟨3, _⟩ => (Nat.zero_add _).symm)

/-- The second layer's third horizontal tap. -/
theorem mergedB (w : FVec Ideal S3x3x128x128 .f32) (dy : Fin 3) (k : Fin 128) (cc : Fin 128) :
    (truncf .bf16 (shapeCast S3x128x128 (extractStridedSlice S3x1x128x128 ![0, 2, 0, 0] w slices_S3x3x128x128_S3x1x128x128_0_2_0_0) shapeCasts_S3x1x128x128_S3x128x128) bitsLt_bf16_f32) (ix3 dy k cc) = w (ix4 dy (2 : Fin 3) k cc) := by
  refine (shapeCast_apply (extractStridedSlice S3x1x128x128 ![0, 2, 0, 0] w slices_S3x3x128x128_S3x1x128x128_0_2_0_0)
    shapeCasts_S3x1x128x128_S3x128x128 (ix3 dy k cc) (ix4 dy (0 : Fin 1) k cc) ?_).trans ?_
  · rw [Shape.rowMajor_val_four, Shape.rowMajor_val_three]
    show ((dy.val * 1 + 0) * 128 + k.val) * 128 + cc.val = (dy.val * 128 + k.val) * 128 + cc.val
    omega
  · exact extractStridedSlice_apply ![0, 2, 0, 0] w slices_S3x3x128x128_S3x1x128x128_0_2_0_0
      (ix4 dy (0 : Fin 1) k cc) (ix4 dy (2 : Fin 3) k cc) (fun a => match a with
        | ⟨0, _⟩ => (Nat.zero_add _).symm
        | ⟨1, _⟩ => rfl
        | ⟨2, _⟩ => (Nat.zero_add _).symm
        | ⟨3, _⟩ => (Nat.zero_add _).symm)

set_option maxHeartbeats 1000000 in
/-- The first layer's packed array by coordinates. -/
theorem W9_apply (w : FVec Ideal S3x3x64x128 .f32) (k : Fin 256) (n : Fin 384) :
    W9 w (ix2 k n) = Vgg.pack0 (Vgg.weights w) k n := by
  unfold W9 Vgg.pack0
  refine (pad_rows_apply _ _ k n).trans ?_
  by_cases hk : k.val < 192
  · rw [dif_pos hk, dif_pos hk]
    have hc := Layout3.concat3_cols_apply (shapeCast S192x128 (extractStridedSlice S1x192x128 ![0, 0, 0] (shapeCast S3x192x128 (truncf .bf16 w bitsLt_bf16_f32) shapeCasts_S3x3x64x128_S3x192x128) slices_S3x192x128_S1x192x128_0_0_0) shapeCasts_S1x192x128_S192x128) (shapeCast S192x128 (extractStridedSlice S1x192x128 ![1, 0, 0] (shapeCast S3x192x128 (truncf .bf16 w bitsLt_bf16_f32) shapeCasts_S3x3x64x128_S3x192x128) slices_S3x192x128_S1x192x128_1_0_0) shapeCasts_S1x192x128_S192x128) (shapeCast S192x128 (extractStridedSlice S1x192x128 ![2, 0, 0] (shapeCast S3x192x128 (truncf .bf16 w bitsLt_bf16_f32) shapeCasts_S3x3x64x128_S3x192x128) slices_S3x192x128_S1x192x128_2_0_0) shapeCasts_S1x192x128_S192x128)
      concatenates_S192x128_S192x128_S192x128_S192x384_d1 ⟨k.val, hk⟩ n ⟨n.val % 128, Nat.mod_lt _ (by omega)⟩
    rcases (show n.val / 128 = 0 ∨ n.val / 128 = 1 ∨ n.val / 128 = 2 by omega) with h0 | h1 | h2
    · refine (hc.1 (show n.val = n.val % 128 by omega)).trans ?_
      refine (slab192 (shapeCast S3x192x128 (truncf .bf16 w bitsLt_bf16_f32) shapeCasts_S3x3x64x128_S3x192x128) 0 (0 : Fin 3) rfl ⟨k.val, hk⟩ ⟨n.val % 128, Nat.mod_lt _ (by omega)⟩ _).trans ?_
      refine (merged0 w (0 : Fin 3) ⟨k.val, hk⟩ ⟨n.val % 128, Nat.mod_lt _ (by omega)⟩).trans ?_
      unfold Vgg.weights
      exact congrArg (fun d : Fin 3 => w (ix4 d _ _ _)) (Fin.ext (show (0 : ℕ) = n.val / 128 by omega))
    · refine (hc.2.1 (show n.val = 128 + n.val % 128 by omega)).trans ?_
      refine (slab192 (shapeCast S3x192x128 (truncf .bf16 w bitsLt_bf16_f32) shapeCasts_S3x3x64x128_S3x192x128) 1 (1 : Fin 3) rfl ⟨k.val, hk⟩ ⟨n.val % 128, Nat.mod_lt _ (by omega)⟩ _).trans ?_
      refine (merged0 w (1 : Fin 3) ⟨k.val, hk⟩ ⟨n.val % 128, Nat.mod_lt _ (by omega)⟩).trans ?_
      unfold Vgg.weights
      exact congrArg (fun d : Fin 3 => w (ix4 d _ _ _)) (Fin.ext (show (1 : ℕ) = n.val / 128 by omega))
    · refine (hc.2.2 (show n.val = 128 + 128 + n.val % 128 by omega)).trans ?_
      refine (slab192 (shapeCast S3x192x128 (truncf .bf16 w bitsLt_bf16_f32) shapeCasts_S3x3x64x128_S3x192x128) 2 (2 : Fin 3) rfl ⟨k.val, hk⟩ ⟨n.val % 128, Nat.mod_lt _ (by omega)⟩ _).trans ?_
      refine (merged0 w (2 : Fin 3) ⟨k.val, hk⟩ ⟨n.val % 128, Nat.mod_lt _ (by omega)⟩).trans ?_
      unfold Vgg.weights
      exact congrArg (fun d : Fin 3 => w (ix4 d _ _ _)) (Fin.ext (show (2 : ℕ) = n.val / 128 by omega))
  · rw [dif_neg hk, dif_neg hk]
    exact padval_zero _

set_option maxHeartbeats 1000000 in
/-- The second layer's packed pair by coordinates. -/
theorem W19_apply (w : FVec Ideal S3x3x128x128 .f32) (k : Fin 256) (n : Fin 384) :
    W19 w (ix2 k n) = Vgg.packA (Vgg.weights w) k n := by
  unfold W19 Vgg.packA
  have hc := Layout3.concat3_cols_apply (shapeCast S256x128 (extractStridedSlice S1x256x128 ![0, 0, 0] (shapeCast S3x256x128 (truncf .bf16 (extractStridedSlice S3x2x128x128 ![0, 0, 0, 0] w slices_S3x3x128x128_S3x2x128x128_0_0_0_0) bitsLt_bf16_f32) shapeCasts_S3x2x128x128_S3x256x128) slices_S3x256x128_S1x256x128_0_0_0) shapeCasts_S1x256x128_S256x128) (shapeCast S256x128 (extractStridedSlice S1x256x128 ![1, 0, 0] (shapeCast S3x256x128 (truncf .bf16 (extractStridedSlice S3x2x128x128 ![0, 0, 0, 0] w slices_S3x3x128x128_S3x2x128x128_0_0_0_0) bitsLt_bf16_f32) shapeCasts_S3x2x128x128_S3x256x128) slices_S3x256x128_S1x256x128_1_0_0) shapeCasts_S1x256x128_S256x128) (shapeCast S256x128 (extractStridedSlice S1x256x128 ![2, 0, 0] (shapeCast S3x256x128 (truncf .bf16 (extractStridedSlice S3x2x128x128 ![0, 0, 0, 0] w slices_S3x3x128x128_S3x2x128x128_0_0_0_0) bitsLt_bf16_f32) shapeCasts_S3x2x128x128_S3x256x128) slices_S3x256x128_S1x256x128_2_0_0) shapeCasts_S1x256x128_S256x128)
    concatenates_S256x128_S256x128_S256x128_S256x384_d1 k n ⟨n.val % 128, Nat.mod_lt _ (by omega)⟩
  rcases (show n.val / 128 = 0 ∨ n.val / 128 = 1 ∨ n.val / 128 = 2 by omega) with h0 | h1 | h2
  · refine (hc.1 (show n.val = n.val % 128 by omega)).trans ?_
    refine (slab256 (shapeCast S3x256x128 (truncf .bf16 (extractStridedSlice S3x2x128x128 ![0, 0, 0, 0] w slices_S3x3x128x128_S3x2x128x128_0_0_0_0) bitsLt_bf16_f32) shapeCasts_S3x2x128x128_S3x256x128) 0 (0 : Fin 3) rfl k ⟨n.val % 128, Nat.mod_lt _ (by omega)⟩ _).trans ?_
    refine (mergedA w (0 : Fin 3) k ⟨n.val % 128, Nat.mod_lt _ (by omega)⟩).trans ?_
    unfold Vgg.weights
    exact congrArg (fun d : Fin 3 => w (ix4 d _ _ _)) (Fin.ext (show (0 : ℕ) = n.val / 128 by omega))
  · refine (hc.2.1 (show n.val = 128 + n.val % 128 by omega)).trans ?_
    refine (slab256 (shapeCast S3x256x128 (truncf .bf16 (extractStridedSlice S3x2x128x128 ![0, 0, 0, 0] w slices_S3x3x128x128_S3x2x128x128_0_0_0_0) bitsLt_bf16_f32) shapeCasts_S3x2x128x128_S3x256x128) 1 (1 : Fin 3) rfl k ⟨n.val % 128, Nat.mod_lt _ (by omega)⟩ _).trans ?_
    refine (mergedA w (1 : Fin 3) k ⟨n.val % 128, Nat.mod_lt _ (by omega)⟩).trans ?_
    unfold Vgg.weights
    exact congrArg (fun d : Fin 3 => w (ix4 d _ _ _)) (Fin.ext (show (1 : ℕ) = n.val / 128 by omega))
  · refine (hc.2.2 (show n.val = 128 + 128 + n.val % 128 by omega)).trans ?_
    refine (slab256 (shapeCast S3x256x128 (truncf .bf16 (extractStridedSlice S3x2x128x128 ![0, 0, 0, 0] w slices_S3x3x128x128_S3x2x128x128_0_0_0_0) bitsLt_bf16_f32) shapeCasts_S3x2x128x128_S3x256x128) 2 (2 : Fin 3) rfl k ⟨n.val % 128, Nat.mod_lt _ (by omega)⟩ _).trans ?_
    refine (mergedA w (2 : Fin 3) k ⟨n.val % 128, Nat.mod_lt _ (by omega)⟩).trans ?_
    unfold Vgg.weights
    exact congrArg (fun d : Fin 3 => w (ix4 d _ _ _)) (Fin.ext (show (2 : ℕ) = n.val / 128 by omega))

set_option maxHeartbeats 1000000 in
/-- The second layer's third tap by coordinates. -/
theorem W29_apply (w : FVec Ideal S3x3x128x128 .f32) (k : Fin 128) (n : Fin 384) :
    W29 w (ix2 k n) = Vgg.packB (Vgg.weights w) k n := by
  unfold W29 Vgg.packB
  have hc := Layout3.concat3_cols_apply (shapeCast S128x128 (extractStridedSlice S1x128x128 ![0, 0, 0] (truncf .bf16 (shapeCast S3x128x128 (extractStridedSlice S3x1x128x128 ![0, 2, 0, 0] w slices_S3x3x128x128_S3x1x128x128_0_2_0_0) shapeCasts_S3x1x128x128_S3x128x128) bitsLt_bf16_f32) slices_S3x128x128_S1x128x128_0_0_0) shapeCasts_S1x128x128_S128x128) (shapeCast S128x128 (extractStridedSlice S1x128x128 ![1, 0, 0] (truncf .bf16 (shapeCast S3x128x128 (extractStridedSlice S3x1x128x128 ![0, 2, 0, 0] w slices_S3x3x128x128_S3x1x128x128_0_2_0_0) shapeCasts_S3x1x128x128_S3x128x128) bitsLt_bf16_f32) slices_S3x128x128_S1x128x128_1_0_0) shapeCasts_S1x128x128_S128x128) (shapeCast S128x128 (extractStridedSlice S1x128x128 ![2, 0, 0] (truncf .bf16 (shapeCast S3x128x128 (extractStridedSlice S3x1x128x128 ![0, 2, 0, 0] w slices_S3x3x128x128_S3x1x128x128_0_2_0_0) shapeCasts_S3x1x128x128_S3x128x128) bitsLt_bf16_f32) slices_S3x128x128_S1x128x128_2_0_0) shapeCasts_S1x128x128_S128x128)
    concatenates_S128x128_S128x128_S128x128_S128x384_d1 k n ⟨n.val % 128, Nat.mod_lt _ (by omega)⟩
  rcases (show n.val / 128 = 0 ∨ n.val / 128 = 1 ∨ n.val / 128 = 2 by omega) with h0 | h1 | h2
  · refine (hc.1 (show n.val = n.val % 128 by omega)).trans ?_
    refine (slab128 (truncf .bf16 (shapeCast S3x128x128 (extractStridedSlice S3x1x128x128 ![0, 2, 0, 0] w slices_S3x3x128x128_S3x1x128x128_0_2_0_0) shapeCasts_S3x1x128x128_S3x128x128) bitsLt_bf16_f32) 0 (0 : Fin 3) rfl k ⟨n.val % 128, Nat.mod_lt _ (by omega)⟩ _).trans ?_
    refine (mergedB w (0 : Fin 3) k ⟨n.val % 128, Nat.mod_lt _ (by omega)⟩).trans ?_
    unfold Vgg.weights
    exact congrArg (fun d : Fin 3 => w (ix4 d _ _ _)) (Fin.ext (show (0 : ℕ) = n.val / 128 by omega))
  · refine (hc.2.1 (show n.val = 128 + n.val % 128 by omega)).trans ?_
    refine (slab128 (truncf .bf16 (shapeCast S3x128x128 (extractStridedSlice S3x1x128x128 ![0, 2, 0, 0] w slices_S3x3x128x128_S3x1x128x128_0_2_0_0) shapeCasts_S3x1x128x128_S3x128x128) bitsLt_bf16_f32) 1 (1 : Fin 3) rfl k ⟨n.val % 128, Nat.mod_lt _ (by omega)⟩ _).trans ?_
    refine (mergedB w (1 : Fin 3) k ⟨n.val % 128, Nat.mod_lt _ (by omega)⟩).trans ?_
    unfold Vgg.weights
    exact congrArg (fun d : Fin 3 => w (ix4 d _ _ _)) (Fin.ext (show (1 : ℕ) = n.val / 128 by omega))
  · refine (hc.2.2 (show n.val = 128 + 128 + n.val % 128 by omega)).trans ?_
    refine (slab128 (truncf .bf16 (shapeCast S3x128x128 (extractStridedSlice S3x1x128x128 ![0, 2, 0, 0] w slices_S3x3x128x128_S3x1x128x128_0_2_0_0) shapeCasts_S3x1x128x128_S3x128x128) bitsLt_bf16_f32) 2 (2 : Fin 3) rfl k ⟨n.val % 128, Nat.mod_lt _ (by omega)⟩ _).trans ?_
    refine (mergedB w (2 : Fin 3) k ⟨n.val % 128, Nat.mod_lt _ (by omega)⟩).trans ?_
    unfold Vgg.weights
    exact congrArg (fun d : Fin 3 => w (ix4 d _ _ _)) (Fin.ext (show (2 : ℕ) = n.val / 128 by omega))

/-- A bias vector as a one-row matrix. -/
theorem bias_row_apply (b : FVec Ideal S128 .f32) (cc : Fin 128) :
    shapeCast S1x128 b shapeCasts_S128_S1x128 (ix2 (0 : Fin 1) cc) = Vgg.bias b cc :=
  shapeCast_a_1a_apply b shapeCasts_S128_S1x128 (0 : Fin 1) cc

end Cert.KernelIdeal.KFrame

end
-- ==== Proof.KIFinal.lean ====
import proofs.«120882_g2000303031884594_pallasbulk_961_21_alg».proof.Proof.KIHost

set_option maxRecDepth 16384

noncomputable section

namespace Cert.KernelIdeal.KFrame

open Cert.KernelIdeal Cert.KernelIdeal.Gen Cert.KernelIdeal.KVal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## From the blocks to the arrays, and the result named -/

variable (m : (ℓ : Loc nD τ sig) → Buf (Elt Ideal) ℓ) (ρ : Dev nD → PrngReg)

/-- The printed index maps over the grid: the image and the result move with the point along the batch
    axis, every other window stays at its one block. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 4) = t.val ∧ win0_6.index t (1 : Fin 4) = 0 ∧ win0_6.index t (2 : Fin 4) = 0 ∧ win0_6.index t (3 : Fin 4) = 0 :=
  (by decide +kernel : ∀ t : Fin grid0.N, _)

theorem N8 (t : Fin cfg0.N) : t.val < 8 := lt_of_lt_of_eq t.isLt (show cfg0.N = 8 from N_0)

/-- The image window's block at point `t` is image `t` of the batch. -/
theorem iblk0_img (c : Dev nD) (t : Fin cfg0.N) :
    img (iblk m c 0 t) = Vgg.image (V m c main_arg0) ⟨t.val, N8 t⟩ := by
  obtain ⟨e0, e1, e2, e3, -⟩ := idx_facts t
  funext h w ci
  unfold img Vgg.image iblk
  show V m c main_arg0 (((cfg0.win 0).blk t).view.emb (ix4 (0 : Fin 1) ci h w)) = V m c main_arg0 (ix4 ⟨t.val, N8 t⟩ ci h w)
  refine congrArg (V m c main_arg0) (funext fun a => Fin.ext ?_)
  match a with
  | ⟨0, _⟩ => show win0_0.index t (0 : Fin 4) * 1 + 1 * 0 = t.val; omega
  | ⟨1, _⟩ => show win0_0.index t (1 : Fin 4) * 64 + 1 * ci.val = ci.val; omega
  | ⟨2, _⟩ => show win0_0.index t (2 : Fin 4) * 112 + 1 * h.val = h.val; omega
  | ⟨3, _⟩ => show win0_0.index t (3 : Fin 4) * 112 + 1 * w.val = w.val; omega

/-- Window 1's block is its whole array at every point. -/
theorem iblk1_eq (c : Dev nD) (t : Fin cfg0.N) : (iblk m c 1 t : S256x384.Idx → EReal) = V m c main_v9 := by
  have hf := idx_facts t
  funext y
  unfold iblk
  show V m c main_v9 (((cfg0.win 1).blk t).view.emb y) = V m c main_v9 y
  refine congrArg (V m c main_v9) (funext fun a => Fin.ext ?_)
  match a with
  | ⟨0, _⟩ => show win0_1.index t (0 : Fin 2) * 256 + 1 * (y 0).val = (y 0).val; omega
  | ⟨1, _⟩ => show win0_1.index t (1 : Fin 2) * 384 + 1 * (y 1).val = (y 1).val; omega

/-- Window 2's block is its whole array at every point. -/
theorem iblk2_eq (c : Dev nD) (t : Fin cfg0.N) : (iblk m c 2 t : S256x384.Idx → EReal) = V m c main_v19 := by
  have hf := idx_facts t
  funext y
  unfold iblk
  show V m c main_v19 (((cfg0.win 2).blk t).view.emb y) = V m c main_v19 y
  refine congrArg (V m c main_v19) (funext fun a => Fin.ext ?_)
  match a with
  | ⟨0, _⟩ => show win0_2.index t (0 : Fin 2) * 256 + 1 * (y 0).val = (y 0).val; omega
  | ⟨1, _⟩ => show win0_2.index t (1 : Fin 2) * 384 + 1 * (y 1).val = (y 1).val; omega

/-- Window 3's block is its whole array at every point. -/
theorem iblk3_eq (c : Dev nD) (t : Fin cfg0.N) : (iblk m c 3 t : S128x384.Idx → EReal) = V m c main_v29 := by
  have hf := idx_facts t
  funext y
  unfold iblk
  show V m c main_v29 (((cfg0.win 3).blk t).view.emb y) = V m c main_v29 y
  refine congrArg (V m c main_v29) (funext fun a => Fin.ext ?_)
  match a with
  | ⟨0, _⟩ => show win0_3.index t (0 : Fin 2) * 128 + 1 * (y 0).val = (y 0).val; omega
  | ⟨1, _⟩ => show win0_3.index t (1 : Fin 2) * 384 + 1 * (y 1).val = (y 1).val; omega

/-- Window 4's block is its whole array at every point. -/
theorem iblk4_eq (c : Dev nD) (t : Fin cfg0.N) : (iblk m c 4 t : S1x128.Idx → EReal) = V m c main_v30 := by
  have hf := idx_facts t
  funext y
  unfold iblk
  show V m c main_v30 (((cfg0.win 4).blk t).view.emb y) = V m c main_v30 y
  refine congrArg (V m c main_v30) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block is its whole array at every point. -/
theorem iblk5_eq (c : Dev nD) (t : Fin cfg0.N) : (iblk m c 5 t : S1x128.Idx → EReal) = V m c main_v31 := by
  have hf := idx_facts t
  funext y
  unfold iblk
  show V m c main_v31 (((cfg0.win 5).blk t).view.emb y) = V m c main_v31 y
  refine congrArg (V m c main_v31) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The result array before the final transposition, as one function of the arrays the region finds. -/
def GK (c : Dev nD) : S8x56x56x128.Idx → EReal := fun y =>
  Vgg.kblock (Vgg.image (V m c main_arg0) (y 0)) (fun k n => (V m c main_v9 : S256x384.Idx → EReal) (ix2 k n))
    (fun cc => (V m c main_v30 : S1x128.Idx → EReal) (ix2 (0 : Fin 1) cc))
    (fun k n => (V m c main_v19 : S256x384.Idx → EReal) (ix2 k n)) (fun k n => (V m c main_v29 : S128x384.Idx → EReal) (ix2 k n))
    (fun cc => (V m c main_v31 : S1x128.Idx → EReal) (ix2 (0 : Fin 1) cc)) (y 1) (y 2) (y 3)

/-- What point `t` writes back is block `t` of `GK`. -/
theorem flushed6_eq (c : Dev nD) (t : Fin cfg0.N) :
    (dats m 0 c).flushed 6 t = ((cfg0.win 6).blk t).view.read (Elt Ideal) (GK m c) := by
  show (cfg0.win 6).cut (grid0.coords t) ((dats m 0 c).after 6 t) = _
  rw [after0_6]
  have hf := idx_facts t
  funext j
  have hemb : ((cfg0.win 6).blk t).view.emb j = ix4 ⟨t.val, N8 t⟩ (j 1) (j 2) (j 3) := by
    funext a; apply Fin.ext
    match a with
    | ⟨0, _⟩ => show win0_6.index t (0 : Fin 4) * 1 + 1 * (j 0).val = t.val; have hj0 : (j 0).val < 1 := (j 0).isLt; omega
    | ⟨1, _⟩ => show win0_6.index t (1 : Fin 4) * 56 + 1 * (j 1).val = (j 1).val; omega
    | ⟨2, _⟩ => show win0_6.index t (2 : Fin 4) * 56 + 1 * (j 2).val = (j 2).val; omega
    | ⟨3, _⟩ => show win0_6.index t (3 : Fin 4) * 128 + 1 * (j 3).val = (j 3).val; omega
  show outAt m c t j = GK m c (((cfg0.win 6).blk t).view.emb j)
  rw [hemb]
  unfold outAt outBlock GK
  rw [iblk0_img, iblk1_eq, iblk2_eq, iblk3_eq, iblk4_eq, iblk5_eq]

theorem mem_blk6 (t : Fin cfg0.N) (i : S8x56x56x128.Idx) :
    i ∈ ((cfg0.win 6).blk t).view.set ↔ ∀ a : Fin 4, win0_6.index t a * S1x56x56x128.size a ≤ (i a).val ∧ (i a).val < win0_6.index t a * S1x56x56x128.size a + S1x56x56x128.size a := by
  show i ∈ ((View.whole main_v32).slice (win0_6.rect t)).set ↔ _
  rw [View.set_slice_whole, Rect.mem_set_unit]
  exact Iff.rfl

/-- Every index of the result array is in the block of the point its batch coordinate names. -/
theorem cover6 (i : S8x56x56x128.Idx) : ∃ t : Fin cfg0.N, (cfg0.win 6).flush t = true ∧ i ∈ ((cfg0.win 6).blk t).view.set := by
  have hN : cfg0.N = 8 := N_0
  have h0 : (i 0).val < 8 := (i 0).isLt
  have h1 : (i 1).val < 56 := (i 1).isLt
  have h2 : (i 2).val < 56 := (i 2).isLt
  have h3 : (i 3).val < 128 := (i 3).isLt
  let t0 : Fin cfg0.N := ⟨(i 0).val, by rw [hN]; exact h0⟩
  have ht0 : t0.val = (i 0).val := rfl
  refine ⟨t0, flush0_6 _, ?_⟩
  rw [mem_blk6]
  obtain ⟨-, -, -, -, -, -, -, -, -, -, -, -, -, -, e0, e1, e2, e3⟩ := idx_facts t0
  intro a
  match a with
  | ⟨0, _⟩ => show win0_6.index t0 (0 : Fin 4) * 1 ≤ (i 0).val ∧ (i 0).val < win0_6.index t0 (0 : Fin 4) * 1 + 1; omega
  | ⟨1, _⟩ => show win0_6.index t0 (1 : Fin 4) * 56 ≤ (i 1).val ∧ (i 1).val < win0_6.index t0 (1 : Fin 4) * 56 + 56; omega
  | ⟨2, _⟩ => show win0_6.index t0 (2 : Fin 4) * 56 ≤ (i 2).val ∧ (i 2).val < win0_6.index t0 (2 : Fin 4) * 56 + 56; omega
  | ⟨3, _⟩ => show win0_6.index t0 (3 : Fin 4) * 128 ≤ (i 3).val ∧ (i 3).val < win0_6.index t0 (3 : Fin 4) * 128 + 128; omega

/-- The result array after the region. -/
theorem final6 (c : Dev nD) : (dats m 0 c).arrAt 6 cfg0.N = GK m c :=
  (dats m 0 c).arrAt_eq_of_cover 6 (GK m c) (fun t _ => flushed6_eq m c t) cover6

/-- Transposed to channel-major, the result array is the specification of the five arguments. -/
theorem GK_eq (c : Dev nD) :
    transpose S8x128x56x56 [0, 3, 1, 2] (GK m c) transposes_S8x56x56x128_S8x128x56x56_0_3_1_2
      = Vgg.G (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨n, cc, a, b, rfl⟩ : ∃ (n : Fin 8) (cc : Fin 128) (a b : Fin 56), i = ix4 n cc a b := ⟨i 0, i 1, i 2, i 3, eq_ix4 i⟩
  refine (Layout3.transpose_ix4_0312_apply (GK m c) transposes_S8x56x56x128_S8x128x56x56_0_3_1_2 n cc a b).trans ?_
  have h9 : (fun k n => (V m c main_v9 : S256x384.Idx → EReal) (ix2 k n)) = Vgg.pack0 (Vgg.weights (m ((c : Thread nD τ).loc main_arg1))) := by
    funext k n; rw [V_main_v9]; exact W9_apply _ k n
  have h19 : (fun k n => (V m c main_v19 : S256x384.Idx → EReal) (ix2 k n)) = Vgg.packA (Vgg.weights (m ((c : Thread nD τ).loc main_arg3))) := by
    funext k n; rw [V_main_v19]; exact W19_apply _ k n
  have h29 : (fun k n => (V m c main_v29 : S128x384.Idx → EReal) (ix2 k n)) = Vgg.packB (Vgg.weights (m ((c : Thread nD τ).loc main_arg3))) := by
    funext k n; rw [V_main_v29]; exact W29_apply _ k n
  have h30 : (fun cc => (V m c main_v30 : S1x128.Idx → EReal) (ix2 (0 : Fin 1) cc)) = Vgg.bias (m ((c : Thread nD τ).loc main_arg2)) := by
    funext cc; rw [V_main_v30]; exact bias_row_apply _ cc
  have h31 : (fun cc => (V m c main_v31 : S1x128.Idx → EReal) (ix2 (0 : Fin 1) cc)) = Vgg.bias (m ((c : Thread nD τ).loc main_arg4)) := by
    funext cc; rw [V_main_v31]; exact bias_row_apply _ cc
  unfold GK Vgg.G Vgg.blockOut
  rw [h9, h19, h29, h30, h31, V_main_arg0, Vgg.kblock_eq]

/-- The result after the line that follows the region. -/
theorem tail_v33 (c : Dev nD) :
    Pipeline.afterTail₀ cfgs (dats m) 0 (V0 m) [hostOps1] c main_v33
      = Vgg.G (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v33) = _
  after_results
  rw [show Pipeline.withArrays spec0 c (V0 m c) (fun w => (dats m 0 c).arrAt w cfg0.N) (Proc.devRef .tc main_v32) = (dats m 0 c).arrAt 6 cfg0.N
    from Pipeline.withArrays_arr spec0 launch0.win.arr_inj c _ _ 6, final6]
  exact GK_eq m c

theorem tail_arg1 (c : Dev nD) :
    Pipeline.afterTail₀ cfgs (dats m) 0 (V0 m) [hostOps1] c main_arg1 = m ((c : Thread nD τ).loc main_arg1) := by
  unfold Pipeline.afterTail₀
  show StableHlo.after hostOps1 _ (Proc.devRef .tc main_arg1) = _
  after_results
  exact (Pipeline.withArrays_of_ne spec0 c _ _ main_arg1 (by decide)).trans (V_main_arg1 m c)

theorem tail_arg2 (c : Dev nD) :
    Pipeline.afterTail₀ cfgs (dats m) 0 (V0 m) [hostOps1] c main_arg2 = m ((c : Thread nD τ).loc main_arg2) := by
  unfold Pipeline.afterTail₀
  show StableHlo.after hostOps1 _ (Proc.devRef .tc main_arg2) = _
  after_results
  exact (Pipeline.withArrays_of_ne spec0 c _ _ main_arg2 (by decide)).trans (V_main_arg2 m c)

theorem tail_arg3 (c : Dev nD) :
    Pipeline.afterTail₀ cfgs (dats m) 0 (V0 m) [hostOps1] c main_arg3 = m ((c : Thread nD τ).loc main_arg3) := by
  unfold Pipeline.afterTail₀
  show StableHlo.after hostOps1 _ (Proc.devRef .tc main_arg3) = _
  after_results
  exact (Pipeline.withArrays_of_ne spec0 c _ _ main_arg3 (by decide)).trans (V_main_arg3 m c)

theorem tail_arg4 (c : Dev nD) :
    Pipeline.afterTail₀ cfgs (dats m) 0 (V0 m) [hostOps1] c main_arg4 = m ((c : Thread nD τ).loc main_arg4) := by
  unfold Pipeline.afterTail₀
  show StableHlo.after hostOps1 _ (Proc.devRef .tc main_arg4) = _
  after_results
  exact (Pipeline.withArrays_of_ne spec0 c _ _ main_arg4 (by decide)).trans (V_main_arg4 m c)

/-- THE RUN, READ: the idealized kernel terminates with its result at the specification of its arguments,
    the arguments as they were. -/
theorem run : θ_run defs (onTc (τ := τ) (main (F := Ideal))) ⟨m, fun _ => 0, ρ⟩ (fun r => ∀ c : Dev nD,
      r.2.mem ((c.tc : Thread nD τ).loc main_v33)
        = Vgg.G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v33 (Pipeline.mem_restRefs_of main_v33 (by decide) (by decide))).trans (tail_v33 m c),
     ((h c).1 0).trans (((dats m 0 c).arrAt_in 0 rfl _).trans ((A_eq m c 0).trans (V_main_arg0 m c))),
     ((h c).2 main_arg1 (Pipeline.mem_restRefs_of main_arg1 (by decide) (by decide))).trans (tail_arg1 m c),
     ((h c).2 main_arg2 (Pipeline.mem_restRefs_of main_arg2 (by decide) (by decide))).trans (tail_arg2 m c),
     ((h c).2 main_arg3 (Pipeline.mem_restRefs_of main_arg3 (by decide) (by decide))).trans (tail_arg3 m c),
     ((h c).2 main_arg4 (Pipeline.mem_restRefs_of main_arg4 (by decide) (by decide))).trans (tail_arg4 m c)⟩)
    (run_main m ρ)

end Cert.KernelIdeal.KFrame

end
-- ==== Proof.RefRun0.lean ====
import proofs.«120882_g2000303031884594_pallasbulk_961_21_alg».proof.Proof.Gen.ReferenceIdeal.Launch
import proofs.«120882_g2000303031884594_pallasbulk_961_21_alg».proof.Proof.Gen.ReferenceIdeal.Skeleton
import proofs.«120882_g2000303031884594_pallasbulk_961_21_alg».proof.Proof.Gen.ReferenceIdeal.Points

import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RefValue

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The convolution body of region 0 run once on whole staging memrefs: the framed input block, the
    weights and the bias at given contents, the output block and the accumulator at anything (the body
    zeroes the accumulator before it reads it).  The run leaves the inputs as they were and each
    written buffer with a list of written pieces found by the run. -/

set_option maxHeartbeats 4000000 in
noncomputable def bodyRun0 (c : Dev nD) (i : grid0.Coords) (arg2 : Memref sig .tc .vmem S1x114x114x64 .bf16) (harg2 : arg2.IsWhole) (arg3 : Memref sig .tc .vmem S3x3x64x128 .bf16) (harg3 : arg3.IsWhole) (arg4 : Memref sig .tc .vmem S1x128 .f32) (harg4 : arg4.IsWhole) (arg5 : Memref sig .tc .vmem S1x114x114x128 .bf16) (harg5 : arg5.IsWhole) (arg6 : Memref sig .tc .vmem S12544x128 .f32) (harg6 : arg6.IsWhole)
    (x2 : Vec F S1x114x114x64 .bf16) (x3 : Vec F S3x3x64x128 .bf16) (x4 : Vec F S1x128 .f32) :
    Σ' (L5 : List (View.Piece (Elt F) S1x114x114x128 .bf16)),
      { L6 : List (View.Piece (Elt F) S12544x128 .f32) // ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6)) -∗ K ⟨⟩))
          ⊢ wp frame (wpE (defs₀ (F := F)) Variants.none c none) E (cc0__conv3x3_relu_kernel i arg2 harg2 arg3 harg3 arg4 harg4 arg5 harg5 arg6 harg6) K } := by
  refine ⟨?_, ?_, fun E K => ?run⟩
  case run =>
    simp only [cc0__conv3x3_relu_kernel_eq_skeleton]; unfold cc0__conv3x3_relu_kernel_skel
    simp only [k0_part1_eq_skeleton, k0_part2_eq_skeleton, k0_part3_eq_skeleton, k0_part4_eq_skeleton]
    unfold k0_part1_skel k0_part2_skel k0_part3_skel k0_part4_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.ReferenceIdeal.RefValue

end
-- ==== Proof.RefDat0.lean ====
import proofs.«120882_g2000303031884594_pallasbulk_961_21_alg».proof.Proof.Gen.ReferenceIdeal.Launch
import proofs.«120882_g2000303031884594_pallasbulk_961_21_alg».proof.Proof.Gen.ReferenceIdeal.Skeleton
import proofs.«120882_g2000303031884594_pallasbulk_961_21_alg».proof.Proof.Gen.ReferenceIdeal.Points
import proofs.«120882_g2000303031884594_pallasbulk_961_21_alg».proof.Proof.RefRun0
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RefValue

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Convolution region 0: what the body leaves, its triple, the proof data, the body obligation -/

/-- A scoped buffer held whole at some contents is its whole memref owned at some contents, and back. -/
theorem scratch_in0 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  iintro ⟨%f, H⟩
  iexists f
  rw [owns_whole_eq]
  iexists f; isplitr; · ipureintro; rfl
  iexact H

theorem scratch_out0 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩
  iexists f; iexact H

/-- The output block after the body, from the input blocks: the canon of the run's stores. -/
def out0 (c : Dev nD) (i : grid0.Coords) (arg2 : Memref sig .tc .vmem S1x114x114x64 .bf16) (harg2 : arg2.IsWhole) (arg3 : Memref sig .tc .vmem S3x3x64x128 .bf16) (harg3 : arg3.IsWhole) (arg4 : Memref sig .tc .vmem S1x128 .f32) (harg4 : arg4.IsWhole) (arg5 : Memref sig .tc .vmem S1x114x114x128 .bf16) (harg5 : arg5.IsWhole) (arg6 : Memref sig .tc .vmem S12544x128 .f32) (harg6 : arg6.IsWhole)
    (x2 : Vec F S1x114x114x64 .bf16) (x3 : Vec F S3x3x64x128 .bf16) (x4 : Vec F S1x128 .f32) : Vec F S1x114x114x128 .bf16 :=
  View.canon (bodyRun0 c i arg2 harg2 arg3 harg3 arg4 harg4 arg5 harg5 arg6 harg6 x2 x3 x4).1

/-- The literal zero offsets are the zero function. -/
theorem zeroOff4_0 : (![0, 0, 0, 0] : Fin 4 → Nat) = fun _ => 0 := by funext a; fin_cases a <;> rfl

/-- The whole-block store covers the block. -/
theorem cover0 (c : Dev nD) (i : grid0.Coords) (arg2 : Memref sig .tc .vmem S1x114x114x64 .bf16) (harg2 : arg2.IsWhole) (arg3 : Memref sig .tc .vmem S3x3x64x128 .bf16) (harg3 : arg3.IsWhole) (arg4 : Memref sig .tc .vmem S1x128 .f32) (harg4 : arg4.IsWhole) (arg5 : Memref sig .tc .vmem S1x114x114x128 .bf16) (harg5 : arg5.IsWhole) (arg6 : Memref sig .tc .vmem S12544x128 .f32) (harg6 : arg6.IsWhole)
    (x2 : Vec F S1x114x114x64 .bf16) (x3 : Vec F S3x3x64x128 .bf16) (x4 : Vec F S1x128 .f32) (y : S1x114x114x128.Idx) : ∃ p ∈ (bodyRun0 c i arg2 harg2 arg3 harg3 arg4 harg4 arg5 harg5 arg6 harg6 x2 x3 x4).1, y ∈ p.1.set :=
  ⟨_, List.Mem.tail _ (List.Mem.head _), View.mem_set_unit_zero zeroOff4_0 Cert.ReferenceIdeal.Facts₀.inb_S1x114x114x128_S1x114x114x128_0_0_0_0 y⟩

/-- The body on whole staging memrefs: the inputs kept, the output at `out0` of them, the accumulator at something. -/
theorem sound_kernel0 (c : Dev nD) (E : Set ℕ) (i : grid0.Coords) (arg2 : Memref sig .tc .vmem S1x114x114x64 .bf16) (harg2 : arg2.IsWhole) (arg3 : Memref sig .tc .vmem S3x3x64x128 .bf16) (harg3 : arg3.IsWhole) (arg4 : Memref sig .tc .vmem S1x128 .f32) (harg4 : arg4.IsWhole) (arg5 : Memref sig .tc .vmem S1x114x114x128 .bf16) (harg5 : arg5.IsWhole) (arg6 : Memref sig .tc .vmem S12544x128 .f32) (harg6 : arg6.IsWhole)
    (x2 : Vec F S1x114x114x64 .bf16) (x3 : Vec F S3x3x64x128 .bf16) (x4 : Vec F S1x128 .f32) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
        ∗ (iprop(owns (c : Thread nD τ) arg2 fullShare x2 ∗ owns (c : Thread nD τ) arg3 fullShare x3 ∗ owns (c : Thread nD τ) arg4 fullShare x4 ∗ owns (c : Thread nD τ) arg5 fullShare (out0 c i arg2 harg2 arg3 harg3 arg4 harg4 arg5 harg5 arg6 harg6 x2 x3 x4) ∗ (∃ d, owns (c : Thread nD τ) arg6 fullShare d)) -∗ K ⟨⟩))
      ⊢ wp frame (wpE (defs₀ (F := F)) Variants.none c none) E (cc0__conv3x3_relu_kernel i arg2 harg2 arg3 harg3 arg4 harg4 arg5 harg5 arg6 harg6) K := by
  iintro ⟨H2, H3, H4, H5, H6, Hk⟩
  iapply ((bodyRun0 c i arg2 harg2 arg3 harg3 arg4 harg4 arg5 harg5 arg6 harg6 x2 x3 x4).2.2 E K)
  isplitl [H2]; · iexact H2
  isplitl [H3]; · iexact H3
  isplitl [H4]; · iexact H4
  isplitl [H5]; · iexact H5
  isplitl [H6]; · iexact H6
  iintro ⟨H2, H3, H4, ⟨%f5, H5⟩, ⟨%f6, H6⟩⟩
  iapply Hk
  isplitl [H2]; · iexact H2
  isplitl [H3]; · iexact H3
  isplitl [H4]; · iexact H4
  unfold owns
  isplitl [H5]
  · iexists _; isplitr
    swap; · iexact H5
    ipureintro
    exact View.read_writes_eq_canon _ _ _ (cover0 c i arg2 harg2 arg3 harg3 arg4 harg4 arg5 harg5 arg6 harg6 x2 x3 x4)
  iexists _; iexists _; isplitr
  swap; · iexact H6
  ipureintro; rfl

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The output block at point `t`. -/
def out0At (c : Dev nD) (t : Fin cfg0.N) : Vec F S1x114x114x128 .bf16 :=
  out0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (iblk0 V c 0 t) (iblk0 V c 1 t) (iblk0 V c 2 t)

/-- The proof data: the arrays as the region finds them; after the body each input's buffer at its block and the
    output's at the canon of the stores; the scoped rest (the accumulator among it) and the generator register at
    something; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0At V c t
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0At V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2, after0_3]
  unfold Pipeline.ΦA
  rw [scopedRest0_eq]
  iintro ⟨⟨⟨Hs, Hrest⟩, Hp⟩, Ho, ⟨%d0, H0⟩, ⟨%d1, H1⟩, ⟨%d2, H2⟩, ⟨%d3, H3⟩⟩
  ihave Hs' := (scratch_in0 c cc0_scratch0) $$ Hs
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [Hs']; · iexact Hs'
  iintro ⟨H0, H1, H2, H3, Hs'⟩
  ihave Hs := (scratch_out0 c cc0_scratch0) $$ Hs'
  isplitl [Hs Hrest Hp]
  · isplitr [Hp]
    · isplitl [Hs]; · iexact Hs
      iexact Hrest
    iexact Hp
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.ReferenceIdeal.RefValue

end
-- ==== Proof.RefRun1.lean ====
import proofs.«120882_g2000303031884594_pallasbulk_961_21_alg».proof.Proof.Gen.ReferenceIdeal.Launch
import proofs.«120882_g2000303031884594_pallasbulk_961_21_alg».proof.Proof.Gen.ReferenceIdeal.Skeleton
import proofs.«120882_g2000303031884594_pallasbulk_961_21_alg».proof.Proof.Gen.ReferenceIdeal.Points

import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RefValue

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The convolution body of region 1 run once on whole staging memrefs: the framed input block, the
    weights and the bias at given contents, the output block and the accumulator at anything (the body
    zeroes the accumulator before it reads it).  The run leaves the inputs as they were and each
    written buffer with a list of written pieces found by the run. -/

set_option maxHeartbeats 4000000 in
noncomputable def bodyRun1 (c : Dev nD) (i : grid1.Coords) (arg2 : Memref sig .tc .vmem S1x114x114x128 .bf16) (harg2 : arg2.IsWhole) (arg3 : Memref sig .tc .vmem S3x3x128x128 .bf16) (harg3 : arg3.IsWhole) (arg4 : Memref sig .tc .vmem S1x128 .f32) (harg4 : arg4.IsWhole) (arg5 : Memref sig .tc .vmem S1x112x112x128 .bf16) (harg5 : arg5.IsWhole) (arg6 : Memref sig .tc .vmem S12544x128 .f32) (harg6 : arg6.IsWhole)
    (x2 : Vec F S1x114x114x128 .bf16) (x3 : Vec F S3x3x128x128 .bf16) (x4 : Vec F S1x128 .f32) :
    Σ' (L5 : List (View.Piece (Elt F) S1x112x112x128 .bf16)),
      { L6 : List (View.Piece (Elt F) S12544x128 .f32) // ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6)) -∗ K ⟨⟩))
          ⊢ wp frame (wpE (defs₀ (F := F)) Variants.none c none) E (cc1__conv3x3_relu_kernel i arg2 harg2 arg3 harg3 arg4 harg4 arg5 harg5 arg6 harg6) K } := by
  refine ⟨?_, ?_, fun E K => ?run⟩
  case run =>
    simp only [cc1__conv3x3_relu_kernel_eq_skeleton]; unfold cc1__conv3x3_relu_kernel_skel
    simp only [k1_part1_eq_skeleton, k1_part2_eq_skeleton, k1_part3_eq_skeleton, k1_part4_eq_skeleton]
    unfold k1_part1_skel k1_part2_skel k1_part3_skel k1_part4_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.ReferenceIdeal.RefValue

end
-- ==== Proof.RefDat1.lean ====
import proofs.«120882_g2000303031884594_pallasbulk_961_21_alg».proof.Proof.Gen.ReferenceIdeal.Launch
import proofs.«120882_g2000303031884594_pallasbulk_961_21_alg».proof.Proof.Gen.ReferenceIdeal.Skeleton
import proofs.«120882_g2000303031884594_pallasbulk_961_21_alg».proof.Proof.Gen.ReferenceIdeal.Points
import proofs.«120882_g2000303031884594_pallasbulk_961_21_alg».proof.Proof.RefRun1
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RefValue

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Convolution region 1: what the body leaves, its triple, the proof data, the body obligation -/

/-- A scoped buffer held whole at some contents is its whole memref owned at some contents, and back. -/
theorem scratch_in1 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  iintro ⟨%f, H⟩
  iexists f
  rw [owns_whole_eq]
  iexists f; isplitr; · ipureintro; rfl
  iexact H

theorem scratch_out1 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩
  iexists f; iexact H

/-- The output block after the body, from the input blocks: the canon of the run's stores. -/
def out1 (c : Dev nD) (i : grid1.Coords) (arg2 : Memref sig .tc .vmem S1x114x114x128 .bf16) (harg2 : arg2.IsWhole) (arg3 : Memref sig .tc .vmem S3x3x128x128 .bf16) (harg3 : arg3.IsWhole) (arg4 : Memref sig .tc .vmem S1x128 .f32) (harg4 : arg4.IsWhole) (arg5 : Memref sig .tc .vmem S1x112x112x128 .bf16) (harg5 : arg5.IsWhole) (arg6 : Memref sig .tc .vmem S12544x128 .f32) (harg6 : arg6.IsWhole)
    (x2 : Vec F S1x114x114x128 .bf16) (x3 : Vec F S3x3x128x128 .bf16) (x4 : Vec F S1x128 .f32) : Vec F S1x112x112x128 .bf16 :=
  View.canon (bodyRun1 c i arg2 harg2 arg3 harg3 arg4 harg4 arg5 harg5 arg6 harg6 x2 x3 x4).1

/-- The literal zero offsets are the zero function. -/
theorem zeroOff4_1 : (![0, 0, 0, 0] : Fin 4 → Nat) = fun _ => 0 := by funext a; fin_cases a <;> rfl

/-- The whole-block store covers the block. -/
theorem cover1 (c : Dev nD) (i : grid1.Coords) (arg2 : Memref sig .tc .vmem S1x114x114x128 .bf16) (harg2 : arg2.IsWhole) (arg3 : Memref sig .tc .vmem S3x3x128x128 .bf16) (harg3 : arg3.IsWhole) (arg4 : Memref sig .tc .vmem S1x128 .f32) (harg4 : arg4.IsWhole) (arg5 : Memref sig .tc .vmem S1x112x112x128 .bf16) (harg5 : arg5.IsWhole) (arg6 : Memref sig .tc .vmem S12544x128 .f32) (harg6 : arg6.IsWhole)
    (x2 : Vec F S1x114x114x128 .bf16) (x3 : Vec F S3x3x128x128 .bf16) (x4 : Vec F S1x128 .f32) (y : S1x112x112x128.Idx) : ∃ p ∈ (bodyRun1 c i arg2 harg2 arg3 harg3 arg4 harg4 arg5 harg5 arg6 harg6 x2 x3 x4).1, y ∈ p.1.set :=
  ⟨_, List.Mem.head _, View.mem_set_unit_zero zeroOff4_1 Cert.ReferenceIdeal.Facts₀.inb_S1x112x112x128_S1x112x112x128_0_0_0_0 y⟩

/-- The body on whole staging memrefs: the inputs kept, the output at `out1` of them, the accumulator at something. -/
theorem sound_kernel1 (c : Dev nD) (E : Set ℕ) (i : grid1.Coords) (arg2 : Memref sig .tc .vmem S1x114x114x128 .bf16) (harg2 : arg2.IsWhole) (arg3 : Memref sig .tc .vmem S3x3x128x128 .bf16) (harg3 : arg3.IsWhole) (arg4 : Memref sig .tc .vmem S1x128 .f32) (harg4 : arg4.IsWhole) (arg5 : Memref sig .tc .vmem S1x112x112x128 .bf16) (harg5 : arg5.IsWhole) (arg6 : Memref sig .tc .vmem S12544x128 .f32) (harg6 : arg6.IsWhole)
    (x2 : Vec F S1x114x114x128 .bf16) (x3 : Vec F S3x3x128x128 .bf16) (x4 : Vec F S1x128 .f32) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
        ∗ (iprop(owns (c : Thread nD τ) arg2 fullShare x2 ∗ owns (c : Thread nD τ) arg3 fullShare x3 ∗ owns (c : Thread nD τ) arg4 fullShare x4 ∗ owns (c : Thread nD τ) arg5 fullShare (out1 c i arg2 harg2 arg3 harg3 arg4 harg4 arg5 harg5 arg6 harg6 x2 x3 x4) ∗ (∃ d, owns (c : Thread nD τ) arg6 fullShare d)) -∗ K ⟨⟩))
      ⊢ wp frame (wpE (defs₀ (F := F)) Variants.none c none) E (cc1__conv3x3_relu_kernel i arg2 harg2 arg3 harg3 arg4 harg4 arg5 harg5 arg6 harg6) K := by
  iintro ⟨H2, H3, H4, H5, H6, Hk⟩
  iapply ((bodyRun1 c i arg2 harg2 arg3 harg3 arg4 harg4 arg5 harg5 arg6 harg6 x2 x3 x4).2.2 E K)
  isplitl [H2]; · iexact H2
  isplitl [H3]; · iexact H3
  isplitl [H4]; · iexact H4
  isplitl [H5]; · iexact H5
  isplitl [H6]; · iexact H6
  iintro ⟨H2, H3, H4, ⟨%f5, H5⟩, ⟨%f6, H6⟩⟩
  iapply Hk
  isplitl [H2]; · iexact H2
  isplitl [H3]; · iexact H3
  isplitl [H4]; · iexact H4
  unfold owns
  isplitl [H5]
  · iexists _; isplitr
    swap; · iexact H5
    ipureintro
    exact View.read_writes_eq_canon _ _ _ (cover1 c i arg2 harg2 arg3 harg3 arg4 harg4 arg5 harg5 arg6 harg6 x2 x3 x4)
  iexists _; iexists _; isplitr
  swap; · iexact H6
  ipureintro; rfl

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output block at point `t`. -/
def out1At (c : Dev nD) (t : Fin cfg1.N) : Vec F S1x112x112x128 .bf16 :=
  out1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (iblk1 V c 0 t) (iblk1 V c 1 t) (iblk1 V c 2 t)

/-- The proof data: the arrays as the region finds them; after the body each input's buffer at its block and the
    output's at the canon of the stores; the scoped rest (the accumulator among it) and the generator register at
    something; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1At V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1At V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3]
  unfold Pipeline.ΦA
  rw [scopedRest1_eq]
  iintro ⟨⟨⟨A1, A2, A3, A4, A5, A6, A7, Hs, Hrest⟩, Hp⟩, Ho, ⟨%d0, H0⟩, ⟨%d1, H1⟩, ⟨%d2, H2⟩, ⟨%d3, H3⟩⟩
  ihave Hs' := (scratch_in1 c cc1_scratch0) $$ Hs
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [Hs']; · iexact Hs'
  iintro ⟨H0, H1, H2, H3, Hs'⟩
  ihave Hs := (scratch_out1 c cc1_scratch0) $$ Hs'
  isplitl [A1 A2 A3 A4 A5 A6 A7 Hs Hrest Hp]
  · isplitr [Hp]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [Hs]; · iexact Hs
      iexact Hrest
    iexact Hp
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.ReferenceIdeal.RefValue

end
-- ==== Proof.RefRun2.lean ====
import proofs.«120882_g2000303031884594_pallasbulk_961_21_alg».proof.Proof.Gen.ReferenceIdeal.Launch
import proofs.«120882_g2000303031884594_pallasbulk_961_21_alg».proof.Proof.Gen.ReferenceIdeal.Skeleton
import proofs.«120882_g2000303031884594_pallasbulk_961_21_alg».proof.Proof.Gen.ReferenceIdeal.Points

import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RefValue

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The pooling body run once on whole staging memrefs: the input block at given contents, the
    output block at anything.  The run leaves the input as it was and the output with a list of
    written pieces found by the run. -/

set_option maxHeartbeats 4000000 in
noncomputable def bodyRun2 (c : Dev nD) (i : grid2.Coords) (arg1 : Memref sig .tc .vmem S1x56x2x56x256 .bf16) (harg1 : arg1.IsWhole) (arg2 : Memref sig .tc .vmem S1x56x56x128 .bf16) (harg2 : arg2.IsWhole)
    (x1 : Vec F S1x56x2x56x256 .bf16) :
    { L2 : List (View.Piece (Elt F) S1x56x56x128 .bf16) // ∀ (E : Set ℕ) (K : PUnit → sProp 𝕄),
        iprop(owns (c : Thread nD τ) arg1 fullShare x1 ∗ (∃ d, owns (c : Thread nD τ) arg2 fullShare d)
            ∗ (iprop(owns (c : Thread nD τ) arg1 fullShare x1 ∗ (∃ f, arg2.view.loc (c : Thread nD τ) ↦[arg2.view.set]{fullShare} arg2.view.writes (Elt F) f L2)) -∗ K ⟨⟩))
          ⊢ wp frame (wpE (defs₀ (F := F)) Variants.none c none) E (cc2__maxpool2x2_kernel i arg1 harg1 arg2 harg2) K } := by
  refine ⟨?_, fun E K => ?run⟩
  case run =>
    simp only [cc2__maxpool2x2_kernel_eq_skeleton]; unfold cc2__maxpool2x2_kernel_skel
    unfold owns
    iintro ⟨⟨%f1, %hf1, H1⟩, ⟨%d2, %f2, -, H2⟩, Hk⟩
    obtain rfl := harg1.eq_unread hf1
    sl_exec
    sl_step
    iapply Hk
    isplitl [H1]
    · iexists _; isplitr; · ipureintro; exact harg1.read_unread _
      iexact H1
    iexists _; iexact H2

end Cert.ReferenceIdeal.RefValue

end
-- ==== Proof.RefDat2.lean ====
import proofs.«120882_g2000303031884594_pallasbulk_961_21_alg».proof.Proof.Gen.ReferenceIdeal.Launch
import proofs.«120882_g2000303031884594_pallasbulk_961_21_alg».proof.Proof.Gen.ReferenceIdeal.Skeleton
import proofs.«120882_g2000303031884594_pallasbulk_961_21_alg».proof.Proof.Gen.ReferenceIdeal.Points
import proofs.«120882_g2000303031884594_pallasbulk_961_21_alg».proof.Proof.RefRun2
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RefValue

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling region: what the body leaves, its triple, the proof data, the body obligation -/

/-- The output block after the body, from the input block: the canon of the run's stores. -/
def out2 (c : Dev nD) (i : grid2.Coords) (arg1 : Memref sig .tc .vmem S1x56x2x56x256 .bf16) (harg1 : arg1.IsWhole) (arg2 : Memref sig .tc .vmem S1x56x56x128 .bf16) (harg2 : arg2.IsWhole)
    (x1 : Vec F S1x56x2x56x256 .bf16) : Vec F S1x56x56x128 .bf16 :=
  View.canon (bodyRun2 c i arg1 harg1 arg2 harg2 x1).1

/-- The literal zero offsets are the zero function. -/
theorem zeroOff4_2 : (![0, 0, 0, 0] : Fin 4 → Nat) = fun _ => 0 := by funext a; fin_cases a <;> rfl

/-- The one store covers the block. -/
theorem cover2 (c : Dev nD) (i : grid2.Coords) (arg1 : Memref sig .tc .vmem S1x56x2x56x256 .bf16) (harg1 : arg1.IsWhole) (arg2 : Memref sig .tc .vmem S1x56x56x128 .bf16) (harg2 : arg2.IsWhole)
    (x1 : Vec F S1x56x2x56x256 .bf16) (y : S1x56x56x128.Idx) : ∃ p ∈ (bodyRun2 c i arg1 harg1 arg2 harg2 x1).1, y ∈ p.1.set :=
  ⟨_, List.Mem.head _, View.mem_set_unit_zero zeroOff4_2 Cert.ReferenceIdeal.Facts₀.inb_S1x56x56x128_S1x56x56x128_0_0_0_0 y⟩

/-- The body on whole staging memrefs: the input kept, the output at `out2` of it. -/
theorem sound_kernel2 (c : Dev nD) (E : Set ℕ) (i : grid2.Coords) (arg1 : Memref sig .tc .vmem S1x56x2x56x256 .bf16) (harg1 : arg1.IsWhole) (arg2 : Memref sig .tc .vmem S1x56x56x128 .bf16) (harg2 : arg2.IsWhole)
    (x1 : Vec F S1x56x2x56x256 .bf16) (K : PUnit → sProp 𝕄) :
    iprop(owns (c : Thread nD τ) arg1 fullShare x1 ∗ (∃ d, owns (c : Thread nD τ) arg2 fullShare d)
        ∗ (iprop(owns (c : Thread nD τ) arg1 fullShare x1 ∗ owns (c : Thread nD τ) arg2 fullShare (out2 c i arg1 harg1 arg2 harg2 x1)) -∗ K ⟨⟩))
      ⊢ wp frame (wpE (defs₀ (F := F)) Variants.none c none) E (cc2__maxpool2x2_kernel i arg1 harg1 arg2 harg2) K := by
  iintro ⟨H1, H2, Hk⟩
  iapply ((bodyRun2 c i arg1 harg1 arg2 harg2 x1).2 E K)
  isplitl [H1]; · iexact H1
  isplitl [H2]; · iexact H2
  iintro ⟨H1, ⟨%f, H2⟩⟩
  iapply Hk
  isplitl [H1]; · iexact H1
  unfold owns
  iexists _; isplitr
  swap; · iexact H2
  ipureintro
  exact View.read_writes_eq_canon _ _ _ (cover2 c i arg1 harg1 arg2 harg2 x1)

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The output block at point `t`. -/
def out2At (c : Dev nD) (t : Fin cfg2.N) : Vec F S1x56x56x128 .bf16 :=
  out2 c (grid2.coords t) (win2_0.stage (cfg2.slots t 0)) (hstage2_0 ((cfg2.slots t 0).cast nbuf2_0)) (win2_1.stage (cfg2.slots t 1)) (hstage2_1 ((cfg2.slots t 1).cast nbuf2_1)) (iblk2 V c 0 t)

/-- The proof data: the arrays as the region finds them; after the body the input's buffer at its block and the
    output's at the canon of the stores; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2At V c t
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = out2At V c t := by dsimp only [dat2]
theorem before2_0 (c : Dev nD) (t : Fin cfg2.N) (d) : (dat2 V c).before 0 t d = iblk2 V c 0 t :=
  before2_0_of V (dat2 V c) (A_eq2 V c 0) (after2_0 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V c) (defs₀ (F := F)) Variants.none () Set.univ := fun t => by
  rw [bigSep_W2, bigSep_W2]
  exact sound_body2 V c t

end Cert.ReferenceIdeal.RefValue

end
-- ==== Proof.RefRegions.lean ====
import proofs.«120882_g2000303031884594_pallasbulk_961_21_alg».proof.Proof.Gen.ReferenceIdeal.Launch
import proofs.«120882_g2000303031884594_pallasbulk_961_21_alg».proof.Proof.Gen.ReferenceIdeal.Skeleton
import proofs.«120882_g2000303031884594_pallasbulk_961_21_alg».proof.Proof.Gen.ReferenceIdeal.Points
import proofs.«120882_g2000303031884594_pallasbulk_961_21_alg».proof.Proof.RefDat0
import proofs.«120882_g2000303031884594_pallasbulk_961_21_alg».proof.Proof.RefDat1
import proofs.«120882_g2000303031884594_pallasbulk_961_21_alg».proof.Proof.RefDat2
import proofs.«120882_g2000303031884594_pallasbulk_961_21_alg».proof.Proof.Gen.ReferenceIdeal.Regions
import Idealize.ShloMosaic.Lib.Pipeline.RegionsLoop
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RefValue

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: the buffers' contents at each boundary, the regions as segments, the launch -/

/-- Core `c`'s unscoped buffers at launch, -/
abbrev W0 : Dev nD → Valuation τ sig (Elt F) := fun c b => m ((c : Dev nD), b)
/-- after each of the three host stretches before the first region, -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- and the same read at the TensorCore's references (what the first region's proof data take). -/
abbrev U3 : (c : Dev nD) → (b : Ref sig .tc) → Buf (Elt F) ((c : Thread nD τ).loc b) := fun c b => W3 m c b

/-- At region 0's exit: its arrays at what the pipeline leaves, every other buffer as entered. -/
def W4 (c : Dev nD) : Valuation τ sig (Elt F) :=
  Pipeline.withArrays spec0 c (W3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev U4 : (c : Dev nD) → (b : Ref sig .tc) → Buf (Elt F) ((c : Thread nD τ).loc b) := fun c b => W4 m c b
theorem hF0 (c : Dev nD) (w : Fin cfg0.W) : (dat0 (U3 m) c).arrAt w cfg0.N = U4 m c (Pipeline.arrRef spec0 w) :=
  (W4_arr m c w).symm
theorem hrest0 (c : Dev nD) : ∀ b, b ∉ Finset.univ.image (Pipeline.arrRef spec0) → U4 m c b = U3 m c b :=
  fun b hb => W4_of_ne m c b fun w e => hb (Finset.mem_image.mpr ⟨w, Finset.mem_univ _, e⟩)

/-- After the host stretch between the first two regions. -/
abbrev W5 : Dev nD → Valuation τ sig (Elt F) := fun c => StableHlo.after hostOps1 (W4 m c)
abbrev U5 : (c : Dev nD) → (b : Ref sig .tc) → Buf (Elt F) ((c : Thread nD τ).loc b) := fun c b => W5 m c b

/-- At region 1's exit: its arrays at what the pipeline leaves, every other buffer as entered. -/
def W6 (c : Dev nD) : Valuation τ sig (Elt F) :=
  Pipeline.withArrays spec1 c (W5 m c) fun w => (dat1 (U5 m) c).arrAt w cfg1.N
theorem W6_arr (c : Dev nD) (w : Fin cfg1.W) :
    W6 m c (Proc.devRef .tc (Pipeline.arrRef spec1 w)) = (dat1 (U5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev U6 : (c : Dev nD) → (b : Ref sig .tc) → Buf (Elt F) ((c : Thread nD τ).loc b) := fun c b => W6 m c b
theorem hF1 (c : Dev nD) (w : Fin cfg1.W) : (dat1 (U5 m) c).arrAt w cfg1.N = U6 m c (Pipeline.arrRef spec1 w) :=
  (W6_arr m c w).symm
theorem hrest1 (c : Dev nD) : ∀ b, b ∉ Finset.univ.image (Pipeline.arrRef spec1) → U6 m c b = U5 m c b :=
  fun b hb => W6_of_ne m c b fun w e => hb (Finset.mem_image.mpr ⟨w, Finset.mem_univ _, e⟩)

/-- After the reshape before the pooling region. -/
abbrev W7 : Dev nD → Valuation τ sig (Elt F) := fun c => StableHlo.after hostOps2 (W6 m c)
abbrev U7 : (c : Dev nD) → (b : Ref sig .tc) → Buf (Elt F) ((c : Thread nD τ).loc b) := fun c b => W7 m c b

/-- At region 2's exit: its arrays at what the pipeline leaves, every other buffer as entered. -/
def W8 (c : Dev nD) : Valuation τ sig (Elt F) :=
  Pipeline.withArrays spec2 c (W7 m c) fun w => (dat2 (U7 m) c).arrAt w cfg2.N
theorem W8_arr (c : Dev nD) (w : Fin cfg2.W) :
    W8 m c (Proc.devRef .tc (Pipeline.arrRef spec2 w)) = (dat2 (U7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev U8 : (c : Dev nD) → (b : Ref sig .tc) → Buf (Elt F) ((c : Thread nD τ).loc b) := fun c b => W8 m c b
theorem hF2 (c : Dev nD) (w : Fin cfg2.W) : (dat2 (U7 m) c).arrAt w cfg2.N = U8 m c (Pipeline.arrRef spec2 w) :=
  (W8_arr m c w).symm
theorem hrest2 (c : Dev nD) : ∀ b, b ∉ Finset.univ.image (Pipeline.arrRef spec2) → U8 m c b = U7 m c b :=
  fun b hb => W8_of_ne m c b fun w e => hb (Finset.mem_image.mpr ⟨w, Finset.mem_univ _, e⟩)

/-- After the final transposition. -/
abbrev W9 : Dev nD → Valuation τ sig (Elt F) := fun c => StableHlo.after hostOps3 (W8 m c)

/-! ## The arguments end as launched: no host operation writes one, no region changes one -/

theorem W9_main_arg0 (c : Dev nD) : W9 m c (Proc.devRef .tc main_arg0) = m ((c : Thread nD τ).loc main_arg0) :=
  (StableHlo.after_of_writes_sub hostOps3 _ hostOps3_writes (r := main_arg0) (by decide)).trans <|
  (W8_of_ne m c main_arg0 (by decide)).trans <|
  (StableHlo.after_of_writes_sub hostOps2 _ hostOps2_writes (r := main_arg0) (by decide)).trans <|
  (W6_of_ne m c main_arg0 (by decide)).trans <|
  (StableHlo.after_of_writes_sub hostOps1 _ hostOps1_writes (r := main_arg0) (by decide)).trans <|
  (W4_of_ne m c main_arg0 (by decide)).trans <|
  (StableHlo.after_of_writes_sub hostOps0_2 _ hostOps0_2_writes (r := main_arg0) (by decide)).trans <|
  (StableHlo.after_of_writes_sub hostOps0_1 _ hostOps0_1_writes (r := main_arg0) (by decide)).trans <|
  (StableHlo.after_of_writes_sub hostOps0 _ hostOps0_writes (r := main_arg0) (by decide)).trans rfl
theorem W9_main_arg1 (c : Dev nD) : W9 m c (Proc.devRef .tc main_arg1) = m ((c : Thread nD τ).loc main_arg1) :=
  (StableHlo.after_of_writes_sub hostOps3 _ hostOps3_writes (r := main_arg1) (by decide)).trans <|
  (W8_of_ne m c main_arg1 (by decide)).trans <|
  (StableHlo.after_of_writes_sub hostOps2 _ hostOps2_writes (r := main_arg1) (by decide)).trans <|
  (W6_of_ne m c main_arg1 (by decide)).trans <|
  (StableHlo.after_of_writes_sub hostOps1 _ hostOps1_writes (r := main_arg1) (by decide)).trans <|
  (W4_of_ne m c main_arg1 (by decide)).trans <|
  (StableHlo.after_of_writes_sub hostOps0_2 _ hostOps0_2_writes (r := main_arg1) (by decide)).trans <|
  (StableHlo.after_of_writes_sub hostOps0_1 _ hostOps0_1_writes (r := main_arg1) (by decide)).trans <|
  (StableHlo.after_of_writes_sub hostOps0 _ hostOps0_writes (r := main_arg1) (by decide)).trans rfl
theorem W9_main_arg2 (c : Dev nD) : W9 m c (Proc.devRef .tc main_arg2) = m ((c : Thread nD τ).loc main_arg2) :=
  (StableHlo.after_of_writes_sub hostOps3 _ hostOps3_writes (r := main_arg2) (by decide)).trans <|
  (W8_of_ne m c main_arg2 (by decide)).trans <|
  (StableHlo.after_of_writes_sub hostOps2 _ hostOps2_writes (r := main_arg2) (by decide)).trans <|
  (W6_of_ne m c main_arg2 (by decide)).trans <|
  (StableHlo.after_of_writes_sub hostOps1 _ hostOps1_writes (r := main_arg2) (by decide)).trans <|
  (W4_of_ne m c main_arg2 (by decide)).trans <|
  (StableHlo.after_of_writes_sub hostOps0_2 _ hostOps0_2_writes (r := main_arg2) (by decide)).trans <|
  (StableHlo.after_of_writes_sub hostOps0_1 _ hostOps0_1_writes (r := main_arg2) (by decide)).trans <|
  (StableHlo.after_of_writes_sub hostOps0 _ hostOps0_writes (r := main_arg2) (by decide)).trans rfl
theorem W9_main_arg3 (c : Dev nD) : W9 m c (Proc.devRef .tc main_arg3) = m ((c : Thread nD τ).loc main_arg3) :=
  (StableHlo.after_of_writes_sub hostOps3 _ hostOps3_writes (r := main_arg3) (by decide)).trans <|
  (W8_of_ne m c main_arg3 (by decide)).trans <|
  (StableHlo.after_of_writes_sub hostOps2 _ hostOps2_writes (r := main_arg3) (by decide)).trans <|
  (W6_of_ne m c main_arg3 (by decide)).trans <|
  (StableHlo.after_of_writes_sub hostOps1 _ hostOps1_writes (r := main_arg3) (by decide)).trans <|
  (W4_of_ne m c main_arg3 (by decide)).trans <|
  (StableHlo.after_of_writes_sub hostOps0_2 _ hostOps0_2_writes (r := main_arg3) (by decide)).trans <|
  (StableHlo.after_of_writes_sub hostOps0_1 _ hostOps0_1_writes (r := main_arg3) (by decide)).trans <|
  (StableHlo.after_of_writes_sub hostOps0 _ hostOps0_writes (r := main_arg3) (by decide)).trans rfl
theorem W9_main_arg4 (c : Dev nD) : W9 m c (Proc.devRef .tc main_arg4) = m ((c : Thread nD τ).loc main_arg4) :=
  (StableHlo.after_of_writes_sub hostOps3 _ hostOps3_writes (r := main_arg4) (by decide)).trans <|
  (W8_of_ne m c main_arg4 (by decide)).trans <|
  (StableHlo.after_of_writes_sub hostOps2 _ hostOps2_writes (r := main_arg4) (by decide)).trans <|
  (W6_of_ne m c main_arg4 (by decide)).trans <|
  (StableHlo.after_of_writes_sub hostOps1 _ hostOps1_writes (r := main_arg4) (by decide)).trans <|
  (W4_of_ne m c main_arg4 (by decide)).trans <|
  (StableHlo.after_of_writes_sub hostOps0_2 _ hostOps0_2_writes (r := main_arg4) (by decide)).trans <|
  (StableHlo.after_of_writes_sub hostOps0_1 _ hostOps0_1_writes (r := main_arg4) (by decide)).trans <|
  (StableHlo.after_of_writes_sub hostOps0 _ hostOps0_writes (r := main_arg4) (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U5 m) c
  | ⟨2, _⟩ => fun c => dat2 (U7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered from every unscoped buffer at `W3`, left at `W4`.  Its arrays
    are split out of the unscoped buffers and put back at the exit contents; the generator register goes into the
    region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`.  Its arrays
    are split out of the unscoped buffers and put back at the exit contents; the generator register goes into the
    region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U5 m c) (U6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`.  Its arrays
    are split out of the unscoped buffers and put back at the exit contents; the generator register goes into the
    region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (U7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U7 m c) (U8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev rsegs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)) ]

/-- @main is the run of the segments. -/
theorem main_run (c : Dev nD) : main (F := F) c = Pipeline.Seg.run (rsegs m) := (main_chain c).trans (by chain_rfl)

set_option backward.isDefEq.respectTransparency.types false in
/-- From any memory with zero counters every weakly fair execution of @main on the TensorCores terminates, nothing
    faulting, and every final state has the result's buffer at the last boundary's contents and the argument arrays
    as launched. -/
theorem run_named : θ_run defs (onTc (τ := τ) (main (F := F))) ⟨m, fun _ => 0, ρ⟩ (fun r => ∀ c : Dev nD,
      r.2.mem ((c.tc : Thread nD τ).loc main_v19) = W9 m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (rsegs m)
    (fun c Q => by rw [main_run m c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W9 m c) ∗ R c) : sProp 𝕄)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c =>
      ⟨h c _ (mem_uc main_v19 (by decide)),
       (h c _ (mem_uc main_arg0 (by decide))).trans (W9_main_arg0 m c),
       (h c _ (mem_uc main_arg1 (by decide))).trans (W9_main_arg1 m c),
       (h c _ (mem_uc main_arg2 (by decide))).trans (W9_main_arg2 m c),
       (h c _ (mem_uc main_arg3 (by decide))).trans (W9_main_arg3 m c),
       (h c _ (mem_uc main_arg4 (by decide))).trans (W9_main_arg4 m c)⟩)

end Cert.ReferenceIdeal.RefValue

end
-- ==== Proof.LibUnitAxes.lean ====
/-
  Two leading unit axes: a pipelined block of a rank-4 array is [1, 1, a, b], and the body works on it as an [a, b] matrix.

  * A [1, 1, a, b] block cast to [a, b] reads, at (r, c), the block at (0, 0, r, c).
  * An [a, b] matrix cast to a [1, 1, a, b] block reads, at (u, v, r, c), the matrix at (r, c): u and v can only be 0.

  Both are the row-major positions agreeing: ((0 · 1 + 0) · a + r) · b + c = r · b + c.
-/
import Idealize.ShloMosaic.Lib.Pipeline.Value
import Idealize.ShloMosaic.Lib.ValueIdx

noncomputable section

namespace Idealize.ShloMosaic.UnitAxes

open Idealize.ShloMosaic Idealize.ShloMosaic.ValueIdx

variable {α : Type}

/-- A [1, 1, a, b] block cast to [a, b] reads, at (r, c), the block at (0, 0, r, c). -/
theorem shapeCast_11ab_ab_apply {a b : ℕ} (x : (⟨4, ![1, 1, a, b]⟩ : Shape).Idx → α)
    (h : (⟨4, ![1, 1, a, b]⟩ : Shape).ShapeCasts ⟨2, ![a, b]⟩) (r : Fin a) (c : Fin b) :
    shapeCast ⟨2, ![a, b]⟩ x h (ix2 r c) = x (ix4 (0 : Fin 1) (0 : Fin 1) r c) :=
  shapeCast_apply x h _ _ (by
    rw [Shape.rowMajor_val_two, Shape.rowMajor_val_four]
    show ((0 * 1 + 0) * a + r.val) * b + c.val = r.val * b + c.val
    simp)

/-- An [a, b] matrix cast to a [1, 1, a, b] block reads, at (u, v, r, c), the matrix at (r, c). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (r : Fin a) (c : Fin b) :
    shapeCast ⟨4, ![1, 1, a, b]⟩ x h (ix4 u v r c) = x (ix2 r c) :=
  shapeCast_apply x h _ _ (by
    have hu : u.val = 0 := by omega
    have hv : v.val = 0 := by omega
    rw [Shape.rowMajor_val_two, Shape.rowMajor_val_four]
    show r.val * b + c.val = ((u.val * 1 + v.val) * a + r.val) * b + c.val
    rw [hu, hv]
    simp)

/-- An index of a [1, 1, a, b] block is (0, 0, r, c) for its last two coordinates. -/
theorem eq_ix4_zero {a b : ℕ} (j : (⟨4, ![1, 1, a, b]⟩ : Shape).Idx) : j = ix4 (0 : Fin 1) (0 : Fin 1) (j 2) (j 3) := by
  funext d
  match d with
  | ⟨0, _⟩ => exact Fin.ext (by show (j 0).val = 0; have h : (j 0).val < 1 := (j 0).isLt; omega)
  | ⟨1, _⟩ => exact Fin.ext (by show (j 1).val = 0; have h : (j 1).val < 1 := (j 1).isLt; omega)
  | ⟨2, _⟩ => rfl
  | ⟨3, _⟩ => rfl

end Idealize.ShloMosaic.UnitAxes

end
-- ==== Proof.RefTap.lean ====
import proofs.«120882_g2000303031884594_pallasbulk_961_21_alg».proof.Proof.Gen.ReferenceIdeal.Skeleton
import proofs.«120882_g2000303031884594_pallasbulk_961_21_alg».proof.Proof.LibPlainDot
import proofs.«120882_g2000303031884594_pallasbulk_961_21_alg».proof.Proof.LibLayoutRead
import proofs.«120882_g2000303031884594_pallasbulk_961_21_alg».proof.Proof.LibUnitAxes
import Idealize.ShloMosaic.PureOps.Ideal.Laws
import Idealize.ShloMosaic.Lib.ValueIdx
import Idealize.ShloMosaic.Lib.Pipeline.Value

/-!
# One tap of the convolution, read at an index

A tap multiplies a 112×112 slab of the framed input, its rows laid end to end, by one C×128 slice of
the weights and adds the product to the accumulator.  Over the extended reals the product at row
`h·112 + q`, column `c` is the sum over the input channels of slab(h, q, ci) · w(ci, c).
-/

noncomputable section

open scoped BigOperators

namespace Cert.ReferenceIdeal.RefValue

open Cert.ReferenceIdeal.Gen
open Idealize.ShloMosaic Idealize.ShloMosaic.ValueIdx

/-- The slab's rows laid end to end, times the weight slice, at (h·112 + q, c). -/
theorem tap_apply {C : ℕ} (d : DotDims ⟨2, ![12544, C]⟩ ⟨2, ![C, 128]⟩ ⟨2, ![12544, 128]⟩) (hd : d = DotDims.plain 12544 C 128)
    (slab : (⟨4, ![1, 112, 112, C]⟩ : Shape).Idx → EReal) (w : (⟨4, ![1, 1, C, 128]⟩ : Shape).Idx → EReal)
    (h1 : (⟨4, ![1, 112, 112, C]⟩ : Shape).ShapeCasts ⟨3, ![112, 112, C]⟩)
    (h2 : (⟨3, ![112, 112, C]⟩ : Shape).ShapeCasts ⟨2, ![12544, C]⟩)
    (h3 : (⟨4, ![1, 1, C, 128]⟩ : Shape).ShapeCasts ⟨2, ![C, 128]⟩)
    (h q : Fin 112) (c : Fin 128) (r : Fin 12544) (hr : r.val = h.val * 112 + q.val) :
    FloatOps.matmul (F := Ideal) (φ₁ := .bf16) (φ₂ := .bf16) d none
        (shapeCast ⟨2, ![12544, C]⟩ (shapeCast ⟨3, ![112, 112, C]⟩ slab h1) h2)
        (shapeCast ⟨2, ![C, 128]⟩ w h3) (constant (⟨2, ![12544, 128]⟩ : Shape) .f32 0x00000000#32) (ix2 r c)
      = ∑ ci : Fin C, slab (ix4 (0 : Fin 1) h q ci) * w (ix4 (0 : Fin 1) (0 : Fin 1) ci c) := by
  subst hd
  rw [PlainDot.matmul_zero_apply]
  refine Finset.sum_congr rfl fun ci _ => ?_
  rw [LayoutRead.shapeCast_abc_mc_apply _ h2 h q ci r hr, UnitAxes.shapeCast_11ab_ab_apply]
  congr 1
  exact shapeCast_apply slab h1 _ _ (by
    rw [Shape.rowMajor_val_four, Shape.rowMajor_val_three]
    show ((0 * 112 + h.val) * 112 + q.val) * C + ci.val = (h.val * 112 + q.val) * C + ci.val
    simp)

/-- A tap of the first convolution: the accumulator plus the product. -/
theorem k0_tap_apply (slab : Vec Ideal S1x112x112x64 .bf16) (acc : Vec Ideal S12544x128 .f32) (w : Vec Ideal S1x1x64x128 .bf16)
    (h q : Fin 112) (c : Fin 128) (r : Fin 12544) (hr : r.val = h.val * 112 + q.val) :
    k0_pay4 (F := Ideal) slab acc w (ix2 r c)
      = acc (ix2 r c) + ∑ ci : Fin 64, slab (ix4 (0 : Fin 1) h q ci) * w (ix4 (0 : Fin 1) (0 : Fin 1) ci c) := by
  unfold k0_pay4
  rw [shapeCast_self, addf_apply]
  congr 1
  exact tap_apply _ rfl slab w _ _ _ h q c r hr

/-- A tap of the second convolution. -/
theorem k1_tap_apply (slab : Vec Ideal S1x112x112x128 .bf16) (acc : Vec Ideal S12544x128 .f32) (w : Vec Ideal S1x1x128x128 .bf16)
    (h q : Fin 112) (c : Fin 128) (r : Fin 12544) (hr : r.val = h.val * 112 + q.val) :
    k1_pay3 (F := Ideal) slab acc w (ix2 r c)
      = acc (ix2 r c) + ∑ ci : Fin 128, slab (ix4 (0 : Fin 1) h q ci) * w (ix4 (0 : Fin 1) (0 : Fin 1) ci c) := by
  unfold k1_pay3
  rw [shapeCast_self, addf_apply]
  congr 1
  exact tap_apply _ rfl slab w _ _ _ h q c r hr

/-- The other taps are the same function under other names. -/
theorem k0_pay5_eq : @k0_pay5 Ideal _ = k0_pay4 := rfl
theorem k0_pay6_eq : @k0_pay6 Ideal _ = k0_pay4 := rfl
theorem k0_pay7_eq : @k0_pay7 Ideal _ = k0_pay4 := rfl
theorem k0_pay9_eq (x : Vec Ideal S1x112x112x64 .bf16) : @k0_pay9 Ideal _ (k0_pay8 x) = k0_pay4 x := rfl
theorem k0_pay10_eq : @k0_pay10 Ideal _ = k0_pay4 := rfl
theorem k0_pay12_eq (x : Vec Ideal S1x112x112x64 .bf16) (a : Vec Ideal S12544x128 .f32) (w : Vec Ideal S1x1x64x128 .bf16) :
    k0_pay12 (F := Ideal) (k0_pay11 x a w) = k0_pay4 x a w := rfl
theorem k0_pay13_eq : @k0_pay13 Ideal _ = k0_pay4 := rfl
theorem k0_pay14_eq : @k0_pay14 Ideal _ = k0_pay4 := rfl

theorem k1_pay4_eq : @k1_pay4 Ideal _ = k1_pay3 := rfl
theorem k1_pay5_eq : @k1_pay5 Ideal _ = k1_pay3 := rfl
theorem k1_pay6_eq : @k1_pay6 Ideal _ = k1_pay3 := rfl
theorem k1_pay8_eq (x : Vec Ideal S1x112x112x128 .bf16) : @k1_pay8 Ideal _ (k1_pay7 x) = k1_pay3 x := rfl
theorem k1_pay9_eq : @k1_pay9 Ideal _ = k1_pay3 := rfl
theorem k1_pay11_eq (x : Vec Ideal S1x112x112x128 .bf16) (a : Vec Ideal S12544x128 .f32) (w : Vec Ideal S1x1x128x128 .bf16) :
    k1_pay11 (F := Ideal) (k1_pay10 x a w) = k1_pay3 x a w := rfl
theorem k1_pay12_eq : @k1_pay12 Ideal _ = k1_pay3 := rfl
theorem k1_pay13_eq : @k1_pay13 Ideal _ = k1_pay3 := rfl

end Cert.ReferenceIdeal.RefValue

end
-- ==== Proof.RefPay.lean ====
import proofs.«120882_g2000303031884594_pallasbulk_961_21_alg».proof.Proof.Gen.ReferenceIdeal.Skeleton
import proofs.«120882_g2000303031884594_pallasbulk_961_21_alg».proof.Proof.RefTap
import proofs.«120882_g2000303031884594_pallasbulk_961_21_alg».proof.Proof.LibLayoutRead
import Idealize.ShloMosaic.PureOps.Ideal.Laws
import Idealize.ShloMosaic.Lib.ValueIdx
import Idealize.ShloMosaic.Lib.Pipeline.Value

/-!
# The stores' payloads read at an index

Over the extended reals: the pooling payload is the maximum of four entries of the two loaded row
slabs; a convolution's last payload is the accumulator plus the channel's bias, rectified; the
clearing payloads are zero.
-/

noncomputable section

open scoped BigOperators

namespace Cert.ReferenceIdeal.RefValue

open Cert.ReferenceIdeal.Gen
open Idealize.ShloMosaic Idealize.ShloMosaic.ValueIdx

theorem ofBits_zero_bf16 : Ideal.ofBits .bf16 0x0000#16 = 0 := by simp [Ideal.ofBits, Ideal.ieee]

/-- The pooling payload at (i, j, ch): the row pair's maximum at column pair entries ch and 128 + ch. -/
theorem k2_pay1_apply (v0 v2 : Vec Ideal S1x56x1x56x256 .bf16) (i j : Fin 56) (ch : Fin 128) :
    k2_pay1 (F := Ideal) v0 v2 (ix4 (0 : Fin 1) i j ch)
      = max (max (v0 (ix5 (0 : Fin 1) i (0 : Fin 1) j ⟨ch.val, by have := ch.isLt; omega⟩)) (v2 (ix5 (0 : Fin 1) i (0 : Fin 1) j ⟨ch.val, by have := ch.isLt; omega⟩)))
            (max (v0 (ix5 (0 : Fin 1) i (0 : Fin 1) j ⟨128 + ch.val, by have := ch.isLt; omega⟩)) (v2 (ix5 (0 : Fin 1) i (0 : Fin 1) j ⟨128 + ch.val, by have := ch.isLt; omega⟩))) := by
  have hc : ∀ (v : Vec Ideal S1x56x1x56x256 .bf16) (k : Fin 256),
      shapeCast S56x56x256 v shapeCasts_S1x56x1x56x256_S56x56x256 (ix3 i j k) = v (ix5 (0 : Fin 1) i (0 : Fin 1) j k) := fun v k =>
    shapeCast_apply v _ _ _ (by
      rw [Shape.rowMajor_val_five, Shape.rowMajor_val_three]
      show (((0 * 56 + i.val) * 1 + 0) * 56 + j.val) * 256 + k.val = (i.val * 56 + j.val) * 256 + k.val
      simp)
  unfold k2_pay1
  rw [shapeCast_apply _ _ (ix4 (0 : Fin 1) i j ch) (ix3 i j ch) (by
    rw [Shape.rowMajor_val_three, Shape.rowMajor_val_four]
    show (i.val * 56 + j.val) * 128 + ch.val = ((0 * 56 + i.val) * 56 + j.val) * 128 + ch.val
    simp)]
  rw [maximumf_apply,
    extractStridedSlice_apply ![0, 0, 0] _ _ (ix3 i j ch) (ix3 i j ⟨ch.val, by have := ch.isLt; omega⟩) (by intro a; fin_cases a <;> simp),
    extractStridedSlice_apply ![0, 0, 128] _ _ (ix3 i j ch) (ix3 i j ⟨128 + ch.val, by have := ch.isLt; omega⟩) (by intro a; fin_cases a <;> simp),
    maximumf_apply, maximumf_apply, hc, hc, hc, hc]

/-- A convolution's last payload at (h, q, ch): the accumulator's row h·112 + q plus the bias, rectified. -/
theorem k1_pay1_apply (b : FVec Ideal S1x128 .f32) (acc : Vec Ideal S12544x128 .f32) (h q : Fin 112) (ch : Fin 128)
    (r : Fin 12544) (hr : r.val = h.val * 112 + q.val) :
    k1_pay1 (F := Ideal) b acc (ix4 (0 : Fin 1) h q ch) = max (acc (ix2 r ch) + b (ix2 (0 : Fin 1) ch)) 0 := by
  unfold k1_pay1
  rw [shapeCast_apply _ _ (ix4 (0 : Fin 1) h q ch) (ix3 h q ch) (by
    rw [Shape.rowMajor_val_three, Shape.rowMajor_val_four]
    show (h.val * 112 + q.val) * 128 + ch.val = ((0 * 112 + h.val) * 112 + q.val) * 128 + ch.val
    simp)]
  rw [truncf_apply, LayoutRead.shapeCast_mc_abc_apply _ _ h q ch r hr, maximumf_apply, addf_apply, broadcast_apply]
  rw [broadcastTo_apply b _ (ix2 r ch) (ix2 (0 : Fin 1) ch) (by intro a; fin_cases a <;> simp)]
  congr 1
  exact Ideal.ofBits_zero_f32

/-- The first convolution's last payload is the same function. -/
theorem k0_pay2_eq : @k0_pay2 Ideal _ = k1_pay1 := rfl

/-- The bias row as loaded. -/
theorem k0_pay15_eq (v : Vec Ideal S1x128 .f32) : k0_pay15 (F := Ideal) v = v := shapeCast_self _ _
theorem k1_pay14_eq (v : Vec Ideal S1x128 .f32) : k1_pay14 (F := Ideal) v = v := shapeCast_self _ _

/-- The clearing payloads are zero. -/
theorem k0_pay1_apply (y : S1x114x114x128.Idx) : k0_pay1 (F := Ideal) y = 0 := ofBits_zero_bf16
theorem k0_pay3_apply (y : S12544x128.Idx) : k0_pay3 (F := Ideal) y = 0 := by
  unfold k0_pay3; rw [shapeCast_self]; exact Ideal.ofBits_zero_f32
theorem k1_pay2_apply (y : S12544x128.Idx) : k1_pay2 (F := Ideal) y = 0 := by
  unfold k1_pay2; rw [shapeCast_self]; exact Ideal.ofBits_zero_f32

end Cert.ReferenceIdeal.RefValue

end
-- ==== Proof.LibStoreRead.lean ====
/-
  A read of a whole buffer after several whole stores.

  When the LAST store into a buffer went through the whole buffer (the unit rectangle at zero offsets of the buffer's own
  sizes), a later read through the whole buffer returns that store's value, whatever the earlier stores were: an
  accumulator set to zero, then overwritten by its update, then read back, reads the update.
-/
import Idealize.ShloMosaic.Lib.Pipeline.Value
import Idealize.ShloMosaic.Lib.Pipeline.FrameBody

noncomputable section

namespace Idealize.ShloMosaic.StoreRead

open Idealize.ShloMosaic

/-- A read through the whole buffer of what a LAST store through the whole buffer left is that store's value, whatever
    was stored before. -/
theorem readCov_cons_unit_zero {Val : EltTy → Type} [∀ e, Nonempty (Val e)] {sg : RefSig} {κ : Kind} {sp : Space}
    {S : Shape} {e : EltTy} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl,
    View.ld_unit_zero rfl]

end Idealize.ShloMosaic.StoreRead

end
-- ==== Proof.RefRead.lean ====
import Idealize.ShloMosaic.Lib.WholeRead
import Idealize.ShloMosaic.Lib.Pipeline.Value

/-!
# A unit-stride load through a whole memref, read at an index
-/

noncomputable section

namespace Cert.ReferenceIdeal.RefValue

open Idealize.ShloMosaic

theorem zeroOff2 : (![0, 0] : Fin 2 → Nat) = fun _ => 0 := by funext a; fin_cases a <;> rfl

/-- A unit-stride load through a whole memref held at the contents that read `X` reads `X` at the offsets plus the
    local index. -/
theorem readAt_unit_apply {sg : RefSig} {κ : Kind} {sp : Space} {s : Shape} {e : EltTy} {Val : EltTy → Type}
    {mr : Memref sg κ sp s e} (hm : mr.IsWhole) (X : s.Idx → Val e) (off size : Fin s.rank → Nat)
    (inb : ∀ a, off a + size a ≤ s.size a) (y : (Rect.unit (s := s) off size inb).toLoadRect.shape.Idx) (k : s.Idx)
    (hk : ∀ a, (k a).val = off a + (y a).val) :
    View.readAt Val mr.view (Rect.unit (s := s) off size inb).toLoadRect (hm.unread X) y = X k := by
  rw [hm.readAt_unread]
  congr 1
  funext a
  apply Fin.ext
  rw [hk a]
  show off a + 1 * (y a).val = off a + (y a).val
  omega

end Cert.ReferenceIdeal.RefValue

end
-- ==== Proof.RefAcc0.lean ====
import proofs.«120882_g2000303031884594_pallasbulk_961_21_alg».proof.Proof.RefRun0
import proofs.«120882_g2000303031884594_pallasbulk_961_21_alg».proof.Proof.RefTap
import proofs.«120882_g2000303031884594_pallasbulk_961_21_alg».proof.Proof.RefPay
import proofs.«120882_g2000303031884594_pallasbulk_961_21_alg».proof.Proof.LibStoreRead
import proofs.«120882_g2000303031884594_pallasbulk_961_21_alg».proof.Proof.RefRead
import Idealize.ShloMosaic.Lib.WholeRead
import Idealize.ShloMosaic.Lib.Pipeline.Value

/-!
# The accumulator of convolution 0 at an index

The accumulator is cleared and then receives nine products, one per tap, each read back whole before
the next is added.  Over the extended reals its entry at row `h·112 + q`, column `ch` after the
ninth is the sum over the taps and the input channels of input(h + dy, q + dx, ci) · weight(dy, dx, ci, ch).
-/

set_option maxRecDepth 16384

noncomputable section

open scoped BigOperators

namespace Cert.ReferenceIdeal.RefValue

open Cert.ReferenceIdeal.Gen
open Idealize.ShloMosaic Idealize.ShloMosaic.ValueIdx

/-- One tap: the accumulator plus the product of the slab at offset (dy, dx) with the weights' slice (dy, dx). -/
theorem step0 (arg2 : Memref sig .tc .vmem S1x114x114x64 .bf16) (harg2 : arg2.IsWhole) (arg3 : Memref sig .tc .vmem S3x3x64x128 .bf16) (harg3 : arg3.IsWhole)
    (x2 : Vec Ideal S1x114x114x64 .bf16) (x3 : Vec Ideal S3x3x64x128 .bf16) (acc : Vec Ideal S12544x128 .f32) (dy dx : ℕ) (hdy : dy < 3) (hdx : dx < 3)
    (inb2 : ∀ a, (![0, dy, dx, 0] : Fin 4 → Nat) a + S1x112x112x64.size a ≤ S1x114x114x64.size a)
    (inb3 : ∀ a, (![dy, dx, 0, 0] : Fin 4 → Nat) a + S1x1x64x128.size a ≤ S3x3x64x128.size a)
    (h q : Fin 112) (ch : Fin 128) (r : Fin 12544) (hr : r.val = h.val * 112 + q.val) :
    k0_pay4 (F := Ideal)
        (View.readAt (Elt Ideal) arg2.view (Rect.unit (s := S1x114x114x64) ![0, dy, dx, 0] S1x112x112x64.size inb2).toLoadRect (harg2.unread x2)) acc
        (View.readAt (Elt Ideal) arg3.view (Rect.unit (s := S3x3x64x128) ![dy, dx, 0, 0] S1x1x64x128.size inb3).toLoadRect (harg3.unread x3)) (ix2 r ch)
      = acc (ix2 r ch) + ∑ ci : Fin 64, x2 (ix4 (0 : Fin 1) (⟨h.val + dy, by have := h.isLt; omega⟩ : Fin 114) (⟨q.val + dx, by have := q.isLt; omega⟩ : Fin 114) ci)
          * x3 (ix4 (⟨dy, hdy⟩ : Fin 3) (⟨dx, hdx⟩ : Fin 3) ci ch) := by
  rw [k0_tap_apply _ _ _ h q ch r hr]
  congr 1
  refine Finset.sum_congr rfl fun ci _ => ?_
  rw [readAt_unit_apply harg2 x2 _ _ inb2 _ (ix4 (0 : Fin 1) (⟨h.val + dy, by have := h.isLt; omega⟩ : Fin 114) (⟨q.val + dx, by have := q.isLt; omega⟩ : Fin 114) ci)
      (by intro a; match a with
        | ⟨0, _⟩ => show (0 : ℕ) = 0 + 0; rfl
        | ⟨1, _⟩ => show h.val + dy = dy + h.val; omega
        | ⟨2, _⟩ => show q.val + dx = dx + q.val; omega
        | ⟨3, _⟩ => show ci.val = 0 + ci.val; omega),
    readAt_unit_apply harg3 x3 _ _ inb3 _ (ix4 (⟨dy, hdy⟩ : Fin 3) (⟨dx, hdx⟩ : Fin 3) ci ch) (by intro a; match a with
        | ⟨0, _⟩ => show dy = dy + 0; rfl
        | ⟨1, _⟩ => show dx = dx + 0; rfl
        | ⟨2, _⟩ => show ci.val = 0 + ci.val; omega
        | ⟨3, _⟩ => show ch.val = 0 + ch.val; omega)]

/-- The accumulator after the ninth tap, at (h·112 + q, ch). -/
theorem acc0_apply (c : Dev nD) (arg2 : Memref sig .tc .vmem S1x114x114x64 .bf16) (harg2 : arg2.IsWhole) (arg3 : Memref sig .tc .vmem S3x3x64x128 .bf16) (harg3 : arg3.IsWhole)
    (arg6 : Memref sig .tc .vmem S12544x128 .f32) (x2 : Vec Ideal S1x114x114x64 .bf16) (x3 : Vec Ideal S3x3x64x128 .bf16)
    (h q : Fin 112) (ch : Fin 128) (r : Fin 12544) (hr : r.val = h.val * 112 + q.val) :
    bodyRun0.sl.v105 (F := Ideal) c arg2 harg2 arg3 harg3 arg6 x2 x3 (ix2 r ch)
      = ∑ dy : Fin 3, ∑ dx : Fin 3, ∑ ci : Fin 64,
          x2 (ix4 (0 : Fin 1) (⟨h.val + dy.val, by have := h.isLt; have := dy.isLt; omega⟩ : Fin 114) (⟨q.val + dx.val, by have := q.isLt; have := dx.isLt; omega⟩ : Fin 114) ci) * x3 (ix4 dy dx ci ch) := by
  unfold bodyRun0.sl.v105 bodyRun0.sl.H6_10
  try dsimp only
  rw [StoreRead.readCov_cons_unit_zero _ zeroOff2, k0_pay14_eq, step0 arg2 harg2 arg3 harg3 x2 x3 _ 2 2 (by omega) (by omega) _ _ h q ch r hr]
  unfold bodyRun0.sl.v95 bodyRun0.sl.H6_9
  try dsimp only
  rw [StoreRead.readCov_cons_unit_zero _ zeroOff2, k0_pay13_eq, step0 arg2 harg2 arg3 harg3 x2 x3 _ 2 1 (by omega) (by omega) _ _ h q ch r hr]
  unfold bodyRun0.sl.v84 bodyRun0.sl.H6_8
  try dsimp only
  rw [StoreRead.readCov_cons_unit_zero _ zeroOff2, k0_pay12_eq, step0 arg2 harg2 arg3 harg3 x2 x3 _ 2 0 (by omega) (by omega) _ _ h q ch r hr]
  unfold bodyRun0.sl.v73 bodyRun0.sl.H6_7
  try dsimp only
  rw [StoreRead.readCov_cons_unit_zero _ zeroOff2, k0_pay10_eq, step0 arg2 harg2 arg3 harg3 x2 x3 _ 1 2 (by omega) (by omega) _ _ h q ch r hr]
  unfold bodyRun0.sl.v62 bodyRun0.sl.H6_6
  try dsimp only
  rw [StoreRead.readCov_cons_unit_zero _ zeroOff2, k0_pay9_eq, step0 arg2 harg2 arg3 harg3 x2 x3 _ 1 1 (by omega) (by omega) _ _ h q ch r hr]
  unfold bodyRun0.sl.v51 bodyRun0.sl.H6_5
  try dsimp only
  rw [StoreRead.readCov_cons_unit_zero _ zeroOff2, k0_pay7_eq, step0 arg2 harg2 arg3 harg3 x2 x3 _ 1 0 (by omega) (by omega) _ _ h q ch r hr]
  unfold bodyRun0.sl.v40 bodyRun0.sl.H6_4
  try dsimp only
  rw [StoreRead.readCov_cons_unit_zero _ zeroOff2, k0_pay6_eq, step0 arg2 harg2 arg3 harg3 x2 x3 _ 0 2 (by omega) (by omega) _ _ h q ch r hr]
  unfold bodyRun0.sl.v29 bodyRun0.sl.H6_3
  try dsimp only
  rw [StoreRead.readCov_cons_unit_zero _ zeroOff2, k0_pay5_eq, step0 arg2 harg2 arg3 harg3 x2 x3 _ 0 1 (by omega) (by omega) _ _ h q ch r hr]
  unfold bodyRun0.sl.v18 bodyRun0.sl.H6_2
  try dsimp only
  rw [StoreRead.readCov_cons_unit_zero _ zeroOff2, step0 arg2 harg2 arg3 harg3 x2 x3 _ 0 0 (by omega) (by omega) _ _ h q ch r hr]
  unfold bodyRun0.sl.v7 bodyRun0.sl.H6_1
  try dsimp only
  rw [View.readCov_unit_zero _ zeroOff2 _ _, k0_pay3_apply]
  simp only [Fin.sum_univ_three, zero_add, add_assoc]
  rfl

end Cert.ReferenceIdeal.RefValue

end
-- ==== Proof.RefAcc1.lean ====
import proofs.«120882_g2000303031884594_pallasbulk_961_21_alg».proof.Proof.RefRun1
import proofs.«120882_g2000303031884594_pallasbulk_961_21_alg».proof.Proof.RefTap
import proofs.«120882_g2000303031884594_pallasbulk_961_21_alg».proof.Proof.RefPay
import proofs.«120882_g2000303031884594_pallasbulk_961_21_alg».proof.Proof.LibStoreRead
import proofs.«120882_g2000303031884594_pallasbulk_961_21_alg».proof.Proof.RefRead
import Idealize.ShloMosaic.Lib.WholeRead
import Idealize.ShloMosaic.Lib.Pipeline.Value

/-!
# The accumulator of convolution 1 at an index

The accumulator is cleared and then receives nine products, one per tap, each read back whole before
the next is added.  Over the extended reals its entry at row `h·112 + q`, column `ch` after the
ninth is the sum over the taps and the input channels of input(h + dy, q + dx, ci) · weight(dy, dx, ci, ch).
-/

set_option maxRecDepth 16384

noncomputable section

open scoped BigOperators

namespace Cert.ReferenceIdeal.RefValue

open Cert.ReferenceIdeal.Gen
open Idealize.ShloMosaic Idealize.ShloMosaic.ValueIdx

/-- One tap: the accumulator plus the product of the slab at offset (dy, dx) with the weights' slice (dy, dx). -/
theorem step1 (arg2 : Memref sig .tc .vmem S1x114x114x128 .bf16) (harg2 : arg2.IsWhole) (arg3 : Memref sig .tc .vmem S3x3x128x128 .bf16) (harg3 : arg3.IsWhole)
    (x2 : Vec Ideal S1x114x114x128 .bf16) (x3 : Vec Ideal S3x3x128x128 .bf16) (acc : Vec Ideal S12544x128 .f32) (dy dx : ℕ) (hdy : dy < 3) (hdx : dx < 3)
    (inb2 : ∀ a, (![0, dy, dx, 0] : Fin 4 → Nat) a + S1x112x112x128.size a ≤ S1x114x114x128.size a)
    (inb3 : ∀ a, (![dy, dx, 0, 0] : Fin 4 → Nat) a + S1x1x128x128.size a ≤ S3x3x128x128.size a)
    (h q : Fin 112) (ch : Fin 128) (r : Fin 12544) (hr : r.val = h.val * 112 + q.val) :
    k1_pay3 (F := Ideal)
        (View.readAt (Elt Ideal) arg2.view (Rect.unit (s := S1x114x114x128) ![0, dy, dx, 0] S1x112x112x128.size inb2).toLoadRect (harg2.unread x2)) acc
        (View.readAt (Elt Ideal) arg3.view (Rect.unit (s := S3x3x128x128) ![dy, dx, 0, 0] S1x1x128x128.size inb3).toLoadRect (harg3.unread x3)) (ix2 r ch)
      = acc (ix2 r ch) + ∑ ci : Fin 128, x2 (ix4 (0 : Fin 1) (⟨h.val + dy, by have := h.isLt; omega⟩ : Fin 114) (⟨q.val + dx, by have := q.isLt; omega⟩ : Fin 114) ci)
          * x3 (ix4 (⟨dy, hdy⟩ : Fin 3) (⟨dx, hdx⟩ : Fin 3) ci ch) := by
  rw [k1_tap_apply _ _ _ h q ch r hr]
  congr 1
  refine Finset.sum_congr rfl fun ci _ => ?_
  rw [readAt_unit_apply harg2 x2 _ _ inb2 _ (ix4 (0 : Fin 1) (⟨h.val + dy, by have := h.isLt; omega⟩ : Fin 114) (⟨q.val + dx, by have := q.isLt; omega⟩ : Fin 114) ci)
      (by intro a; match a with
        | ⟨0, _⟩ => show (0 : ℕ) = 0 + 0; rfl
        | ⟨1, _⟩ => show h.val + dy = dy + h.val; omega
        | ⟨2, _⟩ => show q.val + dx = dx + q.val; omega
        | ⟨3, _⟩ => show ci.val = 0 + ci.val; omega),
    readAt_unit_apply harg3 x3 _ _ inb3 _ (ix4 (⟨dy, hdy⟩ : Fin 3) (⟨dx, hdx⟩ : Fin 3) ci ch) (by intro a; match a with
        | ⟨0, _⟩ => show dy = dy + 0; rfl
        | ⟨1, _⟩ => show dx = dx + 0; rfl
        | ⟨2, _⟩ => show ci.val = 0 + ci.val; omega
        | ⟨3, _⟩ => show ch.val = 0 + ch.val; omega)]

/-- The accumulator after the ninth tap, at (h·112 + q, ch). -/
theorem acc1_apply (c : Dev nD) (arg2 : Memref sig .tc .vmem S1x114x114x128 .bf16) (harg2 : arg2.IsWhole) (arg3 : Memref sig .tc .vmem S3x3x128x128 .bf16) (harg3 : arg3.IsWhole)
    (arg6 : Memref sig .tc .vmem S12544x128 .f32) (x2 : Vec Ideal S1x114x114x128 .bf16) (x3 : Vec Ideal S3x3x128x128 .bf16)
    (h q : Fin 112) (ch : Fin 128) (r : Fin 12544) (hr : r.val = h.val * 112 + q.val) :
    bodyRun1.sl.v105 (F := Ideal) c arg2 harg2 arg3 harg3 arg6 x2 x3 (ix2 r ch)
      = ∑ dy : Fin 3, ∑ dx : Fin 3, ∑ ci : Fin 128,
          x2 (ix4 (0 : Fin 1) (⟨h.val + dy.val, by have := h.isLt; have := dy.isLt; omega⟩ : Fin 114) (⟨q.val + dx.val, by have := q.isLt; have := dx.isLt; omega⟩ : Fin 114) ci) * x3 (ix4 dy dx ci ch) := by
  unfold bodyRun1.sl.v105 bodyRun1.sl.H6_10
  try dsimp only
  rw [StoreRead.readCov_cons_unit_zero _ zeroOff2, k1_pay13_eq, step1 arg2 harg2 arg3 harg3 x2 x3 _ 2 2 (by omega) (by omega) _ _ h q ch r hr]
  unfold bodyRun1.sl.v95 bodyRun1.sl.H6_9
  try dsimp only
  rw [StoreRead.readCov_cons_unit_zero _ zeroOff2, k1_pay12_eq, step1 arg2 harg2 arg3 harg3 x2 x3 _ 2 1 (by omega) (by omega) _ _ h q ch r hr]
  unfold bodyRun1.sl.v84 bodyRun1.sl.H6_8
  try dsimp only
  rw [StoreRead.readCov_cons_unit_zero _ zeroOff2, k1_pay11_eq, step1 arg2 harg2 arg3 harg3 x2 x3 _ 2 0 (by omega) (by omega) _ _ h q ch r hr]
  unfold bodyRun1.sl.v73 bodyRun1.sl.H6_7
  try dsimp only
  rw [StoreRead.readCov_cons_unit_zero _ zeroOff2, k1_pay9_eq, step1 arg2 harg2 arg3 harg3 x2 x3 _ 1 2 (by omega) (by omega) _ _ h q ch r hr]
  unfold bodyRun1.sl.v62 bodyRun1.sl.H6_6
  try dsimp only
  rw [StoreRead.readCov_cons_unit_zero _ zeroOff2, k1_pay8_eq, step1 arg2 harg2 arg3 harg3 x2 x3 _ 1 1 (by omega) (by omega) _ _ h q ch r hr]
  unfold bodyRun1.sl.v51 bodyRun1.sl.H6_5
  try dsimp only
  rw [StoreRead.readCov_cons_unit_zero _ zeroOff2, k1_pay6_eq, step1 arg2 harg2 arg3 harg3 x2 x3 _ 1 0 (by omega) (by omega) _ _ h q ch r hr]
  unfold bodyRun1.sl.v40 bodyRun1.sl.H6_4
  try dsimp only
  rw [StoreRead.readCov_cons_unit_zero _ zeroOff2, k1_pay5_eq, step1 arg2 harg2 arg3 harg3 x2 x3 _ 0 2 (by omega) (by omega) _ _ h q ch r hr]
  unfold bodyRun1.sl.v29 bodyRun1.sl.H6_3
  try dsimp only
  rw [StoreRead.readCov_cons_unit_zero _ zeroOff2, k1_pay4_eq, step1 arg2 harg2 arg3 harg3 x2 x3 _ 0 1 (by omega) (by omega) _ _ h q ch r hr]
  unfold bodyRun1.sl.v18 bodyRun1.sl.H6_2
  try dsimp only
  rw [StoreRead.readCov_cons_unit_zero _ zeroOff2, step1 arg2 harg2 arg3 harg3 x2 x3 _ 0 0 (by omega) (by omega) _ _ h q ch r hr]
  unfold bodyRun1.sl.v7 bodyRun1.sl.H6_1
  try dsimp only
  rw [View.readCov_unit_zero _ zeroOff2 _ _, k1_pay2_apply]
  simp only [Fin.sum_univ_three, zero_add, add_assoc]
  rfl

end Cert.ReferenceIdeal.RefValue

end
-- ==== Proof.RefOut.lean ====
import proofs.«120882_g2000303031884594_pallasbulk_961_21_alg».proof.Proof.RefDat0
import proofs.«120882_g2000303031884594_pallasbulk_961_21_alg».proof.Proof.RefDat1
import proofs.«120882_g2000303031884594_pallasbulk_961_21_alg».proof.Proof.RefDat2
import proofs.«120882_g2000303031884594_pallasbulk_961_21_alg».proof.Proof.RefAcc0
import proofs.«120882_g2000303031884594_pallasbulk_961_21_alg».proof.Proof.RefAcc1
import proofs.«120882_g2000303031884594_pallasbulk_961_21_alg».proof.Proof.RefPay
import proofs.«120882_g2000303031884594_pallasbulk_961_21_alg».proof.Proof.RefRead
import proofs.«120882_g2000303031884594_pallasbulk_961_21_alg».proof.Proof.Spec

/-!
# What each region's body leaves in its output block, at an index

Over the extended reals: the pooling block is the 2×2 maximum of the input block read as row pairs
and folded column pairs; a convolution block is the layer of the specification applied to the framed
input block (the first one set again in a zero frame).
-/

set_option maxRecDepth 16384

noncomputable section

open scoped BigOperators

namespace Cert.ReferenceIdeal.RefValue

open Cert.ReferenceIdeal Cert.ReferenceIdeal.Gen
open Idealize.ShloMosaic Idealize.ShloMosaic.ValueIdx

theorem zeroOff4 : (![0, 0, 0, 0] : Fin 4 → Nat) = fun _ => 0 := by funext a; fin_cases a <;> rfl

/-- An updated slice read inside the window is the update's element, -/
theorem updateSlice_of_mem {α : Type} {s u : Shape} (x : s.Idx → α) (upd : u.Idx → α) (start : Fin s.rank → Nat) (h : s.Slices start u)
    (i : s.Idx) (hin : ∀ a : Fin s.rank, start a ≤ (i a).val ∧ (i a).val < start a + u.size (a.cast h.1.symm))
    (j : u.Idx) (hj : ∀ b : Fin u.rank, (j b).val = (i (b.cast h.1)).val - start (b.cast h.1)) :
    updateSlice x upd start h i = upd j := by
  unfold updateSlice; rw [dif_pos hin]; congr 1; funext b; exact Fin.ext (hj b).symm

/-- and outside it the old one. -/
theorem updateSlice_of_not_mem {α : Type} {s u : Shape} (x : s.Idx → α) (upd : u.Idx → α) (start : Fin s.rank → Nat) (h : s.Slices start u)
    (i : s.Idx) (hout : ¬ ∀ a : Fin s.rank, start a ≤ (i a).val ∧ (i a).val < start a + u.size (a.cast h.1.symm)) :
    updateSlice x upd start h i = x i := by
  unfold updateSlice; rw [dif_neg hout]

/-! ## The pooling block -/

variable {F : FTy → Type} [FloatOps F]

theorem bodyRun2_fst (c : Dev nD) (i : grid2.Coords) (arg1 : Memref sig .tc .vmem S1x56x2x56x256 .bf16) (harg1 : arg1.IsWhole) (arg2 : Memref sig .tc .vmem S1x56x56x128 .bf16) (harg2 : arg2.IsWhole)
    (x1 : Vec F S1x56x2x56x256 .bf16) :
    (bodyRun2 c i arg1 harg1 arg2 harg2 x1).1 = [⟨Rect.unit (s := S1x56x56x128) ![0, 0, 0, 0] S1x56x56x128.size inb_S1x56x56x128_S1x56x56x128_0_0_0_0,
      k2_pay1 (View.readAt (Elt F) arg1.view (Rect.unit (s := S1x56x2x56x256) ![0, 0, 0, 0, 0] S1x56x1x56x256.size inb_S1x56x2x56x256_S1x56x1x56x256_0_0_0_0_0).toLoadRect (harg1.unread x1))
        (View.readAt (Elt F) arg1.view (Rect.unit (s := S1x56x2x56x256) ![0, 0, 1, 0, 0] S1x56x1x56x256.size inb_S1x56x2x56x256_S1x56x1x56x256_0_0_1_0_0).toLoadRect (harg1.unread x1))⟩] := rfl

/-- The pooling block at (i, j, ch): the maximum over the row pair and the folded column pair. -/
theorem out2_apply (c : Dev nD) (i : grid2.Coords) (arg1 : Memref sig .tc .vmem S1x56x2x56x256 .bf16) (harg1 : arg1.IsWhole) (arg2 : Memref sig .tc .vmem S1x56x56x128 .bf16) (harg2 : arg2.IsWhole)
    (x1 : Vec Ideal S1x56x2x56x256 .bf16) (i' j : Fin 56) (ch : Fin 128) :
    out2 (F := Ideal) c i arg1 harg1 arg2 harg2 x1 (ix4 (0 : Fin 1) i' j ch)
      = max (max (x1 (ix5 (0 : Fin 1) i' (0 : Fin 2) j ⟨ch.val, by have := ch.isLt; omega⟩)) (x1 (ix5 (0 : Fin 1) i' (1 : Fin 2) j ⟨ch.val, by have := ch.isLt; omega⟩)))
            (max (x1 (ix5 (0 : Fin 1) i' (0 : Fin 2) j ⟨128 + ch.val, by have := ch.isLt; omega⟩)) (x1 (ix5 (0 : Fin 1) i' (1 : Fin 2) j ⟨128 + ch.val, by have := ch.isLt; omega⟩))) := by
  have hr : ∀ (o : ℕ) (ho : o < 2) (inb : ∀ a, (![0, 0, o, 0, 0] : Fin 5 → Nat) a + S1x56x1x56x256.size a ≤ S1x56x2x56x256.size a) (k : Fin 256),
      View.readAt (Elt Ideal) arg1.view (Rect.unit (s := S1x56x2x56x256) ![0, 0, o, 0, 0] S1x56x1x56x256.size inb).toLoadRect (harg1.unread x1)
          (ix5 (0 : Fin 1) i' (0 : Fin 1) j k) = x1 (ix5 (0 : Fin 1) i' (⟨o, ho⟩ : Fin 2) j k) := fun o ho inb k =>
    readAt_unit_apply harg1 x1 _ _ inb _ _ (by intro a; match a with
      | ⟨0, _⟩ => show (0 : ℕ) = 0 + 0; rfl
      | ⟨1, _⟩ => show i'.val = 0 + i'.val; omega
      | ⟨2, _⟩ => show o = o + 0; rfl
      | ⟨3, _⟩ => show j.val = 0 + j.val; omega
      | ⟨4, _⟩ => show k.val = 0 + k.val; omega)
  unfold out2
  rw [bodyRun2_fst, View.canon_unit_zero zeroOff4 _ _, k2_pay1_apply, hr 0 (by omega), hr 0 (by omega), hr 1 (by omega), hr 1 (by omega)]
  rfl

/-! ## The second convolution's block -/

theorem bodyRun1_fst (c : Dev nD) (i : grid1.Coords) (arg2 : Memref sig .tc .vmem S1x114x114x128 .bf16) (harg2 : arg2.IsWhole) (arg3 : Memref sig .tc .vmem S3x3x128x128 .bf16) (harg3 : arg3.IsWhole) (arg4 : Memref sig .tc .vmem S1x128 .f32) (harg4 : arg4.IsWhole) (arg5 : Memref sig .tc .vmem S1x112x112x128 .bf16) (harg5 : arg5.IsWhole) (arg6 : Memref sig .tc .vmem S12544x128 .f32) (harg6 : arg6.IsWhole)
    (x2 : Vec F S1x114x114x128 .bf16) (x3 : Vec F S3x3x128x128 .bf16) (x4 : Vec F S1x128 .f32) :
    (bodyRun1 c i arg2 harg2 arg3 harg3 arg4 harg4 arg5 harg5 arg6 harg6 x2 x3 x4).1
      = [⟨Rect.unit (s := S1x112x112x128) ![0, 0, 0, 0] S1x112x112x128.size inb_S1x112x112x128_S1x112x112x128_0_0_0_0,
        k1_pay1 (k1_pay14 (View.readAt (Elt F) arg4.view (Rect.unit (s := S1x128) ![0, 0] S1x128.size inb_S1x128_S1x128_0_0).toLoadRect (harg4.unread x4)))
          (bodyRun1.sl.v105 c arg2 harg2 arg3 harg3 arg6 x2 x3)⟩] := rfl

/-- The sum over the taps and input channels is the specification's correlation, once the block and the weights are
    read as coordinate functions. -/
theorem conv_of_reads {C : ℕ} (x2 : (⟨4, ![1, 114, 114, C]⟩ : Shape).Idx → EReal) (x3 : (⟨4, ![3, 3, C, 128]⟩ : Shape).Idx → EReal)
    (inp : ℕ → ℕ → Fin C → EReal) (W : Fin 3 → Fin 3 → Fin C → Fin 128 → EReal)
    (hx2 : ∀ (r q : Fin 114) (ci : Fin C), x2 (ix4 (0 : Fin 1) r q ci) = inp r.val q.val ci)
    (hx3 : ∀ dy dx ci c, x3 (ix4 dy dx ci c) = W dy dx ci c) (h q : ℕ) (hh : h < 112) (hq : q < 112) (ch : Fin 128) :
    (∑ dy : Fin 3, ∑ dx : Fin 3, ∑ ci : Fin C,
        x2 (ix4 (0 : Fin 1) (⟨h + dy.val, by have := dy.isLt; omega⟩ : Fin 114) (⟨q + dx.val, by have := dx.isLt; omega⟩ : Fin 114) ci) * x3 (ix4 dy dx ci ch))
      = Vgg.conv inp W h q ch := by
  unfold Vgg.conv
  refine Finset.sum_congr rfl fun dy _ => Finset.sum_congr rfl fun dx _ => Finset.sum_congr rfl fun ci _ => ?_
  rw [hx2, hx3]

/-- The second convolution's block is the layer of the framed input block. -/
theorem out1_layer (c : Dev nD) (i : grid1.Coords) (arg2 : Memref sig .tc .vmem S1x114x114x128 .bf16) (harg2 : arg2.IsWhole) (arg3 : Memref sig .tc .vmem S3x3x128x128 .bf16) (harg3 : arg3.IsWhole) (arg4 : Memref sig .tc .vmem S1x128 .f32) (harg4 : arg4.IsWhole) (arg5 : Memref sig .tc .vmem S1x112x112x128 .bf16) (harg5 : arg5.IsWhole) (arg6 : Memref sig .tc .vmem S12544x128 .f32) (harg6 : arg6.IsWhole)
    (x2 : Vec Ideal S1x114x114x128 .bf16) (x3 : Vec Ideal S3x3x128x128 .bf16) (x4 : Vec Ideal S1x128 .f32)
    (img : Fin 112 → Fin 112 → Fin 128 → EReal) (W : Fin 3 → Fin 3 → Fin 128 → Fin 128 → EReal) (b : Fin 128 → EReal)
    (hx2 : ∀ (r q : Fin 114) (ci : Fin 128), x2 (ix4 (0 : Fin 1) r q ci) = Vgg.halo img r.val q.val ci)
    (hx3 : ∀ dy dx ci c, x3 (ix4 dy dx ci c) = W dy dx ci c) (hx4 : ∀ c, x4 (ix2 (0 : Fin 1) c) = b c)
    (h q : Fin 112) (ch : Fin 128) :
    out1 (F := Ideal) c i arg2 harg2 arg3 harg3 arg4 harg4 arg5 harg5 arg6 harg6 x2 x3 x4 (ix4 (0 : Fin 1) h q ch) = Vgg.layer img W b h q ch := by
  unfold out1
  rw [bodyRun1_fst, View.canon_unit_zero zeroOff4 _ _, k1_pay14_eq,
    k1_pay1_apply _ _ h q ch ⟨h.val * 112 + q.val, by have := h.isLt; have := q.isLt; omega⟩ rfl,
    acc1_apply c arg2 harg2 arg3 harg3 arg6 x2 x3 h q ch _ rfl,
    readAt_unit_apply harg4 x4 _ _ _ _ (ix2 (0 : Fin 1) ch) (by intro a; match a with
      | ⟨0, _⟩ => show (0 : ℕ) = 0 + 0; rfl
      | ⟨1, _⟩ => show ch.val = 0 + ch.val; omega),
    hx4, conv_of_reads x2 x3 (Vgg.halo img) W hx2 hx3 h.val q.val h.isLt q.isLt ch]
  rfl

/-! ## The first convolution's block -/

theorem bodyRun0_fst (c : Dev nD) (i : grid0.Coords) (arg2 : Memref sig .tc .vmem S1x114x114x64 .bf16) (harg2 : arg2.IsWhole) (arg3 : Memref sig .tc .vmem S3x3x64x128 .bf16) (harg3 : arg3.IsWhole) (arg4 : Memref sig .tc .vmem S1x128 .f32) (harg4 : arg4.IsWhole) (arg5 : Memref sig .tc .vmem S1x114x114x128 .bf16) (harg5 : arg5.IsWhole) (arg6 : Memref sig .tc .vmem S12544x128 .f32) (harg6 : arg6.IsWhole)
    (x2 : Vec F S1x114x114x64 .bf16) (x3 : Vec F S3x3x64x128 .bf16) (x4 : Vec F S1x128 .f32) :
    (bodyRun0 c i arg2 harg2 arg3 harg3 arg4 harg4 arg5 harg5 arg6 harg6 x2 x3 x4).1
      = ⟨Rect.unit (s := S1x114x114x128) ![0, 1, 0, 0] S1x112x114x128.size inb_S1x114x114x128_S1x112x114x128_0_1_0_0,
          updateSlice (bodyRun0.sl.old c arg5)
            (k0_pay2 (k0_pay15 (View.readAt (Elt F) arg4.view (Rect.unit (s := S1x128) ![0, 0] S1x128.size inb_S1x128_S1x128_0_0).toLoadRect (harg4.unread x4)))
              (bodyRun0.sl.v105 c arg2 harg2 arg3 harg3 arg6 x2 x3))
            ![0, 0, 1, 0] slices_S1x112x114x128_S1x112x112x128_0_0_1_0⟩
        :: bodyRun0.sl.H5_1 := rfl

/-- What the clearing store left, anywhere. -/
theorem canon_H5_1 (y : S1x114x114x128.Idx) : View.canon (bodyRun0.sl.H5_1 (F := Ideal)) y = 0 := by
  unfold bodyRun0.sl.H5_1
  rw [View.canon_unit_zero zeroOff4 _ _, k0_pay1_apply]

/-- The first convolution's block is the layer of the framed input block, set again in a zero frame. -/
theorem out0_layer (c : Dev nD) (i : grid0.Coords) (arg2 : Memref sig .tc .vmem S1x114x114x64 .bf16) (harg2 : arg2.IsWhole) (arg3 : Memref sig .tc .vmem S3x3x64x128 .bf16) (harg3 : arg3.IsWhole) (arg4 : Memref sig .tc .vmem S1x128 .f32) (harg4 : arg4.IsWhole) (arg5 : Memref sig .tc .vmem S1x114x114x128 .bf16) (harg5 : arg5.IsWhole) (arg6 : Memref sig .tc .vmem S12544x128 .f32) (harg6 : arg6.IsWhole)
    (x2 : Vec Ideal S1x114x114x64 .bf16) (x3 : Vec Ideal S3x3x64x128 .bf16) (x4 : Vec Ideal S1x128 .f32)
    (img : Fin 112 → Fin 112 → Fin 64 → EReal) (W : Fin 3 → Fin 3 → Fin 64 → Fin 128 → EReal) (b : Fin 128 → EReal)
    (hx2 : ∀ (r q : Fin 114) (ci : Fin 64), x2 (ix4 (0 : Fin 1) r q ci) = Vgg.halo img r.val q.val ci)
    (hx3 : ∀ dy dx ci c, x3 (ix4 dy dx ci c) = W dy dx ci c) (hx4 : ∀ c, x4 (ix2 (0 : Fin 1) c) = b c)
    (r q : Fin 114) (ch : Fin 128) :
    out0 (F := Ideal) c i arg2 harg2 arg3 harg3 arg4 harg4 arg5 harg5 arg6 harg6 x2 x3 x4 (ix4 (0 : Fin 1) r q ch)
      = Vgg.halo (Vgg.layer img W b) r.val q.val ch := by
  unfold out0
  rw [bodyRun0_fst]
  by_cases hr : 1 ≤ r.val ∧ r.val ≤ 112
  · have hy : ix4 (0 : Fin 1) r q ch
        = (Rect.unit (s := S1x114x114x128) ![0, 1, 0, 0] S1x112x114x128.size inb_S1x114x114x128_S1x112x114x128_0_1_0_0).emb
            (ix4 (0 : Fin 1) (⟨r.val - 1, by omega⟩ : Fin 112) q ch) := by
      funext a; apply Fin.ext; rw [Rect.emb_apply]
      match a with
      | ⟨0, _⟩ => show (0 : ℕ) = 0 + 1 * 0; rfl
      | ⟨1, _⟩ => show r.val = 1 + 1 * (r.val - 1); omega
      | ⟨2, _⟩ => show q.val = 0 + 1 * q.val; omega
      | ⟨3, _⟩ => show ch.val = 0 + 1 * ch.val; omega
    rw [hy, View.canon_cons_emb]
    by_cases hq : 1 ≤ q.val ∧ q.val ≤ 112
    · rw [updateSlice_of_mem _ _ _ _ _ (by intro a; match a with
          | ⟨0, _⟩ => exact ⟨Nat.zero_le _, by show (0 : ℕ) < 0 + 1; omega⟩
          | ⟨1, _⟩ => exact ⟨Nat.zero_le _, by show r.val - 1 < 0 + 112; omega⟩
          | ⟨2, _⟩ => exact ⟨by show 1 ≤ q.val; omega, by show q.val < 1 + 112; omega⟩
          | ⟨3, _⟩ => exact ⟨Nat.zero_le _, by show ch.val < 0 + 128; have := ch.isLt; omega⟩)
        (ix4 (0 : Fin 1) (⟨r.val - 1, by omega⟩ : Fin 112) (⟨q.val - 1, by omega⟩ : Fin 112) ch) (by intro a; match a with
          | ⟨0, _⟩ => show (0 : ℕ) = 0 - 0; rfl
          | ⟨1, _⟩ => show r.val - 1 = r.val - 1 - 0; omega
          | ⟨2, _⟩ => show q.val - 1 = q.val - 1; rfl
          | ⟨3, _⟩ => show ch.val = ch.val - 0; omega)]
      rw [k0_pay2_eq, k0_pay15_eq,
        k1_pay1_apply _ _ (⟨r.val - 1, by omega⟩ : Fin 112) (⟨q.val - 1, by omega⟩ : Fin 112) ch ⟨(r.val - 1) * 112 + (q.val - 1), by omega⟩ rfl,
        acc0_apply c arg2 harg2 arg3 harg3 arg6 x2 x3 (⟨r.val - 1, by omega⟩ : Fin 112) (⟨q.val - 1, by omega⟩ : Fin 112) ch _ rfl,
        readAt_unit_apply harg4 x4 _ _ _ _ (ix2 (0 : Fin 1) ch) (by intro a; match a with
          | ⟨0, _⟩ => show (0 : ℕ) = 0 + 0; rfl
          | ⟨1, _⟩ => show ch.val = 0 + ch.val; omega),
        hx4, conv_of_reads x2 x3 (Vgg.halo img) W hx2 hx3 (r.val - 1) (q.val - 1) (by omega) (by omega) ch]
      unfold Vgg.halo; rw [dif_pos ⟨hr, hq⟩]; rfl
    · rw [updateSlice_of_not_mem _ _ _ _ _ (by
          intro hm; have := hm ⟨2, by decide⟩
          have h1 : 1 ≤ q.val := this.1
          have h2 : q.val < 1 + 112 := this.2
          exact hq ⟨h1, by omega⟩)]
      unfold bodyRun0.sl.old
      rw [View.readCov_eq_canon']
      show View.canon (bodyRun0.sl.H5_1 (F := Ideal)) _ = _
      rw [canon_H5_1]
      unfold Vgg.halo; rw [dif_neg (fun hh => hq hh.2)]
  · rw [View.canon_cons_of_not_mem _ _ (by
        rw [Rect.mem_set_unit]; intro hm; have := hm ⟨1, by decide⟩
        have h1 : 1 ≤ r.val := this.1
        have h2 : r.val < 1 + 112 := this.2
        exact hr ⟨h1, by omega⟩), canon_H5_1]
    unfold Vgg.halo; rw [dif_neg (fun hh => hr hh.1)]

end Cert.ReferenceIdeal.RefValue

end
-- ==== Proof.RefChain.lean ====
import proofs.«120882_g2000303031884594_pallasbulk_961_21_alg».proof.Proof.Gen.ReferenceIdeal.Launch
import proofs.«120882_g2000303031884594_pallasbulk_961_21_alg».proof.Proof.Gen.ReferenceIdeal.Skeleton
import proofs.«120882_g2000303031884594_pallasbulk_961_21_alg».proof.Proof.Gen.ReferenceIdeal.Points
import proofs.«120882_g2000303031884594_pallasbulk_961_21_alg».proof.Proof.RefRegions
import proofs.«120882_g2000303031884594_pallasbulk_961_21_alg».proof.Proof.RefOut
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RefValue

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The arrays between the regions, block by block

Every window here moves along the batch axis only: at point `t` its block index is `t` on that axis and `0` on
the others (a weight or bias window: `0` everywhere).  So a block's entry sits in its array at the same
coordinates with the batch coordinate `t`, the flushing blocks of an output are disjoint, and after a region its
output array holds, under point `t`'s block, what that point's body left. -/

open Idealize.ShloMosaic.ValueIdx

/-- The point of each grid for image `n`. -/
def t0 (n : Fin 8) : Fin cfg0.N := ⟨n.val, lt_of_lt_of_eq n.isLt N_0.symm⟩
def t1 (n : Fin 8) : Fin cfg1.N := ⟨n.val, lt_of_lt_of_eq n.isLt N_1.symm⟩
def t2 (n : Fin 8) : Fin cfg2.N := ⟨n.val, lt_of_lt_of_eq n.isLt N_2.symm⟩

/-! ## The index maps, decided over the grids -/

theorem idx0_0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)
theorem idx0_1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)
theorem idx1_0 : ∀ t : Fin cfg1.N, win1_0.index t (0 : Fin 4) = t.val ∧ win1_0.index t (1 : Fin 4) = 0 ∧ win1_0.index t (2 : Fin 4) = 0 ∧ win1_0.index t (3 : Fin 4) = 0 :=
  (by decide +kernel : ∀ t : Fin grid1.N, _)
theorem idx1_1 : ∀ t : Fin cfg1.N, win1_1.index t (0 : Fin 4) = 0 ∧ win1_1.index t (1 : Fin 4) = 0 ∧ win1_1.index t (2 : Fin 4) = 0 ∧ win1_1.index t (3 : Fin 4) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)
theorem idx2_0 : ∀ t : Fin cfg2.N, win2_0.index t (0 : Fin 5) = t.val ∧ win2_0.index t (1 : Fin 5) = 0 ∧ win2_0.index t (2 : Fin 5) = 0 ∧ win2_0.index t (3 : Fin 5) = 0 ∧ win2_0.index t (4 : Fin 5) = 0 :=
  (by decide +kernel : ∀ t : Fin grid2.N, _)
theorem idx2_1 : ∀ t : Fin cfg2.N, win2_1.index t (0 : Fin 4) = t.val ∧ win2_1.index t (1 : Fin 4) = 0 ∧ win2_1.index t (2 : Fin 4) = 0 ∧ win2_1.index t (3 : Fin 4) = 0 :=
  (by decide +kernel : ∀ t : Fin grid2.N, _)

theorem idx_inj0_3 : ∀ t t' : Fin cfg0.N, win0_3.index t = win0_3.index t' → t = t' :=
  (by decide +kernel : ∀ t t' : Fin grid0.N, win0_3.index t = win0_3.index t' → t = t')
theorem idx_inj1_3 : ∀ t t' : Fin cfg1.N, win1_3.index t = win1_3.index t' → t = t' :=
  (by decide +kernel : ∀ t t' : Fin grid1.N, win1_3.index t = win1_3.index t' → t = t')
theorem idx_inj2_1 : ∀ t t' : Fin cfg2.N, win2_1.index t = win2_1.index t' → t = t' :=
  (by decide +kernel : ∀ t t' : Fin grid2.N, win2_1.index t = win2_1.index t' → t = t')

theorem disjoint0_3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj0_3 t t' h)
theorem disjoint1_3 : ∀ t t' : Fin cfg1.N, (cfg1.win 3).flush t = true → (cfg1.win 3).flush t' = true → t ≠ t' →
    Disjoint ((cfg1.win 3).blk t).view.set ((cfg1.win 3).blk t').view.set :=
  fun t t' _ _ hne => (cfg1.win 3).disjoint_blk fun h => hne (idx_inj1_3 t t' h)
theorem disjoint2_1 : ∀ t t' : Fin cfg2.N, (cfg2.win 1).flush t = true → (cfg2.win 1).flush t' = true → t ≠ t' →
    Disjoint ((cfg2.win 1).blk t).view.set ((cfg2.win 1).blk t').view.set :=
  fun t t' _ _ hne => (cfg2.win 1).disjoint_blk fun h => hne (idx_inj2_1 t t' h)

variable {F : FTy → Type} [FloatOps F]
variable (V : (c : Dev nD) → (b : Ref sig .tc) → Buf (Elt F) ((c : Thread nD τ).loc b))

/-! ## The input blocks at an index -/

theorem in0_0 (c : Dev nD) (n : Fin 8) (r q : Fin 114) (ci : Fin 64) :
    iblk0 V c 0 (t0 n) (ix4 (0 : Fin 1) r q ci) = V c main_v2 (ix4 n r q ci) := by
  obtain ⟨e0, e1, e2, e3⟩ := idx0_0 (t0 n)
  show V c main_v2 (((cfg0.win 0).blk (t0 n)).view.emb (ix4 (0 : Fin 1) r q ci)) = _
  congr 1; funext a; apply Fin.ext
  match a with
  | ⟨0, _⟩ => show win0_0.index (t0 n) (0 : Fin 4) * 1 + 1 * 0 = n.val; rw [e0]; show n.val * 1 + 1 * 0 = n.val; omega
  | ⟨1, _⟩ => show win0_0.index (t0 n) (1 : Fin 4) * 114 + 1 * r.val = r.val; rw [e1]; omega
  | ⟨2, _⟩ => show win0_0.index (t0 n) (2 : Fin 4) * 114 + 1 * q.val = q.val; rw [e2]; omega
  | ⟨3, _⟩ => show win0_0.index (t0 n) (3 : Fin 4) * 64 + 1 * ci.val = ci.val; rw [e3]; omega

theorem in0_1 (c : Dev nD) (t : Fin cfg0.N) (j : S3x3x64x128.Idx) : iblk0 V c 1 t j = V c main_v5 j := by
  obtain ⟨e0, e1, e2, e3⟩ := idx0_1 t
  show V c main_v5 (((cfg0.win 1).blk t).view.emb j) = _
  congr 1; funext a; apply Fin.ext
  match a with
  | ⟨0, _⟩ => show win0_1.index t (0 : Fin 4) * 3 + 1 * (j 0).val = (j 0).val; rw [e0]; omega
  | ⟨1, _⟩ => show win0_1.index t (1 : Fin 4) * 3 + 1 * (j 1).val = (j 1).val; rw [e1]; omega
  | ⟨2, _⟩ => show win0_1.index t (2 : Fin 4) * 64 + 1 * (j 2).val = (j 2).val; rw [e2]; omega
  | ⟨3, _⟩ => show win0_1.index t (3 : Fin 4) * 128 + 1 * (j 3).val = (j 3).val; rw [e3]; omega
theorem in0_2 (c : Dev nD) (t : Fin cfg0.N) (j : S1x128.Idx) : iblk0 V c 2 t j = V c main_v8 j := by
  obtain ⟨e0, e1⟩ := idx0_2 t
  show V c main_v8 (((cfg0.win 2).blk t).view.emb j) = _
  congr 1; funext a; apply Fin.ext
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega
theorem in1_0 (c : Dev nD) (n : Fin 8) (r : Fin 114) (q : Fin 114) (ci : Fin 128) :
    iblk1 V c 0 (t1 n) (ix4 (0 : Fin 1) r q ci) = V c main_v9 (ix4 n r q ci) := by
  obtain ⟨e0, e1, e2, e3⟩ := idx1_0 (t1 n)
  show V c main_v9 (((cfg1.win 0).blk (t1 n)).view.emb (ix4 (0 : Fin 1) r q ci)) = _
  congr 1; funext a; apply Fin.ext
  match a with
  | ⟨0, _⟩ => show win1_0.index (t1 n) (0 : Fin 4) * 1 + 1 * 0 = n.val; rw [e0]; show n.val * 1 + 1 * 0 = n.val; omega
  | ⟨1, _⟩ => show win1_0.index (t1 n) (1 : Fin 4) * 114 + 1 * r.val = r.val; rw [e1]; omega
  | ⟨2, _⟩ => show win1_0.index (t1 n) (2 : Fin 4) * 114 + 1 * q.val = q.val; rw [e2]; omega
  | ⟨3, _⟩ => show win1_0.index (t1 n) (3 : Fin 4) * 128 + 1 * ci.val = ci.val; rw [e3]; omega
theorem in1_1 (c : Dev nD) (t : Fin cfg1.N) (j : S3x3x128x128.Idx) : iblk1 V c 1 t j = V c main_v12 j := by
  obtain ⟨e0, e1, e2, e3⟩ := idx1_1 t
  show V c main_v12 (((cfg1.win 1).blk t).view.emb j) = _
  congr 1; funext a; apply Fin.ext
  match a with
  | ⟨0, _⟩ => show win1_1.index t (0 : Fin 4) * 3 + 1 * (j 0).val = (j 0).val; rw [e0]; omega
  | ⟨1, _⟩ => show win1_1.index t (1 : Fin 4) * 3 + 1 * (j 1).val = (j 1).val; rw [e1]; omega
  | ⟨2, _⟩ => show win1_1.index t (2 : Fin 4) * 128 + 1 * (j 2).val = (j 2).val; rw [e2]; omega
  | ⟨3, _⟩ => show win1_1.index t (3 : Fin 4) * 128 + 1 * (j 3).val = (j 3).val; rw [e3]; omega
theorem in1_2 (c : Dev nD) (t : Fin cfg1.N) (j : S1x128.Idx) : iblk1 V c 2 t j = V c main_v15 j := by
  obtain ⟨e0, e1⟩ := idx1_2 t
  show V c main_v15 (((cfg1.win 2).blk t).view.emb j) = _
  congr 1; funext a; apply Fin.ext
  match a with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega

theorem in2_0 (c : Dev nD) (n : Fin 8) (i : Fin 56) (hp : Fin 2) (j : Fin 56) (k : Fin 256) :
    iblk2 V c 0 (t2 n) (ix5 (0 : Fin 1) i hp j k) = V c main_v17 (ix5 n i hp j k) := by
  obtain ⟨e0, e1, e2, e3, e4⟩ := idx2_0 (t2 n)
  show V c main_v17 (((cfg2.win 0).blk (t2 n)).view.emb (ix5 (0 : Fin 1) i hp j k)) = _
  congr 1; funext a; apply Fin.ext
  match a with
  | ⟨0, _⟩ => show win2_0.index (t2 n) (0 : Fin 5) * 1 + 1 * 0 = n.val; rw [e0]; show n.val * 1 + 1 * 0 = n.val; omega
  | ⟨1, _⟩ => show win2_0.index (t2 n) (1 : Fin 5) * 56 + 1 * i.val = i.val; rw [e1]; omega
  | ⟨2, _⟩ => show win2_0.index (t2 n) (2 : Fin 5) * 2 + 1 * hp.val = hp.val; rw [e2]; omega
  | ⟨3, _⟩ => show win2_0.index (t2 n) (3 : Fin 5) * 56 + 1 * j.val = j.val; rw [e3]; omega
  | ⟨4, _⟩ => show win2_0.index (t2 n) (4 : Fin 5) * 256 + 1 * k.val = k.val; rw [e4]; omega

/-! ## Each region's output array at an index: what the point of that image left -/

theorem arr9 (c : Dev nD) (n : Fin 8) (r : Fin 114) (q : Fin 114) (ch : Fin 128) :
    (dat0 V c).arrAt 3 cfg0.N (ix4 n r q ch) = out0At V c (t0 n) (ix4 (0 : Fin 1) r q ch) := by
  obtain ⟨e0, e1, e2, e3⟩ := idx0_3 (t0 n)
  have hemb : ((cfg0.win 3).blk (t0 n)).view.emb (ix4 (0 : Fin 1) r q ch) = ix4 n r q ch := by
    funext a; apply Fin.ext
    match a with
    | ⟨0, _⟩ => show win0_3.index (t0 n) (0 : Fin 4) * 1 + 1 * 0 = n.val; rw [e0]; show n.val * 1 + 1 * 0 = n.val; omega
    | ⟨1, _⟩ => show win0_3.index (t0 n) (1 : Fin 4) * 114 + 1 * r.val = r.val; rw [e1]; omega
    | ⟨2, _⟩ => show win0_3.index (t0 n) (2 : Fin 4) * 114 + 1 * q.val = q.val; rw [e2]; omega
    | ⟨3, _⟩ => show win0_3.index (t0 n) (3 : Fin 4) * 128 + 1 * ch.val = ch.val; rw [e3]; omega
  have h := (dat0 V c).arrAt_emb_eq_flushed 3 disjoint0_3 (t0 n) (flush0_3 (t0 n)) (ix4 (0 : Fin 1) r q ch)
  rw [hemb] at h
  rw [h, cast_eq]
  show (cfg0.win 3).cut (grid0.coords (t0 n)) ((dat0 V c).after 3 (t0 n)) (ix4 (0 : Fin 1) r q ch) = _
  rw [after0_3]
  rfl
theorem arr16 (c : Dev nD) (n : Fin 8) (r : Fin 112) (q : Fin 112) (ch : Fin 128) :
    (dat1 V c).arrAt 3 cfg1.N (ix4 n r q ch) = out1At V c (t1 n) (ix4 (0 : Fin 1) r q ch) := by
  obtain ⟨e0, e1, e2, e3⟩ := idx1_3 (t1 n)
  have hemb : ((cfg1.win 3).blk (t1 n)).view.emb (ix4 (0 : Fin 1) r q ch) = ix4 n r q ch := by
    funext a; apply Fin.ext
    match a with
    | ⟨0, _⟩ => show win1_3.index (t1 n) (0 : Fin 4) * 1 + 1 * 0 = n.val; rw [e0]; show n.val * 1 + 1 * 0 = n.val; omega
    | ⟨1, _⟩ => show win1_3.index (t1 n) (1 : Fin 4) * 112 + 1 * r.val = r.val; rw [e1]; omega
    | ⟨2, _⟩ => show win1_3.index (t1 n) (2 : Fin 4) * 112 + 1 * q.val = q.val; rw [e2]; omega
    | ⟨3, _⟩ => show win1_3.index (t1 n) (3 : Fin 4) * 128 + 1 * ch.val = ch.val; rw [e3]; omega
  have h := (dat1 V c).arrAt_emb_eq_flushed 3 disjoint1_3 (t1 n) (flush1_3 (t1 n)) (ix4 (0 : Fin 1) r q ch)
  rw [hemb] at h
  rw [h, cast_eq]
  show (cfg1.win 3).cut (grid1.coords (t1 n)) ((dat1 V c).after 3 (t1 n)) (ix4 (0 : Fin 1) r q ch) = _
  rw [after1_3]
  rfl
theorem arr18 (c : Dev nD) (n : Fin 8) (r : Fin 56) (q : Fin 56) (ch : Fin 128) :
    (dat2 V c).arrAt 1 cfg2.N (ix4 n r q ch) = out2At V c (t2 n) (ix4 (0 : Fin 1) r q ch) := by
  obtain ⟨e0, e1, e2, e3⟩ := idx2_1 (t2 n)
  have hemb : ((cfg2.win 1).blk (t2 n)).view.emb (ix4 (0 : Fin 1) r q ch) = ix4 n r q ch := by
    funext a; apply Fin.ext
    match a with
    | ⟨0, _⟩ => show win2_1.index (t2 n) (0 : Fin 4) * 1 + 1 * 0 = n.val; rw [e0]; show n.val * 1 + 1 * 0 = n.val; omega
    | ⟨1, _⟩ => show win2_1.index (t2 n) (1 : Fin 4) * 56 + 1 * r.val = r.val; rw [e1]; omega
    | ⟨2, _⟩ => show win2_1.index (t2 n) (2 : Fin 4) * 56 + 1 * q.val = q.val; rw [e2]; omega
    | ⟨3, _⟩ => show win2_1.index (t2 n) (3 : Fin 4) * 128 + 1 * ch.val = ch.val; rw [e3]; omega
  have h := (dat2 V c).arrAt_emb_eq_flushed 1 disjoint2_1 (t2 n) (flush2_1 (t2 n)) (ix4 (0 : Fin 1) r q ch)
  rw [hemb] at h
  rw [h, cast_eq]
  show (cfg2.win 1).cut (grid2.coords (t2 n)) ((dat2 V c).after 1 (t2 n)) (ix4 (0 : Fin 1) r q ch) = _
  rw [after2_1]
  rfl

end Cert.ReferenceIdeal.RefValue

end
-- ==== Proof.LibScatterSet.lean ====
/-
  A general lemma on the host scatter whose body returns the update (an `x.at[...].set(v)`), read at ONE
  result index.

  `Host.scatter d f x idx upd` is a left fold, over the update indices in row-major order, of the step "if the
  update index lands on a result index `i`, replace the element there by `f old new`". With `f = fun _ b => b`
  the fold's value at a result index `i'` depends only on which update indices land on `i'`:

  * `Host.scatter_set_of_unique`: if update index `j` lands on `i'` and it is the only one that does, the
    result at `i'` is `upd j`;
  * `Host.scatter_set_of_none`: if no update index lands on `i'`, the result at `i'` is the operand's `x i'`.

  Both are proved by induction over an ARBITRARY list of flat update indices with an arbitrary accumulator (the
  fold is never evaluated), so they hold for every shape and every dimension-number record.

  * `ScatterDims.resultIdx?_eq_some_iff` says when an update index lands on a result index, axis by axis: the
    window's start plus the window coordinate is the result's coordinate.
-/
import Idealize.ShloMosaic.PureOps.ShapeOps

namespace Idealize.ShloMosaic

namespace Host

variable {s si u : Shape} {α : Type} {w : Nat}

/-- One step of the scatter's fold with the replacing body. -/
private abbrev setStep (d : ScatterDims s si u) (idx : IVec si w) (upd : u.Idx → α) :
    (s.Idx → α) → Fin u.numel → (s.Idx → α) :=
  fun r n =>
    match d.resultIdx? (u.rowMajor.symm n) idx with
    | some i => fun i' => if i' = i then (fun (_ b : α) => b) (r i) (upd (u.rowMajor.symm n)) else r i'
    | none => r

private theorem setStep_of_ne (d : ScatterDims s si u) (idx : IVec si w) (upd : u.Idx → α) (r : s.Idx → α)
    (n : Fin u.numel) (i' : s.Idx) (h : d.resultIdx? (u.rowMajor.symm n) idx ≠ some i') :
    setStep d idx upd r n i' = r i' := by
  unfold setStep
  cases hr : d.resultIdx? (u.rowMajor.symm n) idx with
  | none => rfl
  | some i =>
    have hne : i' ≠ i := fun e => h (by rw [hr, e])
    simp only [if_neg hne]

private theorem setStep_of_eq (d : ScatterDims s si u) (idx : IVec si w) (upd : u.Idx → α) (r : s.Idx → α)
    (n : Fin u.numel) (i' : s.Idx) (h : d.resultIdx? (u.rowMajor.symm n) idx = some i') :
    setStep d idx upd r n i' = upd (u.rowMajor.symm n) := by
  unfold setStep
  rw [h]
  simp only [if_true]

/-- The fold over any list none of whose update indices lands on `i'` leaves the accumulator's value at `i'`. -/
private theorem foldl_setStep_of_none (d : ScatterDims s si u) (idx : IVec si w) (upd : u.Idx → α) (i' : s.Idx) :
    ∀ (l : List (Fin u.numel)) (r : s.Idx → α),
      (∀ n ∈ l, d.resultIdx? (u.rowMajor.symm n) idx ≠ some i') → l.foldl (setStep d idx upd) r i' = r i' := by
  intro l
  induction l with
  | nil => intro r _; rfl
  | cons n l ih =>
    intro r h
    rw [List.foldl_cons, ih _ (fun m hm => h m (List.mem_cons_of_mem _ hm))]
    exact setStep_of_ne d idx upd r n i' (h n List.mem_cons_self)

/-- The fold over any list that contains `n0`, where `n0` lands on `i'` and is the only member that does, has
    the update's element of `n0` at `i'`. -/
private theorem foldl_setStep_of_unique (d : ScatterDims s si u) (idx : IVec si w) (upd : u.Idx → α) (i' : s.Idx)
    (n0 : Fin u.numel) (h0 : d.resultIdx? (u.rowMajor.symm n0) idx = some i') :
    ∀ (l : List (Fin u.numel)) (r : s.Idx → α), n0 ∈ l →
      (∀ n ∈ l, d.resultIdx? (u.rowMajor.symm n) idx = some i' → n = n0) →
      l.foldl (setStep d idx upd) r i' = upd (u.rowMajor.symm n0) := by
  intro l
  induction l with
  | nil => intro r hm; exact absurd hm List.not_mem_nil
  | cons n l ih =>
    intro r hm hu
    rw [List.foldl_cons]
    by_cases hl : n0 ∈ l
    · exact ih _ hl (fun m hmem => hu m (List.mem_cons_of_mem _ hmem))
    · have hn : n = n0 := by
        rcases List.mem_cons.1 hm with e | e
        · exact e.symm
        · exact absurd e hl
      subst hn
      rw [foldl_setStep_of_none d idx upd i' l _ (fun m hmem hhit =>
        hl (by have := hu m (List.mem_cons_of_mem _ hmem) hhit; rw [← this]; exact hmem))]
      exact setStep_of_eq d idx upd r n i' h0

/-- A scatter whose body returns the update, read at a result index `i'` on which exactly one update index `j`
    lands: the result there is the update's element `upd j`. -/
theorem scatter_set_of_unique (d : ScatterDims s si u) (x : s.Idx → α) (idx : IVec si w) (upd : u.Idx → α)
    (i' : s.Idx) (j : u.Idx) (hj : d.resultIdx? j idx = some i')
    (huniq : ∀ j' : u.Idx, d.resultIdx? j' idx = some i' → j' = j) :
    Host.scatter d (fun _ b => b) x idx upd i' = upd j := by
  have h0 : d.resultIdx? (u.rowMajor.symm (u.rowMajor j)) idx = some i' := by rw [Equiv.symm_apply_apply]; exact hj
  have := foldl_setStep_of_unique d idx upd i' (u.rowMajor j) h0 (List.finRange u.numel) x (List.mem_finRange _)
    (fun n _ hn => by
      have := huniq _ hn
      rw [← this, Equiv.apply_symm_apply])
  rw [Equiv.symm_apply_apply] at this
  exact this

/-- A scatter whose body returns the update, read at a result index `i'` on which no update index lands: the
    result there is the operand's element `x i'`. -/
theorem scatter_set_of_none (d : ScatterDims s si u) (x : s.Idx → α) (idx : IVec si w) (upd : u.Idx → α)
    (i' : s.Idx) (hnone : ∀ j : u.Idx, d.resultIdx? j idx ≠ some i') :
    Host.scatter d (fun _ b => b) x idx upd i' = x i' :=
  foldl_setStep_of_none d idx upd i' (List.finRange u.numel) x (fun n _ => hnone _)

end Host

namespace ScatterDims

variable {s si u : Shape} {w : Nat}

/-- Update index `j` lands on result index `i'` exactly when, on every operand axis, the window's start plus
    `j`'s window coordinate is `i'`'s coordinate. -/
theorem resultIdx?_eq_some_iff (d : ScatterDims s si u) (j : u.Idx) (idx : IVec si w) (i' : s.Idx) :
    d.resultIdx? j idx = some i' ↔ ∀ a : Fin s.rank, d.start j idx a + (d.window j a : Int) = ((i' a).val : Int) := by
  unfold resultIdx?
  constructor
  · intro h
    split at h
    · next hc =>
      have e := Option.some.inj h
      intro a
      have := congrArg (fun f => ((f a).val : Int)) e
      simp only at this
      rw [← this]
      have := (hc a).1
      omega
    · exact absurd h (by simp)
  · intro h
    have hc : ∀ a, 0 ≤ d.start j idx a + (d.window j a : Int) ∧ d.start j idx a + (d.window j a : Int) < s.size a := by
      intro a; rw [h a]; have := (i' a).isLt; omega
    rw [dif_pos hc]
    congr 1
    funext a
    apply Fin.ext
    show (d.start j idx a + (d.window j a : Int)).toNat = (i' a).val
    rw [h a]; rfl

end ScatterDims

end Idealize.ShloMosaic
-- ==== Proof.RefHost.lean ====
import proofs.«120882_g2000303031884594_pallasbulk_961_21_alg».proof.Proof.Gen.ReferenceIdeal.Launch
import proofs.«120882_g2000303031884594_pallasbulk_961_21_alg».proof.Proof.LibScatterSet
import proofs.«120882_g2000303031884594_pallasbulk_961_21_alg».proof.Proof.Spec
import Idealize.ShloMosaic.Lib.StableHlo.Run
import Idealize.ShloMosaic.Lib.Pipeline.Value
import Idealize.ShloMosaic.Lib.KernelVsHost
import Idealize.ShloMosaic.Lib.ValueIdx
import Idealize.ShloMosaic.PureOps.Ideal.Laws

/-!
# The host operations read at an index

Over the extended reals a change of float format is the identity; a transposition permutes the
coordinates; a reshape keeps the row-major position; the padding sets the image in a zero frame; a
replacing scatter of a whole array into zeros is that array.
-/

set_option maxRecDepth 16384

noncomputable section

namespace Cert.ReferenceIdeal.RefValue

open Cert.ReferenceIdeal Cert.ReferenceIdeal.Gen
open Idealize.ShloMosaic Idealize.ShloMosaic.ValueIdx Idealize.ShloMosaic.StableHlo

variable (X : Valuation τ sig (Elt Ideal))

/-- The batch in position-major layout and working format: entry (n, h, w, ci) is the argument's (n, ci, h, w). -/
theorem v1_apply (n : Fin 8) (h w : Fin 112) (ci : Fin 64) :
    after hostOps0 X (Proc.devRef .tc main_v1) (ix4 n h w ci) = X (Proc.devRef .tc main_arg0) (ix4 n ci h w) := by
  unfold hostOps0
  after_results
  exact transpose_apply (s := S8x64x112x112) (t := S8x112x112x64) _ _ _ (ix4 n h w ci) (ix4 n ci h w) (by intro b; fin_cases b <;> rfl)

/-- The padding constant. -/
theorem c1_after : after hostOps0 X (Proc.devRef .tc main_c_1) = constantI S_ 32 0#32 := by
  unfold hostOps0; after_results

/-- The reshape before the pooling: entry (n, i, hp, j, k) is the operand's (n, 2i + hp, 2j + k / 128, k % 128). -/
theorem v17_apply (Y : Valuation τ sig (Elt Ideal)) (n : Fin 8) (i : Fin 56) (hp : Fin 2) (j : Fin 56) (k : Fin 256) :
    after hostOps2 Y (Proc.devRef .tc main_v17) (ix5 n i hp j k)
      = Y (Proc.devRef .tc main_v16) (ix4 n (⟨2 * i.val + hp.val, by have := i.isLt; have := hp.isLt; omega⟩ : Fin 112)
          (⟨2 * j.val + k.val / 128, by have := j.isLt; have := k.isLt; omega⟩ : Fin 112) (⟨k.val % 128, Nat.mod_lt _ (by decide)⟩ : Fin 128)) := by
  unfold hostOps2
  after_results
  exact shapeCast_apply (s := S8x112x112x128) (t := S8x56x2x56x256) _ _ _ _ (by
    rw [Shape.rowMajor_val_four, Shape.rowMajor_val_five]
    show ((n.val * 112 + (2 * i.val + hp.val)) * 112 + (2 * j.val + k.val / 128)) * 128 + k.val % 128
      = (((n.val * 56 + i.val) * 2 + hp.val) * 56 + j.val) * 256 + k.val
    have := Nat.div_add_mod k.val 128
    omega)

/-- The final transposition: entry (n, ch, i, j) is the operand's (n, i, j, ch). -/
theorem v19_apply (Y : Valuation τ sig (Elt Ideal)) (n : Fin 8) (ch : Fin 128) (i j : Fin 56) :
    after hostOps3 Y (Proc.devRef .tc main_v19) (ix4 n ch i j) = Y (Proc.devRef .tc main_v18) (ix4 n i j ch) := by
  unfold hostOps3
  after_results
  exact transpose_apply (s := S8x56x56x128) (t := S8x128x56x56) _ _ _ (ix4 n ch i j) (ix4 n i j ch) (by intro b; fin_cases b <;> rfl)

/-- The padded batch: image `n` set in a zero frame, given the batch and the padding constant the stretch reads. -/
theorem v2_apply (Y : Valuation τ sig (Elt Ideal)) (hc : Y (Proc.devRef .tc main_c_1) = constantI S_ 32 0#32)
    (n : Fin 8) (r q : Fin 114) (ci : Fin 64) :
    after hostOps0_1 Y (Proc.devRef .tc main_v2) (ix4 n r q ci)
      = Vgg.halo (fun h w ci => Y (Proc.devRef .tc main_v1) (ix4 n h w ci)) r.val q.val ci := by
  unfold hostOps0_1
  after_results
  show pad S8x114x114x64 ![0, 1, 1, 0] ![0, 1, 1, 0] ![0, 0, 0, 0] (Y (Proc.devRef .tc main_v1))
      (sitofp (F := Ideal) .bf16 (Y (Proc.devRef .tc main_c_1))) pads_S8x112x112x64_S8x114x114x64_000_110_110_000 h_S_ (ix4 n r q ci) = _
  rw [hc]
  unfold Vgg.halo
  by_cases hin : (1 ≤ r.val ∧ r.val ≤ 112) ∧ (1 ≤ q.val ∧ q.val ≤ 112)
  · rw [dif_pos hin]
    exact pad_apply_of_inside (s := S8x112x112x64) (t := S8x114x114x64) _ _ _ _ _ _ _ (ix4 n r q ci)
      (ix4 n (⟨r.val - 1, by omega⟩ : Fin 112) (⟨q.val - 1, by omega⟩ : Fin 112) ci) (by
        intro a; match a with
        | ⟨0, _⟩ => show n.val = 0 + n.val * (0 + 1); omega
        | ⟨1, _⟩ => show r.val = 1 + (r.val - 1) * (0 + 1); omega
        | ⟨2, _⟩ => show q.val = 1 + (q.val - 1) * (0 + 1); omega
        | ⟨3, _⟩ => show ci.val = 0 + ci.val * (0 + 1); omega)
  · rw [dif_neg hin]
    have hv : ∀ j, (sitofp (F := Ideal) .bf16 (constantI S_ 32 0#32) : (⟨S_, .bf16⟩ : BufTy).Contents (Elt Ideal)) j = 0 := fun j => by
      show (((0#32 : BitVec 32).toInt : ℝ) : EReal) = 0
      simp
    by_cases hr : 1 ≤ r.val ∧ r.val ≤ 112
    · have hq : ¬(1 ≤ q.val ∧ q.val ≤ 112) := fun h => hin ⟨hr, h⟩
      refine (pad_apply_of_not_inside (s := S8x112x112x64) (t := S8x114x114x64) _ _ _ _ _ _ _ (ix4 n r q ci) ⟨2, by decide⟩ ?_).trans (hv _)
      intro h3
      have h1 : 1 ≤ q.val := h3.1
      have h2 : (q.val - 1) / (0 + 1) < 112 := h3.2.2
      exact hq ⟨h1, by omega⟩
    · refine (pad_apply_of_not_inside (s := S8x112x112x64) (t := S8x114x114x64) _ _ _ _ _ _ _ (ix4 n r q ci) ⟨1, by decide⟩ ?_).trans (hv _)
      intro h3
      have h1 : 1 ≤ r.val := h3.1
      have h2 : (r.val - 1) / (0 + 1) < 112 := h3.2.2
      exact hr ⟨h1, by omega⟩

/-! ## The replacing scatters -/

/-- In the replacing scatter of a whole [3, 3, 64, 128] array an update index lands on itself, whatever the (empty) index array. -/
theorem scatW64_hit {w : ℕ} (idx : IVec S0 w) (j i' : S3x3x64x128.Idx) :
    scatter_S3x3x64x128_S0_S3x3x64x128_0123_n_n_0.resultIdx? j idx = some i' ↔ j = i' := by
  rw [ScatterDims.resultIdx?_eq_some_iff]
  constructor
  · intro h; funext a; apply Fin.ext
    match a with
    | ⟨0, _⟩ => have h0 : (0 : Int) + ((j 0).val : Int) = ((i' 0).val : Int) := h 0; show (j 0).val = (i' 0).val; omega
    | ⟨1, _⟩ => have h0 : (0 : Int) + ((j 1).val : Int) = ((i' 1).val : Int) := h 1; show (j 1).val = (i' 1).val; omega
    | ⟨2, _⟩ => have h0 : (0 : Int) + ((j 2).val : Int) = ((i' 2).val : Int) := h 2; show (j 2).val = (i' 2).val; omega
    | ⟨3, _⟩ => have h0 : (0 : Int) + ((j 3).val : Int) = ((i' 3).val : Int) := h 3; show (j 3).val = (i' 3).val; omega
  · rintro rfl a
    match a with
    | ⟨0, _⟩ => show (0 : Int) + ((j 0).val : Int) = ((j 0).val : Int); omega
    | ⟨1, _⟩ => show (0 : Int) + ((j 1).val : Int) = ((j 1).val : Int); omega
    | ⟨2, _⟩ => show (0 : Int) + ((j 2).val : Int) = ((j 2).val : Int); omega
    | ⟨3, _⟩ => show (0 : Int) + ((j 3).val : Int) = ((j 3).val : Int); omega

/-- In the replacing scatter of a whole [3, 3, 128, 128] array an update index lands on itself, whatever the (empty) index array. -/
theorem scatW128_hit {w : ℕ} (idx : IVec S0 w) (j i' : S3x3x128x128.Idx) :
    scatter_S3x3x128x128_S0_S3x3x128x128_0123_n_n_0.resultIdx? j idx = some i' ↔ j = i' := by
  rw [ScatterDims.resultIdx?_eq_some_iff]
  constructor
  · intro h; funext a; apply Fin.ext
    match a with
    | ⟨0, _⟩ => have h0 : (0 : Int) + ((j 0).val : Int) = ((i' 0).val : Int) := h 0; show (j 0).val = (i' 0).val; omega
    | ⟨1, _⟩ => have h0 : (0 : Int) + ((j 1).val : Int) = ((i' 1).val : Int) := h 1; show (j 1).val = (i' 1).val; omega
    | ⟨2, _⟩ => have h0 : (0 : Int) + ((j 2).val : Int) = ((i' 2).val : Int) := h 2; show (j 2).val = (i' 2).val; omega
    | ⟨3, _⟩ => have h0 : (0 : Int) + ((j 3).val : Int) = ((i' 3).val : Int) := h 3; show (j 3).val = (i' 3).val; omega
  · rintro rfl a
    match a with
    | ⟨0, _⟩ => show (0 : Int) + ((j 0).val : Int) = ((j 0).val : Int); omega
    | ⟨1, _⟩ => show (0 : Int) + ((j 1).val : Int) = ((j 1).val : Int); omega
    | ⟨2, _⟩ => show (0 : Int) + ((j 2).val : Int) = ((j 2).val : Int); omega
    | ⟨3, _⟩ => show (0 : Int) + ((j 3).val : Int) = ((j 3).val : Int); omega

/-- In the replacing scatter of a [128] vector into row 0 of a [1, 128] array (the one start index zero), update `co`
    lands on (0, co). -/
theorem scatB_hit (j : S128.Idx) (i' : S1x128.Idx) :
    scatter_S1x128_S1_S128_0_0_0_0.resultIdx? j (broadcastInDim S1 ![] bcast_S_S1 (constantI S_ 32 0#32)) = some i' ↔ i' = ix2 (0 : Fin 1) (j 0) := by
  rw [ScatterDims.resultIdx?_eq_some_iff]
  constructor
  · intro h; funext a; apply Fin.ext
    match a with
    | ⟨0, _⟩ => have h1 : (i' 0).val < 1 := (i' 0).isLt; show (i' 0).val = 0; omega
    | ⟨1, _⟩ => have h0 : (0 : Int) + ((j 0).val : Int) = ((i' 1).val : Int) := h 1; show (i' 1).val = (j 0).val; omega
  · rintro rfl a
    match a with
    | ⟨0, _⟩ => show ((0#32 : BitVec 32).toInt : Int) + ((0 : ℕ) : Int) = ((0 : ℕ) : Int); decide
    | ⟨1, _⟩ => show (0 : Int) + ((j 0).val : Int) = ((j 0).val : Int); omega

/-- The weights in working format: the scatter of the whole converted array into zeros is that array. -/
theorem v5_apply (Y : Valuation τ sig (Elt Ideal)) (dy dx : Fin 3) (ci : Fin 64) (co : Fin 128) :
    after hostOps0_2 Y (Proc.devRef .tc main_v5) (ix4 dy dx ci co) = Y (Proc.devRef .tc main_arg1) (ix4 dy dx ci co) := by
  unfold hostOps0_2
  after_results
  exact Host.scatter_set_of_unique scatter_S3x3x64x128_S0_S3x3x64x128_0123_n_n_0 _ _ _ (ix4 dy dx ci co) (ix4 dy dx ci co)
    ((scatW64_hit _ _ _).mpr rfl) (fun j' hj' => (scatW64_hit _ _ _).mp hj')

/-- The weights in working format: the scatter of the whole converted array into zeros is that array. -/
theorem v12_apply (Y : Valuation τ sig (Elt Ideal)) (dy dx : Fin 3) (ci : Fin 128) (co : Fin 128) :
    after hostOps1 Y (Proc.devRef .tc main_v12) (ix4 dy dx ci co) = Y (Proc.devRef .tc main_arg3) (ix4 dy dx ci co) := by
  unfold hostOps1
  after_results
  exact Host.scatter_set_of_unique scatter_S3x3x128x128_S0_S3x3x128x128_0123_n_n_0 _ _ _ (ix4 dy dx ci co) (ix4 dy dx ci co)
    ((scatW128_hit _ _ _).mpr rfl) (fun j' hj' => (scatW128_hit _ _ _).mp hj')

/-- The bias row: the scatter of the bias vector into row 0 of a zero [1, 128] array is that vector. -/
theorem v8_apply (Y : Valuation τ sig (Elt Ideal)) (co : Fin 128) :
    after hostOps0_2 Y (Proc.devRef .tc main_v8) (ix2 (0 : Fin 1) co) = Y (Proc.devRef .tc main_arg2) (ix1 co) := by
  unfold hostOps0_2
  after_results
  exact Host.scatter_set_of_unique scatter_S1x128_S1_S128_0_0_0_0 _ _ _ (ix2 (0 : Fin 1) co) (ix1 co)
    ((scatB_hit _ _).mpr rfl) (fun j' hj' => by
      have h := (scatB_hit _ _).mp hj'
      funext a; apply Fin.ext
      match a with
      | ⟨0, _⟩ => have := congrArg (fun i : S1x128.Idx => (i 1).val) h; simpa using this.symm)

/-- The bias row: the scatter of the bias vector into row 0 of a zero [1, 128] array is that vector. -/
theorem v15_apply (Y : Valuation τ sig (Elt Ideal)) (co : Fin 128) :
    after hostOps1 Y (Proc.devRef .tc main_v15) (ix2 (0 : Fin 1) co) = Y (Proc.devRef .tc main_arg4) (ix1 co) := by
  unfold hostOps1
  after_results
  exact Host.scatter_set_of_unique scatter_S1x128_S1_S128_0_0_0_0 _ _ _ (ix2 (0 : Fin 1) co) (ix1 co)
    ((scatB_hit _ _).mpr rfl) (fun j' hj' => by
      have h := (scatB_hit _ _).mp hj'
      funext a; apply Fin.ext
      match a with
      | ⟨0, _⟩ => have := congrArg (fun i : S1x128.Idx => (i 1).val) h; simpa using this.symm)

end Cert.ReferenceIdeal.RefValue

end
-- ==== Proof.RefCompose.lean ====
import proofs.«120882_g2000303031884594_pallasbulk_961_21_alg».proof.Proof.Gen.ReferenceIdeal.Launch
import proofs.«120882_g2000303031884594_pallasbulk_961_21_alg».proof.Proof.Gen.ReferenceIdeal.Skeleton
import proofs.«120882_g2000303031884594_pallasbulk_961_21_alg».proof.Proof.Gen.ReferenceIdeal.Points
import proofs.«120882_g2000303031884594_pallasbulk_961_21_alg».proof.Proof.RefChain
import proofs.«120882_g2000303031884594_pallasbulk_961_21_alg».proof.Proof.RefHost
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RefValue

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # From the blocks to the whole result

Image `n` goes through the three regions at point `n` of each grid: the first convolution's block is the first
layer in a zero frame, the second's is the second layer, the pooling's is the 2×2 maximum; the last transposition
lays the batch out channel-major. -/

open Idealize.ShloMosaic.ValueIdx Idealize.ShloMosaic.StableHlo

variable (m : (ℓ : Loc nD τ sig) → Buf (Elt Ideal) ℓ) (c : Dev nD)

/-- The argument arrays on core `c`. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)

/-- The first layer's activations of image `n`, and the second's. -/
def act1 (n : Fin 8) : Fin 112 → Fin 112 → Fin 128 → EReal :=
  Vgg.layer (Vgg.image (A0 m c) n) (Vgg.weights (A1 m c)) (Vgg.bias (A2 m c))
def act2 (n : Fin 8) : Fin 112 → Fin 112 → Fin 128 → EReal :=
  Vgg.layer (act1 m c n) (Vgg.weights (A3 m c)) (Vgg.bias (A4 m c))

/-- What the host operations before each region leave, read by coordinates. -/
structure HostReads : Prop where
  v2 : ∀ (n : Fin 8) (r q : Fin 114) (ci : Fin 64), U3 m c main_v2 (ix4 n r q ci) = Vgg.halo (Vgg.image (A0 m c) n) r.val q.val ci
  v5 : ∀ (dy dx : Fin 3) (ci : Fin 64) (co : Fin 128), U3 m c main_v5 (ix4 dy dx ci co) = A1 m c (ix4 dy dx ci co)
  v8 : ∀ co : Fin 128, U3 m c main_v8 (ix2 (0 : Fin 1) co) = A2 m c (ix1 co)
  v12 : ∀ (dy dx : Fin 3) (ci : Fin 128) (co : Fin 128), U5 m c main_v12 (ix4 dy dx ci co) = A3 m c (ix4 dy dx ci co)
  v15 : ∀ co : Fin 128, U5 m c main_v15 (ix2 (0 : Fin 1) co) = A4 m c (ix1 co)

variable {m c}

/-- The first region's block of image `n`: the first layer in a zero frame. -/
theorem stepA (H : HostReads m c) (n : Fin 8) (r q : Fin 114) (ch : Fin 128) :
    out0At (U3 m) c (t0 n) (ix4 (0 : Fin 1) r q ch) = Vgg.halo (act1 m c n) r.val q.val ch := by
  unfold out0At act1
  exact out0_layer c _ _ _ _ _ _ _ _ _ _ _ _ _ _ _ _ _
    (fun r q ci => (in0_0 (U3 m) c n r q ci).trans (H.v2 n r q ci))
    (fun dy dx ci co => (in0_1 (U3 m) c (t0 n) (ix4 dy dx ci co)).trans (H.v5 dy dx ci co))
    (fun co => (in0_2 (U3 m) c (t0 n) (ix2 (0 : Fin 1) co)).trans (H.v8 co)) r q ch

/-- So the array between the convolutions holds it under image `n`. -/
theorem stepB (H : HostReads m c) (n : Fin 8) (r q : Fin 114) (ch : Fin 128) :
    W4 m c (Proc.devRef .tc main_v9) (ix4 n r q ch) = Vgg.halo (act1 m c n) r.val q.val ch := by
  rw [show W4 m c (Proc.devRef .tc main_v9) = (dat0 (U3 m) c).arrAt 3 cfg0.N from W4_arr m c 3, arr9 (U3 m) c n r q ch]
  exact stepA H n r q ch

/-- The host stretch between the convolutions leaves that array alone. -/
theorem v9_kept : U5 m c main_v9 = W4 m c (Proc.devRef .tc main_v9) :=
  after_of_writes_sub hostOps1 _ hostOps1_writes (r := main_v9) (by decide)

/-- The second region's block of image `n`: the second layer. -/
theorem stepC (H : HostReads m c) (n : Fin 8) (h w : Fin 112) (ch : Fin 128) :
    out1At (U5 m) c (t1 n) (ix4 (0 : Fin 1) h w ch) = act2 m c n h w ch := by
  unfold out1At act2
  exact out1_layer c _ _ _ _ _ _ _ _ _ _ _ _ _ _ _ _ _
    (fun r q ci => (in1_0 (U5 m) c n r q ci).trans ((congrFun v9_kept _).trans (stepB H n r q ci)))
    (fun dy dx ci co => (in1_1 (U5 m) c (t1 n) (ix4 dy dx ci co)).trans (H.v12 dy dx ci co))
    (fun co => (in1_2 (U5 m) c (t1 n) (ix2 (0 : Fin 1) co)).trans (H.v15 co)) h w ch

theorem stepD (H : HostReads m c) (n : Fin 8) (h w : Fin 112) (ch : Fin 128) :
    W6 m c (Proc.devRef .tc main_v16) (ix4 n h w ch) = act2 m c n h w ch := by
  rw [show W6 m c (Proc.devRef .tc main_v16) = (dat1 (U5 m) c).arrAt 3 cfg1.N from W6_arr m c 3, arr16 (U5 m) c n h w ch]
  exact stepC H n h w ch

/-- The pooling region's input block of image `n`: the second layer's activations with the rows paired and the
    column pairs folded into the last coordinate. -/
theorem stepE (H : HostReads m c) (n : Fin 8) (i : Fin 56) (hp : Fin 2) (j : Fin 56) (k : Fin 256) :
    iblk2 (U7 m) c 0 (t2 n) (ix5 (0 : Fin 1) i hp j k)
      = act2 m c n (⟨2 * i.val + hp.val, by have := i.isLt; have := hp.isLt; omega⟩ : Fin 112)
          (⟨2 * j.val + k.val / 128, by have := j.isLt; have := k.isLt; omega⟩ : Fin 112) (⟨k.val % 128, Nat.mod_lt _ (by decide)⟩ : Fin 128) := by
  rw [in2_0 (U7 m) c n i hp j k]
  exact (v17_apply (W6 m c) n i hp j k).trans (stepD H n _ _ _)

/-- The pooling region's block of image `n`: the 2×2 maximum. -/
theorem stepF (H : HostReads m c) (n : Fin 8) (i j : Fin 56) (ch : Fin 128) :
    out2At (U7 m) c (t2 n) (ix4 (0 : Fin 1) i j ch) = Vgg.pool (act2 m c n) i j ch := by
  unfold out2At
  rw [out2_apply, stepE H, stepE H, stepE H, stepE H]
  unfold Vgg.pool
  have hc : ch.val < 128 := ch.isLt
  have e0 : ch.val / 128 = 0 := Nat.div_eq_of_lt hc
  have e1 : ch.val % 128 = ch.val := Nat.mod_eq_of_lt hc
  have e2 : (128 + ch.val) / 128 = 1 := by omega
  have e3 : (128 + ch.val) % 128 = ch.val := by omega
  congr 2 <;> congr 1 <;> first | (apply Fin.ext; simp only []; omega) | rfl

theorem stepG (H : HostReads m c) (n : Fin 8) (i j : Fin 56) (ch : Fin 128) :
    W8 m c (Proc.devRef .tc main_v18) (ix4 n i j ch) = Vgg.pool (act2 m c n) i j ch := by
  rw [show W8 m c (Proc.devRef .tc main_v18) = (dat2 (U7 m) c).arrAt 1 cfg2.N from W8_arr m c 1, arr18 (U7 m) c n i j ch]
  exact stepF H n i j ch

/-- THE RESULT: the last boundary's contents of the result's buffer are the specification's whole array. -/
theorem result_eq (H : HostReads m c) :
    W9 m c (Proc.devRef .tc main_v19) = Vgg.G (A0 m c) (A1 m c) (A2 m c) (A3 m c) (A4 m c) := by
  have key : ∀ (n : Fin 8) (ch : Fin 128) (a b : Fin 56),
      W9 m c (Proc.devRef .tc main_v19) (ix4 n ch a b) = Vgg.G (A0 m c) (A1 m c) (A2 m c) (A3 m c) (A4 m c) (ix4 n ch a b) := fun n ch a b => by
    refine (v19_apply (W8 m c) n ch a b).trans ?_
    rw [stepG H]
    rfl
  refine funext fun (i : S8x128x56x56.Idx) => ?_
  obtain ⟨n, ch, a, b, rfl⟩ : ∃ (n : Fin 8) (ch : Fin 128) (a b : Fin 56), i = ix4 n ch a b := ⟨i 0, i 1, i 2, i 3, eq_ix4 i⟩
  exact key n ch a b

end Cert.ReferenceIdeal.RefValue

end
-- ==== Proof.RefFinal.lean ====
import proofs.«120882_g2000303031884594_pallasbulk_961_21_alg».proof.Proof.Gen.ReferenceIdeal.Launch
import proofs.«120882_g2000303031884594_pallasbulk_961_21_alg».proof.Proof.Gen.ReferenceIdeal.Skeleton
import proofs.«120882_g2000303031884594_pallasbulk_961_21_alg».proof.Proof.Gen.ReferenceIdeal.Points
import proofs.«120882_g2000303031884594_pallasbulk_961_21_alg».proof.Proof.RefCompose
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RefValue

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The reference's run: its result is the specification's whole array -/

open Idealize.ShloMosaic.ValueIdx Idealize.ShloMosaic.StableHlo

variable (m : (ℓ : Loc nD τ sig) → Buf (Elt Ideal) ℓ) (c : Dev nD)

/-- An argument array when the first region is entered, and when the second is: as launched. -/
theorem W3_arg (a : Ref sig .tc) (h0 : a ∉ hostOps0_W) (h1 : a ∉ hostOps0_1_W) (h2 : a ∉ hostOps0_2_W) :
    W3 m c (Proc.devRef .tc a) = m ((c : Thread nD τ).loc a) :=
  (after_of_writes_sub hostOps0_2 _ hostOps0_2_writes (r := a) h2).trans <|
  (after_of_writes_sub hostOps0_1 _ hostOps0_1_writes (r := a) h1).trans <|
  (after_of_writes_sub hostOps0 _ hostOps0_writes (r := a) h0).trans rfl

theorem W4_arg (a : Ref sig .tc) (h0 : a ∉ hostOps0_W) (h1 : a ∉ hostOps0_1_W) (h2 : a ∉ hostOps0_2_W)
    (h3 : ∀ w, Pipeline.arrRef spec0 w ≠ a) : W4 m c (Proc.devRef .tc a) = m ((c : Thread nD τ).loc a) :=
  (W4_of_ne m c a h3).trans (W3_arg m c a h0 h1 h2)

/-- What the host operations before the two convolutions leave, by coordinates. -/
theorem hostReads : HostReads m c where
  v2 n r q ci := by
    show W3 m c (Proc.devRef .tc main_v2) (ix4 n r q ci) = _
    rw [show W3 m c (Proc.devRef .tc main_v2) = W2 m c (Proc.devRef .tc main_v2) from
      after_of_writes_sub hostOps0_2 _ hostOps0_2_writes (r := main_v2) (by decide)]
    show after hostOps0_1 (W1 m c) (Proc.devRef .tc main_v2) (ix4 n r q ci) = _
    rw [v2_apply (W1 m c) (c1_after (W0 m c)) n r q ci]
    congr 1
    funext h w ci'
    exact v1_apply (W0 m c) n h w ci'
  v5 dy dx ci co := by
    show after hostOps0_2 (W2 m c) (Proc.devRef .tc main_v5) (ix4 dy dx ci co) = _
    rw [v5_apply (W2 m c) dy dx ci co]
    exact congrFun ((after_of_writes_sub hostOps0_1 _ hostOps0_1_writes (r := main_arg1) (by decide)).trans
      ((after_of_writes_sub hostOps0 _ hostOps0_writes (r := main_arg1) (by decide)).trans rfl)) _
  v8 co := by
    show after hostOps0_2 (W2 m c) (Proc.devRef .tc main_v8) (ix2 (0 : Fin 1) co) = _
    rw [v8_apply (W2 m c) co]
    exact congrFun ((after_of_writes_sub hostOps0_1 _ hostOps0_1_writes (r := main_arg2) (by decide)).trans
      ((after_of_writes_sub hostOps0 _ hostOps0_writes (r := main_arg2) (by decide)).trans rfl)) _
  v12 dy dx ci co := by
    show after hostOps1 (W4 m c) (Proc.devRef .tc main_v12) (ix4 dy dx ci co) = _
    rw [v12_apply (W4 m c) dy dx ci co]
    exact congrFun (W4_arg m c main_arg3 (by decide) (by decide) (by decide) (by decide)) _
  v15 co := by
    show after hostOps1 (W4 m c) (Proc.devRef .tc main_v15) (ix2 (0 : Fin 1) co) = _
    rw [v15_apply (W4 m c) co]
    exact congrFun (W4_arg m c main_arg4 (by decide) (by decide) (by decide) (by decide)) _

/-- THE REFERENCE'S RUN at the extended reals: from any memory with zero counters every weakly fair execution of @main
    on the TensorCores terminates, nothing faulting, and every final state has the result at the specification's
    whole array of the argument arrays, and the argument arrays as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19)
        = Vgg.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (run_named (F := Ideal) m ρ).mono fun r h c =>
    ⟨(h c).1.trans (result_eq (hostReads m c)), (h c).2⟩

end Cert.ReferenceIdeal.RefValue

end
-- ==== Proof.lean ====
/-
  A block of two 3×3 convolutions with zero padding, each followed by a bias and a rectification, and a 2×2
  maximum with stride 2, over a batch of eight images of 64 channels and 112 × 112 positions, the result in
  channel-major layout.

  The kernel computes one image per grid point in a single region.  It keeps the image position-major inside
  a zero border in a work buffer, merges the three horizontal taps along the contracted axis and packs the
  three vertical taps along the output axis of ONE matrix product (the merged channels padded with zero rows
  from 192 to 256); the three column thirds of the product are the three vertical taps' contributions up to a
  row shift, and their sum is the correlation.  The second layer does the same with the horizontal taps split
  into a pair (256 merged channels) and a single one (128), added.  The pooling sees the rows of 112 pixels as
  [56, 2, 56, 2·128] and takes the maximum over the row pair, then over the two halves of the last axis.

  The reference runs three regions — a convolution per layer that accumulates its nine taps one matrix
  product at a time into a zeroed accumulator, the first writing its result inside a zero border, and a
  pooling — between host operations that transpose, pad, and set the weights and biases into zero arrays.

  At the ideal values a change of float format is the identity and a sum is a sum of extended reals, an
  additive commutative monoid in which `0 · x = 0`: so both programs compute `Vgg.G` (Proof/Spec.lean) of the
  five arguments, entry by entry, and no finiteness is used.  The kernel's side is Proof/KI*.lean (the body
  run, its work buffers read by coordinates, the packed arrays the host operations build, the blocks of the
  result array) with the algebra in Proof/KAlgebra.lean; the reference's side is Proof/Ref*.lean.  The frame
  of the word-level kernel is Proof/KForget.lean: the same body run, nothing said of the output block.
-/
import proofs.«120882_g2000303031884594_pallasbulk_961_21_alg».proof.Defs
import proofs.«120882_g2000303031884594_pallasbulk_961_21_alg».proof.Proof.Gen.Kernel
import proofs.«120882_g2000303031884594_pallasbulk_961_21_alg».proof.Proof.Gen.KernelIdeal
import proofs.«120882_g2000303031884594_pallasbulk_961_21_alg».proof.Proof.Gen.ReferenceIdeal
import proofs.«120882_g2000303031884594_pallasbulk_961_21_alg».proof.Proof.Gen.Pre_finite_inputs
import proofs.«120882_g2000303031884594_pallasbulk_961_21_alg».proof.Proof.KForget
import proofs.«120882_g2000303031884594_pallasbulk_961_21_alg».proof.Proof.KIFinal
import proofs.«120882_g2000303031884594_pallasbulk_961_21_alg».proof.Proof.RefFinal

noncomputable section

namespace Cert.Proof

open Idealize.ShloMosaic Idealize.SL.Sem

/-- The word-level kernel runs to the end and leaves its arguments as they were. -/
theorem frame_k : Cert.frame_Kernel := fun m ρ _ => Cert.Kernel.KForget.frame (F := Bits) m ρ

/-- So does the idealized kernel: its run with the result named, the result's clause dropped. -/
theorem frame_ki : Cert.frame_KernelIdeal := fun m ρ _ =>
  (θ_run Cert.KernelIdeal.defs _ _).mono (fun _ h c => (h c).2) (Cert.KernelIdeal.KFrame.run m ρ)

/-- And the idealized reference. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the five arguments both idealized programs end with the block's
    specification of those arguments as their result. -/
theorem algebraic : Cert.algebraic_KernelIdeal_ReferenceIdeal := by
  intro m ρ m' ρ' _ hagree
  refine ⟨_, Cert.KernelIdeal.KFrame.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
